-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S2x128 .f32) (main_arg9 : FVec F S2x128 .f32) (main_arg10 : FVec F S2x128 .f32) (main_arg11 : FVec F S128x64 .f32) (main_arg12 : FVec F S64 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_v48 main_v49 main_v50

def fn_part1 {F : FTy → Type} [FloatOps F] (main_arg5 : FVec F S64x1 .f32) (main_arg6 : FVec F S1 .f32) (main_arg7 : FVec F S2x128x128 .f32) (main_arg8 : FVec F S2x128 .f32) (main_arg9 : FVec F S2x128 .f32) (main_arg10 : FVec F S2x128 .f32) (main_arg11 : FVec F S128x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : FVec F S100000x16 .f32) (main_arg2 : IVec S2x1600000 32) (main_arg3 : FVec F S64x64 .f32) (main_arg4 : FVec F S64 .f32) (main_arg5 : FVec F S64x1 .f32) (main_arg6 : FVec F S1 .f32) (main_arg7 : FVec F S2x128x128 .f32) (main_arg8 : FVec F S2x128 .f32) (main_arg9 : FVec F S2x128 .f32) (main_arg10 : FVec F S2x128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S100000x16 : Shape := ⟨2, ![100000, 16]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S16x64 : Shape := ⟨2, ![16, 64]⟩
abbrev S1x64 : Shape := ⟨2, ![1, 64]⟩
abbrev S1x1 : Shape := ⟨2, ![1, 1]⟩
abbrev S6400x16 : Shape := ⟨2, ![6400, 16]⟩
abbrev S6400x1 : Shape := ⟨2, ![6400, 1]⟩
abbrev S6400x64 : Shape := ⟨2, ![6400, 64]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S10000x128 : Shape := ⟨2, ![10000, 128]⟩
abbrev S1600000x128 : Shape := ⟨2, ![1600000, 128]⟩
abbrev S1x128 : Shape := ⟨2, ![1, 128]⟩
abbrev S128 : Shape := ⟨1, ![128]⟩
abbrev S4000x128 : Shape := ⟨2, ![4000, 128]⟩
abbrev S4000x1 : Shape := ⟨2, ![4000, 1]⟩
abbrev S4000 : Shape := ⟨1, ![4000]⟩
abbrev S100000x64 : Shape := ⟨2, ![100000, 64]⟩
abbrev S4000x64 : Shape := ⟨2, ![4000, 64]⟩

abbrev nBuf : Space → Nat
  | .hbm => 142
  | .vmem => 51
  | .smem => 0
  | _ => 0

abbrev hbmTy0_0 (i : Nat) : BufTy := match i % 128 with
  | 0 => ⟨S100000x128, .f32⟩
  | 1 => ⟨S100000x16, .f32⟩
  | 2 => ⟨S2x1600000, .i32⟩
  | 3 => ⟨S64x64, .f32⟩
  | 4 => ⟨S64, .f32⟩
  | 5 => ⟨S64x1, .f32⟩
  | 6 => ⟨S1, .f32⟩
  | 7 => ⟨S2x128x128, .f32⟩
  | 8 => ⟨S2x128, .f32⟩
  | 9 => ⟨S2x128, .f32⟩
  | 10 => ⟨S2x128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S100000x16, .bf16⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x16, .bf16⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x16, .bf16⟩
  | 36 => ⟨S16x64, .f32⟩
  | 37 => ⟨S16x64, .f32⟩
  | 38 => ⟨S16x64, .f32⟩
  | 39 => ⟨S16x64, .f32⟩
  | 40 => ⟨S1x64, .f32⟩
  | 41 => ⟨S1x1, .f32⟩
  | 42 => ⟨S1600000x1, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .i1⟩
  | 54 => ⟨S_, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .f32⟩
  | 70 => ⟨S1600000, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S1600000, .f32⟩
  | 81 => ⟨S100000, .f32⟩
  | 82 => ⟨S100000x1, .f32⟩
  | 83 => ⟨S1x128x128, .f32⟩
  | 84 => ⟨S128x128, .f32⟩
  | 85 => ⟨S100000x128, .f32⟩
  | 86 => ⟨S1600000x1, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S1600000x128, .f32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S100000x128, .f32⟩
  | 112 => ⟨S1x128x128, .f32⟩
  | 113 => ⟨S128x128, .f32⟩
  | 114 => ⟨S100000x128, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S1600000x128, .f32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S1x128, .f32⟩
  | 11 => ⟨S1x128, .f32⟩
  | 12 => ⟨S1x64, .f32⟩
  | 13 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6400x16, .bf16⟩
  | .local _ .vmem, ⟨1, _⟩ => ⟨S6400x16, .bf16⟩
  | .local _ .vmem, ⟨2, _⟩ => ⟨S6400x16, .bf16⟩
  | .local _ .vmem, ⟨3, _⟩ => ⟨S6400x16, .bf16⟩
  | .local _ .vmem, ⟨4, _⟩ => ⟨S16x64, .f32⟩
  | .local _ .vmem, ⟨5, _⟩ => ⟨S16x64, .f32⟩
  | .local _ .vmem, ⟨6, _⟩ => ⟨S16x64, .f32⟩
  | .local _ .vmem, ⟨7, _⟩ => ⟨S16x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S6400x1, .f32⟩
  | .local _ .vmem, ⟨12, _⟩ => ⟨S6400x1, .f32⟩
  | .local _ .vmem, ⟨13, _⟩ => ⟨S10000x128, .f32⟩
  | .local _ .vmem, ⟨14, _⟩ => ⟨S10000x128, .f32⟩
  | .local _ .vmem, ⟨15, _⟩ => ⟨S128x128, .f32⟩
  | .local _ .vmem, ⟨16, _⟩ => ⟨S10000x128, .f32⟩
  | .local _ .vmem, ⟨17, _⟩ => ⟨S10000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S4000x128, .f32⟩
  | .local _ .vmem, ⟨30, _⟩ => ⟨S4000x128, .f32⟩
  | .local _ .vmem, ⟨31, _⟩ => ⟨S10000x128, .f32⟩
  | .local _ .vmem, ⟨32, _⟩ => ⟨S10000x128, .f32⟩
  | .local _ .vmem, ⟨33, _⟩ => ⟨S128x128, .f32⟩
  | .local _ .vmem, ⟨34, _⟩ => ⟨S10000x128, .f32⟩
  | .local _ .vmem, ⟨35, _⟩ => ⟨S10000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x1, .f32⟩
  | .local _ .vmem, ⟨43, _⟩ => ⟨S4000x1, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S128x64, .f32⟩
  | .local _ .vmem, ⟨48, _⟩ => ⟨S1x64, .f32⟩
  | .local _ .vmem, ⟨49, _⟩ => ⟨S4000x64, .f32⟩
  | .local _ .vmem, ⟨50, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_14 : Ref sig .tc := ⟨.hbm, 116, rfl⟩
abbrev main_v85 : Ref sig .tc := ⟨.hbm, 117, rfl⟩
abbrev main_v86 : Ref sig .tc := ⟨.hbm, 118, rfl⟩
abbrev main_c_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg9_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem9_1 : DmaSem sig := 50

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S64x64_S16x64_0_0 : S64x64.Slices ![0, 0] S16x64
  slices_S64x64_S16x64_16_0 : S64x64.Slices ![16, 0] S16x64
  slices_S64x64_S16x64_32_0 : S64x64.Slices ![32, 0] S16x64
  slices_S64x64_S16x64_48_0 : S64x64.Slices ![48, 0] S16x64
  shapeCasts_S64_S1x64 : S64.ShapeCasts S1x64
  shapeCasts_S1_S1x1 : S1.ShapeCasts S1x1
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S1600000x1_S1600000 : S1600000x1.ShapeCasts S1600000
  bcast_S_S100000 : S_.BroadcastsInDim S100000 (![] : Fin 0 → Fin S100000.rank)
  bcast_S100000_S100000x1_0 : S100000.BroadcastsInDim S100000x1 (![0] : Fin 1 → Fin S100000x1.rank)
  slices_S2x128x128_S1x128x128_0_0_0 : S2x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  slices_S2x128x128_S1x128x128_1_0_0 : S2x128x128.Slices ![1, 0, 0] S1x128x128
  shapeCasts_S10000x128_S10000x128 : S10000x128.ShapeCasts S10000x128
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x16_S1600000x1_S1600000x16_1_0_n_n_0_1_116_wf : GatherDims.WF S100000x16 S1600000x1 S1600000x16 [1] [0] [] [0] [] 1 ![1, 16]
  dot_S6400x16_S16x64_S6400x64_1_0_0_1_n_n_wf : DotDims.WF S6400x16 S16x64 S6400x64 [1] [0] [0] [1] [] []
  dot_S6400x64_S64x1_S6400x1_1_0_0_1_n_n_wf : DotDims.WF S6400x64 S64x1 S6400x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S1600000x16.size a
  hwx0_0 : ∀ i : grid0.Coords, EltTy.bits .bf16 = 32 ∨ (Rect.block (s := S1600000x16) S6400x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S1600000x16.size a
  hwx0_1 : ∀ i : grid0.Coords, EltTy.bits .bf16 = 32 ∨ (Rect.block (s := S1600000x16) S6400x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x1.size a ≤ S1600000x1.size a
  hwx0_9 : ∀ i : grid0.Coords, EltTy.bits .f32 = 32 ∨ (Rect.block (s := S1600000x1) S6400x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S100000x1.size a
  hwx4_3 : ∀ i : grid4.Coords, EltTy.bits .f32 = 32 ∨ (Rect.block (s := S100000x1) S4000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x64.size a ≤ S100000x64.size a
  hwx4_9 : ∀ i : grid4.Coords, EltTy.bits .f32 = 32 ∨ (Rect.block (s := S100000x64) S4000x64.size (cc4_transform_9 i) (hinb4_9 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v11) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S6400x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v80) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v80) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v96) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v54) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v105) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v106) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v107) S4000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2x128x128 : Shape := ⟨3, ![2, 128, 128]⟩
abbrev S2x128 : Shape := ⟨2, ![2, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1600000x64 : Shape := ⟨2, ![1600000, 64]⟩
abbrev S1x64 : Shape := ⟨2, ![1, 64]⟩
abbrev S1x1 : Shape := ⟨2, ![1, 1]⟩
abbrev S100000 : Shape := ⟨1, ![100000]⟩
abbrev S1700000 : Shape := ⟨1, ![1700000]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S100000x1 : Shape := ⟨2, ![100000, 1]⟩
abbrev S100000x64 : Shape := ⟨2, ![100000, 64]⟩

abbrev nBuf : Space → Nat
  | .hbm => 247
  | .vmem => 0
  | .smem => 0
  | _ => 0

abbrev hbmTy0_0 (i : Nat) : BufTy := match i % 128 with
  | 0 => ⟨S100000x128, .f32⟩
  | 1 => ⟨S100000x16, .f32⟩
  | 2 => ⟨S2x1600000, .i32⟩
  | 3 => ⟨S64x64, .f32⟩
  | 4 => ⟨S64, .f32⟩
  | 5 => ⟨S64x1, .f32⟩
  | 6 => ⟨S1, .f32⟩
  | 7 => ⟨S2x128x128, .f32⟩
  | 8 => ⟨S2x128, .f32⟩
  | 9 => ⟨S2x128, .f32⟩
  | 10 => ⟨S2x128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x16, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x16, .f32⟩
  | 35 => ⟨S1600000x16, .f32⟩
  | 36 => ⟨S1600000x16, .f32⟩
  | 37 => ⟨S1600000x16, .f32⟩
  | 38 => ⟨S1600000x64, .f32⟩
  | 39 => ⟨S1600000x64, .f32⟩
  | 40 => ⟨S1x64, .f32⟩
  | 41 => ⟨S1600000x64, .f32⟩
  | 42 => ⟨S1600000x64, .f32⟩
  | 43 => ⟨S_, .f32⟩
  | 44 => ⟨S1600000x64, .f32⟩
  | 45 => ⟨S1600000x64, .f32⟩
  | 46 => ⟨S1600000x1, .f32⟩
  | 47 => ⟨S1x1, .f32⟩
  | 48 => ⟨S1600000x1, .f32⟩
  | 49 => ⟨S1600000x1, .f32⟩
  | 50 => ⟨S1600000, .f32⟩
  | 51 => ⟨S_, .f32⟩
  | 52 => ⟨S1600000, .f32⟩
  | 53 => ⟨S1600000, .f32⟩
  | 54 => ⟨S1600000, .f32⟩
  | 55 => ⟨S1600000, .f32⟩
  | 56 => ⟨S_, .f32⟩
  | 57 => ⟨S1600000, .f32⟩
  | 58 => ⟨S1600000, .f32⟩
  | 59 => ⟨S_, .f32⟩
  | 60 => ⟨S1600000, .f32⟩
  | 61 => ⟨S1600000, .f32⟩
  | 62 => ⟨S_, .f32⟩
  | 63 => ⟨S_, .f32⟩
  | 64 => ⟨S_, .f32⟩
  | 65 => ⟨S1600000, .f32⟩
  | 66 => ⟨S1600000, .f32⟩
  | 67 => ⟨S_, .f32⟩
  | 68 => ⟨S1600000, .f32⟩
  | 69 => ⟨S1600000, .f32⟩
  | 70 => ⟨S100000, .i32⟩
  | 71 => ⟨S1700000, .i32⟩
  | 72 => ⟨S1700000, .i32⟩
  | 73 => ⟨S_, .f32⟩
  | 74 => ⟨S100000, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S1700000, .f32⟩
  | 121 => ⟨S1x128x128, .f32⟩
  | 122 => ⟨S128x128, .f32⟩
  | 123 => ⟨S100000x128, .f32⟩
  | 124 => ⟨S1700000x1, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x128, .f32⟩
  | 7 => ⟨S1700000x128, .f32⟩
  | 8 => ⟨S_, .f32⟩
  | 9 => ⟨S100000x128, .f32⟩
  | 10 => ⟨S1700000x1, .i32⟩
  | 11 => ⟨S100000x128, .f32⟩
  | 12 => ⟨S1x128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S_, .f32⟩
  | 35 => ⟨S100000x1, .f32⟩
  | 36 => ⟨S100000x1, .f32⟩
  | 37 => ⟨S100000x1, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x128x128, .f32⟩
  | 55 => ⟨S128x128, .f32⟩
  | 56 => ⟨S100000x128, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S100000x64, .f32⟩
  | 116 => ⟨S1x64, .f32⟩
  | 117 => ⟨S100000x64, .f32⟩
  | 118 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_v58 : Ref sig .tc := ⟨.hbm, 96, rfl⟩
abbrev main_cst_14 : Ref sig .tc := ⟨.hbm, 97, rfl⟩
abbrev main_call3_v0 : Ref sig .tc := ⟨.hbm, 98, rfl⟩
abbrev main_call3_v1 : Ref sig .tc := ⟨.hbm, 99, rfl⟩
abbrev main_v59 : Ref sig .tc := ⟨.hbm, 100, rfl⟩
abbrev main_c_15 : Ref sig .tc := ⟨.hbm, 101, rfl⟩
abbrev main_v60 : Ref sig .tc := ⟨.hbm, 102, rfl⟩
abbrev main_v61 : Ref sig .tc := ⟨.hbm, 103, rfl⟩
abbrev main_c_16 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_17 : Ref sig .tc := ⟨.hbm, 111, rfl⟩
abbrev main_v68 : Ref sig .tc := ⟨.hbm, 112, rfl⟩
abbrev main_v69 : Ref sig .tc := ⟨.hbm, 113, rfl⟩
abbrev main_c_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_19 : Ref sig .tc := ⟨.hbm, 125, rfl⟩
abbrev main_v80 : Ref sig .tc := ⟨.hbm, 126, rfl⟩
abbrev main_v81 : Ref sig .tc := ⟨.hbm, 127, rfl⟩
abbrev main_c_20 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_22 : Ref sig .tc := ⟨.hbm, 145, rfl⟩
abbrev main_v97 : Ref sig .tc := ⟨.hbm, 146, rfl⟩
abbrev main_v98 : Ref sig .tc := ⟨.hbm, 147, rfl⟩
abbrev main_cst_23 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_24 : Ref sig .tc := ⟨.hbm, 154, rfl⟩
abbrev main_v104 : Ref sig .tc := ⟨.hbm, 155, rfl⟩
abbrev main_v105 : Ref sig .tc := ⟨.hbm, 156, rfl⟩
abbrev main_cst_25 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_26 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_call4_cst : Ref sig .tc := ⟨.hbm, 178, rfl⟩
abbrev main_call4_v0 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_c_27 : Ref sig .tc := ⟨.hbm, 186, rfl⟩
abbrev main_v131 : Ref sig .tc := ⟨.hbm, 187, rfl⟩
abbrev main_v132 : Ref sig .tc := ⟨.hbm, 188, rfl⟩
abbrev main_c_28 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_29 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_30 : Ref sig .tc := ⟨.hbm, 206, rfl⟩
abbrev main_v148 : Ref sig .tc := ⟨.hbm, 207, rfl⟩
abbrev main_v149 : Ref sig .tc := ⟨.hbm, 208, rfl⟩
abbrev main_cst_31 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_32 : Ref sig .tc := ⟨.hbm, 215, rfl⟩
abbrev main_v155 : Ref sig .tc := ⟨.hbm, 216, rfl⟩
abbrev main_v156 : Ref sig .tc := ⟨.hbm, 217, rfl⟩
abbrev main_cst_33 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_34 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_call5_cst : Ref sig .tc := ⟨.hbm, 239, rfl⟩
abbrev main_call5_v0 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x16_S1600000x16_S1600000x64_d1 : Shape.Concatenates [S1600000x16, S1600000x16, S1600000x16, S1600000x16] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  slices_S2x128x128_S1x128x128_0_0_0 : S2x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  bcast_S1x64_S100000x64_0_1 : S1x64.BroadcastsInDim S100000x64 (![0, 1] : Fin 2 → Fin S100000x64.rank)
  gather_S100000x16_S1600000x1_S1600000x16_1_0_n_n_0_1_116_wf : GatherDims.WF S100000x16 S1600000x1 S1600000x16 [1] [0] [] [0] [] 1 ![1, 16]
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result array named.

  @main is twelve segments: stretches of host operations and five kernel regions. The buffer contents at every segment
  boundary are a fold from the launch memory (a host stretch applies its operations; a region leaves each of its output
  arrays at what its write-backs leave and every other buffer as entered). Every weakly fair execution terminates, without a
  fault, with every unscoped buffer at the last boundary's contents: so the result array ends at the last boundary's
  contents of its buffer, and each argument array ends as launched.
-/
import proofs.«166963_j81509889343768_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last segment
    boundary's contents of its buffer, and every argument array ends as launched. -/
theorem run_result : θ_run defs (onTc (τ := τ) (main (F := F))) ⟨m, fun _ => 0, ρ⟩ (fun r => ∀ c : Dev nD,
      r.2.mem ((c.tc : Thread nD τ).loc main_v107) = W12 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v107 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Gen

end
-- ==== Proof.Spec.lean ====
/-
  The function both programs compute, written once over plain finite index types.

  A gated graph convolution on N = 100000 nodes and E = 1600000 directed edges. Each edge e carries two stored node
  numbers, src e and dst e. A stored number v names a node in two ways: as a row to READ (a negative number is first
  wrapped by adding N, then the number is clamped into [0, N − 1]: `node v`), and as a row to ADD INTO (the number read
  signed, unwrapped and unclamped: an edge adds into node n exactly when dst e, read signed, is n: `lands`).

  * The gate of an edge is a two-layer perceptron of the motif rows of its two end nodes,
    min 1 (max 0 (logistic ((Σ_j relu(h_j) · w2_j + b2) · 1))), with h_j the sum of four products of length 16 — the rows
    mu, mv, |mu − mv| and mu·mv against the four 16-row bands of the first weight matrix — plus b1_j.
  * The degree of a node is the sum of the gates of the edges that land on it, plus 1 for its own loop;
    dinv is degree^(−1/2) where the degree is positive, else 0; the weight of an edge is
    dinv(src) · gate · dinv(dst), and a node's own loop weighs dinv · dinv.
  * A layer maps node features X to X + relu(LN(agg + b)) where agg(n) = Σ_{e lands on n} weight(e) · (X·W)(src e)
    + dinv(n)·dinv(n) · (X·W)(n), and LN normalises a row of 128 by its mean and its mean squared deviation
    (plus ε), then scales by g and shifts by β.
  * The result is two layers followed by a linear head.

  Float literals are kept as the programs' own words (the same word on both sides is never evaluated).
-/
import Idealize.ShloMosaic.PureOps.Ideal
import Idealize.ShloMosaic.Lib.ValueIdx

noncomputable section

namespace Cert.Spec

open Idealize.ShloMosaic
open scoped BigOperators

/-- The programs' float words: 0, 1, 128, ε = f32(1e-5), −1/2. -/
abbrev z0 : EReal := Ideal.ofBits .f32 0x00000000#32
abbrev o1 : EReal := Ideal.ofBits .f32 0x3F800000#32
abbrev c128 : EReal := Ideal.ofBits .f32 0x43000000#32
abbrev eps : EReal := Ideal.ofBits .f32 0x3727C5AC#32
abbrev mhalf : EReal := Ideal.ofBits .f32 0xBF000000#32

/-- jnp's wrap of a stored node number: a negative number has the node count added. -/
def wrapIdx (v : BitVec 32) : BitVec 32 := Scalar.select (IntOp.cmpi .slt v 0#32) (IntOp.addi v 100000#32) v

/-- The node a stored number names when a row is READ: wrapped, read signed, clamped into [0, 99999]. -/
def node (v : BitVec 32) : Fin 100000 := ⟨min (wrapIdx v).toInt.toNat (100000 - 1), by omega⟩

/-! ## Arrays read by coordinates -/

/-- A rank-1, rank-2 or rank-3 array read at coordinates. -/
abbrev at1 {α : Type} {a : ℕ} (A : (⟨1, ![a]⟩ : Shape).Idx → α) (p : Fin a) : α := A (ValueIdx.ix1 p)
abbrev at2 {α : Type} {a b : ℕ} (A : (⟨2, ![a, b]⟩ : Shape).Idx → α) (p : Fin a) (q : Fin b) : α := A (ValueIdx.ix2 p q)
abbrev at3 {α : Type} {a b c : ℕ} (A : (⟨3, ![a, b, c]⟩ : Shape).Idx → α) (p : Fin a) (q : Fin b) (r : Fin c) : α :=
  A (ValueIdx.ix3 p q r)

/-! ## The edge gate -/

/-- Hidden unit j of the gate's perceptron at the motif rows mu, mv of an edge's two ends: four products of length 16
    against the four bands wa, wb, wc, wd of the first weight matrix, plus the bias, then the ramp. -/
def hidden (mu mv : Fin 16 → EReal) (wa wb wc wd : Fin 16 → Fin 64 → EReal) (b1 : Fin 64 → EReal) (j : Fin 64) : EReal :=
  max (((((∑ k : Fin 16, mu k * wa k j) + ∑ k : Fin 16, mv k * wb k j)
      + ∑ k : Fin 16, max (mu k - mv k) (-(mu k - mv k)) * wc k j) + ∑ k : Fin 16, (mu k * mv k) * wd k j) + b1 j) z0

/-- The gate of an edge: the logistic of the perceptron's output (times the temperature's reciprocal, 1), clipped to [0, 1]. -/
def gate (mu mv : Fin 16 → EReal) (wa wb wc wd : Fin 16 → Fin 64 → EReal) (b1 : Fin 64 → EReal) (w2 : Fin 64 → EReal)
    (b2 : EReal) : EReal :=
  min o1 (max z0 (Ideal.logistic (((∑ j : Fin 64, hidden mu mv wa wb wc wd b1 j * w2 j) + b2) * o1)))

/-! ## One row of a layer -/

/-- Layer normalisation of a row of 128 followed by scale, shift and ramp, at lane q. -/
def lnrelu (h g beta : Fin 128 → EReal) (q : Fin 128) : EReal :=
  max ((((h q - Ideal.div (z0 + ∑ k : Fin 128, h k) c128)
      * Ideal.rsqrt (Ideal.div (z0 + ∑ k : Fin 128, (h k - Ideal.div (z0 + ∑ k : Fin 128, h k) c128)
          * (h k - Ideal.div (z0 + ∑ k : Fin 128, h k) c128)) c128 + eps)) * g q) + beta q) z0

/-! ## The whole function of the thirteen arguments -/

section Whole

variable (x : Fin 100000 → Fin 128 → EReal) (mx : Fin 100000 → Fin 16 → EReal) (src dst : Fin 1600000 → BitVec 32)
  (w1 : Fin 64 → Fin 64 → EReal) (b1 : Fin 64 → EReal) (w2 : Fin 64 → EReal) (b2 : EReal)
  (cw : Fin 2 → Fin 128 → Fin 128 → EReal) (cb lg lb : Fin 2 → Fin 128 → EReal)
  (hw : Fin 128 → Fin 64 → EReal) (hb : Fin 64 → EReal)

/-- The four 16-row bands of the gate's first weight matrix. -/
def band (b : Fin 4) (k : Fin 16) (j : Fin 64) : EReal := w1 ⟨16 * b.val + k.val, by omega⟩ j

/-- The gate of edge e. -/
def gateE (e : Fin 1600000) : EReal :=
  gate (mx (node (src e))) (mx (node (dst e))) (band w1 0) (band w1 1) (band w1 2) (band w1 3) b1 w2 b2

/-- The edges that add into node n: those whose stored destination, read signed, is n. -/
def lands (n : Fin 100000) : Finset (Fin 1600000) := Finset.univ.filter fun e => (dst e).toInt = (n.val : ℤ)

/-- The degree of node n: the gates of the edges landing on it, plus one. -/
def deg (n : Fin 100000) : EReal := (z0 + ∑ e ∈ lands dst n, gateE mx src dst w1 b1 w2 b2 e) + o1

/-- degree^(−1/2) where the degree is positive, else 0. -/
def dinvOf (d : EReal) : EReal := Scalar.select (Ideal.cmp .ogt d z0) (Ideal.pow d mhalf) z0

def dinv (n : Fin 100000) : EReal := dinvOf (deg mx src dst w1 b1 w2 b2 n)

/-- The weight of edge e. -/
def weight (e : Fin 1600000) : EReal :=
  dinv mx src dst w1 b1 w2 b2 (node (src e)) * gateE mx src dst w1 b1 w2 b2 e * dinv mx src dst w1 b1 w2 b2 (node (dst e))

/-- The product of the node features with a layer's weight matrix. -/
def xw (l : Fin 2) (X : Fin 100000 → Fin 128 → EReal) (n : Fin 100000) (q : Fin 128) : EReal := ∑ c : Fin 128, X n c * cw l c q

/-- The row a layer normalises at node n: the weighted rows of the edges landing on n, the node's own loop, the bias. -/
def pre (l : Fin 2) (X : Fin 100000 → Fin 128 → EReal) (n : Fin 100000) (q : Fin 128) : EReal :=
  ((z0 + ∑ e ∈ lands dst n, weight mx src dst w1 b1 w2 b2 e * xw cw l X (node (src e)) q)
    + (dinv mx src dst w1 b1 w2 b2 n * dinv mx src dst w1 b1 w2 b2 n) * xw cw l X n q) + cb l q

/-- One layer: the residual plus the normalised, ramped row. -/
def layer (l : Fin 2) (X : Fin 100000 → Fin 128 → EReal) (n : Fin 100000) (q : Fin 128) : EReal :=
  X n q + lnrelu (pre mx src dst w1 b1 w2 b2 cw cb l X n) (lg l) (lb l) q

/-- The result: two layers, then the linear head. -/
def out (n : Fin 100000) (q : Fin 64) : EReal :=
  (∑ c : Fin 128, layer mx src dst w1 b1 w2 b2 cw cb lg lb 1 (layer mx src dst w1 b1 w2 b2 cw cb lg lb 0 x) n c * hw c q) + hb q

end Whole

end Cert.Spec

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«166963_j81509889343768_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.KHost0.lean ====
/-
  The host operations before the first kernel region, read at an index.

  From any buffer contents W the first stretch of host operations leaves: the two rows of the edge index as vectors of
  stored node numbers (sources and destinations); the motif rows of every edge's two ends, gathered at the wrapped stored
  numbers (the row read is `node` of the stored number; rounding the table to a shorter float format is the identity on the
  extended reals); the four 16-row bands of the gate's first weight matrix; and its two biases laid out as a row and a cell.
-/
import proofs.«166963_j81509889343768_2_alg».proof.Proof.Gen.KernelIdeal.Launch
import proofs.«166963_j81509889343768_2_alg».proof.Proof.Spec
import proofs.«166963_j81509889343768_2_alg».proof.Proof.LibGatherRows
import proofs.«166963_j81509889343768_2_alg».proof.Proof.LibRowIndex
import proofs.«166963_j81509889343768_2_alg».proof.Proof.LibColRow
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo

/-- The index column of a gather over the edges: the stored numbers wrapped, laid out as a column; entry e is the wrapped
    stored number of e. -/
theorem wrapcol_apply (s : IVec S1600000 32) (e : Fin 1600000) :
    broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s) (ix2 e (0 : Fin 1))
      = Cert.Spec.wrapIdx (s (ix1 e)) := by
  rw [Cert.LibColRow.bcast_a_a1_apply]
  rfl

/-- The row a gather over the edges reads at the wrapped stored numbers: the node the stored number names. -/
theorem rowOf_wrapcol (s : IVec S1600000 32) (e : Fin 1600000) :
    Cert.LibGatherRows.rowOf (N := 100000) (by decide)
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)) e
      = Cert.Spec.node (s (ix1 e)) := by
  refine Fin.ext ?_
  show min (_ : BitVec 32).toInt.toNat (100000 - 1) = min (Cert.Spec.wrapIdx (s (ix1 e))).toInt.toNat (100000 - 1)
  rw [wrapcol_apply]

variable (W : Valuation τ sig (Elt Ideal))

/-- The stored source of edge e. -/
theorem h0_src (e : Fin 1600000) :
    (StableHlo.after (hostOps0 (F := Ideal)) W (Proc.devRef .tc main_v1) : S1600000.Idx → BitVec 32) (ix1 e)
      = (W (Proc.devRef .tc main_arg2) : S2x1600000.Idx → BitVec 32) (ix2 (0 : Fin 2) e) := by
  have h : StableHlo.after (hostOps0 (F := Ideal)) W (Proc.devRef .tc main_v1)
      = shapeCast S1600000 (extractStridedSlice S1x1600000 ![0, 0] (W (Proc.devRef .tc main_arg2)) slices_S2x1600000_S1x1600000_0_0) shapeCasts_S1x1600000_S1600000 := by
    after_results_simp <;> rfl
  rw [h, shapeCast_1a_a_apply]
  exact slice2_axis0_apply 0 _ _ (0 : Fin 1) e (0 : Fin 2) rfl

/-- The stored destination of edge e. -/
theorem h0_dst (e : Fin 1600000) :
    (StableHlo.after (hostOps0 (F := Ideal)) W (Proc.devRef .tc main_v3) : S1600000.Idx → BitVec 32) (ix1 e)
      = (W (Proc.devRef .tc main_arg2) : S2x1600000.Idx → BitVec 32) (ix2 (1 : Fin 2) e) := by
  have h : StableHlo.after (hostOps0 (F := Ideal)) W (Proc.devRef .tc main_v3)
      = shapeCast S1600000 (extractStridedSlice S1x1600000 ![1, 0] (W (Proc.devRef .tc main_arg2)) slices_S2x1600000_S1x1600000_1_0) shapeCasts_S1x1600000_S1600000 := by
    after_results_simp <;> rfl
  rw [h, shapeCast_1a_a_apply]
  exact slice2_axis0_apply 1 _ _ (0 : Fin 1) e (1 : Fin 2) rfl

set_option maxHeartbeats 4000000 in
/-- The motif row of the source end of edge e, lane k. -/
theorem h0_mu (e : Fin 1600000) (k : Fin 16) :
    (StableHlo.after (hostOps0 (F := Ideal)) W (Proc.devRef .tc main_v11) : S1600000x16.Idx → EReal) (ix2 e k)
      = (W (Proc.devRef .tc main_arg1) : S100000x16.Idx → EReal)
          (ix2 (Cert.Spec.node ((W (Proc.devRef .tc main_arg2) : S2x1600000.Idx → BitVec 32) (ix2 (0 : Fin 2) e))) k) := by
  have h : StableHlo.after (hostOps0 (F := Ideal)) W (Proc.devRef .tc main_v11)
      = Host.gather gather_S100000x16_S1600000x1_S1600000x16_1_0_n_n_0_1_116
          (truncf .bf16 (W (Proc.devRef .tc main_arg1)) bitsLt_bf16_f32 : FVec Ideal S100000x16 .bf16)
          (broadcastInDim S1600000x1 ![0] bcast_S1600000_S1600000x1_0
            (select (cmpi .slt (StableHlo.after (hostOps0 (F := Ideal)) W (Proc.devRef .tc main_v1)) (broadcastInDim S1600000 ![] bcast_S_S1600000 (constantI S_ 32 0#32)))
              (addi (StableHlo.after (hostOps0 (F := Ideal)) W (Proc.devRef .tc main_v1)) (broadcastInDim S1600000 ![] bcast_S_S1600000 (constantI S_ 32 100000#32)))
              (StableHlo.after (hostOps0 (F := Ideal)) W (Proc.devRef .tc main_v1)))) := by
    after_results_simp <;> rfl
  rw [h]
  refine (Cert.LibGatherRows.gather_rows_apply (N := 100000) (R := 1600000) (C := 16) (by decide)
    gather_S100000x16_S1600000x1_S1600000x16_1_0_n_n_0_1_116.wf _ _ e k).trans ?_
  rw [rowOf_wrapcol, h0_src]
  rfl

set_option maxHeartbeats 4000000 in
/-- The motif row of the destination end of edge e, lane k. -/
theorem h0_mv (e : Fin 1600000) (k : Fin 16) :
    (StableHlo.after (hostOps0 (F := Ideal)) W (Proc.devRef .tc main_v18) : S1600000x16.Idx → EReal) (ix2 e k)
      = (W (Proc.devRef .tc main_arg1) : S100000x16.Idx → EReal)
          (ix2 (Cert.Spec.node ((W (Proc.devRef .tc main_arg2) : S2x1600000.Idx → BitVec 32) (ix2 (1 : Fin 2) e))) k) := by
  have h : StableHlo.after (hostOps0 (F := Ideal)) W (Proc.devRef .tc main_v18)
      = Host.gather gather_S100000x16_S1600000x1_S1600000x16_1_0_n_n_0_1_116
          (truncf .bf16 (W (Proc.devRef .tc main_arg1)) bitsLt_bf16_f32 : FVec Ideal S100000x16 .bf16)
          (broadcastInDim S1600000x1 ![0] bcast_S1600000_S1600000x1_0
            (select (cmpi .slt (StableHlo.after (hostOps0 (F := Ideal)) W (Proc.devRef .tc main_v3)) (broadcastInDim S1600000 ![] bcast_S_S1600000 (constantI S_ 32 0#32)))
              (addi (StableHlo.after (hostOps0 (F := Ideal)) W (Proc.devRef .tc main_v3)) (broadcastInDim S1600000 ![] bcast_S_S1600000 (constantI S_ 32 100000#32)))
              (StableHlo.after (hostOps0 (F := Ideal)) W (Proc.devRef .tc main_v3)))) := by
    after_results_simp <;> rfl
  rw [h]
  refine (Cert.LibGatherRows.gather_rows_apply (N := 100000) (R := 1600000) (C := 16) (by decide)
    gather_S100000x16_S1600000x1_S1600000x16_1_0_n_n_0_1_116.wf _ _ e k).trans ?_
  rw [rowOf_wrapcol, h0_dst]
  rfl

/-- The four 16-row bands of the gate's first weight matrix. -/
theorem h0_band0 (k : Fin 16) (j : Fin 64) :
    (StableHlo.after (hostOps0 (F := Ideal)) W (Proc.devRef .tc main_v19) : S16x64.Idx → EReal) (ix2 k j)
      = (W (Proc.devRef .tc main_arg3) : S64x64.Idx → EReal) (ix2 (⟨16 * 0 + k.val, by omega⟩ : Fin 64) j) := by
  have h : StableHlo.after (hostOps0 (F := Ideal)) W (Proc.devRef .tc main_v19)
      = extractStridedSlice S16x64 ![0, 0] (W (Proc.devRef .tc main_arg3)) slices_S64x64_S16x64_0_0 := by
    after_results_simp <;> rfl
  rw [h]
  exact slice2_axis0_apply 0 _ _ k j _ (by simp)
theorem h0_band1 (k : Fin 16) (j : Fin 64) :
    (StableHlo.after (hostOps0 (F := Ideal)) W (Proc.devRef .tc main_v20) : S16x64.Idx → EReal) (ix2 k j)
      = (W (Proc.devRef .tc main_arg3) : S64x64.Idx → EReal) (ix2 (⟨16 * 1 + k.val, by omega⟩ : Fin 64) j) := by
  have h : StableHlo.after (hostOps0 (F := Ideal)) W (Proc.devRef .tc main_v20)
      = extractStridedSlice S16x64 ![16, 0] (W (Proc.devRef .tc main_arg3)) slices_S64x64_S16x64_16_0 := by
    after_results_simp <;> rfl
  rw [h]
  exact slice2_axis0_apply 16 _ _ k j _ (by simp)
theorem h0_band2 (k : Fin 16) (j : Fin 64) :
    (StableHlo.after (hostOps0 (F := Ideal)) W (Proc.devRef .tc main_v21) : S16x64.Idx → EReal) (ix2 k j)
      = (W (Proc.devRef .tc main_arg3) : S64x64.Idx → EReal) (ix2 (⟨16 * 2 + k.val, by omega⟩ : Fin 64) j) := by
  have h : StableHlo.after (hostOps0 (F := Ideal)) W (Proc.devRef .tc main_v21)
      = extractStridedSlice S16x64 ![32, 0] (W (Proc.devRef .tc main_arg3)) slices_S64x64_S16x64_32_0 := by
    after_results_simp <;> rfl
  rw [h]
  exact slice2_axis0_apply 32 _ _ k j _ (by simp)
theorem h0_band3 (k : Fin 16) (j : Fin 64) :
    (StableHlo.after (hostOps0 (F := Ideal)) W (Proc.devRef .tc main_v22) : S16x64.Idx → EReal) (ix2 k j)
      = (W (Proc.devRef .tc main_arg3) : S64x64.Idx → EReal) (ix2 (⟨16 * 3 + k.val, by omega⟩ : Fin 64) j) := by
  have h : StableHlo.after (hostOps0 (F := Ideal)) W (Proc.devRef .tc main_v22)
      = extractStridedSlice S16x64 ![48, 0] (W (Proc.devRef .tc main_arg3)) slices_S64x64_S16x64_48_0 := by
    after_results_simp <;> rfl
  rw [h]
  exact slice2_axis0_apply 48 _ _ k j _ (by simp)

/-- The gate's first bias as a row, its second as a cell, its second weight matrix untouched. -/
theorem h0_b1 (j : Fin 64) :
    (StableHlo.after (hostOps0 (F := Ideal)) W (Proc.devRef .tc main_v23) : S1x64.Idx → EReal) (ix2 (0 : Fin 1) j)
      = (W (Proc.devRef .tc main_arg4) : S64.Idx → EReal) (ix1 j) := by
  have h : StableHlo.after (hostOps0 (F := Ideal)) W (Proc.devRef .tc main_v23)
      = shapeCast S1x64 (W (Proc.devRef .tc main_arg4)) shapeCasts_S64_S1x64 := by
    after_results_simp <;> rfl
  rw [h]
  exact shapeCast_a_1a_apply _ _ (0 : Fin 1) j
theorem h0_b2 :
    (StableHlo.after (hostOps0 (F := Ideal)) W (Proc.devRef .tc main_v24) : S1x1.Idx → EReal) (ix2 (0 : Fin 1) (0 : Fin 1))
      = (W (Proc.devRef .tc main_arg6) : S1.Idx → EReal) (ix1 (0 : Fin 1)) := by
  have h : StableHlo.after (hostOps0 (F := Ideal)) W (Proc.devRef .tc main_v24)
      = shapeCast S1x1 (W (Proc.devRef .tc main_arg6)) shapeCasts_S1_S1x1 := by
    after_results_simp <;> rfl
  rw [h]
  exact shapeCast_a_1a_apply _ _ (0 : Fin 1) (0 : Fin 1)
theorem h0_w2 : StableHlo.after (hostOps0 (F := Ideal)) W (Proc.devRef .tc main_arg5) = W (Proc.devRef .tc main_arg5) := by
  after_results_simp <;> rfl

end Cert.KernelIdeal.HostValue

end
-- ==== Proof.LibRowAggLinear.lean ====
/-
  Summing rows into rows, and a matrix product applied after the sum.

  A graph layer adds, into row p of an [N, C] table, every row of an [R, C] array of updates whose stored row number is p
  (an accumulating scatter of rows, started from the zero table); the updates are themselves rows of the table taken at
  another array of row numbers (a gather of rows). A matrix product with a [C, D] matrix acts on each row separately, so it
  commutes with taking rows and — being additive in the row — with the accumulation: multiplying the aggregated table is the
  same as aggregating the multiplied one. Over the extended reals the distributive law a·w + b·w = (a + b)·w fails at
  infinities, so the statements ask every entry to be a real number.
-/
import Idealize.ShloMosaic.PureOps.Ideal
import Idealize.ShloMosaic.Lib.ValueIdx
import Idealize.ShloMosaic.Lib.Pipeline.Value
import proofs.«166963_j81509889343768_2_alg».proof.Proof.LibGatherRows
import proofs.«166963_j81509889343768_2_alg».proof.Proof.LibRowIndex

namespace Cert.LibRowAggLinear

open Idealize.ShloMosaic Idealize.ShloMosaic.ValueIdx Cert.LibGatherRows Cert.LibRowIndex
open scoped BigOperators

/-! ## Real numbers inside the extended reals -/

/-- The inclusion of the reals in the extended reals carries a finite sum to the finite sum. -/
@[norm_cast]
theorem coe_sum {κ : Type} (S : Finset κ) (f : κ → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of two real numbers is a real number. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A product of two real numbers is a real number. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The larger of two real numbers is a real number. -/
theorem real_max {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max (a := x) (b := y)).symm⟩

/-- A finite sum of real numbers is a real number. -/
theorem real_sum {κ : Type} (S : Finset κ) (f : κ → EReal) (hf : ∀ e ∈ S, ∃ r : ℝ, f e = r) :
    ∃ r : ℝ, ∑ e ∈ S, f e = r := by
  classical
  induction S using Finset.induction_on with
  | empty => exact ⟨0, by simp⟩
  | insert a s ha ih =>
    obtain ⟨x, hx⟩ := hf a (Finset.mem_insert_self a s)
    obtain ⟨y, hy⟩ := ih (fun e he => hf e (Finset.mem_insert_of_mem he))
    exact ⟨x + y, by rw [Finset.sum_insert ha, hx, hy, EReal.coe_add]⟩

/-- A finite sum of products of real numbers — one entry of a matrix product — is a real number. -/
theorem real_sum_mul {ι : Type} [Fintype ι] (a b : ι → EReal) (ha : ∀ c, ∃ r : ℝ, a c = r) (hb : ∀ c, ∃ r : ℝ, b c = r) :
    ∃ r : ℝ, ∑ c, a c * b c = r :=
  real_sum Finset.univ _ (fun c _ => real_mul (ha c) (hb c))

/-- Multiplying after aggregating is aggregating after multiplying, for real entries: with a row `a`, a finite family of
    rows `g e` and a column `wt`, the product of the row `a + ∑ e, g e` with the column is the product of `a` with the column
    plus the sum over `e` of the products of the rows `g e` with the column. -/
theorem sum_add_sum_mul {ι κ : Type} [Fintype ι] (S : Finset κ) (a : ι → EReal) (g : κ → ι → EReal) (wt : ι → EReal)
    (ha : ∀ c, ∃ r : ℝ, a c = r) (hg : ∀ e c, ∃ r : ℝ, g e c = r) (hw : ∀ c, ∃ r : ℝ, wt c = r) :
    ∑ c, (a c + ∑ e ∈ S, g e c) * wt c = (∑ c, a c * wt c) + ∑ e ∈ S, ∑ c, g e c * wt c := by
  choose a' ha' using ha
  choose g' hg' using hg
  choose w' hw' using hw
  obtain rfl : a = fun c => (a' c : EReal) := funext ha'
  obtain rfl : g = fun e c => (g' e c : EReal) := funext fun e => funext (hg' e)
  obtain rfl : wt = fun c => (w' c : EReal) := funext hw'
  have key : ∑ c, (a' c + ∑ e ∈ S, g' e c) * w' c = (∑ c, a' c * w' c) + ∑ e ∈ S, ∑ c, g' e c * w' c := by
    simp only [add_mul, Finset.sum_add_distrib, Finset.sum_mul]
    rw [Finset.sum_comm]
  simp only [← coe_sum, ← EReal.coe_add, ← EReal.coe_mul]
  exact congrArg Real.toEReal key

/-! ## The accumulating scatter of rows, read at an index -/

section Scatter

variable {N R C w : ℕ}

/-- Of an operand's two axes, the one that is not the inserted row axis is the lane axis. -/
private theorem kept_lanes :
    (List.finRange 2).filter (fun a : Fin 2 => a ∉ ([0] : List (Fin 2))) = [1] := by decide

/-- Of an operand's two axes, the inserted row axis is not a kept one. -/
private theorem row_not_kept : (0 : Fin 2) ∉ (List.finRange 2).filter (fun a : Fin 2 => a ∉ ([0] : List (Fin 2))) := by decide

/-- On the row axis the window of update `(e, f)` starts at the stored row number of `e`, read signed. -/
private theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (0 : Fin 2) = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e f) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the row axis an update has no window coordinate. -/
private theorem window_row (wf : ScatterDims.WF ⟨2, ![N, C]⟩ ⟨2, ![R, 1]⟩ ⟨2, ![R, C]⟩ [1] [0] [0] 1)
    (e : Fin R) (f : Fin C) : (rowScatterDims N R C wf).window (ix2 e f) (0 : Fin 2) = 0 := by
  unfold ScatterDims.window
  rw [dif_neg (show (0 : Fin 2) ∉ (rowScatterDims N R C wf).sKept from row_not_kept)]

/-- On the lane axis the window starts at zero. -/
private theorem start_lane (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (1 : Fin 2) = 0 := by
  unfold ScatterDims.start
  rw [dif_neg (show (1 : Fin 2) ∉ ([0] : List (Fin 2)) by decide)]

/-- On the lane axis the window coordinate of update `(e, f)` is its lane `f`. -/
private theorem window_lane (wf : ScatterDims.WF ⟨2, ![N, C]⟩ ⟨2, ![R, 1]⟩ ⟨2, ![R, C]⟩ [1] [0] [0] 1)
    (e : Fin R) (f : Fin C) : (rowScatterDims N R C wf).window (ix2 e f) (1 : Fin 2) = f.val := by
  have hkept : (rowScatterDims N R C wf).sKept = [(1 : Fin 2)] := kept_lanes
  have hk : (1 : Fin 2) ∈ (rowScatterDims N R C wf).sKept := by rw [hkept]; exact List.mem_singleton.mpr rfl
  unfold ScatterDims.window
  rw [dif_pos hk]
  simp only [List.getElem_singleton]
  rfl

/-- Where an update of a scatter of rows lands: update `(e, f)` lands on element `(p, q)` exactly when the stored row number
    of `e`, read signed, is `p`, and the lane `f` is `q`. -/
theorem scatter_rows_lands_iff (wf : ScatterDims.WF ⟨2, ![N, C]⟩ ⟨2, ![R, 1]⟩ ⟨2, ![R, C]⟩ [1] [0] [0] 1)
    (idx : IVec ⟨2, ![R, 1]⟩ w) (e : Fin R) (f : Fin C) (p : Fin N) (q : Fin C) :
    (rowScatterDims N R C wf).resultIdx? (ix2 e f) idx = some (ix2 p q)
      ↔ (idx (ix2 e (0 : Fin 1))).toInt = (p.val : ℤ) ∧ f = q := by
  constructor
  · intro h
    refine ⟨scatter_rows_target wf idx e f (ix2 p q) h, ?_⟩
    unfold ScatterDims.resultIdx? at h
    split at h
    · have h1 := congrArg Fin.val (congrFun (Option.some.inj h) (1 : Fin 2))
      simp only [start_lane, window_lane] at h1
      have h2 : ((ix2 p q) (1 : Fin 2)).val = q.val := rfl
      refine Fin.ext ?_
      omega
    · exact absurd h (by simp)
  · rintro ⟨hp, rfl⟩
    have hin : ∀ a, 0 ≤ (rowScatterDims N R C wf).start (ix2 e f) idx a + (rowScatterDims N R C wf).window (ix2 e f) a
        ∧ (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx (0 : Fin 2) + (rowScatterDims N R C wf).window (ix2 e f) (0 : Fin 2)
          ∧ (rowScatterDims N R C wf).start (ix2 e f) idx (0 : Fin 2) + (rowScatterDims N R C wf).window (ix2 e f) (0 : Fin 2) < (N : ℤ)
        rw [start_row, window_row, hp]
        have := p.isLt
        omega
      | ⟨1, _⟩ =>
        show 0 ≤ (rowScatterDims N R C wf).start (ix2 e f) idx (1 : Fin 2) + (rowScatterDims N R C wf).window (ix2 e f) (1 : Fin 2)
          ∧ (rowScatterDims N R C wf).start (ix2 e f) idx (1 : Fin 2) + (rowScatterDims N R C wf).window (ix2 e f) (1 : Fin 2) < (C : ℤ)
        rw [start_lane, window_lane]
        have := f.isLt
        omega
    unfold ScatterDims.resultIdx?
    rw [dif_pos hin]
    refine congrArg some ?_
    funext a
    refine Fin.ext ?_
    match a with
    | ⟨0, _⟩ =>
      show ((rowScatterDims N R C wf).start (ix2 e f) idx (0 : Fin 2)
        + (rowScatterDims N R C wf).window (ix2 e f) (0 : Fin 2)).toNat = p.val
      rw [start_row, window_row, hp]
      omega
    | ⟨1, _⟩ =>
      show ((rowScatterDims N R C wf).start (ix2 e f) idx (1 : Fin 2)
        + (rowScatterDims N R C wf).window (ix2 e f) (1 : Fin 2)).toNat = f.val
      rw [start_lane, window_lane]
      omega

/-- The updates that land on row `p` of an `N`-row table: those whose stored row number, read signed, is `p`. -/
def landsOn (idx : IVec ⟨2, ![R, 1]⟩ w) (p : Fin N) : Finset (Fin R) :=
  Finset.univ.filter (fun e => (idx (ix2 e (0 : Fin 1))).toInt = (p.val : ℤ))

/-- An accumulating scatter of rows into the zero table, read at `(p, q)`: the sum, over the updates `e` whose stored row
    number is `p`, of lane `q` of update `e`. -/
theorem scatter_rows_zero_apply (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (p : Fin N) (q : Fin C) :
    Ideal.hostScatterAdd (rowScatterDims N R C wf) (fun _ => 0) idx upd (ix2 p q) = ∑ e ∈ landsOn idx p, upd (ix2 e q) := by
  show (0 : EReal) + ∑ j ∈ Finset.univ.filter (fun j => (rowScatterDims N R C wf).resultIdx? j idx = some (ix2 p q)), upd j = _
  rw [zero_add, Finset.sum_filter, sum_idx2]
  unfold landsOn
  rw [Finset.sum_filter]
  refine Finset.sum_congr rfl (fun e _ => ?_)
  simp only [scatter_rows_lands_iff]
  by_cases h : (idx (ix2 e (0 : Fin 1))).toInt = (p.val : ℤ)
  · simp only [h, true_and, if_true]
    exact Finset.sum_ite_eq' Finset.univ q (fun f => upd (ix2 e f)) |>.trans (if_pos (Finset.mem_univ q))
  · simp only [h, false_and, if_false, Finset.sum_const_zero]

/-- The same for the host operation: an accumulating float scatter of rows into a table of zeros, at the ideal reading, read at
    `(p, q)`, is the sum of lane `q` of the updates whose stored row number is `p`. -/
theorem host_scatterAdd_rows_zero_apply {φ : FTy} (wf : ScatterDims.WF ⟨2, ![N, C]⟩ ⟨2, ![R, 1]⟩ ⟨2, ![R, C]⟩ [1] [0] [0] 1)
    (z : FVec Ideal ⟨2, ![N, C]⟩ φ) (hz : z = fun _ => 0) (idx : IVec ⟨2, ![R, 1]⟩ w) (upd : FVec Ideal ⟨2, ![R, C]⟩ φ)
    (p : Fin N) (q : Fin C) :
    Host.scatterAdd (F := Ideal) (φ := φ) (rowScatterDims N R C wf) z idx upd (ix2 p q)
      = ∑ e ∈ landsOn idx p, upd (ix2 e q) := by
  subst hz
  exact scatter_rows_zero_apply wf idx upd p q

end Scatter

/-- Membership in the set of updates that land on row `p`: the stored row number, read signed, is `p`. -/
theorem mem_landsOn {N R w : ℕ} (idx : IVec ⟨2, ![R, 1]⟩ w) (p : Fin N) (e : Fin R) :
    e ∈ landsOn idx p ↔ (idx (ix2 e (0 : Fin 1))).toInt = (p.val : ℤ) := by
  unfold landsOn
  rw [Finset.mem_filter]
  exact ⟨fun h => h.2, fun h => ⟨Finset.mem_univ e, h⟩⟩

/-! ## A matrix product after summing gathered rows into rows -/

/-- Aggregate, then multiply = multiply, then aggregate. `A` is an `[N, C]` table and `Wt` a `[C, D]` matrix, all entries real;
    `Y` is their product. Adding to row `p` of `A` the rows of `A` taken at the row numbers `idxG` and summed into the rows named
    by `idxS`, and then multiplying by `Wt`, gives at `(p, q)` what the same aggregation of the rows of `Y` gives: the matrix
    product acts on each row separately, so it commutes with taking rows, and it is additive in the row, so — all entries
    being real — it commutes with the sum. -/
theorem agg_matmul {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (Y : (⟨2, ![N, D]⟩ : Shape).Idx → EReal)
    (hA : ∀ i, ∃ r : ℝ, A i = r) (hW : ∀ i, ∃ r : ℝ, Wt i = r)
    (hY : ∀ (p : Fin N) (q : Fin D), Y (ix2 p q) = ∑ c : Fin C, A (ix2 p c) * Wt (ix2 c q))
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = Y (ix2 p q) + Ideal.hostScatterAdd (rowScatterDims N R D wfS') (fun _ => 0) idxS
        (Host.gather (rowDims N R D wfG') Y idxG) (ix2 p q) := by
  simp only [scatter_rows_zero_apply, gather_rows_apply hN, hY]
  exact sum_add_sum_mul (landsOn idxS p) (fun c => A (ix2 p c)) (fun e c => A (ix2 (rowOf hN idxG e) c))
    (fun c => Wt (ix2 c q)) (fun _ => hA _) (fun _ _ => hA _) (fun _ => hW _)

/-- The same with the product table written out: `Y` is the function taking an index `i` to the product of row `i 0` of `A`
    with column `i 1` of `Wt`. -/
theorem agg_matmul_fun {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (hA : ∀ i, ∃ r : ℝ, A i = r) (hW : ∀ i, ∃ r : ℝ, Wt i = r)
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = (∑ c : Fin C, A (ix2 p c) * Wt (ix2 c q)) + Ideal.hostScatterAdd (rowScatterDims N R D wfS') (fun _ => 0) idxS
        (Host.gather (rowDims N R D wfG')
          (fun i : (⟨2, ![N, D]⟩ : Shape).Idx => ∑ c : Fin C, A (ix2 (n0 := N) (i 0) c) * Wt (ix2 (n1 := D) c (i 1))) idxG) (ix2 p q) :=
  agg_matmul hN wfG wfS wfG' wfS' A Wt
    (fun i : (⟨2, ![N, D]⟩ : Shape).Idx => ∑ c : Fin C, A (ix2 (n0 := N) (i 0) c) * Wt (ix2 (n1 := D) c (i 1)))
    hA hW (fun _ _ => rfl) idxG idxS p q

end Cert.LibRowAggLinear
-- ==== Proof.LibVecScatter.lean ====
/-
  Summing numbers into the entries of a vector, and rows into the rows of a table, on top of any starting array.

  An accumulating scatter adds, into entry p of a length-N vector, every entry of a length-R vector of updates whose stored
  entry number (an [R, 1] array of numbers, each read signed, not clamped) is p; an update whose number is not a valid entry
  is dropped. Read at entry p the result is therefore the starting vector's entry p plus the sum of the updates that land on
  p. The set of updates landing on p depends only on the array of numbers and on p, so it is the same finite set that
  describes an accumulating scatter of whole rows into an [N, C] table at the same numbers; the second half of this file
  states that row form over an arbitrary starting table (the starting array need not be written as the constant zero).
-/
import Idealize.ShloMosaic.PureOps.Ideal
import Idealize.ShloMosaic.Lib.ValueIdx
import Idealize.ShloMosaic.Lib.Pipeline.Value
import proofs.«166963_j81509889343768_2_alg».proof.Proof.LibRowIndex
import proofs.«166963_j81509889343768_2_alg».proof.Proof.LibRowAggLinear

namespace Cert.LibVecScatter

open Idealize.ShloMosaic Idealize.ShloMosaic.ValueIdx Cert.LibRowIndex Cert.LibRowAggLinear
open scoped BigOperators

/-! ## Sums over a rank-1 index set -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter into a vector, read at an entry -/

section Vec

variable {N R w : ℕ}

/-- The dimension numbers of scattering numbers into a vector: an update has no window axis, the vector's one axis is
    inserted and indexed by the one component of each scatter index. -/
abbrev vecScatterDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The vector's one axis is inserted, so it is not a kept one. -/
private theorem entry_not_kept :
    (0 : Fin 1) ∉ (List.finRange 1).filter (fun a : Fin 1 => a ∉ ([0] : List (Fin 1))) := by decide

/-- The window of update `e` starts at the stored entry number of `e`, read signed. -/
private theorem start_entry (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx (0 : Fin 1) = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- An update has no window coordinate on the vector's axis. -/
private theorem window_entry (wf : ScatterDims.WF ⟨1, ![N]⟩ ⟨2, ![R, 1]⟩ ⟨1, ![R]⟩ [] [0] [0] 1) (e : Fin R) :
    (vecScatterDims N R wf).window (ix1 e) (0 : Fin 1) = 0 := by
  unfold ScatterDims.window
  rw [dif_neg (show (0 : Fin 1) ∉ (vecScatterDims N R wf).sKept from entry_not_kept)]

/-- Where an update of a scatter into a vector lands: update `e` lands on entry `p` exactly when the stored entry number of
    `e`, read signed, is `p`. -/
theorem scatter_vec_lands_iff (wf : ScatterDims.WF ⟨1, ![N]⟩ ⟨2, ![R, 1]⟩ ⟨1, ![R]⟩ [] [0] [0] 1)
    (idx : IVec ⟨2, ![R, 1]⟩ w) (e : Fin R) (p : Fin N) :
    (vecScatterDims N R wf).resultIdx? (ix1 e) idx = some (ix1 p)
      ↔ (idx (ix2 e (0 : Fin 1))).toInt = (p.val : ℤ) := by
  constructor
  · intro h
    unfold ScatterDims.resultIdx? at h
    split at h
    · rename_i hin
      have h0 : ((vecScatterDims N R wf).start (ix1 e) idx (0 : Fin 1)
          + (vecScatterDims N R wf).window (ix1 e) (0 : Fin 1)).toNat = p.val :=
        congrArg Fin.val (congrFun (Option.some.inj h) (0 : Fin 1))
      have hpos := (hin (0 : Fin 1)).1
      rw [start_entry, window_entry] at hpos h0
      omega
    · exact absurd h (by simp)
  · intro hp
    have hin : ∀ a, 0 ≤ (vecScatterDims N R wf).start (ix1 e) idx a + (vecScatterDims N R wf).window (ix1 e) a
        ∧ (vecScatterDims N R wf).start (ix1 e) idx a + (vecScatterDims N R wf).window (ix1 e) a
          < (⟨1, ![N]⟩ : Shape).size a := by
      intro a
      match a with
      | ⟨0, _⟩ =>
        show 0 ≤ (vecScatterDims N R wf).start (ix1 e) idx (0 : Fin 1) + (vecScatterDims N R wf).window (ix1 e) (0 : Fin 1)
          ∧ (vecScatterDims N R wf).start (ix1 e) idx (0 : Fin 1) + (vecScatterDims N R wf).window (ix1 e) (0 : Fin 1) < (N : ℤ)
        rw [start_entry, window_entry, hp]
        have := p.isLt
        omega
    unfold ScatterDims.resultIdx?
    rw [dif_pos hin]
    refine congrArg some ?_
    funext a
    refine Fin.ext ?_
    match a with
    | ⟨0, _⟩ =>
      show ((vecScatterDims N R wf).start (ix1 e) idx (0 : Fin 1)
        + (vecScatterDims N R wf).window (ix1 e) (0 : Fin 1)).toNat = p.val
      rw [start_entry, window_entry, hp]
      omega

/-- An accumulating scatter into a vector `z`, at the ideal reading, read at entry `p`: entry `p` of `z` plus the sum of the
    updates whose stored entry number is `p`. -/
theorem scatter_vec_apply (wf : ScatterDims.WF ⟨1, ![N]⟩ ⟨2, ![R, 1]⟩ ⟨1, ![R]⟩ [] [0] [0] 1)
    (z : (⟨1, ![N]⟩ : Shape).Idx → EReal) (idx : IVec ⟨2, ![R, 1]⟩ w) (upd : (⟨1, ![R]⟩ : Shape).Idx → EReal) (p : Fin N) :
    Ideal.hostScatterAdd (vecScatterDims N R wf) z idx upd (ix1 p) = z (ix1 p) + ∑ e ∈ landsOn idx p, upd (ix1 e) := by
  show z (ix1 p) + ∑ j ∈ Finset.univ.filter (fun j => (vecScatterDims N R wf).resultIdx? j idx = some (ix1 p)), upd j = _
  refine congrArg (fun t => z (ix1 p) + t) ?_
  rw [Finset.sum_filter, sum_idx1]
  unfold landsOn
  rw [Finset.sum_filter]
  refine Finset.sum_congr rfl (fun e _ => ?_)
  by_cases h : (idx (ix2 e (0 : Fin 1))).toInt = (p.val : ℤ)
  · rw [if_pos ((scatter_vec_lands_iff wf idx e p).mpr h), if_pos h]
  · rw [if_neg (fun h' => h ((scatter_vec_lands_iff wf idx e p).mp h')), if_neg h]

/-- The same for the host operation: an accumulating float scatter into a vector `z`, at the ideal reading, read at entry
    `p`, is entry `p` of `z` plus the sum of the updates whose stored entry number is `p`. -/
theorem host_scatterAdd_vec_apply {φ : FTy} (wf : ScatterDims.WF ⟨1, ![N]⟩ ⟨2, ![R, 1]⟩ ⟨1, ![R]⟩ [] [0] [0] 1)
    (z : FVec Ideal ⟨1, ![N]⟩ φ) (idx : IVec ⟨2, ![R, 1]⟩ w) (upd : FVec Ideal ⟨1, ![R]⟩ φ) (p : Fin N) :
    Host.scatterAdd (F := Ideal) (φ := φ) (vecScatterDims N R wf) z idx upd (ix1 p)
      = z (ix1 p) + ∑ e ∈ landsOn idx p, upd (ix1 e) :=
  scatter_vec_apply wf z idx upd p

end Vec

/-! ## The accumulating scatter of rows on top of any table -/

section Rows

variable {N R C w : ℕ}

/-- An accumulating scatter of rows into a table `z`, at the ideal reading, read at `(p, q)`: entry `(p, q)` of `z` plus the
    sum, over the updates `e` whose stored row number is `p`, of lane `q` of update `e`. -/
theorem scatter_rows_apply (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (q : Fin C) :
    Ideal.hostScatterAdd (rowScatterDims N R C wf) z idx upd (ix2 p q)
      = z (ix2 p q) + ∑ e ∈ landsOn idx p, upd (ix2 e q) := by
  have h : (0 : EReal) + ∑ j ∈ Finset.univ.filter (fun j => (rowScatterDims N R C wf).resultIdx? j idx = some (ix2 p q)), upd j
      = ∑ e ∈ landsOn idx p, upd (ix2 e q) := scatter_rows_zero_apply wf idx upd p q
  rw [zero_add] at h
  show z (ix2 p q) + ∑ j ∈ Finset.univ.filter (fun j => (rowScatterDims N R C wf).resultIdx? j idx = some (ix2 p q)), upd j = _
  rw [h]

/-- The same for the host operation: an accumulating float scatter of rows into a table `z`, at the ideal reading, read at
    `(p, q)`, is entry `(p, q)` of `z` plus the sum of lane `q` of the updates whose stored row number is `p`. -/
theorem host_scatterAdd_rows_apply {φ : FTy} (wf : ScatterDims.WF ⟨2, ![N, C]⟩ ⟨2, ![R, 1]⟩ ⟨2, ![R, C]⟩ [1] [0] [0] 1)
    (z : FVec Ideal ⟨2, ![N, C]⟩ φ) (idx : IVec ⟨2, ![R, 1]⟩ w) (upd : FVec Ideal ⟨2, ![R, C]⟩ φ) (p : Fin N) (q : Fin C) :
    Host.scatterAdd (F := Ideal) (φ := φ) (rowScatterDims N R C wf) z idx upd (ix2 p q)
      = z (ix2 p q) + ∑ e ∈ landsOn idx p, upd (ix2 e q) :=
  scatter_rows_apply wf z idx upd p q

end Rows

end Cert.LibVecScatter
-- ==== Proof.KHost1.lean ====
/-
  The host operations between the gate kernel and the first product kernel, read at an index.

  From any buffer contents W (the gate column in its buffer) these three stretches leave: the gates as a vector; the degree
  of every node, the gates of the edges whose stored destination (read signed) is that node summed on top of the zero word,
  plus the one word; dinv, the degree to the power −1/2 where the degree is positive, else the zero word; the weight of every
  edge, dinv at the node its stored source names times its gate times dinv at the node its stored destination names; the
  column of dinv squared; and the first layer's weight matrix.
-/
import proofs.«166963_j81509889343768_2_alg».proof.Proof.Gen.KernelIdeal.Launch
import proofs.«166963_j81509889343768_2_alg».proof.Proof.Spec
import proofs.«166963_j81509889343768_2_alg».proof.Proof.KHost0
import proofs.«166963_j81509889343768_2_alg».proof.Proof.LibVecScatter
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo
open scoped BigOperators

/-- An `[a, 1]` column cast to a vector reads, at `p`, the column at row `p`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The updates of a scatter over the edges that land on node n, the index column being the stored numbers laid out as a
    column: the edges whose stored number, read signed, is n. -/
theorem landsOn_col (s : IVec S1600000 32) (n : Fin 100000) :
    Cert.LibRowAggLinear.landsOn (broadcastInDim S1600000x1 ![0] bcast_S1600000_S1600000x1_0 s) n
      = Finset.univ.filter fun e : Fin 1600000 => (s (ix1 e)).toInt = (n.val : ℤ) := by
  unfold Cert.LibRowAggLinear.landsOn
  refine Finset.filter_congr fun e _ => ?_
  rw [Cert.LibColRow.bcast_a_a1_apply]

variable (W : Valuation τ sig (Elt Ideal))

/-! ## The first stretch: the gates as a vector, the degree, its sign test and its power -/

theorem h1_gate (e : Fin 1600000) :
    (StableHlo.after (hostOps1 (F := Ideal)) W (Proc.devRef .tc main_v26) : S1600000.Idx → EReal) (ix1 e)
      = (W (Proc.devRef .tc main_v25) : S1600000x1.Idx → EReal) (ix2 e (0 : Fin 1)) := by
  have h : StableHlo.after (hostOps1 (F := Ideal)) W (Proc.devRef .tc main_v26)
      = shapeCast S1600000 (W (Proc.devRef .tc main_v25)) shapeCasts_S1600000x1_S1600000 := by
    after_results_simp <;> rfl
  rw [h]
  exact shapeCast_a1_a_apply _ _ e

set_option maxHeartbeats 4000000 in
theorem h1_deg (n : Fin 100000) :
    (StableHlo.after (hostOps1 (F := Ideal)) W (Proc.devRef .tc main_v31) : S100000.Idx → EReal) (ix1 n)
      = (Cert.Spec.z0 + ∑ e ∈ Finset.univ.filter (fun e : Fin 1600000 =>
            (Cert.Spec.at1 (α := BitVec 32) (a := 1600000) (W (Proc.devRef .tc main_v3)) e).toInt = (n.val : ℤ)),
          Cert.Spec.at2 (α := EReal) (a := 1600000) (b := 1) (W (Proc.devRef .tc main_v25)) e (0 : Fin 1)) + Cert.Spec.o1 := by
  have h : StableHlo.after (hostOps1 (F := Ideal)) W (Proc.devRef .tc main_v31)
      = (addf (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 (W (Proc.devRef .tc main_v3) : IVec S1600000 32))
            (shapeCast S1600000 (W (Proc.devRef .tc main_v25) : FVec Ideal S1600000x1 .f32) shapeCasts_S1600000x1_S1600000))
          (broadcastInDim S100000 ![] bcast_S_S100000 (constant (F := Ideal) S_ .f32 0x3F800000#32)) : FVec Ideal S100000 .f32) := by
    after_results_simp <;> rfl
  rw [h, addf_apply]
  refine congrArg₂ (· + ·) ?_ rfl
  refine (Cert.LibVecScatter.host_scatterAdd_vec_apply (N := 100000) (R := 1600000)
    scatter_S100000_S1600000x1_S1600000_n_0_0_1.wf _ _ _ n).trans ?_
  rw [landsOn_col]
  refine congrArg₂ (· + ·) rfl (Finset.sum_congr rfl fun e _ => ?_)
  exact shapeCast_a1_a_apply _ _ e

/-! ## The degree as the operations spell it, its sign test and its power -/

/-- The degree vector as the first stretch's operations spell it. -/
def degTerm : FVec Ideal S100000 .f32 :=
  addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (W (Proc.devRef .tc main_v3) : IVec S1600000 32))
      (shapeCast S1600000 (W (Proc.devRef .tc main_v25) : FVec Ideal S1600000x1 .f32) shapeCasts_S1600000x1_S1600000))
    (broadcastInDim S100000 ![] bcast_S_S100000 (constant (F := Ideal) S_ .f32 0x3F800000#32))

set_option maxHeartbeats 4000000 in
theorem h1_deg_arr : StableHlo.after (hostOps1 (F := Ideal)) W (Proc.devRef .tc main_v31) = degTerm W := by
  after_results_simp <;> rfl

set_option maxHeartbeats 4000000 in
theorem h1_pos_arr : StableHlo.after (hostOps1 (F := Ideal)) W (Proc.devRef .tc main_v33)
    = cmpf .ogt (degTerm W) (broadcastInDim S100000 ![] bcast_S_S100000 (constant (F := Ideal) S_ .f32 0x00000000#32)) := by
  after_results_simp <;> rfl

set_option maxHeartbeats 4000000 in
theorem h1_pow_arr : StableHlo.after (hostOps1 (F := Ideal)) W (Proc.devRef .tc main_v35)
    = Host.powf (degTerm W) (broadcastInDim S100000 ![] bcast_S_S100000 (constant (F := Ideal) S_ .f32 0xBF000000#32)) := by
  after_results_simp <;> rfl

theorem h1_c6 : StableHlo.after (hostOps1 (F := Ideal)) W (Proc.devRef .tc main_cst_6) = constant (F := Ideal) S_ .f32 0x00000000#32 := by
  after_results_simp <;> rfl

theorem h1_keep_v1 : StableHlo.after (hostOps1 (F := Ideal)) W (Proc.devRef .tc main_v1) = W (Proc.devRef .tc main_v1) := by
  after_results_simp <;> rfl
theorem h1_keep_v3 : StableHlo.after (hostOps1 (F := Ideal)) W (Proc.devRef .tc main_v3) = W (Proc.devRef .tc main_v3) := by
  after_results_simp <;> rfl
theorem h1_keep_arg0 : StableHlo.after (hostOps1 (F := Ideal)) W (Proc.devRef .tc main_arg0) = W (Proc.devRef .tc main_arg0) := by
  after_results_simp <;> rfl
theorem h1_keep_arg7 : StableHlo.after (hostOps1 (F := Ideal)) W (Proc.devRef .tc main_arg7) = W (Proc.devRef .tc main_arg7) := by
  after_results_simp <;> rfl

/-! ## The second stretch: dinv -/

theorem h11_dinv_arr : StableHlo.after (hostOps1_1 (F := Ideal)) W (Proc.devRef .tc main_v36)
    = select (W (Proc.devRef .tc main_v33) : IVec S100000 1) (W (Proc.devRef .tc main_v35) : FVec Ideal S100000 .f32)
        (broadcastInDim S100000 ![] bcast_S_S100000 (W (Proc.devRef .tc main_cst_6) : FVec Ideal S_ .f32)) := by
  after_results_simp <;> rfl

theorem h11_keep_v26 : StableHlo.after (hostOps1_1 (F := Ideal)) W (Proc.devRef .tc main_v26) = W (Proc.devRef .tc main_v26) := by
  after_results_simp <;> rfl
theorem h11_keep_v1 : StableHlo.after (hostOps1_1 (F := Ideal)) W (Proc.devRef .tc main_v1) = W (Proc.devRef .tc main_v1) := by
  after_results_simp <;> rfl
theorem h11_keep_v3 : StableHlo.after (hostOps1_1 (F := Ideal)) W (Proc.devRef .tc main_v3) = W (Proc.devRef .tc main_v3) := by
  after_results_simp <;> rfl
theorem h11_keep_arg0 : StableHlo.after (hostOps1_1 (F := Ideal)) W (Proc.devRef .tc main_arg0) = W (Proc.devRef .tc main_arg0) := by
  after_results_simp <;> rfl
theorem h11_keep_arg7 : StableHlo.after (hostOps1_1 (F := Ideal)) W (Proc.devRef .tc main_arg7) = W (Proc.devRef .tc main_arg7) := by
  after_results_simp <;> rfl

end Cert.KernelIdeal.HostValue

end
-- ==== Proof.KHost1b.lean ====
/-
  The host operations right before the first product kernel, read at an index: the weight of every edge (dinv at the node
  its stored source names, times its gate, times dinv at the node its stored destination names), the column of dinv squared,
  and the first layer's weight matrix, from any buffer contents W.
-/
import proofs.«166963_j81509889343768_2_alg».proof.Proof.Gen.KernelIdeal.Launch
import proofs.«166963_j81509889343768_2_alg».proof.Proof.Spec
import proofs.«166963_j81509889343768_2_alg».proof.Proof.KHost0
import proofs.«166963_j81509889343768_2_alg».proof.Proof.LibRowIndex
import proofs.«166963_j81509889343768_2_alg».proof.Proof.LibColRow
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo
open scoped BigOperators

variable (W : Valuation τ sig (Elt Ideal))

/-! ## The third stretch: the edge weights, the column of dinv squared, the first layer's weight matrix -/

set_option maxHeartbeats 4000000 in
/-- The weight of edge e: dinv at the node its stored source names, times its gate, times dinv at the node its stored
    destination names. -/
theorem h12_weight (e : Fin 1600000) :
    Cert.Spec.at1 (α := EReal) (a := 1600000) (StableHlo.after (hostOps1_2 (F := Ideal)) W (Proc.devRef .tc main_v52)) e
      = (Cert.Spec.at1 (α := EReal) (a := 100000) (W (Proc.devRef .tc main_v36))
            (Cert.Spec.node (Cert.Spec.at1 (α := BitVec 32) (a := 1600000) (W (Proc.devRef .tc main_v1)) e))
          * Cert.Spec.at1 (α := EReal) (a := 1600000) (W (Proc.devRef .tc main_v26)) e)
        * Cert.Spec.at1 (α := EReal) (a := 100000) (W (Proc.devRef .tc main_v36))
            (Cert.Spec.node (Cert.Spec.at1 (α := BitVec 32) (a := 1600000) (W (Proc.devRef .tc main_v3)) e)) := by
  have h : StableHlo.after (hostOps1_2 (F := Ideal)) W (Proc.devRef .tc main_v52)
      = (mulf (mulf (Host.gather gather_S100000_S1600000x1_S1600000_n_0_n_n_0_1_1 (W (Proc.devRef .tc main_v36) : FVec Ideal S100000 .f32)
            (broadcastInDim S1600000x1 ![0] bcast_S1600000_S1600000x1_0
              (select (cmpi .slt (W (Proc.devRef .tc main_v1) : IVec S1600000 32) (broadcastInDim S1600000 ![] bcast_S_S1600000 (constantI S_ 32 0#32)))
                (addi (W (Proc.devRef .tc main_v1) : IVec S1600000 32) (broadcastInDim S1600000 ![] bcast_S_S1600000 (constantI S_ 32 100000#32)))
                (W (Proc.devRef .tc main_v1) : IVec S1600000 32))))
          (W (Proc.devRef .tc main_v26) : FVec Ideal S1600000 .f32))
        (Host.gather gather_S100000_S1600000x1_S1600000_n_0_n_n_0_1_1 (W (Proc.devRef .tc main_v36) : FVec Ideal S100000 .f32)
            (broadcastInDim S1600000x1 ![0] bcast_S1600000_S1600000x1_0
              (select (cmpi .slt (W (Proc.devRef .tc main_v3) : IVec S1600000 32) (broadcastInDim S1600000 ![] bcast_S_S1600000 (constantI S_ 32 0#32)))
                (addi (W (Proc.devRef .tc main_v3) : IVec S1600000 32) (broadcastInDim S1600000 ![] bcast_S_S1600000 (constantI S_ 32 100000#32)))
                (W (Proc.devRef .tc main_v3) : IVec S1600000 32)))) : FVec Ideal S1600000 .f32) := by
    after_results_simp <;> rfl
  show (StableHlo.after (hostOps1_2 (F := Ideal)) W (Proc.devRef .tc main_v52) : S1600000.Idx → EReal) (ix1 e) = _
  rw [h, mulf_apply, mulf_apply]
  refine congrArg₂ (· * ·) (congrArg₂ (· * ·) ?_ rfl) ?_
  · refine (Cert.LibRowIndex.gather_vec_apply (N := 100000) (R := 1600000) (by decide)
      gather_S100000_S1600000x1_S1600000_n_0_n_n_0_1_1.wf _ _ e).trans ?_
    rw [rowOf_wrapcol]
  · refine (Cert.LibRowIndex.gather_vec_apply (N := 100000) (R := 1600000) (by decide)
      gather_S100000_S1600000x1_S1600000_n_0_n_n_0_1_1.wf _ _ e).trans ?_
    rw [rowOf_wrapcol]

set_option maxHeartbeats 4000000 in
/-- The column of dinv squared. -/
theorem h12_dinv2 (n : Fin 100000) :
    Cert.Spec.at2 (α := EReal) (a := 100000) (b := 1) (StableHlo.after (hostOps1_2 (F := Ideal)) W (Proc.devRef .tc main_v54)) n (0 : Fin 1)
      = Cert.Spec.at1 (α := EReal) (a := 100000) (W (Proc.devRef .tc main_v36)) n
        * Cert.Spec.at1 (α := EReal) (a := 100000) (W (Proc.devRef .tc main_v36)) n := by
  have h : StableHlo.after (hostOps1_2 (F := Ideal)) W (Proc.devRef .tc main_v54)
      = (broadcastInDim S100000x1 ![0] bcast_S100000_S100000x1_0
          (mulf (W (Proc.devRef .tc main_v36) : FVec Ideal S100000 .f32) (W (Proc.devRef .tc main_v36) : FVec Ideal S100000 .f32)) : FVec Ideal S100000x1 .f32) := by
    after_results_simp <;> rfl
  show (StableHlo.after (hostOps1_2 (F := Ideal)) W (Proc.devRef .tc main_v54) : S100000x1.Idx → EReal) (ix2 n (0 : Fin 1)) = _
  rw [h, Cert.LibColRow.bcast_a_a1_apply]
  rfl

set_option maxHeartbeats 4000000 in
/-- The first layer's weight matrix. -/
theorem h12_cw (k q : Fin 128) :
    Cert.Spec.at2 (α := EReal) (a := 128) (b := 128) (StableHlo.after (hostOps1_2 (F := Ideal)) W (Proc.devRef .tc main_v56)) k q
      = Cert.Spec.at3 (α := EReal) (a := 2) (b := 128) (c := 128) (W (Proc.devRef .tc main_arg7)) (0 : Fin 2) k q := by
  have h : StableHlo.after (hostOps1_2 (F := Ideal)) W (Proc.devRef .tc main_v56)
      = (shapeCast S128x128 (extractStridedSlice S1x128x128 ![0, 0, 0] (W (Proc.devRef .tc main_arg7) : FVec Ideal S2x128x128 .f32)
          slices_S2x128x128_S1x128x128_0_0_0) shapeCasts_S1x128x128_S128x128 : FVec Ideal S128x128 .f32) := by
    after_results_simp <;> rfl
  show (StableHlo.after (hostOps1_2 (F := Ideal)) W (Proc.devRef .tc main_v56) : S128x128.Idx → EReal) (ix2 k q) = _
  rw [h, shapeCast_1ab_ab_apply]
  exact extractStridedSlice_apply _ _ _ _ (ix3 (0 : Fin 2) k q) (fun a => by
    match a with
    | ⟨0, _⟩ => rfl
    | ⟨1, _⟩ => exact (Nat.zero_add _).symm
    | ⟨2, _⟩ => exact (Nat.zero_add _).symm)

theorem h12_keep_arg0 : StableHlo.after (hostOps1_2 (F := Ideal)) W (Proc.devRef .tc main_arg0) = W (Proc.devRef .tc main_arg0) := by
  after_results_simp <;> rfl
theorem h12_keep_v1 : StableHlo.after (hostOps1_2 (F := Ideal)) W (Proc.devRef .tc main_v1) = W (Proc.devRef .tc main_v1) := by
  after_results_simp <;> rfl
theorem h12_keep_v3 : StableHlo.after (hostOps1_2 (F := Ideal)) W (Proc.devRef .tc main_v3) = W (Proc.devRef .tc main_v3) := by
  after_results_simp <;> rfl

end Cert.KernelIdeal.HostValue

end
-- ==== Proof.KHost1c.lean ====
/-
  dinv from the degree, one step at a time: the first stretch leaves, at every node, the sign test of the degree against the
  zero word, the degree to the power of the word −1/2, and the zero word as the fill value; the second stretch selects
  between the power and the fill value by the sign test.
-/
import proofs.«166963_j81509889343768_2_alg».proof.Proof.KHost1

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo

/-- The host's power of two vectors reads, at an index, the power of the entries. -/
theorem hostPowf_apply {s : Shape} {φ : FTy} (x y : FVec Ideal s φ) (i : s.Idx) :
    Host.powf x y i = FloatOps.hostPowf (x i) (y i) := rfl

variable (W : Valuation τ sig (Elt Ideal))

/-- The sign test of the degree of node n. -/
theorem h1_pos (n : Fin 100000) :
    Cert.Spec.at1 (α := BitVec 1) (a := 100000) (StableHlo.after (hostOps1 (F := Ideal)) W (Proc.devRef .tc main_v33)) n
      = Ideal.cmp .ogt (Cert.Spec.at1 (α := EReal) (a := 100000) (StableHlo.after (hostOps1 (F := Ideal)) W (Proc.devRef .tc main_v31)) n) Cert.Spec.z0 := by
  show (StableHlo.after (hostOps1 (F := Ideal)) W (Proc.devRef .tc main_v33) : S100000.Idx → BitVec 1) (ix1 n)
    = Ideal.cmp .ogt ((StableHlo.after (hostOps1 (F := Ideal)) W (Proc.devRef .tc main_v31) : S100000.Idx → EReal) (ix1 n)) Cert.Spec.z0
  rw [h1_pos_arr, h1_deg_arr]
  generalize degTerm W = d
  rw [cmpf_apply]
  rfl

/-- The degree of node n to the power of the word −1/2. -/
theorem h1_pow (n : Fin 100000) :
    Cert.Spec.at1 (α := EReal) (a := 100000) (StableHlo.after (hostOps1 (F := Ideal)) W (Proc.devRef .tc main_v35)) n
      = Ideal.pow (Cert.Spec.at1 (α := EReal) (a := 100000) (StableHlo.after (hostOps1 (F := Ideal)) W (Proc.devRef .tc main_v31)) n) Cert.Spec.mhalf := by
  show (StableHlo.after (hostOps1 (F := Ideal)) W (Proc.devRef .tc main_v35) : S100000.Idx → EReal) (ix1 n)
    = Ideal.pow ((StableHlo.after (hostOps1 (F := Ideal)) W (Proc.devRef .tc main_v31) : S100000.Idx → EReal) (ix1 n)) Cert.Spec.mhalf
  rw [h1_pow_arr, h1_deg_arr]
  generalize degTerm W = d
  rw [hostPowf_apply]
  rfl

/-- The fill value: the zero word. -/
theorem h1_fill : (StableHlo.after (hostOps1 (F := Ideal)) W (Proc.devRef .tc main_cst_6) : S_.Idx → EReal) ix0 = Cert.Spec.z0 := by
  rw [h1_c6]
  rfl

/-- dinv of node n after the second stretch, from the first stretch's sign test, power and fill value at n. -/
theorem h11_dinv (n : Fin 100000) :
    Cert.Spec.at1 (α := EReal) (a := 100000) (StableHlo.after (hostOps1_1 (F := Ideal)) W (Proc.devRef .tc main_v36)) n
      = Scalar.select (Cert.Spec.at1 (α := BitVec 1) (a := 100000) (W (Proc.devRef .tc main_v33)) n)
          (Cert.Spec.at1 (α := EReal) (a := 100000) (W (Proc.devRef .tc main_v35)) n)
          ((W (Proc.devRef .tc main_cst_6) : S_.Idx → EReal) ix0) := by
  show (StableHlo.after (hostOps1_1 (F := Ideal)) W (Proc.devRef .tc main_v36) : S100000.Idx → EReal) (ix1 n) = _
  rw [h11_dinv_arr, select_apply]
  refine congrArg (Scalar.select _ _) ?_
  exact broadcastInDim_apply _ _ _ (ix1 n) ix0 (fun a => a.elim0)

end Cert.KernelIdeal.HostValue

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KGate.lean ====
/-
  The edge-gate region, read at an edge.

  The region's pipeline walks the 1600000 edges in 250 blocks of 6400. At each block the body forms, for each of the
  block's edges, the hidden row of the gate's perceptron (four products of length 16 of the edge's two motif rows, their
  absolute difference and their product against the four bands of the first weight matrix, plus the bias, ramped), its
  product with the second weight column plus the second bias, times one, through the logistic and clipped to [0, 1].
  Block t of the two motif arrays is rows 6400·t … 6400·t + 6399; the small arrays are whole at every block. So the
  element of the region's result for edge e is the gate of that edge's two motif rows.
-/
import proofs.«166963_j81509889343768_2_alg».proof.Proof.Gen.KernelIdeal.Frame
import proofs.«166963_j81509889343768_2_alg».proof.Proof.Spec
import proofs.«166963_j81509889343768_2_alg».proof.Proof.LibMatmulPlain
import Idealize.ShloMosaic.Lib.Pipeline.Value
import Idealize.ShloMosaic.Lib.ValueLayout

noncomputable section

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's arithmetic at one edge of a block -/

/-- The perceptron's output before the second bias, at row r of a block: the sum over the 64 hidden units of the ramped
    hidden value times the second weight. -/
theorem pre_apply (x0 x1 : Vec Ideal S6400x16 .bf16) (x2 x3 x4 x5 : Vec Ideal S16x64 .f32) (x6 : Vec Ideal S1x64 .f32)
    (x7 : Vec Ideal S64x1 .f32) (r : Fin 6400) :
    Gen.k0_pay2 (F := Ideal) x0 x1 x2 x3 x4 x5 x6 x7 (ix2 r (0 : Fin 1))
      = ∑ j : Fin 64, Cert.Spec.hidden (fun k => x0 (ix2 r k)) (fun k => x1 (ix2 r k)) (fun k j => x2 (ix2 k j))
          (fun k j => x3 (ix2 k j)) (fun k j => x4 (ix2 k j)) (fun k j => x5 (ix2 k j)) (fun j => x6 (ix2 (0 : Fin 1) j)) j
            * x7 (ix2 j (0 : Fin 1)) := by
  unfold Gen.k0_pay2
  simp only [shapeCast_self]
  rw [show dot_S6400x64_S64x1_S6400x1_1_0_0_1_n_n = DotDims.plain 6400 64 1 from rfl,
    Cert.LibMatmulPlain.matmul_plain_zero_apply]
  refine Finset.sum_congr rfl fun j _ => ?_
  unfold Cert.Spec.hidden
  simp only [truncf_apply, maximumf_apply, addf_apply, broadcast_apply]
  rw [show dot_S6400x16_S16x64_S6400x64_1_0_0_1_n_n = DotDims.plain 6400 16 64 from rfl]
  simp only [Cert.LibMatmulPlain.matmul_plain_zero_apply, broadcastTo_1b_ab_apply, truncf_apply, mulf_apply, subf_apply]
  rfl

/-- The body's stored value at row r of a block is the gate of that row's two motif rows. -/
theorem pay_apply (x0 x1 : Vec Ideal S6400x16 .bf16) (x2 x3 x4 x5 : Vec Ideal S16x64 .f32) (x6 : Vec Ideal S1x64 .f32)
    (x7 : Vec Ideal S64x1 .f32) (x8 : Vec Ideal S1x1 .f32) (r : Fin 6400) :
    Gen.k0_pay1 (F := Ideal) (Gen.k0_pay2 x0 x1 x2 x3 x4 x5 x6 x7) x8 (ix2 r (0 : Fin 1))
      = Cert.Spec.gate (fun k => x0 (ix2 r k)) (fun k => x1 (ix2 r k)) (fun k j => x2 (ix2 k j))
          (fun k j => x3 (ix2 k j)) (fun k j => x4 (ix2 k j)) (fun k j => x5 (ix2 k j)) (fun j => x6 (ix2 (0 : Fin 1) j))
          (fun j => x7 (ix2 j (0 : Fin 1))) (x8 (ix2 (0 : Fin 1) (0 : Fin 1))) := by
  unfold Gen.k0_pay1 Cert.Spec.gate
  simp only [shapeCast_self]
  show min _ (max _ (Ideal.logistic ((Gen.k0_pay2 (F := Ideal) x0 x1 x2 x3 x4 x5 x6 x7 (ix2 r (0 : Fin 1))
    + broadcastTo S6400x1 x8 broadcasts_S1x1_S6400x1 (ix2 r (0 : Fin 1))) * _))) = _
  rw [pre_apply, broadcastTo_1b_ab_apply]
  rfl

/-- The same at any index of the block's one column. -/
theorem pay_at (x0 x1 : Vec Ideal S6400x16 .bf16) (x2 x3 x4 x5 : Vec Ideal S16x64 .f32) (x6 : Vec Ideal S1x64 .f32)
    (x7 : Vec Ideal S64x1 .f32) (x8 : Vec Ideal S1x1 .f32) (j : S6400x1.Idx) :
    Gen.k0_pay1 (F := Ideal) (Gen.k0_pay2 x0 x1 x2 x3 x4 x5 x6 x7) x8 j
      = Cert.Spec.gate (fun k => x0 (ix2 (j 0) k)) (fun k => x1 (ix2 (j 0) k)) (fun k j => x2 (ix2 k j))
          (fun k j => x3 (ix2 k j)) (fun k j => x4 (ix2 k j)) (fun k j => x5 (ix2 k j)) (fun j => x6 (ix2 (0 : Fin 1) j))
          (fun j => x7 (ix2 j (0 : Fin 1))) (x8 (ix2 (0 : Fin 1) (0 : Fin 1))) := by
  obtain ⟨r, q, rfl⟩ : ∃ (r : Fin 6400) (q : Fin 1), j = ix2 r q := ⟨j 0, j 1, eq_ix2 j⟩
  obtain rfl : q = 0 := Subsingleton.elim _ _
  exact pay_apply x0 x1 x2 x3 x4 x5 x6 x7 x8 r

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the 250 points: the two motif windows and the result move one block of rows per point,
    the seven small windows stay at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The gate of edge e, from the arrays as the region finds them. -/
def gateAt (c : Dev nD) (e : Fin 1600000) : EReal :=
  Cert.Spec.gate (fun k => (V c main_v11 : S1600000x16.Idx → EReal) (ix2 e k)) (fun k => (V c main_v18 : S1600000x16.Idx → EReal) (ix2 e k))
    (fun k j => (V c main_v19 : S16x64.Idx → EReal) (ix2 k j)) (fun k j => (V c main_v20 : S16x64.Idx → EReal) (ix2 k j))
    (fun k j => (V c main_v21 : S16x64.Idx → EReal) (ix2 k j)) (fun k j => (V c main_v22 : S16x64.Idx → EReal) (ix2 k j))
    (fun j => (V c main_v23 : S1x64.Idx → EReal) (ix2 (0 : Fin 1) j)) (fun j => (V c main_arg5 : S64x1.Idx → EReal) (ix2 j (0 : Fin 1)))
    ((V c main_v24 : S1x1.Idx → EReal) (ix2 (0 : Fin 1) (0 : Fin 1)))

/-- The array the region leaves: at edge e, the gate of e. -/
def G (c : Dev nD) : S1600000x1.Idx → EReal := fun i => gateAt V c (i 0)

/-- Block t of the first motif array at row r is row 6400·t + r of the array. -/
theorem blk0_apply (c : Dev nD) (t : Fin cfg0.N) (r : Fin 6400) (k : Fin 16) (e : Fin 1600000) (he : e.val = 6400 * t.val + r.val) :
    (iblk0 V c 0 t : Vec Ideal S6400x16 .bf16) (ix2 r k) = (V c main_v11 : S1600000x16.Idx → EReal) (ix2 e k) := by
  obtain ⟨⟨h0, h1⟩, -⟩ := idx_facts t
  unfold iblk0
  rw [View.read_apply]
  show V c main_v11 _ = V c main_v11 _
  refine congrArg (V c main_v11) (funext fun a => Fin.ext ?_)
  match a with
  | ⟨0, _⟩ => show win0_0.index t (0 : Fin 2) * 6400 + 1 * r.val = e.val; rw [h0, he]; omega
  | ⟨1, _⟩ => show win0_0.index t (1 : Fin 2) * 16 + 1 * k.val = k.val; rw [h1]; omega

/-- Block t of the second motif array at row r is row 6400·t + r of the array. -/
theorem blk1_apply (c : Dev nD) (t : Fin cfg0.N) (r : Fin 6400) (k : Fin 16) (e : Fin 1600000) (he : e.val = 6400 * t.val + r.val) :
    (iblk0 V c 1 t : Vec Ideal S6400x16 .bf16) (ix2 r k) = (V c main_v18 : S1600000x16.Idx → EReal) (ix2 e k) := by
  obtain ⟨-, ⟨h0, h1⟩, -⟩ := idx_facts t
  unfold iblk0
  rw [View.read_apply]
  show V c main_v18 _ = V c main_v18 _
  refine congrArg (V c main_v18) (funext fun a => Fin.ext ?_)
  match a with
  | ⟨0, _⟩ => show win0_1.index t (0 : Fin 2) * 6400 + 1 * r.val = e.val; rw [h0, he]; omega
  | ⟨1, _⟩ => show win0_1.index t (1 : Fin 2) * 16 + 1 * k.val = k.val; rw [h1]; omega

/-- Window 2's block is its whole array at every point. -/
theorem blk2_apply (c : Dev nD) (t : Fin cfg0.N) (p : Fin 16) (q : Fin 64) :
    (iblk0 V c 2 t : Vec Ideal S16x64 .f32) (ix2 p q) = (V c main_v19 : S16x64.Idx → EReal) (ix2 p q) := by
  obtain ⟨-, -, ⟨h0, h1⟩, -⟩ := idx_facts t
  unfold iblk0
  rw [View.read_apply]
  show V c main_v19 _ = V c main_v19 _
  refine congrArg (V c main_v19) (funext fun a => Fin.ext ?_)
  match a with
  | ⟨0, _⟩ => show win0_2.index t (0 : Fin 2) * 16 + 1 * p.val = p.val; rw [h0]; omega
  | ⟨1, _⟩ => show win0_2.index t (1 : Fin 2) * 64 + 1 * q.val = q.val; rw [h1]; omega

/-- Window 3's block is its whole array at every point. -/
theorem blk3_apply (c : Dev nD) (t : Fin cfg0.N) (p : Fin 16) (q : Fin 64) :
    (iblk0 V c 3 t : Vec Ideal S16x64 .f32) (ix2 p q) = (V c main_v20 : S16x64.Idx → EReal) (ix2 p q) := by
  obtain ⟨-, -, -, ⟨h0, h1⟩, -⟩ := idx_facts t
  unfold iblk0
  rw [View.read_apply]
  show V c main_v20 _ = V c main_v20 _
  refine congrArg (V c main_v20) (funext fun a => Fin.ext ?_)
  match a with
  | ⟨0, _⟩ => show win0_3.index t (0 : Fin 2) * 16 + 1 * p.val = p.val; rw [h0]; omega
  | ⟨1, _⟩ => show win0_3.index t (1 : Fin 2) * 64 + 1 * q.val = q.val; rw [h1]; omega

/-- Window 4's block is its whole array at every point. -/
theorem blk4_apply (c : Dev nD) (t : Fin cfg0.N) (p : Fin 16) (q : Fin 64) :
    (iblk0 V c 4 t : Vec Ideal S16x64 .f32) (ix2 p q) = (V c main_v21 : S16x64.Idx → EReal) (ix2 p q) := by
  obtain ⟨-, -, -, -, ⟨h0, h1⟩, -⟩ := idx_facts t
  unfold iblk0
  rw [View.read_apply]
  show V c main_v21 _ = V c main_v21 _
  refine congrArg (V c main_v21) (funext fun a => Fin.ext ?_)
  match a with
  | ⟨0, _⟩ => show win0_4.index t (0 : Fin 2) * 16 + 1 * p.val = p.val; rw [h0]; omega
  | ⟨1, _⟩ => show win0_4.index t (1 : Fin 2) * 64 + 1 * q.val = q.val; rw [h1]; omega

/-- Window 5's block is its whole array at every point. -/
theorem blk5_apply (c : Dev nD) (t : Fin cfg0.N) (p : Fin 16) (q : Fin 64) :
    (iblk0 V c 5 t : Vec Ideal S16x64 .f32) (ix2 p q) = (V c main_v22 : S16x64.Idx → EReal) (ix2 p q) := by
  obtain ⟨-, -, -, -, -, ⟨h0, h1⟩, -⟩ := idx_facts t
  unfold iblk0
  rw [View.read_apply]
  show V c main_v22 _ = V c main_v22 _
  refine congrArg (V c main_v22) (funext fun a => Fin.ext ?_)
  match a with
  | ⟨0, _⟩ => show win0_5.index t (0 : Fin 2) * 16 + 1 * p.val = p.val; rw [h0]; omega
  | ⟨1, _⟩ => show win0_5.index t (1 : Fin 2) * 64 + 1 * q.val = q.val; rw [h1]; omega

/-- Window 6's block is its whole array at every point. -/
theorem blk6_apply (c : Dev nD) (t : Fin cfg0.N) (p : Fin 1) (q : Fin 64) :
    (iblk0 V c 6 t : Vec Ideal S1x64 .f32) (ix2 p q) = (V c main_v23 : S1x64.Idx → EReal) (ix2 p q) := by
  obtain ⟨-, -, -, -, -, -, ⟨h0, h1⟩, -⟩ := idx_facts t
  unfold iblk0
  rw [View.read_apply]
  show V c main_v23 _ = V c main_v23 _
  refine congrArg (V c main_v23) (funext fun a => Fin.ext ?_)
  match a with
  | ⟨0, _⟩ => show win0_6.index t (0 : Fin 2) * 1 + 1 * p.val = p.val; rw [h0]; omega
  | ⟨1, _⟩ => show win0_6.index t (1 : Fin 2) * 64 + 1 * q.val = q.val; rw [h1]; omega

/-- Window 7's block is its whole array at every point. -/
theorem blk7_apply (c : Dev nD) (t : Fin cfg0.N) (p : Fin 64) (q : Fin 1) :
    (iblk0 V c 7 t : Vec Ideal S64x1 .f32) (ix2 p q) = (V c main_arg5 : S64x1.Idx → EReal) (ix2 p q) := by
  obtain ⟨-, -, -, -, -, -, -, ⟨h0, h1⟩, -⟩ := idx_facts t
  unfold iblk0
  rw [View.read_apply]
  show V c main_arg5 _ = V c main_arg5 _
  refine congrArg (V c main_arg5) (funext fun a => Fin.ext ?_)
  match a with
  | ⟨0, _⟩ => show win0_7.index t (0 : Fin 2) * 64 + 1 * p.val = p.val; rw [h0]; omega
  | ⟨1, _⟩ => show win0_7.index t (1 : Fin 2) * 1 + 1 * q.val = q.val; rw [h1]; omega

/-- Window 8's block is its whole array at every point. -/
theorem blk8_apply (c : Dev nD) (t : Fin cfg0.N) (p : Fin 1) (q : Fin 1) :
    (iblk0 V c 8 t : Vec Ideal S1x1 .f32) (ix2 p q) = (V c main_v24 : S1x1.Idx → EReal) (ix2 p q) := by
  obtain ⟨-, -, -, -, -, -, -, -, ⟨h0, h1⟩, -⟩ := idx_facts t
  unfold iblk0
  rw [View.read_apply]
  show V c main_v24 _ = V c main_v24 _
  refine congrArg (V c main_v24) (funext fun a => Fin.ext ?_)
  match a with
  | ⟨0, _⟩ => show win0_8.index t (0 : Fin 2) * 1 + 1 * p.val = p.val; rw [h0]; omega
  | ⟨1, _⟩ => show win0_8.index t (1 : Fin 2) * 1 + 1 * q.val = q.val; rw [h1]; omega

/-- The gate formed from the blocks at point t, at row r of the block, is the gate of edge 6400·t + r. -/
theorem point_eq (c : Dev nD) (t : Fin cfg0.N) (r : Fin 6400) (e : Fin 1600000) (he : e.val = 6400 * t.val + r.val) :
    Cert.Spec.gate (fun k => (iblk0 V c 0 t : Vec Ideal S6400x16 .bf16) (ix2 r k)) (fun k => (iblk0 V c 1 t : Vec Ideal S6400x16 .bf16) (ix2 r k))
        (fun k j => (iblk0 V c 2 t : Vec Ideal S16x64 .f32) (ix2 k j)) (fun k j => (iblk0 V c 3 t : Vec Ideal S16x64 .f32) (ix2 k j))
        (fun k j => (iblk0 V c 4 t : Vec Ideal S16x64 .f32) (ix2 k j)) (fun k j => (iblk0 V c 5 t : Vec Ideal S16x64 .f32) (ix2 k j))
        (fun j => (iblk0 V c 6 t : Vec Ideal S1x64 .f32) (ix2 (0 : Fin 1) j)) (fun j => (iblk0 V c 7 t : Vec Ideal S64x1 .f32) (ix2 j (0 : Fin 1)))
        ((iblk0 V c 8 t : Vec Ideal S1x1 .f32) (ix2 (0 : Fin 1) (0 : Fin 1)))
      = gateAt V c e := by
  unfold gateAt
  rw [blk8_apply]
  congr 1
  · funext k; exact blk0_apply V c t r k e he
  · funext k; exact blk1_apply V c t r k e he
  · funext k j; exact blk2_apply V c t k j
  · funext k j; exact blk3_apply V c t k j
  · funext k j; exact blk4_apply V c t k j
  · funext k j; exact blk5_apply V c t k j
  · funext j; exact blk6_apply V c t 0 j
  · funext j; exact blk7_apply V c t j 0

/-- What point t writes back is block t of the array of gates. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S6400x16) hz, View.ld_unit_zero (S := S16x64) hz, View.ld_unit_zero (S := S1x64) hz,
    View.ld_unit_zero (S := S64x1) hz, View.ld_unit_zero (S := S1x1) hz]
  funext j
  refine (pay_at _ _ _ _ _ _ _ _ _ _).trans ?_
  refine point_eq V c t _ _ ?_
  obtain ⟨-, -, -, -, -, -, -, -, -, ⟨h0, -⟩⟩ := idx_facts t
  show win0_9.index t (0 : Fin 2) * 6400 + 1 * (j 0).val = 6400 * t.val + (j 0).val
  rw [h0]; omega

/-- An edge is in point t's block iff its number is in that block's range of 6400. -/
theorem mem_blk (t : Fin cfg0.N) (i : S1600000x1.Idx) :
    i ∈ ((cfg0.win 9).blk t).view.set ↔ ∀ a : Fin 2, win0_9.index t a * S6400x1.size a ≤ (i a).val
      ∧ (i a).val < win0_9.index t a * S6400x1.size a + S6400x1.size a := by
  show i ∈ ((View.whole main_v25).slice (win0_9.rect t)).set ↔ _
  rw [View.set_slice_whole, Rect.mem_set_unit]
  exact Iff.rfl

/-- Every edge is in the block of the point numbered by its quotient by 6400, and every point writes back. -/
theorem cover (i : S1600000x1.Idx) : ∃ t : Fin cfg0.N, (cfg0.win 9).flush t = true ∧ i ∈ ((cfg0.win 9).blk t).view.set := by
  have hi0 : (i 0).val < 1600000 := (i 0).isLt
  have hi1 : (i 1).val < 1 := (i 1).isLt
  have hN : cfg0.N = 250 := N_0
  obtain ⟨t, ht⟩ : ∃ t : Fin cfg0.N, t.val = (i 0).val / 6400 := ⟨⟨(i 0).val / 6400, by rw [hN]; omega⟩, rfl⟩
  refine ⟨t, flush0_9 t, ?_⟩
  rw [mem_blk]
  obtain ⟨-, -, -, -, -, -, -, -, -, ⟨h0, h1⟩⟩ := idx_facts t
  intro a
  match a with
  | ⟨0, _⟩ =>
    show win0_9.index t (0 : Fin 2) * 6400 ≤ (i 0).val ∧ (i 0).val < win0_9.index t (0 : Fin 2) * 6400 + 6400
    rw [h0]; omega
  | ⟨1, _⟩ =>
    show win0_9.index t (1 : Fin 2) * 1 ≤ (i 1).val ∧ (i 1).val < win0_9.index t (1 : Fin 2) * 1 + 1
    rw [h1]; omega

/-- The array the region leaves is the array of gates. -/
theorem final (c : Dev nD) : (dat0 (F := Ideal) V c).arrAt 9 cfg0.N = G V c :=
  (dat0 (F := Ideal) V c).arrAt_eq_of_cover 9 (G V c) (fun t _ => flushed_eq V c t) cover

/-- The element of the region's result for edge e is the gate of that edge's two motif rows. -/
theorem gate_arr (c : Dev nD) (e : Fin 1600000) :
    ((Gen.dat0 (F := Ideal) V c).arrAt 9 cfg0.N : S1600000x1.Idx → EReal) (ix2 e (0 : Fin 1))
      = Cert.Spec.gate (fun k => (V c main_v11 : S1600000x16.Idx → EReal) (ix2 e k)) (fun k => (V c main_v18 : S1600000x16.Idx → EReal) (ix2 e k))
          (fun k j => (V c main_v19 : S16x64.Idx → EReal) (ix2 k j)) (fun k j => (V c main_v20 : S16x64.Idx → EReal) (ix2 k j))
          (fun k j => (V c main_v21 : S16x64.Idx → EReal) (ix2 k j)) (fun k j => (V c main_v22 : S16x64.Idx → EReal) (ix2 k j))
          (fun j => (V c main_v23 : S1x64.Idx → EReal) (ix2 (0 : Fin 1) j)) (fun j => (V c main_arg5 : S64x1.Idx → EReal) (ix2 j (0 : Fin 1)))
          ((V c main_v24 : S1x1.Idx → EReal) (ix2 (0 : Fin 1) (0 : Fin 1))) := by
  rw [final]
  rfl

end Cert.KernelIdeal.GateValue

end
-- ==== Proof.KChainA.lean ====
/-
  The kernel program's buffers from the launch to the entry of the first product kernel, read against the specification.

  The run is a fold through the program's segments. The first stretch of host operations reads off the launch memory the
  stored sources and destinations, the motif rows of every edge's two ends, the four bands of the gate's first weight
  matrix and its biases. The gate kernel's result column then holds, at edge e, the gate of exactly those rows, which is
  the specification's gate of edge e. The next stretch sums the gates of the edges landing on each node on top of the
  zero word and adds the one word: the specification's degree; the stretch after it takes the power −1/2 where the
  degree is positive: dinv; the last stretch multiplies dinv at the node an edge's stored source names, the edge's gate,
  and dinv at the node its stored destination names: the edge's weight, and lays out dinv squared as a column and the
  first layer's weight matrix. A buffer that a stretch does not write is the same before and after it, so the stored
  numbers and the arguments are still what the launch memory holds.
-/
import proofs.«166963_j81509889343768_2_alg».proof.Proof.Gen.KernelIdeal.Frame
import proofs.«166963_j81509889343768_2_alg».proof.Proof.Spec
import proofs.«166963_j81509889343768_2_alg».proof.Proof.KHost0
import proofs.«166963_j81509889343768_2_alg».proof.Proof.KHost1
import proofs.«166963_j81509889343768_2_alg».proof.Proof.KHost1b
import proofs.«166963_j81509889343768_2_alg».proof.Proof.KHost1c
import proofs.«166963_j81509889343768_2_alg».proof.Proof.KGate

set_option maxRecDepth 16384

noncomputable section

namespace Cert.KernelIdeal.Chain

open Cert.KernelIdeal Cert.KernelIdeal.Gen Idealize.ShloMosaic Idealize.ShloMosaic.TcCoe Idealize.ShloMosaic.ValueIdx
open Idealize.ShloMosaic.StableHlo Idealize.SL.Sem
open Cert.KernelIdeal.HostValue
open scoped BigOperators

/-! ## Buffers a stretch of host operations leaves alone -/

section Keep

variable (W : Valuation τ sig (Elt Ideal))

theorem k0_keep_arg0 : StableHlo.after (hostOps0 (F := Ideal)) W (Proc.devRef .tc main_arg0) = W (Proc.devRef .tc main_arg0) := by
  after_results_simp <;> rfl
theorem k0_keep_arg7 : StableHlo.after (hostOps0 (F := Ideal)) W (Proc.devRef .tc main_arg7) = W (Proc.devRef .tc main_arg7) := by
  after_results_simp <;> rfl
theorem k0_keep_arg8 : StableHlo.after (hostOps0 (F := Ideal)) W (Proc.devRef .tc main_arg8) = W (Proc.devRef .tc main_arg8) := by
  after_results_simp <;> rfl
theorem k0_keep_arg9 : StableHlo.after (hostOps0 (F := Ideal)) W (Proc.devRef .tc main_arg9) = W (Proc.devRef .tc main_arg9) := by
  after_results_simp <;> rfl
theorem k0_keep_arg10 : StableHlo.after (hostOps0 (F := Ideal)) W (Proc.devRef .tc main_arg10) = W (Proc.devRef .tc main_arg10) := by
  after_results_simp <;> rfl
theorem k0_keep_arg11 : StableHlo.after (hostOps0 (F := Ideal)) W (Proc.devRef .tc main_arg11) = W (Proc.devRef .tc main_arg11) := by
  after_results_simp <;> rfl
theorem k0_keep_arg12 : StableHlo.after (hostOps0 (F := Ideal)) W (Proc.devRef .tc main_arg12) = W (Proc.devRef .tc main_arg12) := by
  after_results_simp <;> rfl
theorem k1_keep_arg8 : StableHlo.after (hostOps1 (F := Ideal)) W (Proc.devRef .tc main_arg8) = W (Proc.devRef .tc main_arg8) := by
  after_results_simp <;> rfl
theorem k1_keep_arg9 : StableHlo.after (hostOps1 (F := Ideal)) W (Proc.devRef .tc main_arg9) = W (Proc.devRef .tc main_arg9) := by
  after_results_simp <;> rfl
theorem k1_keep_arg10 : StableHlo.after (hostOps1 (F := Ideal)) W (Proc.devRef .tc main_arg10) = W (Proc.devRef .tc main_arg10) := by
  after_results_simp <;> rfl
theorem k1_keep_arg11 : StableHlo.after (hostOps1 (F := Ideal)) W (Proc.devRef .tc main_arg11) = W (Proc.devRef .tc main_arg11) := by
  after_results_simp <;> rfl
theorem k1_keep_arg12 : StableHlo.after (hostOps1 (F := Ideal)) W (Proc.devRef .tc main_arg12) = W (Proc.devRef .tc main_arg12) := by
  after_results_simp <;> rfl
theorem k11_keep_arg8 : StableHlo.after (hostOps1_1 (F := Ideal)) W (Proc.devRef .tc main_arg8) = W (Proc.devRef .tc main_arg8) := by
  after_results_simp <;> rfl
theorem k11_keep_arg9 : StableHlo.after (hostOps1_1 (F := Ideal)) W (Proc.devRef .tc main_arg9) = W (Proc.devRef .tc main_arg9) := by
  after_results_simp <;> rfl
theorem k11_keep_arg10 : StableHlo.after (hostOps1_1 (F := Ideal)) W (Proc.devRef .tc main_arg10) = W (Proc.devRef .tc main_arg10) := by
  after_results_simp <;> rfl
theorem k11_keep_arg11 : StableHlo.after (hostOps1_1 (F := Ideal)) W (Proc.devRef .tc main_arg11) = W (Proc.devRef .tc main_arg11) := by
  after_results_simp <;> rfl
theorem k11_keep_arg12 : StableHlo.after (hostOps1_1 (F := Ideal)) W (Proc.devRef .tc main_arg12) = W (Proc.devRef .tc main_arg12) := by
  after_results_simp <;> rfl
theorem k12_keep_arg7 : StableHlo.after (hostOps1_2 (F := Ideal)) W (Proc.devRef .tc main_arg7) = W (Proc.devRef .tc main_arg7) := by
  after_results_simp <;> rfl
theorem k12_keep_arg8 : StableHlo.after (hostOps1_2 (F := Ideal)) W (Proc.devRef .tc main_arg8) = W (Proc.devRef .tc main_arg8) := by
  after_results_simp <;> rfl
theorem k12_keep_arg9 : StableHlo.after (hostOps1_2 (F := Ideal)) W (Proc.devRef .tc main_arg9) = W (Proc.devRef .tc main_arg9) := by
  after_results_simp <;> rfl
theorem k12_keep_arg10 : StableHlo.after (hostOps1_2 (F := Ideal)) W (Proc.devRef .tc main_arg10) = W (Proc.devRef .tc main_arg10) := by
  after_results_simp <;> rfl
theorem k12_keep_arg11 : StableHlo.after (hostOps1_2 (F := Ideal)) W (Proc.devRef .tc main_arg11) = W (Proc.devRef .tc main_arg11) := by
  after_results_simp <;> rfl
theorem k12_keep_arg12 : StableHlo.after (hostOps1_2 (F := Ideal)) W (Proc.devRef .tc main_arg12) = W (Proc.devRef .tc main_arg12) := by
  after_results_simp <;> rfl

end Keep

/-- Equal arguments give equal gates. -/
private theorem gate_congr {mu mu' mv mv' : Fin 16 → EReal} {wa wa' wb wb' wc wc' wd wd' : Fin 16 → Fin 64 → EReal}
    {b1 b1' w2 w2' : Fin 64 → EReal} {b2 b2' : EReal} (h1 : mu = mu') (h2 : mv = mv') (h3 : wa = wa') (h4 : wb = wb')
    (h5 : wc = wc') (h6 : wd = wd') (h7 : b1 = b1') (h8 : w2 = w2') (h9 : b2 = b2') :
    Cert.Spec.gate mu mv wa wb wc wd b1 w2 b2 = Cert.Spec.gate mu' mv' wa' wb' wc' wd' b1' w2' b2' := by
  subst h1 h2 h3 h4 h5 h6 h7 h8 h9; rfl

variable (m : (ℓ : Loc nD τ sig) → Buf (Elt Ideal) ℓ) (ρ : Dev nD → PrngReg) (c : Dev nD)

/-! ## After the gate kernel -/

/-- The stored source of edge e, after the gate kernel. -/
theorem W2_src (e : Fin 1600000) :
    Cert.Spec.at1 (α := BitVec 32) (a := 1600000) (Gen.W2 m ρ c (Proc.devRef .tc main_v1)) e
      = Cert.Spec.at2 (α := BitVec 32) (a := 2) (b := 1600000) (m ((c : Thread nD τ).loc main_arg2)) (0 : Fin 2) e := by
  rw [Gen.W2_of_ne m ρ c main_v1 (by decide)]
  exact h0_src (Gen.W0 m ρ c) e

/-- The stored destination of edge e, after the gate kernel. -/
theorem W2_dst (e : Fin 1600000) :
    Cert.Spec.at1 (α := BitVec 32) (a := 1600000) (Gen.W2 m ρ c (Proc.devRef .tc main_v3)) e
      = Cert.Spec.at2 (α := BitVec 32) (a := 2) (b := 1600000) (m ((c : Thread nD τ).loc main_arg2)) (1 : Fin 2) e := by
  rw [Gen.W2_of_ne m ρ c main_v3 (by decide)]
  exact h0_dst (Gen.W0 m ρ c) e

/-- The gate kernel's result column holds the specification's gates. -/
theorem W2_gate (e : Fin 1600000) :
    Cert.Spec.at2 (α := EReal) (a := 1600000) (b := 1) (Gen.W2 m ρ c (Proc.devRef .tc main_v25)) e (0 : Fin 1)
      = Cert.Spec.gateE (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) e := by
  refine ((congrFun (Gen.W2_arr m ρ c 9) (ix2 e (0 : Fin 1))).trans (Cert.KernelIdeal.GateValue.gate_arr (Gen.V1 m ρ) c e)).trans ?_
  unfold Cert.Spec.gateE
  exact gate_congr (funext fun k => h0_mu (Gen.W0 m ρ c) e k) (funext fun k => h0_mv (Gen.W0 m ρ c) e k)
    (funext fun k => funext fun j => h0_band0 (Gen.W0 m ρ c) k j) (funext fun k => funext fun j => h0_band1 (Gen.W0 m ρ c) k j)
    (funext fun k => funext fun j => h0_band2 (Gen.W0 m ρ c) k j) (funext fun k => funext fun j => h0_band3 (Gen.W0 m ρ c) k j)
    (funext fun j => h0_b1 (Gen.W0 m ρ c) j) (funext fun j => congrFun (h0_w2 (Gen.W0 m ρ c)) (ix2 j (0 : Fin 1)))
    (h0_b2 (Gen.W0 m ρ c))

/-! ## The degree, dinv -/

/-- The degree of node n. -/
theorem W3_deg (n : Fin 100000) :
    Cert.Spec.at1 (α := EReal) (a := 100000) (Gen.W3 m ρ c (Proc.devRef .tc main_v31)) n
      = Cert.Spec.deg (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n := by
  refine (h1_deg (Gen.W2 m ρ c) n).trans ?_
  unfold Cert.Spec.deg Cert.Spec.lands
  refine congrArg₂ (· + ·) (congrArg₂ (· + ·) rfl ?_) rfl
  refine Finset.sum_congr (Finset.filter_congr fun e _ => ?_) (fun e _ => W2_gate m ρ c e)
  rw [W2_dst]

/-- dinv of node n. -/
theorem W4_dinv (n : Fin 100000) :
    Cert.Spec.at1 (α := EReal) (a := 100000) (Gen.W4 m ρ c (Proc.devRef .tc main_v36)) n
      = Cert.Spec.dinv (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n := by
  have hpos : Cert.Spec.at1 (α := BitVec 1) (a := 100000) (Gen.W3 m ρ c (Proc.devRef .tc main_v33)) n
      = Ideal.cmp .ogt (Cert.Spec.deg (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n) Cert.Spec.z0 :=
    (h1_pos (Gen.W2 m ρ c) n).trans (congrArg (fun d => Ideal.cmp .ogt d Cert.Spec.z0) (W3_deg m ρ c n))
  have hpow : Cert.Spec.at1 (α := EReal) (a := 100000) (Gen.W3 m ρ c (Proc.devRef .tc main_v35)) n
      = Ideal.pow (Cert.Spec.deg (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n) Cert.Spec.mhalf :=
    (h1_pow (Gen.W2 m ρ c) n).trans (congrArg (fun d => Ideal.pow d Cert.Spec.mhalf) (W3_deg m ρ c n))
  have hfill : (Gen.W3 m ρ c (Proc.devRef .tc main_cst_6) : S_.Idx → EReal) ix0 = Cert.Spec.z0 := h1_fill (Gen.W2 m ρ c)
  refine (h11_dinv (Gen.W3 m ρ c) n).trans ?_
  rw [hpos, hpow, hfill]
  rfl

/-- The stored numbers and the gates as the last stretch finds them. -/
theorem W4_src (e : Fin 1600000) :
    Cert.Spec.at1 (α := BitVec 32) (a := 1600000) (Gen.W4 m ρ c (Proc.devRef .tc main_v1)) e
      = Cert.Spec.at2 (α := BitVec 32) (a := 2) (b := 1600000) (m ((c : Thread nD τ).loc main_arg2)) (0 : Fin 2) e := by
  rw [show Gen.W4 m ρ c (Proc.devRef .tc main_v1) = Gen.W2 m ρ c (Proc.devRef .tc main_v1) from
    (h11_keep_v1 _).trans (h1_keep_v1 _)]
  exact W2_src m ρ c e

theorem W4_dst (e : Fin 1600000) :
    Cert.Spec.at1 (α := BitVec 32) (a := 1600000) (Gen.W4 m ρ c (Proc.devRef .tc main_v3)) e
      = Cert.Spec.at2 (α := BitVec 32) (a := 2) (b := 1600000) (m ((c : Thread nD τ).loc main_arg2)) (1 : Fin 2) e := by
  rw [show Gen.W4 m ρ c (Proc.devRef .tc main_v3) = Gen.W2 m ρ c (Proc.devRef .tc main_v3) from
    (h11_keep_v3 _).trans (h1_keep_v3 _)]
  exact W2_dst m ρ c e

theorem W4_gate (e : Fin 1600000) :
    Cert.Spec.at1 (α := EReal) (a := 1600000) (Gen.W4 m ρ c (Proc.devRef .tc main_v26)) e
      = Cert.Spec.gateE (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) e := by
  rw [show Gen.W4 m ρ c (Proc.devRef .tc main_v26) = Gen.W3 m ρ c (Proc.devRef .tc main_v26) from h11_keep_v26 _]
  exact (h1_gate (Gen.W2 m ρ c) e).trans (W2_gate m ρ c e)

/-! ## At the first product kernel's entry -/

/-- The weight of edge e. -/
theorem W5_weight (e : Fin 1600000) :
    Cert.Spec.at1 (α := EReal) (a := 1600000) (Gen.W5 m ρ c (Proc.devRef .tc main_v52)) e
      = Cert.Spec.weight (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) e := by
  refine (h12_weight (Gen.W4 m ρ c) e).trans ?_
  rw [W4_src, W4_dst, W4_dinv, W4_dinv, W4_gate]
  rfl

/-- The column of dinv squared. -/
theorem W5_dinv2 (n : Fin 100000) :
    Cert.Spec.at2 (α := EReal) (a := 100000) (b := 1) (Gen.W5 m ρ c (Proc.devRef .tc main_v54)) n (0 : Fin 1)
      = Cert.Spec.dinv (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n
        * Cert.Spec.dinv (Cert.Spec.at2 (α := EReal) (a := 100000) (b := 16) (m ((c : Thread nD τ).loc main_arg1)))
      (Cert.Spec.at2 (α := BitVec 32) (a := 2) (b := 1600000) (m ((c : Thread nD τ).loc main_arg2)) 0)
      (Cert.Spec.at2 (α := BitVec 32) (a := 2) (b := 1600000) (m ((c : Thread nD τ).loc main_arg2)) 1)
      (Cert.Spec.at2 (α := EReal) (a := 64) (b := 64) (m ((c : Thread nD τ).loc main_arg3)))
      (Cert.Spec.at1 (α := EReal) (a := 64) (m ((c : Thread nD τ).loc main_arg4)))
      (fun j => Cert.Spec.at2 (α := EReal) (a := 64) (b := 1) (m ((c : Thread nD τ).loc main_arg5)) j 0)
      (Cert.Spec.at1 (α := EReal) (a := 1) (m ((c : Thread nD τ).loc main_arg6)) 0) n := by
  refine (h12_dinv2 (Gen.W4 m ρ c) n).trans ?_
  rw [W4_dinv]

/-- The first layer's weight matrix. -/
theorem W5_cw (k q : Fin 128) :
    Cert.Spec.at2 (α := EReal) (a := 128) (b := 128) (Gen.W5 m ρ c (Proc.devRef .tc main_v56)) k q
      = Cert.Spec.at3 (α := EReal) (a := 2) (b := 128) (c := 128) (m ((c : Thread nD τ).loc main_arg7)) (0 : Fin 2) k q := by
  refine (h12_cw (Gen.W4 m ρ c) k q).trans ?_
  rw [show Gen.W4 m ρ c (Proc.devRef .tc main_arg7) = m ((c : Thread nD τ).loc main_arg7) from
    calc Gen.W4 m ρ c (Proc.devRef .tc main_arg7)
      _ = Gen.W3 m ρ c (Proc.devRef .tc main_arg7) := h11_keep_arg7 _
      _ = Gen.W2 m ρ c (Proc.devRef .tc main_arg7) := h1_keep_arg7 _
      _ = Gen.W1 m ρ c (Proc.devRef .tc main_arg7) := Gen.W2_of_ne m ρ c main_arg7 (by decide)
      _ = Gen.W0 m ρ c (Proc.devRef .tc main_arg7) := k0_keep_arg7 _
      _ = m ((c : Thread nD τ).loc main_arg7) := rfl]

/-- The stored source and destination of edge e. -/
theorem W5_src (e : Fin 1600000) :
    Cert.Spec.at1 (α := BitVec 32) (a := 1600000) (Gen.W5 m ρ c (Proc.devRef .tc main_v1)) e
      = Cert.Spec.at2 (α := BitVec 32) (a := 2) (b := 1600000) (m ((c : Thread nD τ).loc main_arg2)) (0 : Fin 2) e := by
  rw [show Gen.W5 m ρ c (Proc.devRef .tc main_v1) = Gen.W4 m ρ c (Proc.devRef .tc main_v1) from h12_keep_v1 _]
  exact W4_src m ρ c e

theorem W5_dst (e : Fin 1600000) :
    Cert.Spec.at1 (α := BitVec 32) (a := 1600000) (Gen.W5 m ρ c (Proc.devRef .tc main_v3)) e
      = Cert.Spec.at2 (α := BitVec 32) (a := 2) (b := 1600000) (m ((c : Thread nD τ).loc main_arg2)) (1 : Fin 2) e := by
  rw [show Gen.W5 m ρ c (Proc.devRef .tc main_v3) = Gen.W4 m ρ c (Proc.devRef .tc main_v3) from h12_keep_v3 _]
  exact W4_dst m ρ c e

/-! ## The arguments are still what the launch memory holds -/

theorem W5_arg0 : Gen.W5 m ρ c (Proc.devRef .tc main_arg0) = m ((c : Thread nD τ).loc main_arg0) :=
  calc Gen.W5 m ρ c (Proc.devRef .tc main_arg0)
    _ = Gen.W4 m ρ c (Proc.devRef .tc main_arg0) := h12_keep_arg0 _
    _ = Gen.W3 m ρ c (Proc.devRef .tc main_arg0) := h11_keep_arg0 _
    _ = Gen.W2 m ρ c (Proc.devRef .tc main_arg0) := h1_keep_arg0 _
    _ = Gen.W1 m ρ c (Proc.devRef .tc main_arg0) := Gen.W2_of_ne m ρ c main_arg0 (by decide)
    _ = Gen.W0 m ρ c (Proc.devRef .tc main_arg0) := k0_keep_arg0 _
    _ = m ((c : Thread nD τ).loc main_arg0) := rfl

theorem W5_arg7 : Gen.W5 m ρ c (Proc.devRef .tc main_arg7) = m ((c : Thread nD τ).loc main_arg7) :=
  calc Gen.W5 m ρ c (Proc.devRef .tc main_arg7)
    _ = Gen.W4 m ρ c (Proc.devRef .tc main_arg7) := k12_keep_arg7 _
    _ = Gen.W3 m ρ c (Proc.devRef .tc main_arg7) := h11_keep_arg7 _
    _ = Gen.W2 m ρ c (Proc.devRef .tc main_arg7) := h1_keep_arg7 _
    _ = Gen.W1 m ρ c (Proc.devRef .tc main_arg7) := Gen.W2_of_ne m ρ c main_arg7 (by decide)
    _ = Gen.W0 m ρ c (Proc.devRef .tc main_arg7) := k0_keep_arg7 _
    _ = m ((c : Thread nD τ).loc main_arg7) := rfl

theorem W5_arg8 : Gen.W5 m ρ c (Proc.devRef .tc main_arg8) = m ((c : Thread nD τ).loc main_arg8) :=
  calc Gen.W5 m ρ c (Proc.devRef .tc main_arg8)
    _ = Gen.W4 m ρ c (Proc.devRef .tc main_arg8) := k12_keep_arg8 _
    _ = Gen.W3 m ρ c (Proc.devRef .tc main_arg8) := k11_keep_arg8 _
    _ = Gen.W2 m ρ c (Proc.devRef .tc main_arg8) := k1_keep_arg8 _
    _ = Gen.W1 m ρ c (Proc.devRef .tc main_arg8) := Gen.W2_of_ne m ρ c main_arg8 (by decide)
    _ = Gen.W0 m ρ c (Proc.devRef .tc main_arg8) := k0_keep_arg8 _
    _ = m ((c : Thread nD τ).loc main_arg8) := rfl

theorem W5_arg9 : Gen.W5 m ρ c (Proc.devRef .tc main_arg9) = m ((c : Thread nD τ).loc main_arg9) :=
  calc Gen.W5 m ρ c (Proc.devRef .tc main_arg9)
    _ = Gen.W4 m ρ c (Proc.devRef .tc main_arg9) := k12_keep_arg9 _
    _ = Gen.W3 m ρ c (Proc.devRef .tc main_arg9) := k11_keep_arg9 _
    _ = Gen.W2 m ρ c (Proc.devRef .tc main_arg9) := k1_keep_arg9 _
    _ = Gen.W1 m ρ c (Proc.devRef .tc main_arg9) := Gen.W2_of_ne m ρ c main_arg9 (by decide)
    _ = Gen.W0 m ρ c (Proc.devRef .tc main_arg9) := k0_keep_arg9 _
    _ = m ((c : Thread nD τ).loc main_arg9) := rfl

theorem W5_arg10 : Gen.W5 m ρ c (Proc.devRef .tc main_arg10) = m ((c : Thread nD τ).loc main_arg10) :=
  calc Gen.W5 m ρ c (Proc.devRef .tc main_arg10)
    _ = Gen.W4 m ρ c (Proc.devRef .tc main_arg10) := k12_keep_arg10 _
    _ = Gen.W3 m ρ c (Proc.devRef .tc main_arg10) := k11_keep_arg10 _
    _ = Gen.W2 m ρ c (Proc.devRef .tc main_arg10) := k1_keep_arg10 _
    _ = Gen.W1 m ρ c (Proc.devRef .tc main_arg10) := Gen.W2_of_ne m ρ c main_arg10 (by decide)
    _ = Gen.W0 m ρ c (Proc.devRef .tc main_arg10) := k0_keep_arg10 _
    _ = m ((c : Thread nD τ).loc main_arg10) := rfl

theorem W5_arg11 : Gen.W5 m ρ c (Proc.devRef .tc main_arg11) = m ((c : Thread nD τ).loc main_arg11) :=
  calc Gen.W5 m ρ c (Proc.devRef .tc main_arg11)
    _ = Gen.W4 m ρ c (Proc.devRef .tc main_arg11) := k12_keep_arg11 _
    _ = Gen.W3 m ρ c (Proc.devRef .tc main_arg11) := k11_keep_arg11 _
    _ = Gen.W2 m ρ c (Proc.devRef .tc main_arg11) := k1_keep_arg11 _
    _ = Gen.W1 m ρ c (Proc.devRef .tc main_arg11) := Gen.W2_of_ne m ρ c main_arg11 (by decide)
    _ = Gen.W0 m ρ c (Proc.devRef .tc main_arg11) := k0_keep_arg11 _
    _ = m ((c : Thread nD τ).loc main_arg11) := rfl

theorem W5_arg12 : Gen.W5 m ρ c (Proc.devRef .tc main_arg12) = m ((c : Thread nD τ).loc main_arg12) :=
  calc Gen.W5 m ρ c (Proc.devRef .tc main_arg12)
    _ = Gen.W4 m ρ c (Proc.devRef .tc main_arg12) := k12_keep_arg12 _
    _ = Gen.W3 m ρ c (Proc.devRef .tc main_arg12) := k11_keep_arg12 _
    _ = Gen.W2 m ρ c (Proc.devRef .tc main_arg12) := k1_keep_arg12 _
    _ = Gen.W1 m ρ c (Proc.devRef .tc main_arg12) := Gen.W2_of_ne m ρ c main_arg12 (by decide)
    _ = Gen.W0 m ρ c (Proc.devRef .tc main_arg12) := k0_keep_arg12 _
    _ = m ((c : Thread nD τ).loc main_arg12) := rfl

end Cert.KernelIdeal.Chain

end
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«166963_j81509889343768_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.KMatmul.lean ====
/-
  The two dense products of the kernel program, as whole arrays.

  Each of the two matrix launches walks a 100000×128 table X in ten blocks of 10000 rows; at each point it multiplies the
  block of rows by a fixed 128×128 matrix W (held whole at every point) into a zero accumulator and stores the 10000×128
  result as the same block of rows of the output. Narrowing the operands to a shorter format is the identity on extended
  reals, so the stored block is the block's rows of the product X·W: row r of the block at point t is row 10000·t + r of X,
  and a row of a product reads only that row of the left factor. Row n of the output is written by point n / 10000, so the
  ten blocks cover the output and the output array ends holding X·W, entry (n, q) being ∑ k, X(n, k) · W(k, q).
-/
import proofs.«166963_j81509889343768_2_alg».proof.Proof.Gen.KernelIdeal.Frame
import proofs.«166963_j81509889343768_2_alg».proof.Proof.LibDenseProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.MatmulValue

open Cert.KernelIdeal Cert.KernelIdeal.Gen Cert.LibDenseProduct

variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## Launch 1: rows of `main_arg0` times `main_v56` into `main_v57` -/

/-- The body's payload at an index: the product of the loaded block of rows with the loaded matrix (the narrowing of the two
    operands is the identity on extended reals, and the accumulator starts at zero). -/
theorem pay1_apply (x0 : Vec Ideal S10000x128 .f32) (x1 : Vec Ideal S128x128 .f32) (r : Fin 10000) (q : Fin 128) :
    k1_pay1 (F := Ideal) x0 x1 (ix2 r q) = mm (m := 10000) (k := 128) (n := 128) (φ₁ := .f32) (φ₂ := .f32) x0 x1 (ix2 r q) := by
  unfold k1_pay1
  refine (Cert.LibMatmulPlain.matmul_plain_zero_apply (m := 10000) (k := 128) (n := 128) none
    (truncf (F := Ideal) .bf16 x0 bitsLt_bf16_f32)
    (truncf (F := Ideal) .bf16 (shapeCast S128x128 x1 shapeCasts_S128x128_S128x128) bitsLt_bf16_f32) r q).trans ?_
  refine Finset.sum_congr rfl fun k _ => ?_
  show (x0 : S10000x128.Idx → EReal) (ix2 r k) * (shapeCast S128x128 x1 shapeCasts_S128x128_S128x128 : S128x128.Idx → EReal) (ix2 k q) = _
  rw [shapeCast_self]

/-- The launch's index maps over the ten points: the block of rows, of input and output alike, is the point's number; the
    matrix is its one whole block; no launch moves along the lanes. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the launch finds them: row `r` of the input
    block is row `10000·t + r` of the table, and the matrix block is the matrix. -/
theorem flushed1_eq (c : Dev nD) (t : Fin cfg1.N) :
    (dat1 (F := Ideal) V c).flushed 2 t = ((cfg1.win 2).blk t).view.read (Elt Ideal)
      (mm (m := 100000) (k := 128) (n := 128) (φ₁ := .f32) (φ₂ := .f32) (V c main_arg0) (V c main_v56)) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts1 t
  funext j
  obtain ⟨r, q, rfl⟩ : ∃ (r : Fin 10000) (q : Fin 128), j = ix2 r q := ⟨j 0, j 1, eq_ix2 j⟩
  refine (pay1_apply (iblk1 V c 0 t) (iblk1 V c 1 t) r q).trans ?_
  show mm (m := 10000) (k := 128) (n := 128) (φ₁ := .f32) (φ₂ := .f32) (iblk1 V c 0 t) (iblk1 V c 1 t) (ix2 r q)
    = mm (m := 100000) (k := 128) (n := 128) (φ₁ := .f32) (φ₂ := .f32) (V c main_arg0) (V c main_v56) (((cfg1.win 2).blk t).view.emb (ix2 r q))
  unfold mm
  refine Finset.sum_congr rfl fun k _ => ?_
  refine congrArg₂ (fun a b : EReal => a * b) ?_ ?_
  · show V c main_arg0 (((cfg1.win 0).blk t).view.emb (ix2 r k)) = V c main_arg0 _
    refine congrArg (V c main_arg0) ?_
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 128 + 1 * k.val = k.val; omega
  · show V c main_v56 (((cfg1.win 1).blk t).view.emb (ix2 k q)) = V c main_v56 _
    refine congrArg (V c main_v56) ?_
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the output is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v57).slice (win1_2.rect t)).set ↔ _
  rw [View.set_slice_whole, Rect.mem_set_unit]
  exact Iff.rfl

/-- The output array after the launch is the product: row `n` is covered by point `n / 10000`. -/
theorem arr1_eq (c : Dev nD) :
    (dat1 (F := Ideal) V c).arrAt 2 cfg1.N
      = mm (m := 100000) (k := 128) (n := 128) (φ₁ := .f32) (φ₂ := .f32) (V c main_arg0) (V c main_v56) :=
  (dat1 (F := Ideal) V c).arrAt_eq_of_cover 2
    (mm (m := 100000) (k := 128) (n := 128) (φ₁ := .f32) (φ₂ := .f32) (V c main_arg0) (V c main_v56))
    (fun t _ => flushed1_eq V c t) fun i => by
      have hi0 : (i 0).val < 100000 := (i 0).isLt
      have hi1 : (i 1).val < 128 := (i 1).isLt
      have hN : cfg1.N = 10 := N_1
      obtain ⟨t, ht⟩ : ∃ t : Fin cfg1.N, t.val = (i 0).val / 10000 := ⟨⟨(i 0).val / 10000, by rw [hN]; omega⟩, rfl⟩
      obtain ⟨e0, e1, e2, e3, e4, e5⟩ := idx_facts1 t
      refine ⟨t, flush1_2 t, ?_⟩
      rw [mem_blk1]
      intro a
      match a with
      | ⟨0, _⟩ =>
        show win1_2.index t (0 : Fin 2) * 10000 ≤ (i 0).val ∧ (i 0).val < win1_2.index t (0 : Fin 2) * 10000 + 10000
        omega
      | ⟨1, _⟩ =>
        show win1_2.index t (1 : Fin 2) * 128 ≤ (i 1).val ∧ (i 1).val < win1_2.index t (1 : Fin 2) * 128 + 128
        omega

/-- Entry `(n, q)` of the output array after the launch, as an entry of the product. -/
theorem mm1_arr_mm (c : Dev nD) (n : Fin 100000) (q : Fin 128) :
    (dat1 (F := Ideal) V c).arrAt 2 cfg1.N (ix2 n q)
      = mm (m := 100000) (k := 128) (n := 128) (φ₁ := .f32) (φ₂ := .f32) (V c main_arg0) (V c main_v56) (ix2 n q) :=
  congrFun (arr1_eq V c) (ix2 n q)

/-- Entry `(n, q)` of the output array after the launch: `∑ k, X(n, k) · W(k, q)`, where `X` and `W` are the table and the
    matrix as the launch finds them, named as plain functions into the extended reals. -/
theorem mm1_arr (c : Dev nD) (X : S100000x128.Idx → EReal) (W : S128x128.Idx → EReal)
    (hX : X = V c main_arg0) (hW : W = V c main_v56) (n : Fin 100000) (q : Fin 128) :
    (dat1 (F := Ideal) V c).arrAt 2 cfg1.N (ix2 n q) = ∑ k : Fin 128, X (ix2 n k) * W (ix2 k q) := by
  subst hX hW
  exact mm1_arr_mm V c n q

/-! ## Launch 3: rows of `main_v80` times `main_v82` into `main_v83` -/

/-- The body's payload at an index: the product of the loaded block of rows with the loaded matrix (the narrowing of the two
    operands is the identity on extended reals, and the accumulator starts at zero). -/
theorem pay3_apply (x0 : Vec Ideal S10000x128 .f32) (x1 : Vec Ideal S128x128 .f32) (r : Fin 10000) (q : Fin 128) :
    k3_pay1 (F := Ideal) x0 x1 (ix2 r q) = mm (m := 10000) (k := 128) (n := 128) (φ₁ := .f32) (φ₂ := .f32) x0 x1 (ix2 r q) := by
  unfold k3_pay1
  refine (Cert.LibMatmulPlain.matmul_plain_zero_apply (m := 10000) (k := 128) (n := 128) none
    (truncf (F := Ideal) .bf16 (shapeCast S10000x128 x0 shapeCasts_S10000x128_S10000x128) bitsLt_bf16_f32)
    (truncf (F := Ideal) .bf16 (shapeCast S128x128 x1 shapeCasts_S128x128_S128x128) bitsLt_bf16_f32) r q).trans ?_
  refine Finset.sum_congr rfl fun k _ => ?_
  show (shapeCast S10000x128 x0 shapeCasts_S10000x128_S10000x128 : S10000x128.Idx → EReal) (ix2 r k)
    * (shapeCast S128x128 x1 shapeCasts_S128x128_S128x128 : S128x128.Idx → EReal) (ix2 k q) = _
  rw [shapeCast_self, shapeCast_self]

/-- The launch's index maps over the ten points: the block of rows, of input and output alike, is the point's number; the
    matrix is its one whole block; no launch moves along the lanes. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays as the launch finds them: row `r` of the input
    block is row `10000·t + r` of the table, and the matrix block is the matrix. -/
theorem flushed3_eq (c : Dev nD) (t : Fin cfg3.N) :
    (dat3 (F := Ideal) V c).flushed 2 t = ((cfg3.win 2).blk t).view.read (Elt Ideal)
      (mm (m := 100000) (k := 128) (n := 128) (φ₁ := .f32) (φ₂ := .f32) (V c main_v80) (V c main_v82)) := by
  show (cfg3.win 2).cut (grid3.coords t) ((dat3 (F := Ideal) V c).after 2 t) = _
  rw [after3_2]
  unfold out3_2
  rw [View.canon_unit_zero hz]
  simp only [View.ld_unit_zero (S := S10000x128) hz, View.ld_unit_zero (S := S128x128) hz]
  obtain ⟨e0, e1, e2, e3, e4, e5⟩ := idx_facts3 t
  funext j
  obtain ⟨r, q, rfl⟩ : ∃ (r : Fin 10000) (q : Fin 128), j = ix2 r q := ⟨j 0, j 1, eq_ix2 j⟩
  refine (pay3_apply (iblk3 V c 0 t) (iblk3 V c 1 t) r q).trans ?_
  show mm (m := 10000) (k := 128) (n := 128) (φ₁ := .f32) (φ₂ := .f32) (iblk3 V c 0 t) (iblk3 V c 1 t) (ix2 r q)
    = mm (m := 100000) (k := 128) (n := 128) (φ₁ := .f32) (φ₂ := .f32) (V c main_v80) (V c main_v82) (((cfg3.win 2).blk t).view.emb (ix2 r q))
  unfold mm
  refine Finset.sum_congr rfl fun k _ => ?_
  refine congrArg₂ (fun a b : EReal => a * b) ?_ ?_
  · show V c main_v80 (((cfg3.win 0).blk t).view.emb (ix2 r k)) = V c main_v80 _
    refine congrArg (V c main_v80) ?_
    funext a; apply Fin.ext
    match a with
    | ⟨0, _⟩ => show win3_0.index t (0 : Fin 2) * 10000 + 1 * r.val = win3_2.index t (0 : Fin 2) * 10000 + 1 * r.val; omega
    | ⟨1, _⟩ => show win3_0.index t (1 : Fin 2) * 128 + 1 * k.val = k.val; omega
  · show V c main_v82 (((cfg3.win 1).blk t).view.emb (ix2 k q)) = V c main_v82 _
    refine congrArg (V c main_v82) ?_
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega

/-- An index of the output is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v83).slice (win3_2.rect t)).set ↔ _
  rw [View.set_slice_whole, Rect.mem_set_unit]
  exact Iff.rfl

/-- The output array after the launch is the product: row `n` is covered by point `n / 10000`. -/
theorem arr3_eq (c : Dev nD) :
    (dat3 (F := Ideal) V c).arrAt 2 cfg3.N
      = mm (m := 100000) (k := 128) (n := 128) (φ₁ := .f32) (φ₂ := .f32) (V c main_v80) (V c main_v82) :=
  (dat3 (F := Ideal) V c).arrAt_eq_of_cover 2
    (mm (m := 100000) (k := 128) (n := 128) (φ₁ := .f32) (φ₂ := .f32) (V c main_v80) (V c main_v82))
    (fun t _ => flushed3_eq V c t) fun i => by
      have hi0 : (i 0).val < 100000 := (i 0).isLt
      have hi1 : (i 1).val < 128 := (i 1).isLt
      have hN : cfg3.N = 10 := N_3
      obtain ⟨t, ht⟩ : ∃ t : Fin cfg3.N, t.val = (i 0).val / 10000 := ⟨⟨(i 0).val / 10000, by rw [hN]; omega⟩, rfl⟩
      obtain ⟨e0, e1, e2, e3, e4, e5⟩ := idx_facts3 t
      refine ⟨t, flush3_2 t, ?_⟩
      rw [mem_blk3]
      intro a
      match a with
      | ⟨0, _⟩ =>
        show win3_2.index t (0 : Fin 2) * 10000 ≤ (i 0).val ∧ (i 0).val < win3_2.index t (0 : Fin 2) * 10000 + 10000
        omega
      | ⟨1, _⟩ =>
        show win3_2.index t (1 : Fin 2) * 128 ≤ (i 1).val ∧ (i 1).val < win3_2.index t (1 : Fin 2) * 128 + 128
        omega

/-- Entry `(n, q)` of the output array after the launch, as an entry of the product. -/
theorem mm3_arr_mm (c : Dev nD) (n : Fin 100000) (q : Fin 128) :
    (dat3 (F := Ideal) V c).arrAt 2 cfg3.N (ix2 n q)
      = mm (m := 100000) (k := 128) (n := 128) (φ₁ := .f32) (φ₂ := .f32) (V c main_v80) (V c main_v82) (ix2 n q) :=
  congrFun (arr3_eq V c) (ix2 n q)

/-- Entry `(n, q)` of the output array after the launch: `∑ k, X(n, k) · W(k, q)`, where `X` and `W` are the table and the
    matrix as the launch finds them, named as plain functions into the extended reals. -/
theorem mm3_arr (c : Dev nD) (X : S100000x128.Idx → EReal) (W : S128x128.Idx → EReal)
    (hX : X = V c main_v80) (hW : W = V c main_v82) (n : Fin 100000) (q : Fin 128) :
    (dat3 (F := Ideal) V c).arrAt 2 cfg3.N (ix2 n q) = ∑ k : Fin 128, X (ix2 n k) * W (ix2 k q) := by
  subst hX hW
  exact mm3_arr_mm V c n q

end Cert.KernelIdeal.MatmulValue

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibLayerNormRow.lean ====
/-
  A statistic of each row of an [a, b] array with its dimension kept: the sum over the b lanes is an [a] vector, cast to
  an [a, 1] column so that it can be broadcast back over the lanes.

  The cast [a] → [a, 1] reads, at (i, 0), the vector at i: both have row-major position i. Composed with the lane sum, the
  column at (p, 0) is the zero word plus the sum over k of the array at (p, k); the zero word is the extended real 0, so
  it changes nothing, and it is kept only because the programs' own means are written from it.
-/
import Idealize.ShloMosaic.PureOps.Ideal.Laws
import Idealize.ShloMosaic.Lib.ValueIdx
import Idealize.ShloMosaic.Lib.ValueLayout
import proofs.«166963_j81509889343768_2_alg».proof.Proof.LibRowStat

namespace Cert.LibLayerNormRow

open Idealize.ShloMosaic Idealize.ShloMosaic.ValueIdx

/-- An `[a]` vector cast to an `[a, 1]` column reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of an `[a, b]` array of single-precision values, kept as an `[a, 1]` column, reads at `(p, u)` the zero
    word plus the sum over `k` of the array at `(p, k)`. At the ideal values. -/
theorem sum_lanes_keepdims_apply {a b : ℕ} (src : FVec Ideal ⟨2, ![a, b]⟩ .f32)
    (h : (⟨2, ![a, b]⟩ : Shape).Reduces [1] ⟨1, ![a]⟩) (hc : (⟨1, ![a]⟩ : Shape).ShapeCasts ⟨2, ![a, 1]⟩)
    (hφ : FKind.Formats .f32) (hacc : (0x00000000#32 : BitVec 32) = 0x00000000#32) (p : Fin a) (u : Fin 1) :
    shapeCast ⟨2, ![a, 1]⟩ (multiReduction .add [1] ⟨1, ![a]⟩ src 0x00000000#32 h hφ hacc) hc (ix2 p u)
      = Ideal.ofBits .f32 0x00000000#32 + ∑ k : Fin b, src (ix2 p k) := by
  rw [shapeCast_a_a1_apply, Ideal.ofBits_zero_f32, zero_add]
  exact Cert.LibRowStat.sum_lanes_apply src _ h hφ hacc p

end Cert.LibLayerNormRow
-- ==== Proof.KPost.lean ====
/-
  The two normalising launches of the kernel's program, read as arrays.

  Each launch walks the 100000 node rows in 25 blocks of 4000. At a row, the body adds to the aggregated row the node's own
  loop term (the column entry times the row of the feature product) and the bias row, normalises the 128 lanes of that
  row by their mean and their mean squared deviation plus ε, scales by g, shifts by β, takes the maximum with zero, and adds
  the residual row. The second launch multiplies the result by the 128 × 64 head matrix and adds the head's bias row.
  Every step reads one row only, so block t's row r is the whole array's row 4000·t + r, and the blocks cover the array.
-/
import proofs.«166963_j81509889343768_2_alg».proof.Proof.Gen.KernelIdeal.Frame
import proofs.«166963_j81509889343768_2_alg».proof.Proof.Spec
import proofs.«166963_j81509889343768_2_alg».proof.Proof.LibLayerNormRow
import proofs.«166963_j81509889343768_2_alg».proof.Proof.LibMatmulPlain
import Idealize.ShloMosaic.Lib.ValueLayout
import Idealize.ShloMosaic.Lib.Pipeline.Value

noncomputable section

namespace Cert.KernelIdeal.PostValue

open Idealize.ShloMosaic Idealize.ShloMosaic.ValueIdx Idealize.ShloMosaic.TcCoe Idealize.SL.Sem
open Idealize.ShloMosaic.Pipeline (Dat)
open Cert.KernelIdeal
open Cert.Spec (at2)

/-- The reciprocal square root of a vector reads, at an index, the reciprocal square root of the element. -/
theorem rsqrt_apply {s : Shape} {φ : FTy} (a : FVec Ideal s φ) (i : s.Idx) : rsqrt a i = Ideal.rsqrt (a i) := rfl

/-! ## One row of the normalising body -/

/-- The body's normalised, scaled, shifted and ramped block at row `r`, lane `q`: the layer normalisation of the row
    (aggregate + column entry · product row + bias row). -/
theorem pay_row (x0 x2 : FVec Ideal S4000x128 .f32) (x3 : FVec Ideal S4000x1 .f32) (x4 x5 x6 : FVec Ideal S1x128 .f32)
    (r : Fin 4000) (q : Fin 128) :
    Gen.k2_pay2 (F := Ideal) x0 x3 x2 x4 x5 x6 (ix2 r q)
      = Cert.Spec.lnrelu (fun k => (x0 (ix2 r k) + x3 (ix2 r (0 : Fin 1)) * x2 (ix2 r k)) + x4 (ix2 (0 : Fin 1) k))
          (fun k => x5 (ix2 (0 : Fin 1) k)) (fun k => x6 (ix2 (0 : Fin 1) k)) q := by
  unfold Gen.k2_pay2 Cert.Spec.lnrelu
  dsimp only
  simp only [shapeCast_self, maximumf_apply, addf_apply, mulf_apply, subf_apply, divf_apply, rsqrt_apply, broadcast_apply,
    Cert.LibRowStat.broadcastTo_a1_ab_apply, broadcastTo_1b_ab_apply, Ideal.ofBits_def]
  rw [Cert.LibLayerNormRow.sum_lanes_keepdims_apply, Cert.LibLayerNormRow.sum_lanes_keepdims_apply]
  simp only [addf_apply, mulf_apply, subf_apply, divf_apply, broadcast_apply,
    Cert.LibRowStat.broadcastTo_a1_ab_apply, broadcastTo_1b_ab_apply]
  rw [Cert.LibLayerNormRow.sum_lanes_keepdims_apply]
  simp only [addf_apply, mulf_apply, Cert.LibRowStat.broadcastTo_a1_ab_apply, broadcastTo_1b_ab_apply]

/-! ## The first normalising launch: blocks, and the array they leave -/

section Region2

variable (V : (c : Dev nD) → (b : Ref sig .tc) → Buf (Elt Ideal) ((c : Thread nD τ).loc b))

theorem hz : (![0, 0] : Fin 2 → Nat) = fun _ => 0 := funext fun a => by fin_cases a <;> rfl

/-- What the body leaves in the result's block, at row `r` and lane `q`, from the blocks it reads: the residual row plus
    the normalised row. -/
theorem out2_row (x0 x1 x2 : FVec Ideal S4000x128 .f32) (x3 : FVec Ideal S4000x1 .f32) (x4 x5 x6 : FVec Ideal S1x128 .f32)
    (r : Fin 4000) (q : Fin 128) :
    Gen.out2_7 (F := Ideal) x0 x1 x2 x3 x4 x5 x6 (ix2 r q)
      = x1 (ix2 r q) + Cert.Spec.lnrelu (fun k => (x0 (ix2 r k) + x3 (ix2 r (0 : Fin 1)) * x2 (ix2 r k)) + x4 (ix2 (0 : Fin 1) k))
          (fun k => x5 (ix2 (0 : Fin 1) k)) (fun k => x6 (ix2 (0 : Fin 1) k)) q := by
  unfold Gen.out2_7
  rw [View.canon_unit_zero hz]
  simp only [View.ld_unit_zero (S := S4000x128) hz, View.ld_unit_zero (S := S4000x1) hz, View.ld_unit_zero (S := S1x128) hz]
  unfold Gen.k2_pay1
  exact congrArg (fun z => x1 (ix2 r q) + z) (pay_row x0 x2 x3 x4 x5 x6 r q)

/-- The printed index maps over the 25 points: a row window's block index is the point, a parameter row's is zero. -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row `r` of point `t`'s block of the aggregated rows is row `4000·t + r` of the array. -/
theorem blk2_0 (c : Dev nD) (t : Fin cfg2.N) (r : Fin 4000) (k : Fin 128) (n : Fin 100000) (hn : n.val = 4000 * t.val + r.val) :
    (Gen.iblk2 V c 0 t : FVec Ideal S4000x128 .f32) (ix2 r k) = (V c main_v70 : S100000x128.Idx → EReal) (ix2 n k) := by
  have hi : win2_0.index t (0 : Fin 2) = t.val ∧ win2_0.index t (1 : Fin 2) = 0 := (idx2 t).1
  unfold Gen.iblk2
  rw [View.read_apply]
  show V c main_v70 _ = V c main_v70 _
  congr 1
  funext a; apply Fin.ext
  match a with
  | ⟨0, _⟩ => show win2_0.index t (0 : Fin 2) * 4000 + 1 * r.val = n.val; omega
  | ⟨1, _⟩ => show win2_0.index t (1 : Fin 2) * 128 + 1 * k.val = k.val; omega

/-- Row `r` of point `t`'s block of the node features is row `4000·t + r` of the array. -/
theorem blk2_1 (c : Dev nD) (t : Fin cfg2.N) (r : Fin 4000) (k : Fin 128) (n : Fin 100000) (hn : n.val = 4000 * t.val + r.val) :
    (Gen.iblk2 V c 1 t : FVec Ideal S4000x128 .f32) (ix2 r k) = (V c main_arg0 : S100000x128.Idx → EReal) (ix2 n k) := by
  have hi : win2_1.index t (0 : Fin 2) = t.val ∧ win2_1.index t (1 : Fin 2) = 0 := (idx2 t).2.1
  unfold Gen.iblk2
  rw [View.read_apply]
  show V c main_arg0 _ = V c main_arg0 _
  congr 1
  funext a; apply Fin.ext
  match a with
  | ⟨0, _⟩ => show win2_1.index t (0 : Fin 2) * 4000 + 1 * r.val = n.val; omega
  | ⟨1, _⟩ => show win2_1.index t (1 : Fin 2) * 128 + 1 * k.val = k.val; omega

/-- Row `r` of point `t`'s block of the feature product is row `4000·t + r` of the array. -/
theorem blk2_2 (c : Dev nD) (t : Fin cfg2.N) (r : Fin 4000) (k : Fin 128) (n : Fin 100000) (hn : n.val = 4000 * t.val + r.val) :
    (Gen.iblk2 V c 2 t : FVec Ideal S4000x128 .f32) (ix2 r k) = (V c main_v57 : S100000x128.Idx → EReal) (ix2 n k) := by
  have hi : win2_2.index t (0 : Fin 2) = t.val ∧ win2_2.index t (1 : Fin 2) = 0 := (idx2 t).2.2.1
  unfold Gen.iblk2
  rw [View.read_apply]
  show V c main_v57 _ = V c main_v57 _
  congr 1
  funext a; apply Fin.ext
  match a with
  | ⟨0, _⟩ => show win2_2.index t (0 : Fin 2) * 4000 + 1 * r.val = n.val; omega
  | ⟨1, _⟩ => show win2_2.index t (1 : Fin 2) * 128 + 1 * k.val = k.val; omega

/-- Entry `r` of point `t`'s block of the loop-weight column is entry `4000·t + r` of the column. -/
theorem blk2_3 (c : Dev nD) (t : Fin cfg2.N) (r : Fin 4000) (k : Fin 1) (n : Fin 100000) (hn : n.val = 4000 * t.val + r.val) :
    (Gen.iblk2 V c 3 t : FVec Ideal S4000x1 .f32) (ix2 r k) = (V c main_v54 : S100000x1.Idx → EReal) (ix2 n k) := by
  have hi : win2_3.index t (0 : Fin 2) = t.val ∧ win2_3.index t (1 : Fin 2) = 0 := (idx2 t).2.2.2.1
  unfold Gen.iblk2
  rw [View.read_apply]
  show V c main_v54 _ = V c main_v54 _
  congr 1
  funext a; apply Fin.ext
  match a with
  | ⟨0, _⟩ => show win2_3.index t (0 : Fin 2) * 4000 + 1 * r.val = n.val; omega
  | ⟨1, _⟩ => show win2_3.index t (1 : Fin 2) * 1 + 1 * k.val = k.val; omega

/-- The bias row is staged whole at every point. -/
theorem blk2_4 (c : Dev nD) (t : Fin cfg2.N) (p : Fin 1) (k : Fin 128) :
    (Gen.iblk2 V c 4 t : FVec Ideal S1x128 .f32) (ix2 p k) = (V c main_v77 : S1x128.Idx → EReal) (ix2 p k) := by
  have hi : win2_4.index t (0 : Fin 2) = 0 ∧ win2_4.index t (1 : Fin 2) = 0 := (idx2 t).2.2.2.2.1
  unfold Gen.iblk2
  rw [View.read_apply]
  show V c main_v77 _ = V c main_v77 _
  congr 1
  funext a; apply Fin.ext
  match a with
  | ⟨0, _⟩ => show win2_4.index t (0 : Fin 2) * 1 + 1 * p.val = p.val; omega
  | ⟨1, _⟩ => show win2_4.index t (1 : Fin 2) * 128 + 1 * k.val = k.val; omega

/-- The scale row is staged whole at every point. -/
theorem blk2_5 (c : Dev nD) (t : Fin cfg2.N) (p : Fin 1) (k : Fin 128) :
    (Gen.iblk2 V c 5 t : FVec Ideal S1x128 .f32) (ix2 p k) = (V c main_v78 : S1x128.Idx → EReal) (ix2 p k) := by
  have hi : win2_5.index t (0 : Fin 2) = 0 ∧ win2_5.index t (1 : Fin 2) = 0 := (idx2 t).2.2.2.2.2.1
  unfold Gen.iblk2
  rw [View.read_apply]
  show V c main_v78 _ = V c main_v78 _
  congr 1
  funext a; apply Fin.ext
  match a with
  | ⟨0, _⟩ => show win2_5.index t (0 : Fin 2) * 1 + 1 * p.val = p.val; omega
  | ⟨1, _⟩ => show win2_5.index t (1 : Fin 2) * 128 + 1 * k.val = k.val; omega

/-- The shift row is staged whole at every point. -/
theorem blk2_6 (c : Dev nD) (t : Fin cfg2.N) (p : Fin 1) (k : Fin 128) :
    (Gen.iblk2 V c 6 t : FVec Ideal S1x128 .f32) (ix2 p k) = (V c main_v79 : S1x128.Idx → EReal) (ix2 p k) := by
  have hi : win2_6.index t (0 : Fin 2) = 0 ∧ win2_6.index t (1 : Fin 2) = 0 := (idx2 t).2.2.2.2.2.2.1
  unfold Gen.iblk2
  rw [View.read_apply]
  show V c main_v79 _ = V c main_v79 _
  congr 1
  funext a; apply Fin.ext
  match a with
  | ⟨0, _⟩ => show win2_6.index t (0 : Fin 2) * 1 + 1 * p.val = p.val; omega
  | ⟨1, _⟩ => show win2_6.index t (1 : Fin 2) * 128 + 1 * k.val = k.val; omega

/-- Row `n`, lane `q` of what the first normalising launch computes from the arrays it reads. -/
def row2 (c : Dev nD) (n : Fin 100000) (q : Fin 128) : EReal :=
  at2 (α := EReal) (V c main_arg0) n q
    + Cert.Spec.lnrelu (fun k => (at2 (α := EReal) (V c main_v70) n k
          + at2 (α := EReal) (V c main_v54) n (0 : Fin 1) * at2 (α := EReal) (V c main_v57) n k)
          + at2 (α := EReal) (V c main_v77) (0 : Fin 1) k)
        (fun k => at2 (α := EReal) (V c main_v78) (0 : Fin 1) k) (fun k => at2 (α := EReal) (V c main_v79) (0 : Fin 1) k) q

/-- The same as an array. -/
def G2 (c : Dev nD) : S100000x128.Idx → EReal := fun i => row2 V c (i 0) (i 1)

/-- What point `t` writes back is block `t` of that array: its row `r` is the array's row `4000·t + r`, and every
    block the body reads is the same rows of its own array. -/
theorem flushed2_eq (c : Dev nD) (t : Fin cfg2.N) :
    (Gen.dat2 V c).flushed 7 t = ((cfg2.win 7).blk t).view.read (Elt Ideal) (G2 V c) := by
  show (cfg2.win 7).cut (grid2.coords t) ((Gen.dat2 V c).after 7 t) = _
  rw [Gen.after2_7]
  funext j
  obtain ⟨r, q, rfl⟩ : ∃ (r : Fin 4000) (q : Fin 128), j = ix2 r q := ⟨j 0, j 1, eq_ix2 j⟩
  have hN : cfg2.N = 25 := Gen.N_2
  have ht : t.val < 25 := hN ▸ t.isLt
  obtain ⟨n, hn⟩ : ∃ n : Fin 100000, n.val = 4000 * t.val + r.val := ⟨⟨4000 * t.val + r.val, by omega⟩, rfl⟩
  have hi : win2_7.index t (0 : Fin 2) = t.val ∧ win2_7.index t (1 : Fin 2) = 0 := (idx2 t).2.2.2.2.2.2.2
  have hemb : ((cfg2.win 7).blk t).view.emb (ix2 r q) = (ix2 n q : S100000x128.Idx) := by
    funext a; apply Fin.ext
    match a with
    | ⟨0, _⟩ => show win2_7.index t (0 : Fin 2) * 4000 + 1 * r.val = n.val; omega
    | ⟨1, _⟩ => show win2_7.index t (1 : Fin 2) * 128 + 1 * q.val = q.val; omega
  show Gen.out2_7 (Gen.iblk2 V c 0 t) (Gen.iblk2 V c 1 t) (Gen.iblk2 V c 2 t) (Gen.iblk2 V c 3 t) (Gen.iblk2 V c 4 t)
      (Gen.iblk2 V c 5 t) (Gen.iblk2 V c 6 t) (ix2 r q) = G2 V c (((cfg2.win 7).blk t).view.emb (ix2 r q))
  rw [hemb]
  refine (out2_row (Gen.iblk2 V c 0 t) (Gen.iblk2 V c 1 t) (Gen.iblk2 V c 2 t) (Gen.iblk2 V c 3 t) (Gen.iblk2 V c 4 t)
      (Gen.iblk2 V c 5 t) (Gen.iblk2 V c 6 t) r q).trans ?_
  show _ = row2 V c n q
  unfold row2
  rw [blk2_1 V c t r q n hn, blk2_3 V c t r 0 n hn]
  simp only [fun k => blk2_0 V c t r k n hn, fun k => blk2_2 V c t r k n hn, blk2_4 V c t, blk2_5 V c t, blk2_6 V c t]

/-- Every row of the result lies in some point's block: row `n` in point `n / 4000`'s. -/
theorem cover2 (c : Dev nD) (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 25 := Gen.N_2
  obtain ⟨t, ht⟩ : ∃ t : Fin cfg2.N, t.val = (i 0).val / 4000 := ⟨⟨(i 0).val / 4000, by rw [hN]; omega⟩, rfl⟩
  have hi : win2_7.index t (0 : Fin 2) = t.val ∧ win2_7.index t (1 : Fin 2) = 0 := (idx2 t).2.2.2.2.2.2.2
  refine ⟨t, Gen.flush2_7 t, ?_⟩
  show i ∈ ((View.whole main_v80).slice (win2_7.rect t)).set
  rw [View.set_slice_whole, Rect.mem_set_unit]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-- So the result array ends holding that array. -/
theorem final2 (c : Dev nD) : (Gen.dat2 V c).arrAt 7 cfg2.N = G2 V c :=
  (Gen.dat2 V c).arrAt_eq_of_cover 7 (G2 V c) (fun t _ => flushed2_eq V c t) (cover2 c)

/-- The first normalising launch's result, entry by entry: the residual plus the normalised row of
    (aggregate + loop weight · product + bias), from the arrays as the launch finds them. -/
theorem post2_arr (c : Dev nD) (n : Fin 100000) (q : Fin 128) :
    at2 (α := EReal) ((Gen.dat2 (F := Ideal) V c).arrAt 7 cfg2.N) n q
      = at2 (α := EReal) (V c main_arg0) n q
        + Cert.Spec.lnrelu (fun k => (at2 (α := EReal) (V c main_v70) n k
              + at2 (α := EReal) (V c main_v54) n (0 : Fin 1) * at2 (α := EReal) (V c main_v57) n k)
              + at2 (α := EReal) (V c main_v77) (0 : Fin 1) k)
            (fun k => at2 (α := EReal) (V c main_v78) (0 : Fin 1) k) (fun k => at2 (α := EReal) (V c main_v79) (0 : Fin 1) k) q :=
  congrFun (final2 V c) (ix2 n q)

end Region2

/-! ## The second normalising launch, with the linear head -/

section Region4

variable (V : (c : Dev nD) → (b : Ref sig .tc) → Buf (Elt Ideal) ((c : Thread nD τ).loc b))

/-- The second launch normalises exactly as the first. -/
theorem pay4_norm (x0 x2 : FVec Ideal S4000x128 .f32) (x3 : FVec Ideal S4000x1 .f32) (x4 x5 x6 : FVec Ideal S1x128 .f32) :
    Gen.k4_pay2 (F := Ideal) x0 x3 x2 x4 x5 x6 = Gen.k2_pay2 (F := Ideal) x0 x3 x2 x4 x5 x6 := rfl

/-- The head's dimension numbers are the plain matrix product's. -/
theorem dot4_eq : dot_S4000x128_S128x64_S4000x64_1_0_0_1_n_n = DotDims.plain 4000 128 64 := rfl

/-- The head at row `r`, column `q`: the row (residual + normalised) against column `q` of the head matrix, plus the head's
    bias. The narrowing of the two factors changes nothing at the ideal values. -/
theorem pay4_head (v : FVec Ideal S4000x128 .f32) (x1 : FVec Ideal S4000x128 .f32) (x7 : FVec Ideal S128x64 .f32)
    (x8 : FVec Ideal S1x64 .f32) (r : Fin 4000) (q : Fin 64) :
    Gen.k4_pay1 (F := Ideal) v x1 x7 x8 (ix2 r q)
      = (∑ k : Fin 128, (x1 (ix2 r k) + v (ix2 r k)) * x7 (ix2 k q)) + x8 (ix2 (0 : Fin 1) q) := by
  unfold Gen.k4_pay1
  rw [dot4_eq]
  simp only [shapeCast_self, addf_apply, broadcastTo_1b_ab_apply]
  rw [Cert.LibMatmulPlain.matmul_plain_zero_apply]
  simp only [truncf_apply, addf_apply]

/-- What the body leaves in the result's block, at row `r` and column `q`, from the blocks it reads. -/
theorem out4_row (x0 x1 x2 : FVec Ideal S4000x128 .f32) (x3 : FVec Ideal S4000x1 .f32) (x4 x5 x6 : FVec Ideal S1x128 .f32)
    (x7 : FVec Ideal S128x64 .f32) (x8 : FVec Ideal S1x64 .f32) (r : Fin 4000) (q : Fin 64) :
    Gen.out4_9 (F := Ideal) x0 x1 x2 x3 x4 x5 x6 x7 x8 (ix2 r q)
      = (∑ k : Fin 128, (x1 (ix2 r k)
            + Cert.Spec.lnrelu (fun k' => (x0 (ix2 r k') + x3 (ix2 r (0 : Fin 1)) * x2 (ix2 r k')) + x4 (ix2 (0 : Fin 1) k'))
                (fun k' => x5 (ix2 (0 : Fin 1) k')) (fun k' => x6 (ix2 (0 : Fin 1) k')) k) * x7 (ix2 k q))
        + x8 (ix2 (0 : Fin 1) q) := by
  unfold Gen.out4_9
  rw [View.canon_unit_zero hz]
  simp only [View.ld_unit_zero (S := S4000x128) hz, View.ld_unit_zero (S := S4000x1) hz, View.ld_unit_zero (S := S1x128) hz,
    View.ld_unit_zero (S := S128x64) hz, View.ld_unit_zero (S := S1x64) hz]
  refine (pay4_head (Gen.k4_pay2 (F := Ideal) x0 x3 x2 x4 x5 x6) x1 x7 x8 r q).trans ?_
  rw [pay4_norm]
  simp only [pay_row]

/-- The printed index maps over the 25 points: a row window's block index is the point, a parameter array's is zero. -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0) :=
  (by decide +kernel : ∀ t : Fin grid4.N, _)

/-- Row `r` of point `t`'s block of the aggregated rows is row `4000·t + r` of the array. -/
theorem blk4_0 (c : Dev nD) (t : Fin cfg4.N) (r : Fin 4000) (k : Fin 128) (n : Fin 100000) (hn : n.val = 4000 * t.val + r.val) :
    (Gen.iblk4 V c 0 t : FVec Ideal S4000x128 .f32) (ix2 r k) = (V c main_v96 : S100000x128.Idx → EReal) (ix2 n k) := by
  have hi : win4_0.index t (0 : Fin 2) = t.val ∧ win4_0.index t (1 : Fin 2) = 0 := (idx4 t).1
  unfold Gen.iblk4
  rw [View.read_apply]
  show V c main_v96 _ = V c main_v96 _
  congr 1
  funext a; apply Fin.ext
  match a with
  | ⟨0, _⟩ => show win4_0.index t (0 : Fin 2) * 4000 + 1 * r.val = n.val; omega
  | ⟨1, _⟩ => show win4_0.index t (1 : Fin 2) * 128 + 1 * k.val = k.val; omega

/-- Row `r` of point `t`'s block of the first layer's result is row `4000·t + r` of the array. -/
theorem blk4_1 (c : Dev nD) (t : Fin cfg4.N) (r : Fin 4000) (k : Fin 128) (n : Fin 100000) (hn : n.val = 4000 * t.val + r.val) :
    (Gen.iblk4 V c 1 t : FVec Ideal S4000x128 .f32) (ix2 r k) = (V c main_v80 : S100000x128.Idx → EReal) (ix2 n k) := by
  have hi : win4_1.index t (0 : Fin 2) = t.val ∧ win4_1.index t (1 : Fin 2) = 0 := (idx4 t).2.1
  unfold Gen.iblk4
  rw [View.read_apply]
  show V c main_v80 _ = V c main_v80 _
  congr 1
  funext a; apply Fin.ext
  match a with
  | ⟨0, _⟩ => show win4_1.index t (0 : Fin 2) * 4000 + 1 * r.val = n.val; omega
  | ⟨1, _⟩ => show win4_1.index t (1 : Fin 2) * 128 + 1 * k.val = k.val; omega

/-- Row `r` of point `t`'s block of the feature product is row `4000·t + r` of the array. -/
theorem blk4_2 (c : Dev nD) (t : Fin cfg4.N) (r : Fin 4000) (k : Fin 128) (n : Fin 100000) (hn : n.val = 4000 * t.val + r.val) :
    (Gen.iblk4 V c 2 t : FVec Ideal S4000x128 .f32) (ix2 r k) = (V c main_v83 : S100000x128.Idx → EReal) (ix2 n k) := by
  have hi : win4_2.index t (0 : Fin 2) = t.val ∧ win4_2.index t (1 : Fin 2) = 0 := (idx4 t).2.2.1
  unfold Gen.iblk4
  rw [View.read_apply]
  show V c main_v83 _ = V c main_v83 _
  congr 1
  funext a; apply Fin.ext
  match a with
  | ⟨0, _⟩ => show win4_2.index t (0 : Fin 2) * 4000 + 1 * r.val = n.val; omega
  | ⟨1, _⟩ => show win4_2.index t (1 : Fin 2) * 128 + 1 * k.val = k.val; omega

/-- Entry `r` of point `t`'s block of the loop-weight column is entry `4000·t + r` of the column. -/
theorem blk4_3 (c : Dev nD) (t : Fin cfg4.N) (r : Fin 4000) (k : Fin 1) (n : Fin 100000) (hn : n.val = 4000 * t.val + r.val) :
    (Gen.iblk4 V c 3 t : FVec Ideal S4000x1 .f32) (ix2 r k) = (V c main_v54 : S100000x1.Idx → EReal) (ix2 n k) := by
  have hi : win4_3.index t (0 : Fin 2) = t.val ∧ win4_3.index t (1 : Fin 2) = 0 := (idx4 t).2.2.2.1
  unfold Gen.iblk4
  rw [View.read_apply]
  show V c main_v54 _ = V c main_v54 _
  congr 1
  funext a; apply Fin.ext
  match a with
  | ⟨0, _⟩ => show win4_3.index t (0 : Fin 2) * 4000 + 1 * r.val = n.val; omega
  | ⟨1, _⟩ => show win4_3.index t (1 : Fin 2) * 1 + 1 * k.val = k.val; omega

/-- The bias row is staged whole at every point. -/
theorem blk4_4 (c : Dev nD) (t : Fin cfg4.N) (p : Fin 1) (k : Fin 128) :
    (Gen.iblk4 V c 4 t : FVec Ideal S1x128 .f32) (ix2 p k) = (V c main_v103 : S1x128.Idx → EReal) (ix2 p k) := by
  have hi : win4_4.index t (0 : Fin 2) = 0 ∧ win4_4.index t (1 : Fin 2) = 0 := (idx4 t).2.2.2.2.1
  unfold Gen.iblk4
  rw [View.read_apply]
  show V c main_v103 _ = V c main_v103 _
  congr 1
  funext a; apply Fin.ext
  match a with
  | ⟨0, _⟩ => show win4_4.index t (0 : Fin 2) * 1 + 1 * p.val = p.val; omega
  | ⟨1, _⟩ => show win4_4.index t (1 : Fin 2) * 128 + 1 * k.val = k.val; omega

/-- The scale row is staged whole at every point. -/
theorem blk4_5 (c : Dev nD) (t : Fin cfg4.N) (p : Fin 1) (k : Fin 128) :
    (Gen.iblk4 V c 5 t : FVec Ideal S1x128 .f32) (ix2 p k) = (V c main_v104 : S1x128.Idx → EReal) (ix2 p k) := by
  have hi : win4_5.index t (0 : Fin 2) = 0 ∧ win4_5.index t (1 : Fin 2) = 0 := (idx4 t).2.2.2.2.2.1
  unfold Gen.iblk4
  rw [View.read_apply]
  show V c main_v104 _ = V c main_v104 _
  congr 1
  funext a; apply Fin.ext
  match a with
  | ⟨0, _⟩ => show win4_5.index t (0 : Fin 2) * 1 + 1 * p.val = p.val; omega
  | ⟨1, _⟩ => show win4_5.index t (1 : Fin 2) * 128 + 1 * k.val = k.val; omega

/-- The shift row is staged whole at every point. -/
theorem blk4_6 (c : Dev nD) (t : Fin cfg4.N) (p : Fin 1) (k : Fin 128) :
    (Gen.iblk4 V c 6 t : FVec Ideal S1x128 .f32) (ix2 p k) = (V c main_v105 : S1x128.Idx → EReal) (ix2 p k) := by
  have hi : win4_6.index t (0 : Fin 2) = 0 ∧ win4_6.index t (1 : Fin 2) = 0 := (idx4 t).2.2.2.2.2.2.1
  unfold Gen.iblk4
  rw [View.read_apply]
  show V c main_v105 _ = V c main_v105 _
  congr 1
  funext a; apply Fin.ext
  match a with
  | ⟨0, _⟩ => show win4_6.index t (0 : Fin 2) * 1 + 1 * p.val = p.val; omega
  | ⟨1, _⟩ => show win4_6.index t (1 : Fin 2) * 128 + 1 * k.val = k.val; omega

/-- The head matrix is staged whole at every point. -/
theorem blk4_7 (c : Dev nD) (t : Fin cfg4.N) (p : Fin 128) (k : Fin 64) :
    (Gen.iblk4 V c 7 t : FVec Ideal S128x64 .f32) (ix2 p k) = (V c main_arg11 : S128x64.Idx → EReal) (ix2 p k) := by
  have hi : win4_7.index t (0 : Fin 2) = 0 ∧ win4_7.index t (1 : Fin 2) = 0 := (idx4 t).2.2.2.2.2.2.2.1
  unfold Gen.iblk4
  rw [View.read_apply]
  show V c main_arg11 _ = V c main_arg11 _
  congr 1
  funext a; apply Fin.ext
  match a with
  | ⟨0, _⟩ => show win4_7.index t (0 : Fin 2) * 128 + 1 * p.val = p.val; omega
  | ⟨1, _⟩ => show win4_7.index t (1 : Fin 2) * 64 + 1 * k.val = k.val; omega

/-- The head's bias row is staged whole at every point. -/
theorem blk4_8 (c : Dev nD) (t : Fin cfg4.N) (p : Fin 1) (k : Fin 64) :
    (Gen.iblk4 V c 8 t : FVec Ideal S1x64 .f32) (ix2 p k) = (V c main_v106 : S1x64.Idx → EReal) (ix2 p k) := by
  have hi : win4_8.index t (0 : Fin 2) = 0 ∧ win4_8.index t (1 : Fin 2) = 0 := (idx4 t).2.2.2.2.2.2.2.2.1
  unfold Gen.iblk4
  rw [View.read_apply]
  show V c main_v106 _ = V c main_v106 _
  congr 1
  funext a; apply Fin.ext
  match a with
  | ⟨0, _⟩ => show win4_8.index t (0 : Fin 2) * 1 + 1 * p.val = p.val; omega
  | ⟨1, _⟩ => show win4_8.index t (1 : Fin 2) * 64 + 1 * k.val = k.val; omega

/-- Row `n`, column `q` of what the second normalising launch computes from the arrays it reads. -/
def row4 (c : Dev nD) (n : Fin 100000) (q : Fin 64) : EReal :=
  (∑ k : Fin 128, (at2 (α := EReal) (V c main_v80) n k
            + Cert.Spec.lnrelu (fun k' => (at2 (α := EReal) (V c main_v96) n k'
                  + at2 (α := EReal) (V c main_v54) n (0 : Fin 1) * at2 (α := EReal) (V c main_v83) n k')
                  + at2 (α := EReal) (V c main_v103) (0 : Fin 1) k')
                (fun k' => at2 (α := EReal) (V c main_v104) (0 : Fin 1) k') (fun k' => at2 (α := EReal) (V c main_v105) (0 : Fin 1) k') k)
          * at2 (α := EReal) (V c main_arg11) k q)
        + at2 (α := EReal) (V c main_v106) (0 : Fin 1) q

/-- The same as an array. -/
def G4 (c : Dev nD) : S100000x64.Idx → EReal := fun i => row4 V c (i 0) (i 1)

/-- What point `t` writes back is block `t` of that array: its row `r` is the array's row `4000·t + r`, every row block
    the body reads is the same rows of its own array, and the parameter arrays are read whole. -/
theorem flushed4_eq (c : Dev nD) (t : Fin cfg4.N) :
    (Gen.dat4 V c).flushed 9 t = ((cfg4.win 9).blk t).view.read (Elt Ideal) (G4 V c) := by
  show (cfg4.win 9).cut (grid4.coords t) ((Gen.dat4 V c).after 9 t) = _
  rw [Gen.after4_9]
  funext j
  obtain ⟨r, q, rfl⟩ : ∃ (r : Fin 4000) (q : Fin 64), j = ix2 r q := ⟨j 0, j 1, eq_ix2 j⟩
  have hN : cfg4.N = 25 := Gen.N_4
  have ht : t.val < 25 := hN ▸ t.isLt
  obtain ⟨n, hn⟩ : ∃ n : Fin 100000, n.val = 4000 * t.val + r.val := ⟨⟨4000 * t.val + r.val, by omega⟩, rfl⟩
  have hi : win4_9.index t (0 : Fin 2) = t.val ∧ win4_9.index t (1 : Fin 2) = 0 := (idx4 t).2.2.2.2.2.2.2.2.2
  have hemb : ((cfg4.win 9).blk t).view.emb (ix2 r q) = (ix2 n q : S100000x64.Idx) := by
    funext a; apply Fin.ext
    match a with
    | ⟨0, _⟩ => show win4_9.index t (0 : Fin 2) * 4000 + 1 * r.val = n.val; omega
    | ⟨1, _⟩ => show win4_9.index t (1 : Fin 2) * 64 + 1 * q.val = q.val; omega
  show Gen.out4_9 (Gen.iblk4 V c 0 t) (Gen.iblk4 V c 1 t) (Gen.iblk4 V c 2 t) (Gen.iblk4 V c 3 t) (Gen.iblk4 V c 4 t)
      (Gen.iblk4 V c 5 t) (Gen.iblk4 V c 6 t) (Gen.iblk4 V c 7 t) (Gen.iblk4 V c 8 t) (ix2 r q)
      = G4 V c (((cfg4.win 9).blk t).view.emb (ix2 r q))
  rw [hemb]
  refine (out4_row (Gen.iblk4 V c 0 t) (Gen.iblk4 V c 1 t) (Gen.iblk4 V c 2 t) (Gen.iblk4 V c 3 t) (Gen.iblk4 V c 4 t)
      (Gen.iblk4 V c 5 t) (Gen.iblk4 V c 6 t) (Gen.iblk4 V c 7 t) (Gen.iblk4 V c 8 t) r q).trans ?_
  show _ = row4 V c n q
  unfold row4
  rw [blk4_3 V c t r 0 n hn, blk4_8 V c t]
  simp only [fun k => blk4_0 V c t r k n hn, fun k => blk4_1 V c t r k n hn, fun k => blk4_2 V c t r k n hn,
    blk4_4 V c t, blk4_5 V c t, blk4_6 V c t, blk4_7 V c t]

/-- Every row of the result lies in some point's block: row `n` in point `n / 4000`'s. -/
theorem cover4 (c : Dev nD) (i : S100000x64.Idx) :
    ∃ t : Fin cfg4.N, (cfg4.win 9).flush t = true ∧ i ∈ ((cfg4.win 9).blk t).view.set := by
  have hi0 : (i 0).val < 100000 := (i 0).isLt
  have hi1 : (i 1).val < 64 := (i 1).isLt
  have hN : cfg4.N = 25 := Gen.N_4
  obtain ⟨t, ht⟩ : ∃ t : Fin cfg4.N, t.val = (i 0).val / 4000 := ⟨⟨(i 0).val / 4000, by rw [hN]; omega⟩, rfl⟩
  have hi : win4_9.index t (0 : Fin 2) = t.val ∧ win4_9.index t (1 : Fin 2) = 0 := (idx4 t).2.2.2.2.2.2.2.2.2
  refine ⟨t, Gen.flush4_9 t, ?_⟩
  show i ∈ ((View.whole main_v107).slice (win4_9.rect t)).set
  rw [View.set_slice_whole, Rect.mem_set_unit]
  intro a
  match a with
  | ⟨0, _⟩ => show win4_9.index t (0 : Fin 2) * 4000 ≤ (i 0).val ∧ (i 0).val < win4_9.index t (0 : Fin 2) * 4000 + 4000; omega
  | ⟨1, _⟩ => show win4_9.index t (1 : Fin 2) * 64 ≤ (i 1).val ∧ (i 1).val < win4_9.index t (1 : Fin 2) * 64 + 64; omega

/-- So the result array ends holding that array. -/
theorem final4 (c : Dev nD) : (Gen.dat4 V c).arrAt 9 cfg4.N = G4 V c :=
  (Gen.dat4 V c).arrAt_eq_of_cover 9 (G4 V c) (fun t _ => flushed4_eq V c t) (cover4 c)

/-- The second normalising launch's result, entry by entry: the row (first layer's result + normalised row of
    (aggregate + loop weight · product + bias)) against the head matrix, plus the head's bias, from the arrays as the
    launch finds them. -/
theorem post4_arr (c : Dev nD) (n : Fin 100000) (q : Fin 64) :
    at2 (α := EReal) ((Gen.dat4 (F := Ideal) V c).arrAt 9 cfg4.N) n q
      = (∑ k : Fin 128, (at2 (α := EReal) (V c main_v80) n k
            + Cert.Spec.lnrelu (fun k' => (at2 (α := EReal) (V c main_v96) n k'
                  + at2 (α := EReal) (V c main_v54) n (0 : Fin 1) * at2 (α := EReal) (V c main_v83) n k')
                  + at2 (α := EReal) (V c main_v103) (0 : Fin 1) k')
                (fun k' => at2 (α := EReal) (V c main_v104) (0 : Fin 1) k') (fun k' => at2 (α := EReal) (V c main_v105) (0 : Fin 1) k') k)
          * at2 (α := EReal) (V c main_arg11) k q)
        + at2 (α := EReal) (V c main_v106) (0 : Fin 1) q :=
  congrFun (final4 V c) (ix2 n q)

end Region4

end Cert.KernelIdeal.PostValue

end
-- ==== Proof.KHost2.lean ====
/-
  The host operations between the first product kernel and the first normalising kernel, read at an index.

  From any buffer contents W this stretch leaves: the aggregate of every node, lane by lane — on top of the zero word, the
  sum over the edges whose stored destination (read signed) is that node of the edge's weight times the product row of the
  node its stored source names; and the first layer's bias, scale and shift, each row 0 of its two-row table laid out as a
  [1, 128] row. Everything else it reads it leaves as it was.
-/
import proofs.«166963_j81509889343768_2_alg».proof.Proof.Gen.KernelIdeal.Launch
import proofs.«166963_j81509889343768_2_alg».proof.Proof.Spec
import proofs.«166963_j81509889343768_2_alg».proof.Proof.KHost0
import proofs.«166963_j81509889343768_2_alg».proof.Proof.LibVecScatter
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo
open scoped BigOperators

/-! ## The two shapes of this stretch, over any operands -/

/-- The weighted rows of the edges summed into their destination nodes: with edge weights wv, a table X of node rows, stored
    sources s and stored destinations d, entry (n, q) is the zero word plus the sum, over the edges whose stored destination
    read signed is n, of the edge's weight times lane q of the row of the node its stored source names. -/
theorem agg_apply (wv : FVec Ideal S1600000 .f32) (X : FVec Ideal S100000x128 .f32) (s d : IVec S1600000 32)
    (n : Fin 100000) (q : Fin 128) :
    Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 d)
        (mulf (broadcastInDim S1600000x128 ![0, 1] bcast_S1600000x1_S1600000x128_0_1
            (broadcastInDim S1600000x1 ![0] bcast_S1600000_S1600000x1_0 wv))
          (Host.gather gather_S100000x128_S1600000x1_S1600000x128_1_0_n_n_0_1_1128 X
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s)))) (ix2 n q)
      = Cert.Spec.z0 + ∑ e ∈ Finset.univ.filter (fun e : Fin 1600000 => (d (ix1 e)).toInt = (n.val : ℤ)),
          wv (ix1 e) * X (ix2 (Cert.Spec.node (s (ix1 e))) q) := by
  refine (Cert.LibVecScatter.host_scatterAdd_rows_apply (N := 100000) (R := 1600000) (C := 128)
    scatter_S100000x128_S1600000x1_S1600000x128_1_0_0_1.wf _ _ _ n q).trans ?_
  have hl : Cert.LibRowAggLinear.landsOn (broadcastInDim S1600000x1 ![0] bcast_S1600000_S1600000x1_0 d) n
      = Finset.univ.filter fun e : Fin 1600000 => (d (ix1 e)).toInt = (n.val : ℤ) := by
    unfold Cert.LibRowAggLinear.landsOn
    refine Finset.filter_congr fun e _ => ?_
    rw [Cert.LibColRow.bcast_a_a1_apply]
  rw [hl]
  refine congrArg₂ (· + ·) rfl (Finset.sum_congr rfl fun e _ => ?_)
  rw [mulf_apply, Cert.LibColRow.bcast_a1_ab_apply, Cert.LibColRow.bcast_a_a1_apply]
  refine congrArg₂ (· * ·) rfl ?_
  refine (Cert.LibGatherRows.gather_rows_apply (N := 100000) (R := 1600000) (C := 128) (by decide)
    gather_S100000x128_S1600000x1_S1600000x128_1_0_n_n_0_1_1128.wf _ _ e q).trans ?_
  rw [rowOf_wrapcol]

/-- Row r of a two-row table cut out, flattened to a vector and laid out again as a [1, 128] row: lane k of the result is
    entry (r, k) of the table. -/
theorem row_apply {α : Type} (o : ℕ) (A : S2x128.Idx → α) (hs : S2x128.Slices ![o, 0] S1x128) (r : Fin 2) (hr : r.val = o)
    (k : Fin 128) :
    shapeCast S1x128 (shapeCast S128 (extractStridedSlice S1x128 ![o, 0] A hs) shapeCasts_S1x128_S128) shapeCasts_S128_S1x128
        (ix2 (0 : Fin 1) k) = A (ix2 r k) := by
  rw [shapeCast_a_1a_apply, shapeCast_1a_a_apply]
  exact slice2_axis0_apply o _ _ (0 : Fin 1) k r (by omega)

variable (W : Valuation τ sig (Elt Ideal))

/-! ## The aggregate -/

set_option maxHeartbeats 4000000 in
theorem h2_agg (n : Fin 100000) (q : Fin 128) :
    (StableHlo.after (hostOps2 (F := Ideal)) W (Proc.devRef .tc main_v70) : S100000x128.Idx → EReal) (ix2 n q)
      = Cert.Spec.z0 + ∑ e ∈ Finset.univ.filter (fun e : Fin 1600000 =>
            ((W (Proc.devRef .tc main_v3) : S1600000.Idx → BitVec 32) (ix1 e)).toInt = (n.val : ℤ)),
          HMul.hMul (α := EReal) (β := EReal) (γ := EReal) ((W (Proc.devRef .tc main_v52) : S1600000.Idx → EReal) (ix1 e))
            ((W (Proc.devRef .tc main_v57) : S100000x128.Idx → EReal)
              (ix2 (Cert.Spec.node ((W (Proc.devRef .tc main_v1) : S1600000.Idx → BitVec 32) (ix1 e))) q)) := by
  have h : StableHlo.after (hostOps2 (F := Ideal)) W (Proc.devRef .tc main_v70)
      = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W (Proc.devRef .tc main_v3)))
        (mulf (broadcastInDim S1600000x128 ![0, 1] bcast_S1600000x1_S1600000x128_0_1
            (broadcastInDim S1600000x1 ![0] bcast_S1600000_S1600000x1_0 (W (Proc.devRef .tc main_v52))))
          (Host.gather gather_S100000x128_S1600000x1_S1600000x128_1_0_n_n_0_1_1128 (W (Proc.devRef .tc main_v57))
            (broadcastInDim S1600000x1 ![0] bcast_S1600000_S1600000x1_0
              (select (cmpi .slt (W (Proc.devRef .tc main_v1)) (broadcastInDim S1600000 ![] bcast_S_S1600000 (constantI S_ 32 0#32)))
                (addi (W (Proc.devRef .tc main_v1)) (broadcastInDim S1600000 ![] bcast_S_S1600000 (constantI S_ 32 100000#32)))
                (W (Proc.devRef .tc main_v1)))))) := by
    after_results_simp <;> rfl
  rw [h]
  exact agg_apply (W (Proc.devRef .tc main_v52)) (W (Proc.devRef .tc main_v57)) (W (Proc.devRef .tc main_v1))
    (W (Proc.devRef .tc main_v3)) n q

/-! ## The first layer's bias, scale and shift as rows -/

theorem h2_b (k : Fin 128) :
    (StableHlo.after (hostOps2 (F := Ideal)) W (Proc.devRef .tc main_v77) : S1x128.Idx → EReal) (ix2 (0 : Fin 1) k)
      = (W (Proc.devRef .tc main_arg8) : S2x128.Idx → EReal) (ix2 (0 : Fin 2) k) := by
  have h : StableHlo.after (hostOps2 (F := Ideal)) W (Proc.devRef .tc main_v77)
      = shapeCast S1x128 (shapeCast S128 (extractStridedSlice S1x128 ![0, 0] (W (Proc.devRef .tc main_arg8)) slices_S2x128_S1x128_0_0)
          shapeCasts_S1x128_S128) shapeCasts_S128_S1x128 := by
    after_results_simp <;> rfl
  rw [h]
  exact row_apply 0 _ _ (0 : Fin 2) rfl k
theorem h2_g (k : Fin 128) :
    (StableHlo.after (hostOps2 (F := Ideal)) W (Proc.devRef .tc main_v78) : S1x128.Idx → EReal) (ix2 (0 : Fin 1) k)
      = (W (Proc.devRef .tc main_arg9) : S2x128.Idx → EReal) (ix2 (0 : Fin 2) k) := by
  have h : StableHlo.after (hostOps2 (F := Ideal)) W (Proc.devRef .tc main_v78)
      = shapeCast S1x128 (shapeCast S128 (extractStridedSlice S1x128 ![0, 0] (W (Proc.devRef .tc main_arg9)) slices_S2x128_S1x128_0_0)
          shapeCasts_S1x128_S128) shapeCasts_S128_S1x128 := by
    after_results_simp <;> rfl
  rw [h]
  exact row_apply 0 _ _ (0 : Fin 2) rfl k
theorem h2_beta (k : Fin 128) :
    (StableHlo.after (hostOps2 (F := Ideal)) W (Proc.devRef .tc main_v79) : S1x128.Idx → EReal) (ix2 (0 : Fin 1) k)
      = (W (Proc.devRef .tc main_arg10) : S2x128.Idx → EReal) (ix2 (0 : Fin 2) k) := by
  have h : StableHlo.after (hostOps2 (F := Ideal)) W (Proc.devRef .tc main_v79)
      = shapeCast S1x128 (shapeCast S128 (extractStridedSlice S1x128 ![0, 0] (W (Proc.devRef .tc main_arg10)) slices_S2x128_S1x128_0_0)
          shapeCasts_S1x128_S128) shapeCasts_S128_S1x128 := by
    after_results_simp <;> rfl
  rw [h]
  exact row_apply 0 _ _ (0 : Fin 2) rfl k

/-! ## What the stretch leaves as it was -/

theorem h2_keep_arg0 : StableHlo.after (hostOps2 (F := Ideal)) W (Proc.devRef .tc main_arg0) = W (Proc.devRef .tc main_arg0) := by
  after_results_simp <;> rfl
theorem h2_keep_v57 : StableHlo.after (hostOps2 (F := Ideal)) W (Proc.devRef .tc main_v57) = W (Proc.devRef .tc main_v57) := by
  after_results_simp <;> rfl
theorem h2_keep_v54 : StableHlo.after (hostOps2 (F := Ideal)) W (Proc.devRef .tc main_v54) = W (Proc.devRef .tc main_v54) := by
  after_results_simp <;> rfl
theorem h2_keep_v52 : StableHlo.after (hostOps2 (F := Ideal)) W (Proc.devRef .tc main_v52) = W (Proc.devRef .tc main_v52) := by
  after_results_simp <;> rfl
theorem h2_keep_v1 : StableHlo.after (hostOps2 (F := Ideal)) W (Proc.devRef .tc main_v1) = W (Proc.devRef .tc main_v1) := by
  after_results_simp <;> rfl
theorem h2_keep_v3 : StableHlo.after (hostOps2 (F := Ideal)) W (Proc.devRef .tc main_v3) = W (Proc.devRef .tc main_v3) := by
  after_results_simp <;> rfl
theorem h2_keep_arg7 : StableHlo.after (hostOps2 (F := Ideal)) W (Proc.devRef .tc main_arg7) = W (Proc.devRef .tc main_arg7) := by
  after_results_simp <;> rfl
theorem h2_keep_arg8 : StableHlo.after (hostOps2 (F := Ideal)) W (Proc.devRef .tc main_arg8) = W (Proc.devRef .tc main_arg8) := by
  after_results_simp <;> rfl
theorem h2_keep_arg9 : StableHlo.after (hostOps2 (F := Ideal)) W (Proc.devRef .tc main_arg9) = W (Proc.devRef .tc main_arg9) := by
  after_results_simp <;> rfl
theorem h2_keep_arg10 : StableHlo.after (hostOps2 (F := Ideal)) W (Proc.devRef .tc main_arg10) = W (Proc.devRef .tc main_arg10) := by
  after_results_simp <;> rfl
theorem h2_keep_arg11 : StableHlo.after (hostOps2 (F := Ideal)) W (Proc.devRef .tc main_arg11) = W (Proc.devRef .tc main_arg11) := by
  after_results_simp <;> rfl
theorem h2_keep_arg12 : StableHlo.after (hostOps2 (F := Ideal)) W (Proc.devRef .tc main_arg12) = W (Proc.devRef .tc main_arg12) := by
  after_results_simp <;> rfl

end Cert.KernelIdeal.HostValue

end
-- ==== Proof.KChainB.lean ====
/-
  The first layer, composed: the first product launch, the host stretch after it and the first normalising launch.

  Taking as given what the buffers hold when the first product launch is entered — the edge weights, the column of dinv
  squared, the first layer's weight matrix, the stored sources and destinations, and the arguments — the node features
  times the weight matrix come out of the product launch; the host stretch sums, into every node, the weighted product rows
  of the edges that land on it, on top of the zero word, and lays out the layer's bias, scale and shift as rows; the
  normalising launch adds the node's own loop term and the bias, normalises, scales, shifts, ramps and adds the residual.
  Entry by entry that is the specification's first layer applied to the node features.
-/
import proofs.«166963_j81509889343768_2_alg».proof.Proof.Gen.KernelIdeal.Frame
import proofs.«166963_j81509889343768_2_alg».proof.Proof.Spec
import proofs.«166963_j81509889343768_2_alg».proof.Proof.KMatmul
import proofs.«166963_j81509889343768_2_alg».proof.Proof.KPost
import proofs.«166963_j81509889343768_2_alg».proof.Proof.KHost2

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec (at1 at2 at3)
open scoped BigOperators

variable (m : (ℓ : Loc nD τ sig) → Buf (Elt Ideal) ℓ) (ρ : Dev nD → PrngReg) (c : Dev nD)

/-- Two normalised rows agree when the rows, the scales and the shifts agree lane by lane. -/
theorem lnrelu_congr {h h' g g' β β' : Fin 128 → EReal} (hh : ∀ k, h k = h' k) (hg : ∀ k, g k = g' k)
    (hβ : ∀ k, β k = β' k) (q : Fin 128) : Cert.Spec.lnrelu h g β q = Cert.Spec.lnrelu h' g' β' q := by
  rw [funext hh, funext hg, funext hβ]

/-! ## Buffers that pass through the product launch, the host stretch and the normalising launch unchanged -/

/-- The node features are an input of the product launch: it leaves them as they were. -/
theorem W6_arg0 : Gen.W6 m ρ c (Proc.devRef .tc main_arg0) = Gen.W5 m ρ c (Proc.devRef .tc main_arg0) :=
  (Gen.W6_arr m ρ c 0).trans (((Gen.dat1 (Gen.V5 m ρ) c).arrAt_in 0 rfl _).trans (Gen.A_eq1 (Gen.V5 m ρ) c 0))

theorem W8_keep_v52 : Gen.W8 m ρ c (Proc.devRef .tc main_v52) = Gen.W5 m ρ c (Proc.devRef .tc main_v52) :=
  (Gen.W8_of_ne m ρ c main_v52 (by decide)).trans
    ((Cert.KernelIdeal.HostValue.h2_keep_v52 (Gen.W6 m ρ c)).trans (Gen.W6_of_ne m ρ c main_v52 (by decide)))
theorem W8_keep_v1 : Gen.W8 m ρ c (Proc.devRef .tc main_v1) = Gen.W5 m ρ c (Proc.devRef .tc main_v1) :=
  (Gen.W8_of_ne m ρ c main_v1 (by decide)).trans
    ((Cert.KernelIdeal.HostValue.h2_keep_v1 (Gen.W6 m ρ c)).trans (Gen.W6_of_ne m ρ c main_v1 (by decide)))
theorem W8_keep_v3 : Gen.W8 m ρ c (Proc.devRef .tc main_v3) = Gen.W5 m ρ c (Proc.devRef .tc main_v3) :=
  (Gen.W8_of_ne m ρ c main_v3 (by decide)).trans
    ((Cert.KernelIdeal.HostValue.h2_keep_v3 (Gen.W6 m ρ c)).trans (Gen.W6_of_ne m ρ c main_v3 (by decide)))
theorem W8_keep_arg7 : Gen.W8 m ρ c (Proc.devRef .tc main_arg7) = Gen.W5 m ρ c (Proc.devRef .tc main_arg7) :=
  (Gen.W8_of_ne m ρ c main_arg7 (by decide)).trans
    ((Cert.KernelIdeal.HostValue.h2_keep_arg7 (Gen.W6 m ρ c)).trans (Gen.W6_of_ne m ρ c main_arg7 (by decide)))
theorem W8_keep_arg8 : Gen.W8 m ρ c (Proc.devRef .tc main_arg8) = Gen.W5 m ρ c (Proc.devRef .tc main_arg8) :=
  (Gen.W8_of_ne m ρ c main_arg8 (by decide)).trans
    ((Cert.KernelIdeal.HostValue.h2_keep_arg8 (Gen.W6 m ρ c)).trans (Gen.W6_of_ne m ρ c main_arg8 (by decide)))
theorem W8_keep_arg9 : Gen.W8 m ρ c (Proc.devRef .tc main_arg9) = Gen.W5 m ρ c (Proc.devRef .tc main_arg9) :=
  (Gen.W8_of_ne m ρ c main_arg9 (by decide)).trans
    ((Cert.KernelIdeal.HostValue.h2_keep_arg9 (Gen.W6 m ρ c)).trans (Gen.W6_of_ne m ρ c main_arg9 (by decide)))
theorem W8_keep_arg10 : Gen.W8 m ρ c (Proc.devRef .tc main_arg10) = Gen.W5 m ρ c (Proc.devRef .tc main_arg10) :=
  (Gen.W8_of_ne m ρ c main_arg10 (by decide)).trans
    ((Cert.KernelIdeal.HostValue.h2_keep_arg10 (Gen.W6 m ρ c)).trans (Gen.W6_of_ne m ρ c main_arg10 (by decide)))
theorem W8_keep_arg11 : Gen.W8 m ρ c (Proc.devRef .tc main_arg11) = Gen.W5 m ρ c (Proc.devRef .tc main_arg11) :=
  (Gen.W8_of_ne m ρ c main_arg11 (by decide)).trans
    ((Cert.KernelIdeal.HostValue.h2_keep_arg11 (Gen.W6 m ρ c)).trans (Gen.W6_of_ne m ρ c main_arg11 (by decide)))
theorem W8_keep_arg12 : Gen.W8 m ρ c (Proc.devRef .tc main_arg12) = Gen.W5 m ρ c (Proc.devRef .tc main_arg12) :=
  (Gen.W8_of_ne m ρ c main_arg12 (by decide)).trans
    ((Cert.KernelIdeal.HostValue.h2_keep_arg12 (Gen.W6 m ρ c)).trans (Gen.W6_of_ne m ρ c main_arg12 (by decide)))
/-- The column of dinv squared is an input of the normalising launch: it leaves it as it was. -/
theorem W8_keep_v54 : Gen.W8 m ρ c (Proc.devRef .tc main_v54) = Gen.W5 m ρ c (Proc.devRef .tc main_v54) :=
  ((Gen.W8_arr m ρ c 3).trans (((Gen.dat2 (Gen.V7 m ρ) c).arrAt_in 3 rfl _).trans (Gen.A_eq2 (Gen.V7 m ρ) c 3))).trans
    ((Cert.KernelIdeal.HostValue.h2_keep_v54 (Gen.W6 m ρ c)).trans (Gen.W6_of_ne m ρ c main_v54 (by decide)))

/-! ## What the product launch leaves: the node features times the first layer's weight matrix -/

theorem W6_xw
    (hCw : ∀ k q : Fin 128, at2 (α := EReal) (a := 128) (b := 128) (Gen.W5 m ρ c (Proc.devRef .tc main_v56)) k q = (at3 (α := EReal) (a := 2) (b := 128) (c := 128) (m ((c : Thread nD τ).loc main_arg7))) (0 : Fin 2) k q)
    (hA0 : Gen.W5 m ρ c (Proc.devRef .tc main_arg0) = (m ((c : Thread nD τ).loc main_arg0))) (n : Fin 100000) (q : Fin 128) :
    at2 (α := EReal) (a := 100000) (b := 128) (Gen.W6 m ρ c (Proc.devRef .tc main_v57)) n q
      = Cert.Spec.xw (at3 (α := EReal) (a := 2) (b := 128) (c := 128) (m ((c : Thread nD τ).loc main_arg7))) (0 : Fin 2) (at2 (α := EReal) (a := 100000) (b := 128) (m ((c : Thread nD τ).loc main_arg0))) n q := by
  refine (congrFun (Gen.W6_arr m ρ c 2) (ix2 n q)).trans ?_
  refine (Cert.KernelIdeal.MatmulValue.mm1_arr (Gen.V5 m ρ) c (m ((c : Thread nD τ).loc main_arg0)) (Gen.V5 m ρ c main_v56) hA0.symm rfl n q).trans ?_
  show (∑ k : Fin 128, at2 (α := EReal) (a := 100000) (b := 128) (m ((c : Thread nD τ).loc main_arg0)) n k
      * at2 (α := EReal) (a := 128) (b := 128) (Gen.W5 m ρ c (Proc.devRef .tc main_v56)) k q : EReal) = _
  unfold Cert.Spec.xw
  exact Finset.sum_congr rfl fun k _ => congrArg₂ (· * ·) rfl (hCw k q)

/-! ## The aggregate the host stretch forms: the weighted product rows of the edges landing on a node -/

theorem V7_agg
    (hW : ∀ e : Fin 1600000, at1 (α := EReal) (a := 1600000) (Gen.W5 m ρ c (Proc.devRef .tc main_v52)) e
        = Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1)) e)
    (hCw : ∀ k q : Fin 128, at2 (α := EReal) (a := 128) (b := 128) (Gen.W5 m ρ c (Proc.devRef .tc main_v56)) k q = (at3 (α := EReal) (a := 2) (b := 128) (c := 128) (m ((c : Thread nD τ).loc main_arg7))) (0 : Fin 2) k q)
    (hSrc : ∀ e : Fin 1600000, at1 (α := BitVec 32) (a := 1600000) (Gen.W5 m ρ c (Proc.devRef .tc main_v1)) e = (at2 (α := BitVec 32) (a := 2) (b := 1600000) (m ((c : Thread nD τ).loc main_arg2)) (0 : Fin 2)) e)
    (hDst : ∀ e : Fin 1600000, at1 (α := BitVec 32) (a := 1600000) (Gen.W5 m ρ c (Proc.devRef .tc main_v3)) e = (at2 (α := BitVec 32) (a := 2) (b := 1600000) (m ((c : Thread nD τ).loc main_arg2)) (1 : Fin 2)) e)
    (hA0 : Gen.W5 m ρ c (Proc.devRef .tc main_arg0) = (m ((c : Thread nD τ).loc main_arg0))) (n : Fin 100000) (k : Fin 128) :
    at2 (α := EReal) (a := 100000) (b := 128) (Gen.V7 m ρ c main_v70) n k
      = Cert.Spec.z0 + ∑ e ∈ Cert.Spec.lands (at2 (α := BitVec 32) (a := 2) (b := 1600000) (m ((c : Thread nD τ).loc main_arg2)) (1 : Fin 2)) n,
          Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1)) e
            * Cert.Spec.xw (at3 (α := EReal) (a := 2) (b := 128) (c := 128) (m ((c : Thread nD τ).loc main_arg7))) (0 : Fin 2) (at2 (α := EReal) (a := 100000) (b := 128) (m ((c : Thread nD τ).loc main_arg0))) (Cert.Spec.node ((at2 (α := BitVec 32) (a := 2) (b := 1600000) (m ((c : Thread nD τ).loc main_arg2)) (0 : Fin 2)) e)) k := by
  refine (Cert.KernelIdeal.HostValue.h2_agg (Gen.W6 m ρ c) n k).trans ?_
  refine congrArg₂ (· + ·) rfl ?_
  unfold Cert.Spec.lands
  refine Finset.sum_congr (Finset.filter_congr fun e _ => ?_) fun e _ => ?_
  · exact iff_of_eq (congrArg (fun v : BitVec 32 => v.toInt = (n.val : ℤ))
      ((congrFun (Gen.W6_of_ne m ρ c main_v3 (by decide)) (ix1 e)).trans (hDst e)))
  · refine congrArg₂ (· * ·) ((congrFun (Gen.W6_of_ne m ρ c main_v52 (by decide)) (ix1 e)).trans (hW e)) ?_
    refine (congrArg (fun v : BitVec 32 => at2 (α := EReal) (a := 100000) (b := 128) (Gen.W6 m ρ c (Proc.devRef .tc main_v57)) (Cert.Spec.node v) k)
      ((congrFun (Gen.W6_of_ne m ρ c main_v1 (by decide)) (ix1 e)).trans (hSrc e))).trans ?_
    exact W6_xw m ρ c hCw hA0 _ k

/-! ## The first layer -/

theorem W8_layer0
    (hW : ∀ e : Fin 1600000, at1 (α := EReal) (a := 1600000) (Gen.W5 m ρ c (Proc.devRef .tc main_v52)) e
        = Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1)) e)
    (hD : ∀ n : Fin 100000, at2 (α := EReal) (a := 100000) (b := 1) (Gen.W5 m ρ c (Proc.devRef .tc main_v54)) n (0 : Fin 1)
        = Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1)) n
          * Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1)) n)
    (hCw : ∀ k q : Fin 128, at2 (α := EReal) (a := 128) (b := 128) (Gen.W5 m ρ c (Proc.devRef .tc main_v56)) k q = (at3 (α := EReal) (a := 2) (b := 128) (c := 128) (m ((c : Thread nD τ).loc main_arg7))) (0 : Fin 2) k q)
    (hSrc : ∀ e : Fin 1600000, at1 (α := BitVec 32) (a := 1600000) (Gen.W5 m ρ c (Proc.devRef .tc main_v1)) e = (at2 (α := BitVec 32) (a := 2) (b := 1600000) (m ((c : Thread nD τ).loc main_arg2)) (0 : Fin 2)) e)
    (hDst : ∀ e : Fin 1600000, at1 (α := BitVec 32) (a := 1600000) (Gen.W5 m ρ c (Proc.devRef .tc main_v3)) e = (at2 (α := BitVec 32) (a := 2) (b := 1600000) (m ((c : Thread nD τ).loc main_arg2)) (1 : Fin 2)) e)
    (hA0 : Gen.W5 m ρ c (Proc.devRef .tc main_arg0) = (m ((c : Thread nD τ).loc main_arg0))) (hA8 : Gen.W5 m ρ c (Proc.devRef .tc main_arg8) = (m ((c : Thread nD τ).loc main_arg8)))
    (hA9 : Gen.W5 m ρ c (Proc.devRef .tc main_arg9) = (m ((c : Thread nD τ).loc main_arg9))) (hA10 : Gen.W5 m ρ c (Proc.devRef .tc main_arg10) = (m ((c : Thread nD τ).loc main_arg10)))
    (n : Fin 100000) (q : Fin 128) :
    at2 (α := EReal) (a := 100000) (b := 128) (Gen.W8 m ρ c (Proc.devRef .tc main_v80)) n q
      = Cert.Spec.layer (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2))
        (at2 (α := EReal) (a := 64) (b := 64) (m ((c : Thread nD τ).loc main_arg3))) (at1 (α := EReal) (a := 64) (m ((c : Thread nD τ).loc main_arg4)))
        (fun j => at2 (α := EReal) (a := 64) (b := 1) (m ((c : Thread nD τ).loc main_arg5)) j (0 : Fin 1)) (at1 (α := EReal) (a := 1) (m ((c : Thread nD τ).loc main_arg6)) (0 : Fin 1))
          (at3 (α := EReal) (a := 2) (b := 128) (c := 128) (m ((c : Thread nD τ).loc main_arg7))) (at2 (α := EReal) (a := 2) (b := 128) (m ((c : Thread nD τ).loc main_arg8)))
          (at2 (α := EReal) (a := 2) (b := 128) (m ((c : Thread nD τ).loc main_arg9))) (at2 (α := EReal) (a := 2) (b := 128) (m ((c : Thread nD τ).loc main_arg10))) (0 : Fin 2)
          (at2 (α := EReal) (a := 100000) (b := 128) (m ((c : Thread nD τ).loc main_arg0))) n q := by
  refine (congrFun (Gen.W8_arr m ρ c 7) (ix2 n q)).trans ?_
  refine (Cert.KernelIdeal.PostValue.post2_arr (Gen.V7 m ρ) c n q).trans ?_
  unfold Cert.Spec.layer
  refine congrArg₂ (· + ·) ?_ (lnrelu_congr (fun k => ?_) (fun k => ?_) (fun k => ?_) q)
  · exact congrFun ((Cert.KernelIdeal.HostValue.h2_keep_arg0 (Gen.W6 m ρ c)).trans ((W6_arg0 m ρ c).trans hA0)) (ix2 n q)
  · unfold Cert.Spec.pre
    refine congrArg₂ (· + ·) (congrArg₂ (· + ·) (V7_agg m ρ c hW hCw hSrc hDst hA0 n k) (congrArg₂ (· * ·) ?_ ?_)) ?_
    · exact (congrFun ((Cert.KernelIdeal.HostValue.h2_keep_v54 (Gen.W6 m ρ c)).trans (Gen.W6_of_ne m ρ c main_v54 (by decide))) (ix2 n (0 : Fin 1))).trans (hD n)
    · exact (congrFun (Cert.KernelIdeal.HostValue.h2_keep_v57 (Gen.W6 m ρ c)) (ix2 n k)).trans (W6_xw m ρ c hCw hA0 n k)
    · exact (Cert.KernelIdeal.HostValue.h2_b (Gen.W6 m ρ c) k).trans (congrFun ((Gen.W6_of_ne m ρ c main_arg8 (by decide)).trans hA8) (ix2 (0 : Fin 2) k))
  · exact (Cert.KernelIdeal.HostValue.h2_g (Gen.W6 m ρ c) k).trans (congrFun ((Gen.W6_of_ne m ρ c main_arg9 (by decide)).trans hA9) (ix2 (0 : Fin 2) k))
  · exact (Cert.KernelIdeal.HostValue.h2_beta (Gen.W6 m ρ c) k).trans (congrFun ((Gen.W6_of_ne m ρ c main_arg10 (by decide)).trans hA10) (ix2 (0 : Fin 2) k))

end Cert.KernelIdeal.Chain

end
-- ==== Proof.KHost3.lean ====
/-
  The host operations between the first normalising kernel and the second product kernel, read at an index.

  From any buffer contents W this stretch leaves the second layer's weight matrix: slice 1 of the two stacked [128, 128]
  matrices, as a [128, 128] array. Everything else it leaves as it was.
-/
import proofs.«166963_j81509889343768_2_alg».proof.Proof.Gen.KernelIdeal.Launch
import proofs.«166963_j81509889343768_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo
open scoped BigOperators

variable (W : Valuation τ sig (Elt Ideal))

/-- The second layer's weight matrix. -/
theorem h3_cw (k q : Fin 128) :
    (StableHlo.after (hostOps3 (F := Ideal)) W (Proc.devRef .tc main_v82) : S128x128.Idx → EReal) (ix2 k q)
      = (W (Proc.devRef .tc main_arg7) : S2x128x128.Idx → EReal) (ix3 (1 : Fin 2) k q) := by
  have h : StableHlo.after (hostOps3 (F := Ideal)) W (Proc.devRef .tc main_v82)
      = shapeCast S128x128 (extractStridedSlice S1x128x128 ![1, 0, 0] (W (Proc.devRef .tc main_arg7)) slices_S2x128x128_S1x128x128_1_0_0)
          shapeCasts_S1x128x128_S128x128 := by
    after_results_simp <;> rfl
  rw [h, shapeCast_1ab_ab_apply]
  refine extractStridedSlice_apply _ _ _ _ _ fun ax => ?_
  match ax with
  | ⟨0, _⟩ => rfl
  | ⟨1, _⟩ => exact (Nat.zero_add _).symm
  | ⟨2, _⟩ => exact (Nat.zero_add _).symm

/-! ## What the stretch leaves as it was -/

theorem h3_keep_v80 : StableHlo.after (hostOps3 (F := Ideal)) W (Proc.devRef .tc main_v80) = W (Proc.devRef .tc main_v80) := by
  after_results_simp <;> rfl
theorem h3_keep_v52 : StableHlo.after (hostOps3 (F := Ideal)) W (Proc.devRef .tc main_v52) = W (Proc.devRef .tc main_v52) := by
  after_results_simp <;> rfl
theorem h3_keep_v54 : StableHlo.after (hostOps3 (F := Ideal)) W (Proc.devRef .tc main_v54) = W (Proc.devRef .tc main_v54) := by
  after_results_simp <;> rfl
theorem h3_keep_v1 : StableHlo.after (hostOps3 (F := Ideal)) W (Proc.devRef .tc main_v1) = W (Proc.devRef .tc main_v1) := by
  after_results_simp <;> rfl
theorem h3_keep_v3 : StableHlo.after (hostOps3 (F := Ideal)) W (Proc.devRef .tc main_v3) = W (Proc.devRef .tc main_v3) := by
  after_results_simp <;> rfl
theorem h3_keep_arg8 : StableHlo.after (hostOps3 (F := Ideal)) W (Proc.devRef .tc main_arg8) = W (Proc.devRef .tc main_arg8) := by
  after_results_simp <;> rfl
theorem h3_keep_arg9 : StableHlo.after (hostOps3 (F := Ideal)) W (Proc.devRef .tc main_arg9) = W (Proc.devRef .tc main_arg9) := by
  after_results_simp <;> rfl
theorem h3_keep_arg10 : StableHlo.after (hostOps3 (F := Ideal)) W (Proc.devRef .tc main_arg10) = W (Proc.devRef .tc main_arg10) := by
  after_results_simp <;> rfl
theorem h3_keep_arg11 : StableHlo.after (hostOps3 (F := Ideal)) W (Proc.devRef .tc main_arg11) = W (Proc.devRef .tc main_arg11) := by
  after_results_simp <;> rfl
theorem h3_keep_arg12 : StableHlo.after (hostOps3 (F := Ideal)) W (Proc.devRef .tc main_arg12) = W (Proc.devRef .tc main_arg12) := by
  after_results_simp <;> rfl

end Cert.KernelIdeal.HostValue

end
-- ==== Proof.KHost4.lean ====
/-
  The host operations between the second product kernel and the last kernel, read at an index.

  From any buffer contents W this stretch leaves: the second layer's aggregate of every node, lane by lane — on top of the
  zero word, the sum over the edges whose stored destination (read signed) is that node of the edge's weight times the
  product row of the node its stored source names; the second layer's bias, scale and shift, each row 1 of its two-row
  table laid out as a [1, 128] row; and the head's bias laid out as a [1, 64] row. Everything else it leaves as it was.
-/
import proofs.«166963_j81509889343768_2_alg».proof.Proof.Gen.KernelIdeal.Launch
import proofs.«166963_j81509889343768_2_alg».proof.Proof.Spec
import proofs.«166963_j81509889343768_2_alg».proof.Proof.KHost2
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx Idealize.ShloMosaic.StableHlo
open scoped BigOperators

variable (W : Valuation τ sig (Elt Ideal))

/-! ## The aggregate -/

set_option maxHeartbeats 4000000 in
theorem h4_agg (n : Fin 100000) (q : Fin 128) :
    (StableHlo.after (hostOps4 (F := Ideal)) W (Proc.devRef .tc main_v96) : S100000x128.Idx → EReal) (ix2 n q)
      = Cert.Spec.z0 + ∑ e ∈ Finset.univ.filter (fun e : Fin 1600000 =>
            ((W (Proc.devRef .tc main_v3) : S1600000.Idx → BitVec 32) (ix1 e)).toInt = (n.val : ℤ)),
          HMul.hMul (α := EReal) (β := EReal) (γ := EReal) ((W (Proc.devRef .tc main_v52) : S1600000.Idx → EReal) (ix1 e))
            ((W (Proc.devRef .tc main_v83) : S100000x128.Idx → EReal)
              (ix2 (Cert.Spec.node ((W (Proc.devRef .tc main_v1) : S1600000.Idx → BitVec 32) (ix1 e))) q)) := by
  have h : StableHlo.after (hostOps4 (F := Ideal)) W (Proc.devRef .tc main_v96)
      = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W (Proc.devRef .tc main_v3)))
        (mulf (broadcastInDim S1600000x128 ![0, 1] bcast_S1600000x1_S1600000x128_0_1
            (broadcastInDim S1600000x1 ![0] bcast_S1600000_S1600000x1_0 (W (Proc.devRef .tc main_v52))))
          (Host.gather gather_S100000x128_S1600000x1_S1600000x128_1_0_n_n_0_1_1128 (W (Proc.devRef .tc main_v83))
            (broadcastInDim S1600000x1 ![0] bcast_S1600000_S1600000x1_0
              (select (cmpi .slt (W (Proc.devRef .tc main_v1)) (broadcastInDim S1600000 ![] bcast_S_S1600000 (constantI S_ 32 0#32)))
                (addi (W (Proc.devRef .tc main_v1)) (broadcastInDim S1600000 ![] bcast_S_S1600000 (constantI S_ 32 100000#32)))
                (W (Proc.devRef .tc main_v1)))))) := by
    after_results_simp <;> rfl
  rw [h]
  exact agg_apply (W (Proc.devRef .tc main_v52)) (W (Proc.devRef .tc main_v83)) (W (Proc.devRef .tc main_v1))
    (W (Proc.devRef .tc main_v3)) n q

/-! ## The second layer's bias, scale and shift as rows, and the head's bias as a row -/

theorem h4_b (k : Fin 128) :
    (StableHlo.after (hostOps4 (F := Ideal)) W (Proc.devRef .tc main_v103) : S1x128.Idx → EReal) (ix2 (0 : Fin 1) k)
      = (W (Proc.devRef .tc main_arg8) : S2x128.Idx → EReal) (ix2 (1 : Fin 2) k) := by
  have h : StableHlo.after (hostOps4 (F := Ideal)) W (Proc.devRef .tc main_v103)
      = shapeCast S1x128 (shapeCast S128 (extractStridedSlice S1x128 ![1, 0] (W (Proc.devRef .tc main_arg8)) slices_S2x128_S1x128_1_0)
          shapeCasts_S1x128_S128) shapeCasts_S128_S1x128 := by
    after_results_simp <;> rfl
  rw [h]
  exact row_apply 1 _ _ (1 : Fin 2) rfl k
theorem h4_g (k : Fin 128) :
    (StableHlo.after (hostOps4 (F := Ideal)) W (Proc.devRef .tc main_v104) : S1x128.Idx → EReal) (ix2 (0 : Fin 1) k)
      = (W (Proc.devRef .tc main_arg9) : S2x128.Idx → EReal) (ix2 (1 : Fin 2) k) := by
  have h : StableHlo.after (hostOps4 (F := Ideal)) W (Proc.devRef .tc main_v104)
      = shapeCast S1x128 (shapeCast S128 (extractStridedSlice S1x128 ![1, 0] (W (Proc.devRef .tc main_arg9)) slices_S2x128_S1x128_1_0)
          shapeCasts_S1x128_S128) shapeCasts_S128_S1x128 := by
    after_results_simp <;> rfl
  rw [h]
  exact row_apply 1 _ _ (1 : Fin 2) rfl k
theorem h4_beta (k : Fin 128) :
    (StableHlo.after (hostOps4 (F := Ideal)) W (Proc.devRef .tc main_v105) : S1x128.Idx → EReal) (ix2 (0 : Fin 1) k)
      = (W (Proc.devRef .tc main_arg10) : S2x128.Idx → EReal) (ix2 (1 : Fin 2) k) := by
  have h : StableHlo.after (hostOps4 (F := Ideal)) W (Proc.devRef .tc main_v105)
      = shapeCast S1x128 (shapeCast S128 (extractStridedSlice S1x128 ![1, 0] (W (Proc.devRef .tc main_arg10)) slices_S2x128_S1x128_1_0)
          shapeCasts_S1x128_S128) shapeCasts_S128_S1x128 := by
    after_results_simp <;> rfl
  rw [h]
  exact row_apply 1 _ _ (1 : Fin 2) rfl k
theorem h4_hb (q : Fin 64) :
    (StableHlo.after (hostOps4 (F := Ideal)) W (Proc.devRef .tc main_v106) : S1x64.Idx → EReal) (ix2 (0 : Fin 1) q)
      = (W (Proc.devRef .tc main_arg12) : S64.Idx → EReal) (ix1 q) := by
  have h : StableHlo.after (hostOps4 (F := Ideal)) W (Proc.devRef .tc main_v106)
      = shapeCast S1x64 (W (Proc.devRef .tc main_arg12)) shapeCasts_S64_S1x64 := by
    after_results_simp <;> rfl
  rw [h]
  exact shapeCast_a_1a_apply _ _ (0 : Fin 1) q

/-! ## What the stretch leaves as it was -/

theorem h4_keep_v80 : StableHlo.after (hostOps4 (F := Ideal)) W (Proc.devRef .tc main_v80) = W (Proc.devRef .tc main_v80) := by
  after_results_simp <;> rfl
theorem h4_keep_v83 : StableHlo.after (hostOps4 (F := Ideal)) W (Proc.devRef .tc main_v83) = W (Proc.devRef .tc main_v83) := by
  after_results_simp <;> rfl
theorem h4_keep_v54 : StableHlo.after (hostOps4 (F := Ideal)) W (Proc.devRef .tc main_v54) = W (Proc.devRef .tc main_v54) := by
  after_results_simp <;> rfl
theorem h4_keep_arg0 : StableHlo.after (hostOps4 (F := Ideal)) W (Proc.devRef .tc main_arg0) = W (Proc.devRef .tc main_arg0) := by
  after_results_simp <;> rfl
theorem h4_keep_arg1 : StableHlo.after (hostOps4 (F := Ideal)) W (Proc.devRef .tc main_arg1) = W (Proc.devRef .tc main_arg1) := by
  after_results_simp <;> rfl
theorem h4_keep_arg2 : StableHlo.after (hostOps4 (F := Ideal)) W (Proc.devRef .tc main_arg2) = W (Proc.devRef .tc main_arg2) := by
  after_results_simp <;> rfl
theorem h4_keep_arg3 : StableHlo.after (hostOps4 (F := Ideal)) W (Proc.devRef .tc main_arg3) = W (Proc.devRef .tc main_arg3) := by
  after_results_simp <;> rfl
theorem h4_keep_arg4 : StableHlo.after (hostOps4 (F := Ideal)) W (Proc.devRef .tc main_arg4) = W (Proc.devRef .tc main_arg4) := by
  after_results_simp <;> rfl
theorem h4_keep_arg5 : StableHlo.after (hostOps4 (F := Ideal)) W (Proc.devRef .tc main_arg5) = W (Proc.devRef .tc main_arg5) := by
  after_results_simp <;> rfl
theorem h4_keep_arg6 : StableHlo.after (hostOps4 (F := Ideal)) W (Proc.devRef .tc main_arg6) = W (Proc.devRef .tc main_arg6) := by
  after_results_simp <;> rfl
theorem h4_keep_arg7 : StableHlo.after (hostOps4 (F := Ideal)) W (Proc.devRef .tc main_arg7) = W (Proc.devRef .tc main_arg7) := by
  after_results_simp <;> rfl
theorem h4_keep_arg8 : StableHlo.after (hostOps4 (F := Ideal)) W (Proc.devRef .tc main_arg8) = W (Proc.devRef .tc main_arg8) := by
  after_results_simp <;> rfl
theorem h4_keep_arg9 : StableHlo.after (hostOps4 (F := Ideal)) W (Proc.devRef .tc main_arg9) = W (Proc.devRef .tc main_arg9) := by
  after_results_simp <;> rfl
theorem h4_keep_arg10 : StableHlo.after (hostOps4 (F := Ideal)) W (Proc.devRef .tc main_arg10) = W (Proc.devRef .tc main_arg10) := by
  after_results_simp <;> rfl
theorem h4_keep_arg11 : StableHlo.after (hostOps4 (F := Ideal)) W (Proc.devRef .tc main_arg11) = W (Proc.devRef .tc main_arg11) := by
  after_results_simp <;> rfl
theorem h4_keep_arg12 : StableHlo.after (hostOps4 (F := Ideal)) W (Proc.devRef .tc main_arg12) = W (Proc.devRef .tc main_arg12) := by
  after_results_simp <;> rfl

end Cert.KernelIdeal.HostValue

end
-- ==== Proof.KChainC.lean ====
/-
  The second layer and the linear head of the kernel's program, from the first layer's result.

  After the first normalising launch the buffers hold the first layer's result X1, the edge weights, the loop weights
  dinv², the stored source and destination numbers, and the arguments. From there: a host stretch cuts the second
  layer's weight matrix out of the stacked pair; a product launch forms X1·W, whose entry (n, q) is ∑ k, X1(n, k)·W(k, q);
  a host stretch aggregates, for every node, the weighted product rows of the edges that land on it, and lays out the second
  layer's bias, scale and shift rows and the head's bias row; the last launch adds the node's own loop term and the bias,
  normalises, ramps, adds X1, multiplies by the head matrix and adds the head's bias. No step writes a buffer that a later
  step reads except through these results, so every read walks back to the contents after the first normalising launch.
-/
import proofs.«166963_j81509889343768_2_alg».proof.Proof.Gen.KernelIdeal.Frame
import proofs.«166963_j81509889343768_2_alg».proof.Proof.Spec
import proofs.«166963_j81509889343768_2_alg».proof.Proof.KMatmul
import proofs.«166963_j81509889343768_2_alg».proof.Proof.KPost
import proofs.«166963_j81509889343768_2_alg».proof.Proof.KHost3
import proofs.«166963_j81509889343768_2_alg».proof.Proof.KHost4

set_option maxRecDepth 16384

noncomputable section

namespace Cert.KernelIdeal.Chain

open Idealize.ShloMosaic Idealize.ShloMosaic.ValueIdx Idealize.ShloMosaic.TcCoe Idealize.SL.Sem
open Idealize.ShloMosaic.Pipeline (Dat)
open Cert.KernelIdeal
open Cert.Spec (at1 at2 at3)
open scoped BigOperators

variable (m : (ℓ : Loc nD τ sig) → Buf (Elt Ideal) ℓ) (ρ : Dev nD → PrngReg) (c : Dev nD)

/-! ## Buffers the second product launch and the stretch before it leave alone -/

/-- A buffer that is neither written by the second product launch nor by the stretch before it holds, when the last
    stretch starts, what it held after the first normalising launch. -/
theorem back_v52 : Gen.W10 m ρ c (Proc.devRef .tc main_v52) = Gen.W8 m ρ c (Proc.devRef .tc main_v52) :=
  (Gen.W10_of_ne m ρ c main_v52 (by decide)).trans (HostValue.h3_keep_v52 (Gen.W8 m ρ c))
theorem back_v54 : Gen.W10 m ρ c (Proc.devRef .tc main_v54) = Gen.W8 m ρ c (Proc.devRef .tc main_v54) :=
  (Gen.W10_of_ne m ρ c main_v54 (by decide)).trans (HostValue.h3_keep_v54 (Gen.W8 m ρ c))
theorem back_v1 : Gen.W10 m ρ c (Proc.devRef .tc main_v1) = Gen.W8 m ρ c (Proc.devRef .tc main_v1) :=
  (Gen.W10_of_ne m ρ c main_v1 (by decide)).trans (HostValue.h3_keep_v1 (Gen.W8 m ρ c))
theorem back_v3 : Gen.W10 m ρ c (Proc.devRef .tc main_v3) = Gen.W8 m ρ c (Proc.devRef .tc main_v3) :=
  (Gen.W10_of_ne m ρ c main_v3 (by decide)).trans (HostValue.h3_keep_v3 (Gen.W8 m ρ c))
theorem back_arg8 : Gen.W10 m ρ c (Proc.devRef .tc main_arg8) = Gen.W8 m ρ c (Proc.devRef .tc main_arg8) :=
  (Gen.W10_of_ne m ρ c main_arg8 (by decide)).trans (HostValue.h3_keep_arg8 (Gen.W8 m ρ c))
theorem back_arg9 : Gen.W10 m ρ c (Proc.devRef .tc main_arg9) = Gen.W8 m ρ c (Proc.devRef .tc main_arg9) :=
  (Gen.W10_of_ne m ρ c main_arg9 (by decide)).trans (HostValue.h3_keep_arg9 (Gen.W8 m ρ c))
theorem back_arg10 : Gen.W10 m ρ c (Proc.devRef .tc main_arg10) = Gen.W8 m ρ c (Proc.devRef .tc main_arg10) :=
  (Gen.W10_of_ne m ρ c main_arg10 (by decide)).trans (HostValue.h3_keep_arg10 (Gen.W8 m ρ c))
theorem back_arg11 : Gen.W10 m ρ c (Proc.devRef .tc main_arg11) = Gen.W8 m ρ c (Proc.devRef .tc main_arg11) :=
  (Gen.W10_of_ne m ρ c main_arg11 (by decide)).trans (HostValue.h3_keep_arg11 (Gen.W8 m ρ c))
theorem back_arg12 : Gen.W10 m ρ c (Proc.devRef .tc main_arg12) = Gen.W8 m ρ c (Proc.devRef .tc main_arg12) :=
  (Gen.W10_of_ne m ρ c main_arg12 (by decide)).trans (HostValue.h3_keep_arg12 (Gen.W8 m ρ c))

/-- The first layer's result is an input of the second product launch: the launch leaves it as it found it. -/
theorem back_v80 : Gen.W10 m ρ c (Proc.devRef .tc main_v80) = Gen.W8 m ρ c (Proc.devRef .tc main_v80) :=
  ((Gen.W10_arr m ρ c 0).trans (((Gen.dat3 (Gen.V9 m ρ) c).arrAt_in 0 rfl _).trans (Gen.A_eq3 (Gen.V9 m ρ) c 0))).trans
    (HostValue.h3_keep_v80 (Gen.W8 m ρ c))

/-! ## The second product -/

/-- The second product launch leaves X1 times the second layer's weight matrix. -/
theorem prod2 (X1 : Fin 100000 → Fin 128 → EReal)
    (hX1 : ∀ (n : Fin 100000) (q : Fin 128), at2 (α := EReal) (a := 100000) (b := 128) (Gen.W8 m ρ c (Proc.devRef .tc main_v80)) n q = X1 n q)
    (hA7 : Gen.W8 m ρ c (Proc.devRef .tc main_arg7) = (m ((c : Thread nD τ).loc main_arg7)))
    (n : Fin 100000) (q : Fin 128) :
    at2 (α := EReal) (a := 100000) (b := 128) (Gen.W10 m ρ c (Proc.devRef .tc main_v83)) n q
      = Cert.Spec.xw (at3 (α := EReal) (a := 2) (b := 128) (c := 128) (m ((c : Thread nD τ).loc main_arg7))) (1 : Fin 2) X1 n q := by
  have h3 : at2 (α := EReal) (a := 100000) (b := 128) (Gen.W10 m ρ c (Proc.devRef .tc main_v83)) n q
      = ∑ k : Fin 128, at2 (α := EReal) (a := 100000) (b := 128) (Gen.W8 m ρ c (Proc.devRef .tc main_v80)) n k
          * at2 (α := EReal) (a := 128) (b := 128) (Gen.V9 m ρ c main_v82) k q :=
    (congrFun (Gen.W10_arr m ρ c 2) (ix2 n q)).trans
      (MatmulValue.mm3_arr (Gen.V9 m ρ) c (Gen.W8 m ρ c (Proc.devRef .tc main_v80)) (Gen.V9 m ρ c main_v82)
        (HostValue.h3_keep_v80 (Gen.W8 m ρ c)).symm rfl n q)
  refine h3.trans ?_
  unfold Cert.Spec.xw
  refine Finset.sum_congr rfl fun k _ => ?_
  exact congrArg₂ (· * ·) (hX1 n k)
    ((HostValue.h3_cw (Gen.W8 m ρ c) k q).trans (congrFun hA7 (ix3 (1 : Fin 2) k q)))

/-! ## The aggregate the last stretch forms -/

/-- The last stretch's aggregate at node `n`, lane `q`: on top of the zero word, the sum over the edges landing on `n`
    of the edge's weight times the second product's row at the edge's source node. -/
theorem agg2 (X1 : Fin 100000 → Fin 128 → EReal)
    (hX1 : ∀ (n : Fin 100000) (q : Fin 128), at2 (α := EReal) (a := 100000) (b := 128) (Gen.W8 m ρ c (Proc.devRef .tc main_v80)) n q = X1 n q)
    (hW : ∀ e : Fin 1600000, at1 (α := EReal) (a := 1600000) (Gen.W8 m ρ c (Proc.devRef .tc main_v52)) e = Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) e)
    (hSrc : ∀ e : Fin 1600000, at1 (α := BitVec 32) (a := 1600000) (Gen.W8 m ρ c (Proc.devRef .tc main_v1)) e = at2 (α := BitVec 32) (a := 2) (b := 1600000) (m ((c : Thread nD τ).loc main_arg2)) (0 : Fin 2) e)
    (hDst : ∀ e : Fin 1600000, at1 (α := BitVec 32) (a := 1600000) (Gen.W8 m ρ c (Proc.devRef .tc main_v3)) e = at2 (α := BitVec 32) (a := 2) (b := 1600000) (m ((c : Thread nD τ).loc main_arg2)) (1 : Fin 2) e)
    (hA7 : Gen.W8 m ρ c (Proc.devRef .tc main_arg7) = (m ((c : Thread nD τ).loc main_arg7)))
    (n : Fin 100000) (q : Fin 128) :
    at2 (α := EReal) (a := 100000) (b := 128) (Gen.V11 m ρ c main_v96) n q
      = Cert.Spec.z0 + ∑ e ∈ Cert.Spec.lands (at2 (α := BitVec 32) (a := 2) (b := 1600000) (m ((c : Thread nD τ).loc main_arg2)) (1 : Fin 2)) n,
          Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) e
            * Cert.Spec.xw (at3 (α := EReal) (a := 2) (b := 128) (c := 128) (m ((c : Thread nD τ).loc main_arg7))) (1 : Fin 2) X1 (Cert.Spec.node ((at2 (α := BitVec 32) (a := 2) (b := 1600000) (m ((c : Thread nD τ).loc main_arg2)) (0 : Fin 2)) e)) q := by
  refine (HostValue.h4_agg (Gen.W10 m ρ c) n q).trans ?_
  rw [back_v3 m ρ c, back_v52 m ρ c, back_v1 m ρ c]
  unfold Cert.Spec.lands
  refine congrArg (fun s => Cert.Spec.z0 + s) (Finset.sum_congr (Finset.filter_congr fun e _ => ?_) fun e _ => ?_)
  · exact Eq.to_iff (congrArg (fun v : BitVec 32 => v.toInt = (n.val : ℤ)) (hDst e))
  · refine congrArg₂ (· * ·) (hW e) ?_
    refine (congrArg (fun v : BitVec 32 => at2 (α := EReal) (a := 100000) (b := 128) (Gen.W10 m ρ c (Proc.devRef .tc main_v83)) (Cert.Spec.node v) q) (hSrc e)).trans ?_
    exact prod2 m ρ c X1 hX1 hA7 _ q

/-! ## The second layer and the head -/

/-- The kernel program's result array from the first layer's result `X1`: the second layer of `X1` against the head
    matrix, plus the head's bias. -/
theorem W12_out (X1 : Fin 100000 → Fin 128 → EReal)
    (hX1 : ∀ (n : Fin 100000) (q : Fin 128), at2 (α := EReal) (a := 100000) (b := 128) (Gen.W8 m ρ c (Proc.devRef .tc main_v80)) n q = X1 n q)
    (hW : ∀ e : Fin 1600000, at1 (α := EReal) (a := 1600000) (Gen.W8 m ρ c (Proc.devRef .tc main_v52)) e = Cert.Spec.weight (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) e)
    (hD : ∀ n : Fin 100000, at2 (α := EReal) (a := 100000) (b := 1) (Gen.W8 m ρ c (Proc.devRef .tc main_v54)) n (0 : Fin 1) = Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) n * Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) n)
    (hSrc : ∀ e : Fin 1600000, at1 (α := BitVec 32) (a := 1600000) (Gen.W8 m ρ c (Proc.devRef .tc main_v1)) e = at2 (α := BitVec 32) (a := 2) (b := 1600000) (m ((c : Thread nD τ).loc main_arg2)) (0 : Fin 2) e)
    (hDst : ∀ e : Fin 1600000, at1 (α := BitVec 32) (a := 1600000) (Gen.W8 m ρ c (Proc.devRef .tc main_v3)) e = at2 (α := BitVec 32) (a := 2) (b := 1600000) (m ((c : Thread nD τ).loc main_arg2)) (1 : Fin 2) e)
    (hA7 : Gen.W8 m ρ c (Proc.devRef .tc main_arg7) = (m ((c : Thread nD τ).loc main_arg7))) (hA8 : Gen.W8 m ρ c (Proc.devRef .tc main_arg8) = (m ((c : Thread nD τ).loc main_arg8))) (hA9 : Gen.W8 m ρ c (Proc.devRef .tc main_arg9) = (m ((c : Thread nD τ).loc main_arg9))) (hA10 : Gen.W8 m ρ c (Proc.devRef .tc main_arg10) = (m ((c : Thread nD τ).loc main_arg10))) (hA11 : Gen.W8 m ρ c (Proc.devRef .tc main_arg11) = (m ((c : Thread nD τ).loc main_arg11))) (hA12 : Gen.W8 m ρ c (Proc.devRef .tc main_arg12) = (m ((c : Thread nD τ).loc main_arg12)))
    (n : Fin 100000) (q : Fin 64) :
    at2 (α := EReal) (a := 100000) (b := 64) (Gen.W12 m ρ c (Proc.devRef .tc main_v107)) n q
      = (∑ k : Fin 128, Cert.Spec.layer (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) (at3 (α := EReal) (a := 2) (b := 128) (c := 128) (m ((c : Thread nD τ).loc main_arg7))) (at2 (α := EReal) (a := 2) (b := 128) (m ((c : Thread nD τ).loc main_arg8))) (at2 (α := EReal) (a := 2) (b := 128) (m ((c : Thread nD τ).loc main_arg9))) (at2 (α := EReal) (a := 2) (b := 128) (m ((c : Thread nD τ).loc main_arg10))) (1 : Fin 2) X1 n k
            * at2 (α := EReal) (a := 128) (b := 64) (m ((c : Thread nD τ).loc main_arg11)) k q)
        + at1 (α := EReal) (a := 64) (m ((c : Thread nD τ).loc main_arg12)) q := by
  have e : Gen.W12 m ρ c (Proc.devRef .tc main_v107) = (Gen.dat4 (Gen.V11 m ρ) c).arrAt 9 cfg4.N := Gen.W12_arr m ρ c 9
  rw [e]
  refine (PostValue.post4_arr (Gen.V11 m ρ) c n q).trans ?_
  -- the reads of the last launch, each walked back
  have f80 : ∀ k : Fin 128, at2 (α := EReal) (a := 100000) (b := 128) (Gen.V11 m ρ c main_v80) n k = X1 n k := fun k =>
    (congrFun ((HostValue.h4_keep_v80 (Gen.W10 m ρ c)).trans (back_v80 m ρ c)) (ix2 n k)).trans (hX1 n k)
  have f83 : ∀ k : Fin 128, at2 (α := EReal) (a := 100000) (b := 128) (Gen.V11 m ρ c main_v83) n k
      = Cert.Spec.xw (at3 (α := EReal) (a := 2) (b := 128) (c := 128) (m ((c : Thread nD τ).loc main_arg7))) (1 : Fin 2) X1 n k := fun k =>
    (congrFun (HostValue.h4_keep_v83 (Gen.W10 m ρ c)) (ix2 n k)).trans (prod2 m ρ c X1 hX1 hA7 n k)
  have f54 : at2 (α := EReal) (a := 100000) (b := 1) (Gen.V11 m ρ c main_v54) n (0 : Fin 1)
      = Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) n * Cert.Spec.dinv (at2 (α := EReal) (a := 100000) (b := 16) (m ((c : Thread nD τ).loc main_arg1))) (at2 (α := BitVec 32) (a := 2) (b := 1600000) (m ((c : Thread nD τ).loc main_arg2)) (0 : Fin 2)) (at2 (α := BitVec 32) (a := 2) (b := 1600000) (m ((c : Thread nD τ).loc main_arg2)) (1 : Fin 2)) (at2 (α := EReal) (a := 64) (b := 64) (m ((c : Thread nD τ).loc main_arg3))) (at1 (α := EReal) (a := 64) (m ((c : Thread nD τ).loc main_arg4))) (fun j => at2 (α := EReal) (a := 64) (b := 1) (m ((c : Thread nD τ).loc main_arg5)) j (0 : Fin 1)) (at1 (α := EReal) (a := 1) (m ((c : Thread nD τ).loc main_arg6)) (0 : Fin 1)) n :=
    (congrFun ((HostValue.h4_keep_v54 (Gen.W10 m ρ c)).trans (back_v54 m ρ c)) (ix2 n (0 : Fin 1))).trans (hD n)
  have f103 : ∀ k : Fin 128, at2 (α := EReal) (a := 1) (b := 128) (Gen.V11 m ρ c main_v103) (0 : Fin 1) k = (at2 (α := EReal) (a := 2) (b := 128) (m ((c : Thread nD τ).loc main_arg8))) (1 : Fin 2) k := fun k =>
    (HostValue.h4_b (Gen.W10 m ρ c) k).trans (congrFun ((back_arg8 m ρ c).trans hA8) (ix2 (1 : Fin 2) k))
  have f104 : ∀ k : Fin 128, at2 (α := EReal) (a := 1) (b := 128) (Gen.V11 m ρ c main_v104) (0 : Fin 1) k = (at2 (α := EReal) (a := 2) (b := 128) (m ((c : Thread nD τ).loc main_arg9))) (1 : Fin 2) k := fun k =>
    (HostValue.h4_g (Gen.W10 m ρ c) k).trans (congrFun ((back_arg9 m ρ c).trans hA9) (ix2 (1 : Fin 2) k))
  have f105 : ∀ k : Fin 128, at2 (α := EReal) (a := 1) (b := 128) (Gen.V11 m ρ c main_v105) (0 : Fin 1) k = (at2 (α := EReal) (a := 2) (b := 128) (m ((c : Thread nD τ).loc main_arg10))) (1 : Fin 2) k := fun k =>
    (HostValue.h4_beta (Gen.W10 m ρ c) k).trans (congrFun ((back_arg10 m ρ c).trans hA10) (ix2 (1 : Fin 2) k))
  have f106 : at2 (α := EReal) (a := 1) (b := 64) (Gen.V11 m ρ c main_v106) (0 : Fin 1) q = at1 (α := EReal) (a := 64) (m ((c : Thread nD τ).loc main_arg12)) q :=
    (HostValue.h4_hb (Gen.W10 m ρ c) q).trans (congrFun ((back_arg12 m ρ c).trans hA12) (ix1 q))
  have f11 : ∀ k : Fin 128, at2 (α := EReal) (a := 128) (b := 64) (Gen.V11 m ρ c main_arg11) k q = at2 (α := EReal) (a := 128) (b := 64) (m ((c : Thread nD τ).loc main_arg11)) k q := fun k =>
    congrFun ((HostValue.h4_keep_arg11 (Gen.W10 m ρ c)).trans ((back_arg11 m ρ c).trans hA11)) (ix2 k q)
  have lncongr : ∀ (k : Fin 128) (h h' g g' β β' : Fin 128 → EReal), h = h' → g = g' → β = β' →
      Cert.Spec.lnrelu h g β k = Cert.Spec.lnrelu h' g' β' k := by
    intro k h h' g g' β β' e1 e2 e3; rw [e1, e2, e3]
  refine congrArg₂ (· + ·) (Finset.sum_congr rfl fun k _ => ?_) f106
  refine congrArg₂ (· * ·) ?_ (f11 k)
  unfold Cert.Spec.layer
  refine congrArg₂ (· + ·) (f80 k) ?_
  refine lncongr k _ _ _ _ _ _ (funext fun k' => ?_) (funext fun k' => f104 k') (funext fun k' => f105 k')
  unfold Cert.Spec.pre
  exact congrArg₂ (· + ·) (congrArg₂ (· + ·) (agg2 m ρ c X1 hX1 hW hSrc hDst hA7 n k') (congrArg₂ (· * ·) f54 (f83 k'))) (f103 k')

end Cert.KernelIdeal.Chain

end
-- ==== Proof.KFinal.lean ====
/-
  The idealized kernel's result array is the spec's function of the argument arrays.

  The contents at the last segment boundary of the result buffer, read at (n, q): the last region's head product over the
  second layer's output row, which the third and fourth regions and the host stretches between them compute from the first
  layer's output and from the edge weights, the stored node numbers and the column of dinv squared as the first product kernel
  found them; the first layer's output, which the first product kernel, the aggregation after it and the second region compute
  from the same; and those, which the host operations around the gate kernel compute from the arguments.
-/
import proofs.«166963_j81509889343768_2_alg».proof.Proof.KChainA
import proofs.«166963_j81509889343768_2_alg».proof.Proof.KChainB
import proofs.«166963_j81509889343768_2_alg».proof.Proof.KChainC

set_option maxRecDepth 16384

noncomputable section

namespace Cert.KernelIdeal.Chain

open Cert.KernelIdeal Cert.KernelIdeal.Gen Idealize.ShloMosaic Idealize.ShloMosaic.TcCoe Idealize.ShloMosaic.ValueIdx Cert.Spec

variable (m : (ℓ : Loc nD τ sig) → Buf (Elt Ideal) ℓ) (ρ : Dev nD → PrngReg) (c : Dev nD)

/-- The result array at (n, q) is the spec's `out` of the thirteen argument arrays read by coordinates. -/
theorem kernel_value (n : Fin 100000) (q : Fin 64) :
    at2 (α := EReal) (a := 100000) (b := 64) (Gen.W12 m ρ c (Proc.devRef .tc main_v107)) n q
      = Cert.Spec.out (at2 (α := EReal) (a := 100000) (b := 128) (m ((c : Thread nD τ).loc main_arg0)))
          (at2 (α := EReal) (a := 100000) (b := 16) (m ((c : Thread nD τ).loc main_arg1)))
          (at2 (α := BitVec 32) (a := 2) (b := 1600000) (m ((c : Thread nD τ).loc main_arg2)) (0 : Fin 2))
          (at2 (α := BitVec 32) (a := 2) (b := 1600000) (m ((c : Thread nD τ).loc main_arg2)) (1 : Fin 2))
          (at2 (α := EReal) (a := 64) (b := 64) (m ((c : Thread nD τ).loc main_arg3)))
          (at1 (α := EReal) (a := 64) (m ((c : Thread nD τ).loc main_arg4)))
          (fun j => at2 (α := EReal) (a := 64) (b := 1) (m ((c : Thread nD τ).loc main_arg5)) j (0 : Fin 1))
          (at1 (α := EReal) (a := 1) (m ((c : Thread nD τ).loc main_arg6)) (0 : Fin 1))
          (at3 (α := EReal) (a := 2) (b := 128) (c := 128) (m ((c : Thread nD τ).loc main_arg7)))
          (at2 (α := EReal) (a := 2) (b := 128) (m ((c : Thread nD τ).loc main_arg8)))
          (at2 (α := EReal) (a := 2) (b := 128) (m ((c : Thread nD τ).loc main_arg9)))
          (at2 (α := EReal) (a := 2) (b := 128) (m ((c : Thread nD τ).loc main_arg10)))
          (at2 (α := EReal) (a := 128) (b := 64) (m ((c : Thread nD τ).loc main_arg11)))
          (at1 (α := EReal) (a := 64) (m ((c : Thread nD τ).loc main_arg12))) n q := by
  unfold Cert.Spec.out
  refine W12_out m ρ c _ (fun n q => W8_layer0 m ρ c (W5_weight m ρ c) (W5_dinv2 m ρ c) (W5_cw m ρ c) (W5_src m ρ c) (W5_dst m ρ c)
      (W5_arg0 m ρ c) (W5_arg8 m ρ c) (W5_arg9 m ρ c) (W5_arg10 m ρ c) n q)
    (fun e => ?_) (fun n => ?_) (fun e => ?_) (fun e => ?_) ?_ ?_ ?_ ?_ ?_ ?_ n q
  · rw [W8_keep_v52]; exact W5_weight m ρ c e
  · rw [W8_keep_v54]; exact W5_dinv2 m ρ c n
  · rw [W8_keep_v1]; exact W5_src m ρ c e
  · rw [W8_keep_v3]; exact W5_dst m ρ c e
  · rw [W8_keep_arg7]; exact W5_arg7 m ρ c
  · rw [W8_keep_arg8]; exact W5_arg8 m ρ c
  · rw [W8_keep_arg9]; exact W5_arg9 m ρ c
  · rw [W8_keep_arg10]; exact W5_arg10 m ρ c
  · rw [W8_keep_arg11]; exact W5_arg11 m ρ c
  · rw [W8_keep_arg12]; exact W5_arg12 m ρ c

end Cert.KernelIdeal.Chain

end
-- ==== Proof.LibAfterWindows.lean ====
/-
  A straight line of host operations, taken in pieces.

  The contents of a device's buffers after a list of operations are a left fold over the list, so running the concatenation
  of two lists is running the first and then the second from where the first ended. An operation of the line rewrites only
  the buffers it writes: a buffer that is not the one result buffer of an operation holds afterwards what it held before.
  These facts let a long program be read one operation at a time, and window by window, each window from arbitrary
  starting contents: a statement "the line ends at contents with property P" is reduced, operation by operation, to the
  same statement about the rest of the line from the contents the operation leaves.
-/
import Idealize.ShloMosaic.Lib.StableHlo.Run

namespace Cert.LibAfterWindows

open Idealize.ShloMosaic Idealize.ShloMosaic.StableHlo

variable {τ : Topo} {sig : RefSig} {Val : EltTy → Type}

/-- The contents after two lists run one after the other are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- An operation whose one result buffer is `y` leaves every other reference's buffer as it was. -/
theorem result_keep (op : HloOp τ sig Val) (y r : Ref sig .tc) (hw : op.writes = {Proc.devRef (τ := τ) .tc y})
    (h : r ≠ y) (V : Valuation τ sig Val) :
    op.result V (Proc.devRef .tc r) = V (Proc.devRef .tc r) :=
  op.result_of_not_mem V (by rw [hw, Finset.mem_singleton]; exact devRef_ne_of_ne h)

/-- One step of a line: the line `op :: ops` from `V` ends at contents with property `P` as soon as the rest `ops` does so
    from the contents `op` leaves, named `W` and known only through the equation `op.result V = W`. -/
theorem after_cons_exists {op : HloOp τ sig Val} {ops : List (HloOp τ sig Val)} {V : Valuation τ sig Val}
    {P : Valuation τ sig Val → Prop}
    (h : ∀ W : Valuation τ sig Val, op.result V = W → ∃ W', after ops W = W' ∧ P W') :
    ∃ W', after (op :: ops) V = W' ∧ P W' :=
  h _ rfl

/-- The end of a line: the empty line ends where it starts. -/
theorem after_nil_exists {V : Valuation τ sig Val} {P : Valuation τ sig Val → Prop} (h : P V) :
    ∃ W', after ([] : List (HloOp τ sig Val)) V = W' ∧ P W' :=
  ⟨V, rfl, h⟩

/-- A buffer the operation does not write, at the contents the operation leaves. -/
theorem keep_of {op : HloOp τ sig Val} {V W : Valuation τ sig Val} (hW : op.result V = W) (y r : Ref sig .tc)
    (hw : op.writes = {Proc.devRef (τ := τ) .tc y}) (h : r ≠ y)
    {v : (Proc.devRef (τ := τ) .tc r).ty.Contents Val} (hk : V (Proc.devRef .tc r) = v) : W (Proc.devRef .tc r) = v := by
  subst hW
  exact (result_keep op y r hw h V).trans hk

/-- A buffer's contents after the operation, at the contents the operation leaves. -/
theorem wrote_of {op : HloOp τ sig Val} {V W : Valuation τ sig Val} (hW : op.result V = W) {b : DevRef τ sig}
    {v : b.ty.Contents Val} (h : op.result V b = v) : W b = v := by
  subst hW
  exact h

end Cert.LibAfterWindows
-- ==== Proof.RefLink.lean ====
/-
  The reference program's result, read stage by stage.

  The reference program is a straight line of 234 host operations, each writing one buffer that no other operation writes,
  from operands written earlier or given as arguments. Its result buffer therefore holds, after the line, the last stage of
  the chain of stage functions of the arguments (each stage defined from the stages of its operands): walking the line
  one operation at a time, every buffer that a later operation still reads holds its stage of the arguments — the written
  buffer by the operation's own function applied to the operands' stages, every other buffer because the operation does
  not write it. The line is taken in windows so that each piece is a statement of moderate size. What is carried from one
  operation to the next is exactly one equation per buffer still to be read: its contents are its stage of the arguments.
-/
import proofs.«166963_j81509889343768_2_alg».proof.Proof.RefRun
import proofs.«166963_j81509889343768_2_alg».proof.Proof.RefRead
import proofs.«166963_j81509889343768_2_alg».proof.Proof.LibAfterWindows

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibAfterWindows

variable {F : FTy → Type} [FloatOps F]

/-- Operations 0 to 56 of the program (its own text, in order). -/
abbrev win0 : List (HloOp τ sig (Elt F)) :=
  [
    unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg1 main_v9 main_v10 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v3 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v3 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg1 main_v16 main_v17 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    binary main_v10 main_v17 main_v18 (subf : (⟨S1600000x16, .f32⟩ : BufTy).Contents (Elt F) → (⟨S1600000x16, .f32⟩ : BufTy).Contents (Elt F) → (⟨S1600000x16, .f32⟩ : BufTy).Contents (Elt F)),
    unary main_v18 main_v19 (Host.absf : (⟨S1600000x16, .f32⟩ : BufTy).Contents (Elt F) → (⟨S1600000x16, .f32⟩ : BufTy).Contents (Elt F)),
    binary main_v10 main_v17 main_v20 (mulf : (⟨S1600000x16, .f32⟩ : BufTy).Contents (Elt F) → (⟨S1600000x16, .f32⟩ : BufTy).Contents (Elt F) → (⟨S1600000x16, .f32⟩ : BufTy).Contents (Elt F)),
    nary ![main_v10, main_v17, main_v19, main_v20] main_v21 (fun u => concatenate S1600000x64 1 [⟨S1600000x16, u 0⟩, ⟨S1600000x16, u 1⟩, ⟨S1600000x16, u 2⟩, ⟨S1600000x16, u 3⟩] concatenates_S1600000x16_S1600000x16_S1600000x16_S1600000x16_S1600000x64_d1),
    binary main_v21 main_arg3 main_v22 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg4 main_v23 (broadcastInDim S1x64 ![1] bcast_S64_S1x64_1 : (⟨S64, .f32⟩ : BufTy).Contents (Elt F) → (⟨S1x64, .f32⟩ : BufTy).Contents (Elt F)),
    unary main_v23 main_v24 (broadcastInDim S1600000x64 ![0, 1] bcast_S1x64_S1600000x64_0_1 : (⟨S1x64, .f32⟩ : BufTy).Contents (Elt F) → (⟨S1600000x64, .f32⟩ : BufTy).Contents (Elt F)),
    binary main_v22 main_v24 main_v25 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v25) (TRef.of (T := ⟨S1600000x64, .f32⟩) main_call0_v0) (TRef.of (T := ⟨S1600000x64, .f32⟩) main_v26) maximumf,
    binary main_v26 main_arg5 main_v27 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg6 main_v28 (broadcastInDim S1x1 ![1] bcast_S1_S1x1_1 : (⟨S1, .f32⟩ : BufTy).Contents (Elt F) → (⟨S1x1, .f32⟩ : BufTy).Contents (Elt F)),
    unary main_v28 main_v29 (broadcastInDim S1600000x1 ![0, 1] bcast_S1x1_S1600000x1_0_1 : (⟨S1x1, .f32⟩ : BufTy).Contents (Elt F) → (⟨S1600000x1, .f32⟩ : BufTy).Contents (Elt F)),
    binary main_v27 main_v29 main_v30 (addf : (⟨S1600000x1, .f32⟩ : BufTy).Contents (Elt F) → (⟨S1600000x1, .f32⟩ : BufTy).Contents (Elt F) → (⟨S1600000x1, .f32⟩ : BufTy).Contents (Elt F)),
    reshape main_v30 main_v31 rfl shapeCasts_S1600000x1_S1600000,
    nullary main_cst (constant S_ .f32 0x3F800000#32),
    unary main_cst main_v32 (broadcastInDim S1600000 ![] bcast_S_S1600000 : (⟨S_, .f32⟩ : BufTy).Contents (Elt F) → (⟨S1600000, .f32⟩ : BufTy).Contents (Elt F)),
    binary main_v31 main_v32 main_v33 (Host.divf : (⟨S1600000, .f32⟩ : BufTy).Contents (Elt F) → (⟨S1600000, .f32⟩ : BufTy).Contents (Elt F) → (⟨S1600000, .f32⟩ : BufTy).Contents (Elt F)),
    unary main_v33 main_v34 (Host.negf : (⟨S1600000, .f32⟩ : BufTy).Contents (Elt F) → (⟨S1600000, .f32⟩ : BufTy).Contents (Elt F)),
    unary main_v34 main_v35 (Host.exp : (⟨S1600000, .f32⟩ : BufTy).Contents (Elt F) → (⟨S1600000, .f32⟩ : BufTy).Contents (Elt F)),
    nullary main_cst_3 (constant S_ .f32 0x3F800000#32),
    unary main_cst_3 main_v36 (broadcastInDim S1600000 ![] bcast_S_S1600000 : (⟨S_, .f32⟩ : BufTy).Contents (Elt F) → (⟨S1600000, .f32⟩ : BufTy).Contents (Elt F)),
    binary main_v36 main_v35 main_v37 (addf : (⟨S1600000, .f32⟩ : BufTy).Contents (Elt F) → (⟨S1600000, .f32⟩ : BufTy).Contents (Elt F) → (⟨S1600000, .f32⟩ : BufTy).Contents (Elt F)),
    nullary main_cst_4 (constant S_ .f32 0x3F800000#32),
    unary main_cst_4 main_v38 (broadcastInDim S1600000 ![] bcast_S_S1600000 : (⟨S_, .f32⟩ : BufTy).Contents (Elt F) → (⟨S1600000, .f32⟩ : BufTy).Contents (Elt F)),
    binary main_v38 main_v37 main_v39 (Host.divf : (⟨S1600000, .f32⟩ : BufTy).Contents (Elt F) → (⟨S1600000, .f32⟩ : BufTy).Contents (Elt F) → (⟨S1600000, .f32⟩ : BufTy).Contents (Elt F)),
    nullary main_cst_5 (constant S_ .f32 0x00000000#32),
    nullary main_cst_6 (constant S_ .f32 0x3F800000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S1600000, .f32⟩) main_call1_v1) (broadcastInDim S1600000 ![] bcast_S_S1600000),
    TRef.binary (TRef.of (T := ⟨S1600000, .f32⟩) main_call1_v1) (TRef.of (T := ⟨S1600000, .f32⟩) main_v39) (TRef.of (T := ⟨S1600000, .f32⟩) main_call1_v2) maximumf,
    TRef.unary (TRef.of (T := ⟨S_, .f32⟩) main_cst_6) (TRef.of (T := ⟨S_, .f32⟩) main_call1_v3) id,
    TRef.unary (TRef.of (T := ⟨S_, .f32⟩) main_call1_v3) (TRef.of (T := ⟨S1600000, .f32⟩) main_call1_v4) (broadcastInDim S1600000 ![] bcast_S_S1600000),
    TRef.binary (TRef.of (T := ⟨S1600000, .f32⟩) main_call1_v4) (TRef.of (T := ⟨S1600000, .f32⟩) main_call1_v2) (TRef.of (T := ⟨S1600000, .f32⟩) main_v40) minimumf ]

set_option maxRecDepth 8192 in
set_option maxHeartbeats 8000000 in
/-- Window 0: from contents that hold, in each buffer still to be read, its stage of the arguments, the window ends at
    contents that do so again. -/
theorem win0_post (x0 : (⟨S100000x128, .f32⟩ : BufTy).Contents (Elt F)) (x1 : (⟨S100000x16, .f32⟩ : BufTy).Contents (Elt F)) (x2 : (⟨S2x1600000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S2x128x128, .f32⟩ : BufTy).Contents (Elt F)) (x8 : (⟨S2x128, .f32⟩ : BufTy).Contents (Elt F)) (x9 : (⟨S2x128, .f32⟩ : BufTy).Contents (Elt F)) (x10 : (⟨S2x128, .f32⟩ : BufTy).Contents (Elt F)) (x11 : (⟨S128x64, .f32⟩ : BufTy).Contents (Elt F)) (x12 : (⟨S64, .f32⟩ : BufTy).Contents (Elt F)) (W0 : Valuation τ sig (Elt F))
    (k_main_arg0 : W0 (Proc.devRef .tc main_arg0) = x0)
    (k_main_arg1 : W0 (Proc.devRef .tc main_arg1) = x1)
    (k_main_arg2 : W0 (Proc.devRef .tc main_arg2) = x2)
    (k_main_arg3 : W0 (Proc.devRef .tc main_arg3) = x3)
    (k_main_arg4 : W0 (Proc.devRef .tc main_arg4) = x4)
    (k_main_arg5 : W0 (Proc.devRef .tc main_arg5) = x5)
    (k_main_arg6 : W0 (Proc.devRef .tc main_arg6) = x6)
    (k_main_arg7 : W0 (Proc.devRef .tc main_arg7) = x7)
    (k_main_arg8 : W0 (Proc.devRef .tc main_arg8) = x8)
    (k_main_arg9 : W0 (Proc.devRef .tc main_arg9) = x9)
    (k_main_arg10 : W0 (Proc.devRef .tc main_arg10) = x10)
    (k_main_arg11 : W0 (Proc.devRef .tc main_arg11) = x11)
    (k_main_arg12 : W0 (Proc.devRef .tc main_arg12) = x12)
    : ∃ W' : Valuation τ sig (Elt F), after (win0 (F := F)) W0 = W'
      ∧ W' (Proc.devRef .tc main_arg0) = x0
      ∧ W' (Proc.devRef .tc main_arg7) = x7
      ∧ W' (Proc.devRef .tc main_arg8) = x8
      ∧ W' (Proc.devRef .tc main_arg9) = x9
      ∧ W' (Proc.devRef .tc main_arg10) = x10
      ∧ W' (Proc.devRef .tc main_arg11) = x11
      ∧ W' (Proc.devRef .tc main_arg12) = x12
      ∧ W' (Proc.devRef .tc main_v1) = ReadP.val_main_v1 (F := F) x2
      ∧ W' (Proc.devRef .tc main_v3) = ReadP.val_main_v3 (F := F) x2
      ∧ W' (Proc.devRef .tc main_v40) = ReadP.val_main_v40 (F := F) x1 x2 x3 x4 x5 x6 := by
  unfold win0
  -- main_v0
  refine after_cons_exists (fun W1 hW => ?_)
  have k_main_v0 : W1 (Proc.devRef .tc main_v0) = ReadP.val_main_v0 (F := F) x2 :=
    wrote_of hW (by rw [unary_result, k_main_arg2] <;> rfl)
  replace k_main_arg0 := keep_of hW main_v0 main_arg0 rfl (by decide) k_main_arg0
  replace k_main_arg1 := keep_of hW main_v0 main_arg1 rfl (by decide) k_main_arg1
  replace k_main_arg2 := keep_of hW main_v0 main_arg2 rfl (by decide) k_main_arg2
  replace k_main_arg3 := keep_of hW main_v0 main_arg3 rfl (by decide) k_main_arg3
  replace k_main_arg4 := keep_of hW main_v0 main_arg4 rfl (by decide) k_main_arg4
  replace k_main_arg5 := keep_of hW main_v0 main_arg5 rfl (by decide) k_main_arg5
  replace k_main_arg6 := keep_of hW main_v0 main_arg6 rfl (by decide) k_main_arg6
  replace k_main_arg7 := keep_of hW main_v0 main_arg7 rfl (by decide) k_main_arg7
  replace k_main_arg8 := keep_of hW main_v0 main_arg8 rfl (by decide) k_main_arg8
  replace k_main_arg9 := keep_of hW main_v0 main_arg9 rfl (by decide) k_main_arg9
  replace k_main_arg10 := keep_of hW main_v0 main_arg10 rfl (by decide) k_main_arg10
  replace k_main_arg11 := keep_of hW main_v0 main_arg11 rfl (by decide) k_main_arg11
  replace k_main_arg12 := keep_of hW main_v0 main_arg12 rfl (by decide) k_main_arg12
  clear hW
  clear W0
  -- main_v1
  refine after_cons_exists (fun W2 hW => ?_)
  have k_main_v1 : W2 (Proc.devRef .tc main_v1) = ReadP.val_main_v1 (F := F) x2 :=
    wrote_of hW (by rw [reshape_result, k_main_v0] <;> rfl)
  replace k_main_arg0 := keep_of hW main_v1 main_arg0 rfl (by decide) k_main_arg0
  replace k_main_arg1 := keep_of hW main_v1 main_arg1 rfl (by decide) k_main_arg1
  replace k_main_arg2 := keep_of hW main_v1 main_arg2 rfl (by decide) k_main_arg2
  replace k_main_arg3 := keep_of hW main_v1 main_arg3 rfl (by decide) k_main_arg3
  replace k_main_arg4 := keep_of hW main_v1 main_arg4 rfl (by decide) k_main_arg4
  replace k_main_arg5 := keep_of hW main_v1 main_arg5 rfl (by decide) k_main_arg5
  replace k_main_arg6 := keep_of hW main_v1 main_arg6 rfl (by decide) k_main_arg6
  replace k_main_arg7 := keep_of hW main_v1 main_arg7 rfl (by decide) k_main_arg7
  replace k_main_arg8 := keep_of hW main_v1 main_arg8 rfl (by decide) k_main_arg8
  replace k_main_arg9 := keep_of hW main_v1 main_arg9 rfl (by decide) k_main_arg9
  replace k_main_arg10 := keep_of hW main_v1 main_arg10 rfl (by decide) k_main_arg10
  replace k_main_arg11 := keep_of hW main_v1 main_arg11 rfl (by decide) k_main_arg11
  replace k_main_arg12 := keep_of hW main_v1 main_arg12 rfl (by decide) k_main_arg12
  clear hW k_main_v0
  clear W1
  -- main_v2
  refine after_cons_exists (fun W3 hW => ?_)
  have k_main_v2 : W3 (Proc.devRef .tc main_v2) = ReadP.val_main_v2 (F := F) x2 :=
    wrote_of hW (by rw [unary_result, k_main_arg2] <;> rfl)
  replace k_main_arg0 := keep_of hW main_v2 main_arg0 rfl (by decide) k_main_arg0
  replace k_main_arg1 := keep_of hW main_v2 main_arg1 rfl (by decide) k_main_arg1
  replace k_main_arg3 := keep_of hW main_v2 main_arg3 rfl (by decide) k_main_arg3
  replace k_main_arg4 := keep_of hW main_v2 main_arg4 rfl (by decide) k_main_arg4
  replace k_main_arg5 := keep_of hW main_v2 main_arg5 rfl (by decide) k_main_arg5
  replace k_main_arg6 := keep_of hW main_v2 main_arg6 rfl (by decide) k_main_arg6
  replace k_main_arg7 := keep_of hW main_v2 main_arg7 rfl (by decide) k_main_arg7
  replace k_main_arg8 := keep_of hW main_v2 main_arg8 rfl (by decide) k_main_arg8
  replace k_main_arg9 := keep_of hW main_v2 main_arg9 rfl (by decide) k_main_arg9
  replace k_main_arg10 := keep_of hW main_v2 main_arg10 rfl (by decide) k_main_arg10
  replace k_main_arg11 := keep_of hW main_v2 main_arg11 rfl (by decide) k_main_arg11
  replace k_main_arg12 := keep_of hW main_v2 main_arg12 rfl (by decide) k_main_arg12
  replace k_main_v1 := keep_of hW main_v2 main_v1 rfl (by decide) k_main_v1
  clear hW k_main_arg2
  clear W2
  -- main_v3
  refine after_cons_exists (fun W4 hW => ?_)
  have k_main_v3 : W4 (Proc.devRef .tc main_v3) = ReadP.val_main_v3 (F := F) x2 :=
    wrote_of hW (by rw [reshape_result, k_main_v2] <;> rfl)
  replace k_main_arg0 := keep_of hW main_v3 main_arg0 rfl (by decide) k_main_arg0
  replace k_main_arg1 := keep_of hW main_v3 main_arg1 rfl (by decide) k_main_arg1
  replace k_main_arg3 := keep_of hW main_v3 main_arg3 rfl (by decide) k_main_arg3
  replace k_main_arg4 := keep_of hW main_v3 main_arg4 rfl (by decide) k_main_arg4
  replace k_main_arg5 := keep_of hW main_v3 main_arg5 rfl (by decide) k_main_arg5
  replace k_main_arg6 := keep_of hW main_v3 main_arg6 rfl (by decide) k_main_arg6
  replace k_main_arg7 := keep_of hW main_v3 main_arg7 rfl (by decide) k_main_arg7
  replace k_main_arg8 := keep_of hW main_v3 main_arg8 rfl (by decide) k_main_arg8
  replace k_main_arg9 := keep_of hW main_v3 main_arg9 rfl (by decide) k_main_arg9
  replace k_main_arg10 := keep_of hW main_v3 main_arg10 rfl (by decide) k_main_arg10
  replace k_main_arg11 := keep_of hW main_v3 main_arg11 rfl (by decide) k_main_arg11
  replace k_main_arg12 := keep_of hW main_v3 main_arg12 rfl (by decide) k_main_arg12
  replace k_main_v1 := keep_of hW main_v3 main_v1 rfl (by decide) k_main_v1
  clear hW k_main_v2
  clear W3
  -- main_c
  refine after_cons_exists (fun W5 hW => ?_)
  have k_main_c : W5 (Proc.devRef .tc main_c) = ReadP.val_main_c (F := F) :=
    wrote_of hW (by rw [nullary_result] <;> rfl)
  replace k_main_arg0 := keep_of hW main_c main_arg0 rfl (by decide) k_main_arg0
  replace k_main_arg1 := keep_of hW main_c main_arg1 rfl (by decide) k_main_arg1
  replace k_main_arg3 := keep_of hW main_c main_arg3 rfl (by decide) k_main_arg3
  replace k_main_arg4 := keep_of hW main_c main_arg4 rfl (by decide) k_main_arg4
  replace k_main_arg5 := keep_of hW main_c main_arg5 rfl (by decide) k_main_arg5
  replace k_main_arg6 := keep_of hW main_c main_arg6 rfl (by decide) k_main_arg6
  replace k_main_arg7 := keep_of hW main_c main_arg7 rfl (by decide) k_main_arg7
  replace k_main_arg8 := keep_of hW main_c main_arg8 rfl (by decide) k_main_arg8
  replace k_main_arg9 := keep_of hW main_c main_arg9 rfl (by decide) k_main_arg9
  replace k_main_arg10 := keep_of hW main_c main_arg10 rfl (by decide) k_main_arg10
  replace k_main_arg11 := keep_of hW main_c main_arg11 rfl (by decide) k_main_arg11
  replace k_main_arg12 := keep_of hW main_c main_arg12 rfl (by decide) k_main_arg12
  replace k_main_v1 := keep_of hW main_c main_v1 rfl (by decide) k_main_v1
  replace k_main_v3 := keep_of hW main_c main_v3 rfl (by decide) k_main_v3
  clear hW
  clear W4
  -- main_v4
  refine after_cons_exists (fun W6 hW => ?_)
  have k_main_v4 : W6 (Proc.devRef .tc main_v4) = ReadP.val_main_v4 (F := F) :=
    wrote_of hW (by rw [unary_result, k_main_c] <;> rfl)
  replace k_main_arg0 := keep_of hW main_v4 main_arg0 rfl (by decide) k_main_arg0
  replace k_main_arg1 := keep_of hW main_v4 main_arg1 rfl (by decide) k_main_arg1
  replace k_main_arg3 := keep_of hW main_v4 main_arg3 rfl (by decide) k_main_arg3
  replace k_main_arg4 := keep_of hW main_v4 main_arg4 rfl (by decide) k_main_arg4
  replace k_main_arg5 := keep_of hW main_v4 main_arg5 rfl (by decide) k_main_arg5
  replace k_main_arg6 := keep_of hW main_v4 main_arg6 rfl (by decide) k_main_arg6
  replace k_main_arg7 := keep_of hW main_v4 main_arg7 rfl (by decide) k_main_arg7
  replace k_main_arg8 := keep_of hW main_v4 main_arg8 rfl (by decide) k_main_arg8
  replace k_main_arg9 := keep_of hW main_v4 main_arg9 rfl (by decide) k_main_arg9
  replace k_main_arg10 := keep_of hW main_v4 main_arg10 rfl (by decide) k_main_arg10
  replace k_main_arg11 := keep_of hW main_v4 main_arg11 rfl (by decide) k_main_arg11
  replace k_main_arg12 := keep_of hW main_v4 main_arg12 rfl (by decide) k_main_arg12
  replace k_main_v1 := keep_of hW main_v4 main_v1 rfl (by decide) k_main_v1
  replace k_main_v3 := keep_of hW main_v4 main_v3 rfl (by decide) k_main_v3
  clear hW k_main_c
  clear W5
  -- main_v5
  refine after_cons_exists (fun W7 hW => ?_)
  have k_main_v5 : W7 (Proc.devRef .tc main_v5) = ReadP.val_main_v5 (F := F) x2 :=
    wrote_of hW (by rw [binary_result, k_main_v1, k_main_v4] <;> rfl)
  replace k_main_arg0 := keep_of hW main_v5 main_arg0 rfl (by decide) k_main_arg0
  replace k_main_arg1 := keep_of hW main_v5 main_arg1 rfl (by decide) k_main_arg1
  replace k_main_arg3 := keep_of hW main_v5 main_arg3 rfl (by decide) k_main_arg3
  replace k_main_arg4 := keep_of hW main_v5 main_arg4 rfl (by decide) k_main_arg4
  replace k_main_arg5 := keep_of hW main_v5 main_arg5 rfl (by decide) k_main_arg5
  replace k_main_arg6 := keep_of hW main_v5 main_arg6 rfl (by decide) k_main_arg6
  replace k_main_arg7 := keep_of hW main_v5 main_arg7 rfl (by decide) k_main_arg7
  replace k_main_arg8 := keep_of hW main_v5 main_arg8 rfl (by decide) k_main_arg8
  replace k_main_arg9 := keep_of hW main_v5 main_arg9 rfl (by decide) k_main_arg9
  replace k_main_arg10 := keep_of hW main_v5 main_arg10 rfl (by decide) k_main_arg10
  replace k_main_arg11 := keep_of hW main_v5 main_arg11 rfl (by decide) k_main_arg11
  replace k_main_arg12 := keep_of hW main_v5 main_arg12 rfl (by decide) k_main_arg12
  replace k_main_v1 := keep_of hW main_v5 main_v1 rfl (by decide) k_main_v1
  replace k_main_v3 := keep_of hW main_v5 main_v3 rfl (by decide) k_main_v3
  clear hW k_main_v4
  clear W6
  -- main_c_0
  refine after_cons_exists (fun W8 hW => ?_)
  have k_main_c_0 : W8 (Proc.devRef .tc main_c_0) = ReadP.val_main_c_0 (F := F) :=
    wrote_of hW (by rw [nullary_result] <;> rfl)
  replace k_main_arg0 := keep_of hW main_c_0 main_arg0 rfl (by decide) k_main_arg0
  replace k_main_arg1 := keep_of hW main_c_0 main_arg1 rfl (by decide) k_main_arg1
  replace k_main_arg3 := keep_of hW main_c_0 main_arg3 rfl (by decide) k_main_arg3
  replace k_main_arg4 := keep_of hW main_c_0 main_arg4 rfl (by decide) k_main_arg4
  replace k_main_arg5 := keep_of hW main_c_0 main_arg5 rfl (by decide) k_main_arg5
  replace k_main_arg6 := keep_of hW main_c_0 main_arg6 rfl (by decide) k_main_arg6
  replace k_main_arg7 := keep_of hW main_c_0 main_arg7 rfl (by decide) k_main_arg7
  replace k_main_arg8 := keep_of hW main_c_0 main_arg8 rfl (by decide) k_main_arg8
  replace k_main_arg9 := keep_of hW main_c_0 main_arg9 rfl (by decide) k_main_arg9
  replace k_main_arg10 := keep_of hW main_c_0 main_arg10 rfl (by decide) k_main_arg10
  replace k_main_arg11 := keep_of hW main_c_0 main_arg11 rfl (by decide) k_main_arg11
  replace k_main_arg12 := keep_of hW main_c_0 main_arg12 rfl (by decide) k_main_arg12
  replace k_main_v1 := keep_of hW main_c_0 main_v1 rfl (by decide) k_main_v1
  replace k_main_v3 := keep_of hW main_c_0 main_v3 rfl (by decide) k_main_v3
  replace k_main_v5 := keep_of hW main_c_0 main_v5 rfl (by decide) k_main_v5
  clear hW
  clear W7
  -- main_v6
  refine after_cons_exists (fun W9 hW => ?_)
  have k_main_v6 : W9 (Proc.devRef .tc main_v6) = ReadP.val_main_v6 (F := F) :=
    wrote_of hW (by rw [unary_result, k_main_c_0] <;> rfl)
  replace k_main_arg0 := keep_of hW main_v6 main_arg0 rfl (by decide) k_main_arg0
  replace k_main_arg1 := keep_of hW main_v6 main_arg1 rfl (by decide) k_main_arg1
  replace k_main_arg3 := keep_of hW main_v6 main_arg3 rfl (by decide) k_main_arg3
  replace k_main_arg4 := keep_of hW main_v6 main_arg4 rfl (by decide) k_main_arg4
  replace k_main_arg5 := keep_of hW main_v6 main_arg5 rfl (by decide) k_main_arg5
  replace k_main_arg6 := keep_of hW main_v6 main_arg6 rfl (by decide) k_main_arg6
  replace k_main_arg7 := keep_of hW main_v6 main_arg7 rfl (by decide) k_main_arg7
  replace k_main_arg8 := keep_of hW main_v6 main_arg8 rfl (by decide) k_main_arg8
  replace k_main_arg9 := keep_of hW main_v6 main_arg9 rfl (by decide) k_main_arg9
  replace k_main_arg10 := keep_of hW main_v6 main_arg10 rfl (by decide) k_main_arg10
  replace k_main_arg11 := keep_of hW main_v6 main_arg11 rfl (by decide) k_main_arg11
  replace k_main_arg12 := keep_of hW main_v6 main_arg12 rfl (by decide) k_main_arg12
  replace k_main_v1 := keep_of hW main_v6 main_v1 rfl (by decide) k_main_v1
  replace k_main_v3 := keep_of hW main_v6 main_v3 rfl (by decide) k_main_v3
  replace k_main_v5 := keep_of hW main_v6 main_v5 rfl (by decide) k_main_v5
  clear hW k_main_c_0
  clear W8
  -- main_v7
  refine after_cons_exists (fun W10 hW => ?_)
  have k_main_v7 : W10 (Proc.devRef .tc main_v7) = ReadP.val_main_v7 (F := F) x2 :=
    wrote_of hW (by rw [binary_result, k_main_v1, k_main_v6] <;> rfl)
  replace k_main_arg0 := keep_of hW main_v7 main_arg0 rfl (by decide) k_main_arg0
  replace k_main_arg1 := keep_of hW main_v7 main_arg1 rfl (by decide) k_main_arg1
  replace k_main_arg3 := keep_of hW main_v7 main_arg3 rfl (by decide) k_main_arg3
  replace k_main_arg4 := keep_of hW main_v7 main_arg4 rfl (by decide) k_main_arg4
  replace k_main_arg5 := keep_of hW main_v7 main_arg5 rfl (by decide) k_main_arg5
  replace k_main_arg6 := keep_of hW main_v7 main_arg6 rfl (by decide) k_main_arg6
  replace k_main_arg7 := keep_of hW main_v7 main_arg7 rfl (by decide) k_main_arg7
  replace k_main_arg8 := keep_of hW main_v7 main_arg8 rfl (by decide) k_main_arg8
  replace k_main_arg9 := keep_of hW main_v7 main_arg9 rfl (by decide) k_main_arg9
  replace k_main_arg10 := keep_of hW main_v7 main_arg10 rfl (by decide) k_main_arg10
  replace k_main_arg11 := keep_of hW main_v7 main_arg11 rfl (by decide) k_main_arg11
  replace k_main_arg12 := keep_of hW main_v7 main_arg12 rfl (by decide) k_main_arg12
  replace k_main_v1 := keep_of hW main_v7 main_v1 rfl (by decide) k_main_v1
  replace k_main_v3 := keep_of hW main_v7 main_v3 rfl (by decide) k_main_v3
  replace k_main_v5 := keep_of hW main_v7 main_v5 rfl (by decide) k_main_v5
  clear hW k_main_v6
  clear W9
  -- main_v8
  refine after_cons_exists (fun W11 hW => ?_)
  have k_main_v8 : W11 (Proc.devRef .tc main_v8) = ReadP.val_main_v8 (F := F) x2 :=
    wrote_of hW (by rw [ternary_result, k_main_v5, k_main_v7, k_main_v1] <;> rfl)
  replace k_main_arg0 := keep_of hW main_v8 main_arg0 rfl (by decide) k_main_arg0
  replace k_main_arg1 := keep_of hW main_v8 main_arg1 rfl (by decide) k_main_arg1
  replace k_main_arg3 := keep_of hW main_v8 main_arg3 rfl (by decide) k_main_arg3
  replace k_main_arg4 := keep_of hW main_v8 main_arg4 rfl (by decide) k_main_arg4
  replace k_main_arg5 := keep_of hW main_v8 main_arg5 rfl (by decide) k_main_arg5
  replace k_main_arg6 := keep_of hW main_v8 main_arg6 rfl (by decide) k_main_arg6
  replace k_main_arg7 := keep_of hW main_v8 main_arg7 rfl (by decide) k_main_arg7
  replace k_main_arg8 := keep_of hW main_v8 main_arg8 rfl (by decide) k_main_arg8
  replace k_main_arg9 := keep_of hW main_v8 main_arg9 rfl (by decide) k_main_arg9
  replace k_main_arg10 := keep_of hW main_v8 main_arg10 rfl (by decide) k_main_arg10
  replace k_main_arg11 := keep_of hW main_v8 main_arg11 rfl (by decide) k_main_arg11
  replace k_main_arg12 := keep_of hW main_v8 main_arg12 rfl (by decide) k_main_arg12
  replace k_main_v1 := keep_of hW main_v8 main_v1 rfl (by decide) k_main_v1
  replace k_main_v3 := keep_of hW main_v8 main_v3 rfl (by decide) k_main_v3
  clear hW k_main_v5 k_main_v7
  clear W10
  -- main_v9
  refine after_cons_exists (fun W12 hW => ?_)
  have k_main_v9 : W12 (Proc.devRef .tc main_v9) = ReadP.val_main_v9 (F := F) x2 :=
    wrote_of hW (by rw [unary_result, k_main_v8] <;> rfl)
  replace k_main_arg0 := keep_of hW main_v9 main_arg0 rfl (by decide) k_main_arg0
  replace k_main_arg1 := keep_of hW main_v9 main_arg1 rfl (by decide) k_main_arg1
  replace k_main_arg3 := keep_of hW main_v9 main_arg3 rfl (by decide) k_main_arg3
  replace k_main_arg4 := keep_of hW main_v9 main_arg4 rfl (by decide) k_main_arg4
  replace k_main_arg5 := keep_of hW main_v9 main_arg5 rfl (by decide) k_main_arg5
  replace k_main_arg6 := keep_of hW main_v9 main_arg6 rfl (by decide) k_main_arg6
  replace k_main_arg7 := keep_of hW main_v9 main_arg7 rfl (by decide) k_main_arg7
  replace k_main_arg8 := keep_of hW main_v9 main_arg8 rfl (by decide) k_main_arg8
  replace k_main_arg9 := keep_of hW main_v9 main_arg9 rfl (by decide) k_main_arg9
  replace k_main_arg10 := keep_of hW main_v9 main_arg10 rfl (by decide) k_main_arg10
  replace k_main_arg11 := keep_of hW main_v9 main_arg11 rfl (by decide) k_main_arg11
  replace k_main_arg12 := keep_of hW main_v9 main_arg12 rfl (by decide) k_main_arg12
  replace k_main_v1 := keep_of hW main_v9 main_v1 rfl (by decide) k_main_v1
  replace k_main_v3 := keep_of hW main_v9 main_v3 rfl (by decide) k_main_v3
  clear hW k_main_v8
  clear W11
  -- main_v10
  refine after_cons_exists (fun W13 hW => ?_)
  have k_main_v10 : W13 (Proc.devRef .tc main_v10) = ReadP.val_main_v10 (F := F) x1 x2 :=
    wrote_of hW (by rw [binary_result, k_main_arg1, k_main_v9] <;> rfl)
  replace k_main_arg0 := keep_of hW main_v10 main_arg0 rfl (by decide) k_main_arg0
  replace k_main_arg1 := keep_of hW main_v10 main_arg1 rfl (by decide) k_main_arg1
  replace k_main_arg3 := keep_of hW main_v10 main_arg3 rfl (by decide) k_main_arg3
  replace k_main_arg4 := keep_of hW main_v10 main_arg4 rfl (by decide) k_main_arg4
  replace k_main_arg5 := keep_of hW main_v10 main_arg5 rfl (by decide) k_main_arg5
  replace k_main_arg6 := keep_of hW main_v10 main_arg6 rfl (by decide) k_main_arg6
  replace k_main_arg7 := keep_of hW main_v10 main_arg7 rfl (by decide) k_main_arg7
  replace k_main_arg8 := keep_of hW main_v10 main_arg8 rfl (by decide) k_main_arg8
  replace k_main_arg9 := keep_of hW main_v10 main_arg9 rfl (by decide) k_main_arg9
  replace k_main_arg10 := keep_of hW main_v10 main_arg10 rfl (by decide) k_main_arg10
  replace k_main_arg11 := keep_of hW main_v10 main_arg11 rfl (by decide) k_main_arg11
  replace k_main_arg12 := keep_of hW main_v10 main_arg12 rfl (by decide) k_main_arg12
  replace k_main_v1 := keep_of hW main_v10 main_v1 rfl (by decide) k_main_v1
  replace k_main_v3 := keep_of hW main_v10 main_v3 rfl (by decide) k_main_v3
  clear hW k_main_v9
  clear W12
  -- main_c_1
  refine after_cons_exists (fun W14 hW => ?_)
  have k_main_c_1 : W14 (Proc.devRef .tc main_c_1) = ReadP.val_main_c_1 (F := F) :=
    wrote_of hW (by rw [nullary_result] <;> rfl)
  replace k_main_arg0 := keep_of hW main_c_1 main_arg0 rfl (by decide) k_main_arg0
  replace k_main_arg1 := keep_of hW main_c_1 main_arg1 rfl (by decide) k_main_arg1
  replace k_main_arg3 := keep_of hW main_c_1 main_arg3 rfl (by decide) k_main_arg3
  replace k_main_arg4 := keep_of hW main_c_1 main_arg4 rfl (by decide) k_main_arg4
  replace k_main_arg5 := keep_of hW main_c_1 main_arg5 rfl (by decide) k_main_arg5
  replace k_main_arg6 := keep_of hW main_c_1 main_arg6 rfl (by decide) k_main_arg6
  replace k_main_arg7 := keep_of hW main_c_1 main_arg7 rfl (by decide) k_main_arg7
  replace k_main_arg8 := keep_of hW main_c_1 main_arg8 rfl (by decide) k_main_arg8
  replace k_main_arg9 := keep_of hW main_c_1 main_arg9 rfl (by decide) k_main_arg9
  replace k_main_arg10 := keep_of hW main_c_1 main_arg10 rfl (by decide) k_main_arg10
  replace k_main_arg11 := keep_of hW main_c_1 main_arg11 rfl (by decide) k_main_arg11
  replace k_main_arg12 := keep_of hW main_c_1 main_arg12 rfl (by decide) k_main_arg12
  replace k_main_v1 := keep_of hW main_c_1 main_v1 rfl (by decide) k_main_v1
  replace k_main_v3 := keep_of hW main_c_1 main_v3 rfl (by decide) k_main_v3
  replace k_main_v10 := keep_of hW main_c_1 main_v10 rfl (by decide) k_main_v10
  clear hW
  clear W13
  -- main_v11
  refine after_cons_exists (fun W15 hW => ?_)
  have k_main_v11 : W15 (Proc.devRef .tc main_v11) = ReadP.val_main_v11 (F := F) :=
    wrote_of hW (by rw [unary_result, k_main_c_1] <;> rfl)
  replace k_main_arg0 := keep_of hW main_v11 main_arg0 rfl (by decide) k_main_arg0
  replace k_main_arg1 := keep_of hW main_v11 main_arg1 rfl (by decide) k_main_arg1
  replace k_main_arg3 := keep_of hW main_v11 main_arg3 rfl (by decide) k_main_arg3
  replace k_main_arg4 := keep_of hW main_v11 main_arg4 rfl (by decide) k_main_arg4
  replace k_main_arg5 := keep_of hW main_v11 main_arg5 rfl (by decide) k_main_arg5
  replace k_main_arg6 := keep_of hW main_v11 main_arg6 rfl (by decide) k_main_arg6
  replace k_main_arg7 := keep_of hW main_v11 main_arg7 rfl (by decide) k_main_arg7
  replace k_main_arg8 := keep_of hW main_v11 main_arg8 rfl (by decide) k_main_arg8
  replace k_main_arg9 := keep_of hW main_v11 main_arg9 rfl (by decide) k_main_arg9
  replace k_main_arg10 := keep_of hW main_v11 main_arg10 rfl (by decide) k_main_arg10
  replace k_main_arg11 := keep_of hW main_v11 main_arg11 rfl (by decide) k_main_arg11
  replace k_main_arg12 := keep_of hW main_v11 main_arg12 rfl (by decide) k_main_arg12
  replace k_main_v1 := keep_of hW main_v11 main_v1 rfl (by decide) k_main_v1
  replace k_main_v3 := keep_of hW main_v11 main_v3 rfl (by decide) k_main_v3
  replace k_main_v10 := keep_of hW main_v11 main_v10 rfl (by decide) k_main_v10
  clear hW k_main_c_1
  clear W14
  -- main_v12
  refine after_cons_exists (fun W16 hW => ?_)
  have k_main_v12 : W16 (Proc.devRef .tc main_v12) = ReadP.val_main_v12 (F := F) x2 :=
    wrote_of hW (by rw [binary_result, k_main_v3, k_main_v11] <;> rfl)
  replace k_main_arg0 := keep_of hW main_v12 main_arg0 rfl (by decide) k_main_arg0
  replace k_main_arg1 := keep_of hW main_v12 main_arg1 rfl (by decide) k_main_arg1
  replace k_main_arg3 := keep_of hW main_v12 main_arg3 rfl (by decide) k_main_arg3
  replace k_main_arg4 := keep_of hW main_v12 main_arg4 rfl (by decide) k_main_arg4
  replace k_main_arg5 := keep_of hW main_v12 main_arg5 rfl (by decide) k_main_arg5
  replace k_main_arg6 := keep_of hW main_v12 main_arg6 rfl (by decide) k_main_arg6
  replace k_main_arg7 := keep_of hW main_v12 main_arg7 rfl (by decide) k_main_arg7
  replace k_main_arg8 := keep_of hW main_v12 main_arg8 rfl (by decide) k_main_arg8
  replace k_main_arg9 := keep_of hW main_v12 main_arg9 rfl (by decide) k_main_arg9
  replace k_main_arg10 := keep_of hW main_v12 main_arg10 rfl (by decide) k_main_arg10
  replace k_main_arg11 := keep_of hW main_v12 main_arg11 rfl (by decide) k_main_arg11
  replace k_main_arg12 := keep_of hW main_v12 main_arg12 rfl (by decide) k_main_arg12
  replace k_main_v1 := keep_of hW main_v12 main_v1 rfl (by decide) k_main_v1
  replace k_main_v3 := keep_of hW main_v12 main_v3 rfl (by decide) k_main_v3
  replace k_main_v10 := keep_of hW main_v12 main_v10 rfl (by decide) k_main_v10
  clear hW k_main_v11
  clear W15
  -- main_c_2
  refine after_cons_exists (fun W17 hW => ?_)
  have k_main_c_2 : W17 (Proc.devRef .tc main_c_2) = ReadP.val_main_c_2 (F := F) :=
    wrote_of hW (by rw [nullary_result] <;> rfl)
  replace k_main_arg0 := keep_of hW main_c_2 main_arg0 rfl (by decide) k_main_arg0
  replace k_main_arg1 := keep_of hW main_c_2 main_arg1 rfl (by decide) k_main_arg1
  replace k_main_arg3 := keep_of hW main_c_2 main_arg3 rfl (by decide) k_main_arg3
  replace k_main_arg4 := keep_of hW main_c_2 main_arg4 rfl (by decide) k_main_arg4
  replace k_main_arg5 := keep_of hW main_c_2 main_arg5 rfl (by decide) k_main_arg5
  replace k_main_arg6 := keep_of hW main_c_2 main_arg6 rfl (by decide) k_main_arg6
  replace k_main_arg7 := keep_of hW main_c_2 main_arg7 rfl (by decide) k_main_arg7
  replace k_main_arg8 := keep_of hW main_c_2 main_arg8 rfl (by decide) k_main_arg8
  replace k_main_arg9 := keep_of hW main_c_2 main_arg9 rfl (by decide) k_main_arg9
  replace k_main_arg10 := keep_of hW main_c_2 main_arg10 rfl (by decide) k_main_arg10
  replace k_main_arg11 := keep_of hW main_c_2 main_arg11 rfl (by decide) k_main_arg11
  replace k_main_arg12 := keep_of hW main_c_2 main_arg12 rfl (by decide) k_main_arg12
  replace k_main_v1 := keep_of hW main_c_2 main_v1 rfl (by decide) k_main_v1
  replace k_main_v3 := keep_of hW main_c_2 main_v3 rfl (by decide) k_main_v3
  replace k_main_v10 := keep_of hW main_c_2 main_v10 rfl (by decide) k_main_v10
  replace k_main_v12 := keep_of hW main_c_2 main_v12 rfl (by decide) k_main_v12
  clear hW
  clear W16
  -- main_v13
  refine after_cons_exists (fun W18 hW => ?_)
  have k_main_v13 : W18 (Proc.devRef .tc main_v13) = ReadP.val_main_v13 (F := F) :=
    wrote_of hW (by rw [unary_result, k_main_c_2] <;> rfl)
  replace k_main_arg0 := keep_of hW main_v13 main_arg0 rfl (by decide) k_main_arg0
  replace k_main_arg1 := keep_of hW main_v13 main_arg1 rfl (by decide) k_main_arg1
  replace k_main_arg3 := keep_of hW main_v13 main_arg3 rfl (by decide) k_main_arg3
  replace k_main_arg4 := keep_of hW main_v13 main_arg4 rfl (by decide) k_main_arg4
  replace k_main_arg5 := keep_of hW main_v13 main_arg5 rfl (by decide) k_main_arg5
  replace k_main_arg6 := keep_of hW main_v13 main_arg6 rfl (by decide) k_main_arg6
  replace k_main_arg7 := keep_of hW main_v13 main_arg7 rfl (by decide) k_main_arg7
  replace k_main_arg8 := keep_of hW main_v13 main_arg8 rfl (by decide) k_main_arg8
  replace k_main_arg9 := keep_of hW main_v13 main_arg9 rfl (by decide) k_main_arg9
  replace k_main_arg10 := keep_of hW main_v13 main_arg10 rfl (by decide) k_main_arg10
  replace k_main_arg11 := keep_of hW main_v13 main_arg11 rfl (by decide) k_main_arg11
  replace k_main_arg12 := keep_of hW main_v13 main_arg12 rfl (by decide) k_main_arg12
  replace k_main_v1 := keep_of hW main_v13 main_v1 rfl (by decide) k_main_v1
  replace k_main_v3 := keep_of hW main_v13 main_v3 rfl (by decide) k_main_v3
  replace k_main_v10 := keep_of hW main_v13 main_v10 rfl (by decide) k_main_v10
  replace k_main_v12 := keep_of hW main_v13 main_v12 rfl (by decide) k_main_v12
  clear hW k_main_c_2
  clear W17
  -- main_v14
  refine after_cons_exists (fun W19 hW => ?_)
  have k_main_v14 : W19 (Proc.devRef .tc main_v14) = ReadP.val_main_v14 (F := F) x2 :=
    wrote_of hW (by rw [binary_result, k_main_v3, k_main_v13] <;> rfl)
  replace k_main_arg0 := keep_of hW main_v14 main_arg0 rfl (by decide) k_main_arg0
  replace k_main_arg1 := keep_of hW main_v14 main_arg1 rfl (by decide) k_main_arg1
  replace k_main_arg3 := keep_of hW main_v14 main_arg3 rfl (by decide) k_main_arg3
  replace k_main_arg4 := keep_of hW main_v14 main_arg4 rfl (by decide) k_main_arg4
  replace k_main_arg5 := keep_of hW main_v14 main_arg5 rfl (by decide) k_main_arg5
  replace k_main_arg6 := keep_of hW main_v14 main_arg6 rfl (by decide) k_main_arg6
  replace k_main_arg7 := keep_of hW main_v14 main_arg7 rfl (by decide) k_main_arg7
  replace k_main_arg8 := keep_of hW main_v14 main_arg8 rfl (by decide) k_main_arg8
  replace k_main_arg9 := keep_of hW main_v14 main_arg9 rfl (by decide) k_main_arg9
  replace k_main_arg10 := keep_of hW main_v14 main_arg10 rfl (by decide) k_main_arg10
  replace k_main_arg11 := keep_of hW main_v14 main_arg11 rfl (by decide) k_main_arg11
  replace k_main_arg12 := keep_of hW main_v14 main_arg12 rfl (by decide) k_main_arg12
  replace k_main_v1 := keep_of hW main_v14 main_v1 rfl (by decide) k_main_v1
  replace k_main_v3 := keep_of hW main_v14 main_v3 rfl (by decide) k_main_v3
  replace k_main_v10 := keep_of hW main_v14 main_v10 rfl (by decide) k_main_v10
  replace k_main_v12 := keep_of hW main_v14 main_v12 rfl (by decide) k_main_v12
  clear hW k_main_v13
  clear W18
  -- main_v15
  refine after_cons_exists (fun W20 hW => ?_)
  have k_main_v15 : W20 (Proc.devRef .tc main_v15) = ReadP.val_main_v15 (F := F) x2 :=
    wrote_of hW (by rw [ternary_result, k_main_v12, k_main_v14, k_main_v3] <;> rfl)
  replace k_main_arg0 := keep_of hW main_v15 main_arg0 rfl (by decide) k_main_arg0
  replace k_main_arg1 := keep_of hW main_v15 main_arg1 rfl (by decide) k_main_arg1
  replace k_main_arg3 := keep_of hW main_v15 main_arg3 rfl (by decide) k_main_arg3
  replace k_main_arg4 := keep_of hW main_v15 main_arg4 rfl (by decide) k_main_arg4
  replace k_main_arg5 := keep_of hW main_v15 main_arg5 rfl (by decide) k_main_arg5
  replace k_main_arg6 := keep_of hW main_v15 main_arg6 rfl (by decide) k_main_arg6
  replace k_main_arg7 := keep_of hW main_v15 main_arg7 rfl (by decide) k_main_arg7
  replace k_main_arg8 := keep_of hW main_v15 main_arg8 rfl (by decide) k_main_arg8
  replace k_main_arg9 := keep_of hW main_v15 main_arg9 rfl (by decide) k_main_arg9
  replace k_main_arg10 := keep_of hW main_v15 main_arg10 rfl (by decide) k_main_arg10
  replace k_main_arg11 := keep_of hW main_v15 main_arg11 rfl (by decide) k_main_arg11
  replace k_main_arg12 := keep_of hW main_v15 main_arg12 rfl (by decide) k_main_arg12
  replace k_main_v1 := keep_of hW main_v15 main_v1 rfl (by decide) k_main_v1
  replace k_main_v3 := keep_of hW main_v15 main_v3 rfl (by decide) k_main_v3
  replace k_main_v10 := keep_of hW main_v15 main_v10 rfl (by decide) k_main_v10
  clear hW k_main_v12 k_main_v14
  clear W19
  -- main_v16
  refine after_cons_exists (fun W21 hW => ?_)
  have k_main_v16 : W21 (Proc.devRef .tc main_v16) = ReadP.val_main_v16 (F := F) x2 :=
    wrote_of hW (by rw [unary_result, k_main_v15] <;> rfl)
  replace k_main_arg0 := keep_of hW main_v16 main_arg0 rfl (by decide) k_main_arg0
  replace k_main_arg1 := keep_of hW main_v16 main_arg1 rfl (by decide) k_main_arg1
  replace k_main_arg3 := keep_of hW main_v16 main_arg3 rfl (by decide) k_main_arg3
  replace k_main_arg4 := keep_of hW main_v16 main_arg4 rfl (by decide) k_main_arg4
  replace k_main_arg5 := keep_of hW main_v16 main_arg5 rfl (by decide) k_main_arg5
  replace k_main_arg6 := keep_of hW main_v16 main_arg6 rfl (by decide) k_main_arg6
  replace k_main_arg7 := keep_of hW main_v16 main_arg7 rfl (by decide) k_main_arg7
  replace k_main_arg8 := keep_of hW main_v16 main_arg8 rfl (by decide) k_main_arg8
  replace k_main_arg9 := keep_of hW main_v16 main_arg9 rfl (by decide) k_main_arg9
  replace k_main_arg10 := keep_of hW main_v16 main_arg10 rfl (by decide) k_main_arg10
  replace k_main_arg11 := keep_of hW main_v16 main_arg11 rfl (by decide) k_main_arg11
  replace k_main_arg12 := keep_of hW main_v16 main_arg12 rfl (by decide) k_main_arg12
  replace k_main_v1 := keep_of hW main_v16 main_v1 rfl (by decide) k_main_v1
  replace k_main_v3 := keep_of hW main_v16 main_v3 rfl (by decide) k_main_v3
  replace k_main_v10 := keep_of hW main_v16 main_v10 rfl (by decide) k_main_v10
  clear hW k_main_v15
  clear W20
  -- main_v17
  refine after_cons_exists (fun W22 hW => ?_)
  have k_main_v17 : W22 (Proc.devRef .tc main_v17) = ReadP.val_main_v17 (F := F) x1 x2 :=
    wrote_of hW (by rw [binary_result, k_main_arg1, k_main_v16] <;> rfl)
  replace k_main_arg0 := keep_of hW main_v17 main_arg0 rfl (by decide) k_main_arg0
  replace k_main_arg3 := keep_of hW main_v17 main_arg3 rfl (by decide) k_main_arg3
  replace k_main_arg4 := keep_of hW main_v17 main_arg4 rfl (by decide) k_main_arg4
  replace k_main_arg5 := keep_of hW main_v17 main_arg5 rfl (by decide) k_main_arg5
  replace k_main_arg6 := keep_of hW main_v17 main_arg6 rfl (by decide) k_main_arg6
  replace k_main_arg7 := keep_of hW main_v17 main_arg7 rfl (by decide) k_main_arg7
  replace k_main_arg8 := keep_of hW main_v17 main_arg8 rfl (by decide) k_main_arg8
  replace k_main_arg9 := keep_of hW main_v17 main_arg9 rfl (by decide) k_main_arg9
  replace k_main_arg10 := keep_of hW main_v17 main_arg10 rfl (by decide) k_main_arg10
  replace k_main_arg11 := keep_of hW main_v17 main_arg11 rfl (by decide) k_main_arg11
  replace k_main_arg12 := keep_of hW main_v17 main_arg12 rfl (by decide) k_main_arg12
  replace k_main_v1 := keep_of hW main_v17 main_v1 rfl (by decide) k_main_v1
  replace k_main_v3 := keep_of hW main_v17 main_v3 rfl (by decide) k_main_v3
  replace k_main_v10 := keep_of hW main_v17 main_v10 rfl (by decide) k_main_v10
  clear hW k_main_arg1 k_main_v16
  clear W21
  -- main_v18
  refine after_cons_exists (fun W23 hW => ?_)
  have k_main_v18 : W23 (Proc.devRef .tc main_v18) = ReadP.val_main_v18 (F := F) x1 x2 :=
    wrote_of hW (by rw [binary_result, k_main_v10, k_main_v17] <;> rfl)
  replace k_main_arg0 := keep_of hW main_v18 main_arg0 rfl (by decide) k_main_arg0
  replace k_main_arg3 := keep_of hW main_v18 main_arg3 rfl (by decide) k_main_arg3
  replace k_main_arg4 := keep_of hW main_v18 main_arg4 rfl (by decide) k_main_arg4
  replace k_main_arg5 := keep_of hW main_v18 main_arg5 rfl (by decide) k_main_arg5
  replace k_main_arg6 := keep_of hW main_v18 main_arg6 rfl (by decide) k_main_arg6
  replace k_main_arg7 := keep_of hW main_v18 main_arg7 rfl (by decide) k_main_arg7
  replace k_main_arg8 := keep_of hW main_v18 main_arg8 rfl (by decide) k_main_arg8
  replace k_main_arg9 := keep_of hW main_v18 main_arg9 rfl (by decide) k_main_arg9
  replace k_main_arg10 := keep_of hW main_v18 main_arg10 rfl (by decide) k_main_arg10
  replace k_main_arg11 := keep_of hW main_v18 main_arg11 rfl (by decide) k_main_arg11
  replace k_main_arg12 := keep_of hW main_v18 main_arg12 rfl (by decide) k_main_arg12
  replace k_main_v1 := keep_of hW main_v18 main_v1 rfl (by decide) k_main_v1
  replace k_main_v3 := keep_of hW main_v18 main_v3 rfl (by decide) k_main_v3
  replace k_main_v10 := keep_of hW main_v18 main_v10 rfl (by decide) k_main_v10
  replace k_main_v17 := keep_of hW main_v18 main_v17 rfl (by decide) k_main_v17
  clear hW
  clear W22
  -- main_v19
  refine after_cons_exists (fun W24 hW => ?_)
  have k_main_v19 : W24 (Proc.devRef .tc main_v19) = ReadP.val_main_v19 (F := F) x1 x2 :=
    wrote_of hW (by rw [unary_result, k_main_v18] <;> rfl)
  replace k_main_arg0 := keep_of hW main_v19 main_arg0 rfl (by decide) k_main_arg0
  replace k_main_arg3 := keep_of hW main_v19 main_arg3 rfl (by decide) k_main_arg3
  replace k_main_arg4 := keep_of hW main_v19 main_arg4 rfl (by decide) k_main_arg4
  replace k_main_arg5 := keep_of hW main_v19 main_arg5 rfl (by decide) k_main_arg5
  replace k_main_arg6 := keep_of hW main_v19 main_arg6 rfl (by decide) k_main_arg6
  replace k_main_arg7 := keep_of hW main_v19 main_arg7 rfl (by decide) k_main_arg7
  replace k_main_arg8 := keep_of hW main_v19 main_arg8 rfl (by decide) k_main_arg8
  replace k_main_arg9 := keep_of hW main_v19 main_arg9 rfl (by decide) k_main_arg9
  replace k_main_arg10 := keep_of hW main_v19 main_arg10 rfl (by decide) k_main_arg10
  replace k_main_arg11 := keep_of hW main_v19 main_arg11 rfl (by decide) k_main_arg11
  replace k_main_arg12 := keep_of hW main_v19 main_arg12 rfl (by decide) k_main_arg12
  replace k_main_v1 := keep_of hW main_v19 main_v1 rfl (by decide) k_main_v1
  replace k_main_v3 := keep_of hW main_v19 main_v3 rfl (by decide) k_main_v3
  replace k_main_v10 := keep_of hW main_v19 main_v10 rfl (by decide) k_main_v10
  replace k_main_v17 := keep_of hW main_v19 main_v17 rfl (by decide) k_main_v17
  clear hW k_main_v18
  clear W23
  -- main_v20
  refine after_cons_exists (fun W25 hW => ?_)
  have k_main_v20 : W25 (Proc.devRef .tc main_v20) = ReadP.val_main_v20 (F := F) x1 x2 :=
    wrote_of hW (by rw [binary_result, k_main_v10, k_main_v17] <;> rfl)
  replace k_main_arg0 := keep_of hW main_v20 main_arg0 rfl (by decide) k_main_arg0
  replace k_main_arg3 := keep_of hW main_v20 main_arg3 rfl (by decide) k_main_arg3
  replace k_main_arg4 := keep_of hW main_v20 main_arg4 rfl (by decide) k_main_arg4
  replace k_main_arg5 := keep_of hW main_v20 main_arg5 rfl (by decide) k_main_arg5
  replace k_main_arg6 := keep_of hW main_v20 main_arg6 rfl (by decide) k_main_arg6
  replace k_main_arg7 := keep_of hW main_v20 main_arg7 rfl (by decide) k_main_arg7
  replace k_main_arg8 := keep_of hW main_v20 main_arg8 rfl (by decide) k_main_arg8
  replace k_main_arg9 := keep_of hW main_v20 main_arg9 rfl (by decide) k_main_arg9
  replace k_main_arg10 := keep_of hW main_v20 main_arg10 rfl (by decide) k_main_arg10
  replace k_main_arg11 := keep_of hW main_v20 main_arg11 rfl (by decide) k_main_arg11
  replace k_main_arg12 := keep_of hW main_v20 main_arg12 rfl (by decide) k_main_arg12
  replace k_main_v1 := keep_of hW main_v20 main_v1 rfl (by decide) k_main_v1
  replace k_main_v3 := keep_of hW main_v20 main_v3 rfl (by decide) k_main_v3
  replace k_main_v10 := keep_of hW main_v20 main_v10 rfl (by decide) k_main_v10
  replace k_main_v17 := keep_of hW main_v20 main_v17 rfl (by decide) k_main_v17
  replace k_main_v19 := keep_of hW main_v20 main_v19 rfl (by decide) k_main_v19
  clear hW
  clear W24
  -- main_v21
  refine after_cons_exists (fun W26 hW => ?_)
  have k_main_v21 : W26 (Proc.devRef .tc main_v21) = ReadP.val_main_v21 (F := F) x1 x2 :=
    wrote_of hW (by rw [nary4_result, k_main_v10, k_main_v17, k_main_v19, k_main_v20] <;> rfl)
  replace k_main_arg0 := keep_of hW main_v21 main_arg0 rfl (by decide) k_main_arg0
  replace k_main_arg3 := keep_of hW main_v21 main_arg3 rfl (by decide) k_main_arg3
  replace k_main_arg4 := keep_of hW main_v21 main_arg4 rfl (by decide) k_main_arg4
  replace k_main_arg5 := keep_of hW main_v21 main_arg5 rfl (by decide) k_main_arg5
  replace k_main_arg6 := keep_of hW main_v21 main_arg6 rfl (by decide) k_main_arg6
  replace k_main_arg7 := keep_of hW main_v21 main_arg7 rfl (by decide) k_main_arg7
  replace k_main_arg8 := keep_of hW main_v21 main_arg8 rfl (by decide) k_main_arg8
  replace k_main_arg9 := keep_of hW main_v21 main_arg9 rfl (by decide) k_main_arg9
  replace k_main_arg10 := keep_of hW main_v21 main_arg10 rfl (by decide) k_main_arg10
  replace k_main_arg11 := keep_of hW main_v21 main_arg11 rfl (by decide) k_main_arg11
  replace k_main_arg12 := keep_of hW main_v21 main_arg12 rfl (by decide) k_main_arg12
  replace k_main_v1 := keep_of hW main_v21 main_v1 rfl (by decide) k_main_v1
  replace k_main_v3 := keep_of hW main_v21 main_v3 rfl (by decide) k_main_v3
  clear hW k_main_v10 k_main_v17 k_main_v19 k_main_v20
  clear W25
  -- main_v22
  refine after_cons_exists (fun W27 hW => ?_)
  have k_main_v22 : W27 (Proc.devRef .tc main_v22) = ReadP.val_main_v22 (F := F) x1 x2 x3 :=
    wrote_of hW (by rw [binary_result, k_main_v21, k_main_arg3] <;> rfl)
  replace k_main_arg0 := keep_of hW main_v22 main_arg0 rfl (by decide) k_main_arg0
  replace k_main_arg4 := keep_of hW main_v22 main_arg4 rfl (by decide) k_main_arg4
  replace k_main_arg5 := keep_of hW main_v22 main_arg5 rfl (by decide) k_main_arg5
  replace k_main_arg6 := keep_of hW main_v22 main_arg6 rfl (by decide) k_main_arg6
  replace k_main_arg7 := keep_of hW main_v22 main_arg7 rfl (by decide) k_main_arg7
  replace k_main_arg8 := keep_of hW main_v22 main_arg8 rfl (by decide) k_main_arg8
  replace k_main_arg9 := keep_of hW main_v22 main_arg9 rfl (by decide) k_main_arg9
  replace k_main_arg10 := keep_of hW main_v22 main_arg10 rfl (by decide) k_main_arg10
  replace k_main_arg11 := keep_of hW main_v22 main_arg11 rfl (by decide) k_main_arg11
  replace k_main_arg12 := keep_of hW main_v22 main_arg12 rfl (by decide) k_main_arg12
  replace k_main_v1 := keep_of hW main_v22 main_v1 rfl (by decide) k_main_v1
  replace k_main_v3 := keep_of hW main_v22 main_v3 rfl (by decide) k_main_v3
  clear hW k_main_arg3 k_main_v21
  clear W26
  -- main_v23
  refine after_cons_exists (fun W28 hW => ?_)
  have k_main_v23 : W28 (Proc.devRef .tc main_v23) = ReadP.val_main_v23 (F := F) x4 :=
    wrote_of hW (by rw [unary_result, k_main_arg4] <;> rfl)
  replace k_main_arg0 := keep_of hW main_v23 main_arg0 rfl (by decide) k_main_arg0
  replace k_main_arg5 := keep_of hW main_v23 main_arg5 rfl (by decide) k_main_arg5
  replace k_main_arg6 := keep_of hW main_v23 main_arg6 rfl (by decide) k_main_arg6
  replace k_main_arg7 := keep_of hW main_v23 main_arg7 rfl (by decide) k_main_arg7
  replace k_main_arg8 := keep_of hW main_v23 main_arg8 rfl (by decide) k_main_arg8
  replace k_main_arg9 := keep_of hW main_v23 main_arg9 rfl (by decide) k_main_arg9
  replace k_main_arg10 := keep_of hW main_v23 main_arg10 rfl (by decide) k_main_arg10
  replace k_main_arg11 := keep_of hW main_v23 main_arg11 rfl (by decide) k_main_arg11
  replace k_main_arg12 := keep_of hW main_v23 main_arg12 rfl (by decide) k_main_arg12
  replace k_main_v1 := keep_of hW main_v23 main_v1 rfl (by decide) k_main_v1
  replace k_main_v3 := keep_of hW main_v23 main_v3 rfl (by decide) k_main_v3
  replace k_main_v22 := keep_of hW main_v23 main_v22 rfl (by decide) k_main_v22
  clear hW k_main_arg4
  clear W27
  -- main_v24
  refine after_cons_exists (fun W29 hW => ?_)
  have k_main_v24 : W29 (Proc.devRef .tc main_v24) = ReadP.val_main_v24 (F := F) x4 :=
    wrote_of hW (by rw [unary_result, k_main_v23] <;> rfl)
  replace k_main_arg0 := keep_of hW main_v24 main_arg0 rfl (by decide) k_main_arg0
  replace k_main_arg5 := keep_of hW main_v24 main_arg5 rfl (by decide) k_main_arg5
  replace k_main_arg6 := keep_of hW main_v24 main_arg6 rfl (by decide) k_main_arg6
  replace k_main_arg7 := keep_of hW main_v24 main_arg7 rfl (by decide) k_main_arg7
  replace k_main_arg8 := keep_of hW main_v24 main_arg8 rfl (by decide) k_main_arg8
  replace k_main_arg9 := keep_of hW main_v24 main_arg9 rfl (by decide) k_main_arg9
  replace k_main_arg10 := keep_of hW main_v24 main_arg10 rfl (by decide) k_main_arg10
  replace k_main_arg11 := keep_of hW main_v24 main_arg11 rfl (by decide) k_main_arg11
  replace k_main_arg12 := keep_of hW main_v24 main_arg12 rfl (by decide) k_main_arg12
  replace k_main_v1 := keep_of hW main_v24 main_v1 rfl (by decide) k_main_v1
  replace k_main_v3 := keep_of hW main_v24 main_v3 rfl (by decide) k_main_v3
  replace k_main_v22 := keep_of hW main_v24 main_v22 rfl (by decide) k_main_v22
  clear hW k_main_v23
  clear W28
  -- main_v25
  refine after_cons_exists (fun W30 hW => ?_)
  have k_main_v25 : W30 (Proc.devRef .tc main_v25) = ReadP.val_main_v25 (F := F) x1 x2 x3 x4 :=
    wrote_of hW (by rw [binary_result, k_main_v22, k_main_v24] <;> rfl)
  replace k_main_arg0 := keep_of hW main_v25 main_arg0 rfl (by decide) k_main_arg0
  replace k_main_arg5 := keep_of hW main_v25 main_arg5 rfl (by decide) k_main_arg5
  replace k_main_arg6 := keep_of hW main_v25 main_arg6 rfl (by decide) k_main_arg6
  replace k_main_arg7 := keep_of hW main_v25 main_arg7 rfl (by decide) k_main_arg7
  replace k_main_arg8 := keep_of hW main_v25 main_arg8 rfl (by decide) k_main_arg8
  replace k_main_arg9 := keep_of hW main_v25 main_arg9 rfl (by decide) k_main_arg9
  replace k_main_arg10 := keep_of hW main_v25 main_arg10 rfl (by decide) k_main_arg10
  replace k_main_arg11 := keep_of hW main_v25 main_arg11 rfl (by decide) k_main_arg11
  replace k_main_arg12 := keep_of hW main_v25 main_arg12 rfl (by decide) k_main_arg12
  replace k_main_v1 := keep_of hW main_v25 main_v1 rfl (by decide) k_main_v1
  replace k_main_v3 := keep_of hW main_v25 main_v3 rfl (by decide) k_main_v3
  clear hW k_main_v22 k_main_v24
  clear W29
  -- main_call0_cst
  refine after_cons_exists (fun W31 hW => ?_)
  have k_main_call0_cst : W31 (Proc.devRef .tc main_call0_cst) = ReadP.val_main_call0_cst (F := F) :=
    wrote_of hW (by rw [nullary_result] <;> rfl)
  replace k_main_arg0 := keep_of hW main_call0_cst main_arg0 rfl (by decide) k_main_arg0
  replace k_main_arg5 := keep_of hW main_call0_cst main_arg5 rfl (by decide) k_main_arg5
  replace k_main_arg6 := keep_of hW main_call0_cst main_arg6 rfl (by decide) k_main_arg6
  replace k_main_arg7 := keep_of hW main_call0_cst main_arg7 rfl (by decide) k_main_arg7
  replace k_main_arg8 := keep_of hW main_call0_cst main_arg8 rfl (by decide) k_main_arg8
  replace k_main_arg9 := keep_of hW main_call0_cst main_arg9 rfl (by decide) k_main_arg9
  replace k_main_arg10 := keep_of hW main_call0_cst main_arg10 rfl (by decide) k_main_arg10
  replace k_main_arg11 := keep_of hW main_call0_cst main_arg11 rfl (by decide) k_main_arg11
  replace k_main_arg12 := keep_of hW main_call0_cst main_arg12 rfl (by decide) k_main_arg12
  replace k_main_v1 := keep_of hW main_call0_cst main_v1 rfl (by decide) k_main_v1
  replace k_main_v3 := keep_of hW main_call0_cst main_v3 rfl (by decide) k_main_v3
  replace k_main_v25 := keep_of hW main_call0_cst main_v25 rfl (by decide) k_main_v25
  clear hW
  clear W30
  -- main_call0_v0
  refine after_cons_exists (fun W32 hW => ?_)
  have k_main_call0_v0 : W32 (Proc.devRef .tc main_call0_v0) = ReadP.val_main_call0_v0 (F := F) :=
    wrote_of hW (by rw [unary_result, k_main_call0_cst] <;> rfl)
  replace k_main_arg0 := keep_of hW main_call0_v0 main_arg0 rfl (by decide) k_main_arg0
  replace k_main_arg5 := keep_of hW main_call0_v0 main_arg5 rfl (by decide) k_main_arg5
  replace k_main_arg6 := keep_of hW main_call0_v0 main_arg6 rfl (by decide) k_main_arg6
  replace k_main_arg7 := keep_of hW main_call0_v0 main_arg7 rfl (by decide) k_main_arg7
  replace k_main_arg8 := keep_of hW main_call0_v0 main_arg8 rfl (by decide) k_main_arg8
  replace k_main_arg9 := keep_of hW main_call0_v0 main_arg9 rfl (by decide) k_main_arg9
  replace k_main_arg10 := keep_of hW main_call0_v0 main_arg10 rfl (by decide) k_main_arg10
  replace k_main_arg11 := keep_of hW main_call0_v0 main_arg11 rfl (by decide) k_main_arg11
  replace k_main_arg12 := keep_of hW main_call0_v0 main_arg12 rfl (by decide) k_main_arg12
  replace k_main_v1 := keep_of hW main_call0_v0 main_v1 rfl (by decide) k_main_v1
  replace k_main_v3 := keep_of hW main_call0_v0 main_v3 rfl (by decide) k_main_v3
  replace k_main_v25 := keep_of hW main_call0_v0 main_v25 rfl (by decide) k_main_v25
  clear hW k_main_call0_cst
  clear W31
  -- main_v26
  refine after_cons_exists (fun W33 hW => ?_)
  have k_main_v26 : W33 (Proc.devRef .tc main_v26) = ReadP.val_main_v26 (F := F) x1 x2 x3 x4 :=
    wrote_of hW (by rw [binary_result, k_main_v25, k_main_call0_v0] <;> rfl)
  replace k_main_arg0 := keep_of hW main_v26 main_arg0 rfl (by decide) k_main_arg0
  replace k_main_arg5 := keep_of hW main_v26 main_arg5 rfl (by decide) k_main_arg5
  replace k_main_arg6 := keep_of hW main_v26 main_arg6 rfl (by decide) k_main_arg6
  replace k_main_arg7 := keep_of hW main_v26 main_arg7 rfl (by decide) k_main_arg7
  replace k_main_arg8 := keep_of hW main_v26 main_arg8 rfl (by decide) k_main_arg8
  replace k_main_arg9 := keep_of hW main_v26 main_arg9 rfl (by decide) k_main_arg9
  replace k_main_arg10 := keep_of hW main_v26 main_arg10 rfl (by decide) k_main_arg10
  replace k_main_arg11 := keep_of hW main_v26 main_arg11 rfl (by decide) k_main_arg11
  replace k_main_arg12 := keep_of hW main_v26 main_arg12 rfl (by decide) k_main_arg12
  replace k_main_v1 := keep_of hW main_v26 main_v1 rfl (by decide) k_main_v1
  replace k_main_v3 := keep_of hW main_v26 main_v3 rfl (by decide) k_main_v3
  clear hW k_main_v25 k_main_call0_v0
  clear W32
  -- main_v27
  refine after_cons_exists (fun W34 hW => ?_)
  have k_main_v27 : W34 (Proc.devRef .tc main_v27) = ReadP.val_main_v27 (F := F) x1 x2 x3 x4 x5 :=
    wrote_of hW (by rw [binary_result, k_main_v26, k_main_arg5] <;> rfl)
  replace k_main_arg0 := keep_of hW main_v27 main_arg0 rfl (by decide) k_main_arg0
  replace k_main_arg6 := keep_of hW main_v27 main_arg6 rfl (by decide) k_main_arg6
  replace k_main_arg7 := keep_of hW main_v27 main_arg7 rfl (by decide) k_main_arg7
  replace k_main_arg8 := keep_of hW main_v27 main_arg8 rfl (by decide) k_main_arg8
  replace k_main_arg9 := keep_of hW main_v27 main_arg9 rfl (by decide) k_main_arg9
  replace k_main_arg10 := keep_of hW main_v27 main_arg10 rfl (by decide) k_main_arg10
  replace k_main_arg11 := keep_of hW main_v27 main_arg11 rfl (by decide) k_main_arg11
  replace k_main_arg12 := keep_of hW main_v27 main_arg12 rfl (by decide) k_main_arg12
  replace k_main_v1 := keep_of hW main_v27 main_v1 rfl (by decide) k_main_v1
  replace k_main_v3 := keep_of hW main_v27 main_v3 rfl (by decide) k_main_v3
  clear hW k_main_arg5 k_main_v26
  clear W33
  -- main_v28
  refine after_cons_exists (fun W35 hW => ?_)
  have k_main_v28 : W35 (Proc.devRef .tc main_v28) = ReadP.val_main_v28 (F := F) x6 :=
    wrote_of hW (by rw [unary_result, k_main_arg6] <;> rfl)
  replace k_main_arg0 := keep_of hW main_v28 main_arg0 rfl (by decide) k_main_arg0
  replace k_main_arg7 := keep_of hW main_v28 main_arg7 rfl (by decide) k_main_arg7
  replace k_main_arg8 := keep_of hW main_v28 main_arg8 rfl (by decide) k_main_arg8
  replace k_main_arg9 := keep_of hW main_v28 main_arg9 rfl (by decide) k_main_arg9
  replace k_main_arg10 := keep_of hW main_v28 main_arg10 rfl (by decide) k_main_arg10
  replace k_main_arg11 := keep_of hW main_v28 main_arg11 rfl (by decide) k_main_arg11
  replace k_main_arg12 := keep_of hW main_v28 main_arg12 rfl (by decide) k_main_arg12
  replace k_main_v1 := keep_of hW main_v28 main_v1 rfl (by decide) k_main_v1
  replace k_main_v3 := keep_of hW main_v28 main_v3 rfl (by decide) k_main_v3
  replace k_main_v27 := keep_of hW main_v28 main_v27 rfl (by decide) k_main_v27
  clear hW k_main_arg6
  clear W34
  -- main_v29
  refine after_cons_exists (fun W36 hW => ?_)
  have k_main_v29 : W36 (Proc.devRef .tc main_v29) = ReadP.val_main_v29 (F := F) x6 :=
    wrote_of hW (by rw [unary_result, k_main_v28] <;> rfl)
  replace k_main_arg0 := keep_of hW main_v29 main_arg0 rfl (by decide) k_main_arg0
  replace k_main_arg7 := keep_of hW main_v29 main_arg7 rfl (by decide) k_main_arg7
  replace k_main_arg8 := keep_of hW main_v29 main_arg8 rfl (by decide) k_main_arg8
  replace k_main_arg9 := keep_of hW main_v29 main_arg9 rfl (by decide) k_main_arg9
  replace k_main_arg10 := keep_of hW main_v29 main_arg10 rfl (by decide) k_main_arg10
  replace k_main_arg11 := keep_of hW main_v29 main_arg11 rfl (by decide) k_main_arg11
  replace k_main_arg12 := keep_of hW main_v29 main_arg12 rfl (by decide) k_main_arg12
  replace k_main_v1 := keep_of hW main_v29 main_v1 rfl (by decide) k_main_v1
  replace k_main_v3 := keep_of hW main_v29 main_v3 rfl (by decide) k_main_v3
  replace k_main_v27 := keep_of hW main_v29 main_v27 rfl (by decide) k_main_v27
  clear hW k_main_v28
  clear W35
  -- main_v30
  refine after_cons_exists (fun W37 hW => ?_)
  have k_main_v30 : W37 (Proc.devRef .tc main_v30) = ReadP.val_main_v30 (F := F) x1 x2 x3 x4 x5 x6 :=
    wrote_of hW (by rw [binary_result, k_main_v27, k_main_v29] <;> rfl)
  replace k_main_arg0 := keep_of hW main_v30 main_arg0 rfl (by decide) k_main_arg0
  replace k_main_arg7 := keep_of hW main_v30 main_arg7 rfl (by decide) k_main_arg7
  replace k_main_arg8 := keep_of hW main_v30 main_arg8 rfl (by decide) k_main_arg8
  replace k_main_arg9 := keep_of hW main_v30 main_arg9 rfl (by decide) k_main_arg9
  replace k_main_arg10 := keep_of hW main_v30 main_arg10 rfl (by decide) k_main_arg10
  replace k_main_arg11 := keep_of hW main_v30 main_arg11 rfl (by decide) k_main_arg11
  replace k_main_arg12 := keep_of hW main_v30 main_arg12 rfl (by decide) k_main_arg12
  replace k_main_v1 := keep_of hW main_v30 main_v1 rfl (by decide) k_main_v1
  replace k_main_v3 := keep_of hW main_v30 main_v3 rfl (by decide) k_main_v3
  clear hW k_main_v27 k_main_v29
  clear W36
  -- main_v31
  refine after_cons_exists (fun W38 hW => ?_)
  have k_main_v31 : W38 (Proc.devRef .tc main_v31) = ReadP.val_main_v31 (F := F) x1 x2 x3 x4 x5 x6 :=
    wrote_of hW (by rw [reshape_result, k_main_v30] <;> rfl)
  replace k_main_arg0 := keep_of hW main_v31 main_arg0 rfl (by decide) k_main_arg0
  replace k_main_arg7 := keep_of hW main_v31 main_arg7 rfl (by decide) k_main_arg7
  replace k_main_arg8 := keep_of hW main_v31 main_arg8 rfl (by decide) k_main_arg8
  replace k_main_arg9 := keep_of hW main_v31 main_arg9 rfl (by decide) k_main_arg9
  replace k_main_arg10 := keep_of hW main_v31 main_arg10 rfl (by decide) k_main_arg10
  replace k_main_arg11 := keep_of hW main_v31 main_arg11 rfl (by decide) k_main_arg11
  replace k_main_arg12 := keep_of hW main_v31 main_arg12 rfl (by decide) k_main_arg12
  replace k_main_v1 := keep_of hW main_v31 main_v1 rfl (by decide) k_main_v1
  replace k_main_v3 := keep_of hW main_v31 main_v3 rfl (by decide) k_main_v3
  clear hW k_main_v30
  clear W37
  -- main_cst
  refine after_cons_exists (fun W39 hW => ?_)
  have k_main_cst : W39 (Proc.devRef .tc main_cst) = ReadP.val_main_cst (F := F) :=
    wrote_of hW (by rw [nullary_result] <;> rfl)
  replace k_main_arg0 := keep_of hW main_cst main_arg0 rfl (by decide) k_main_arg0
  replace k_main_arg7 := keep_of hW main_cst main_arg7 rfl (by decide) k_main_arg7
  replace k_main_arg8 := keep_of hW main_cst main_arg8 rfl (by decide) k_main_arg8
  replace k_main_arg9 := keep_of hW main_cst main_arg9 rfl (by decide) k_main_arg9
  replace k_main_arg10 := keep_of hW main_cst main_arg10 rfl (by decide) k_main_arg10
  replace k_main_arg11 := keep_of hW main_cst main_arg11 rfl (by decide) k_main_arg11
  replace k_main_arg12 := keep_of hW main_cst main_arg12 rfl (by decide) k_main_arg12
  replace k_main_v1 := keep_of hW main_cst main_v1 rfl (by decide) k_main_v1
  replace k_main_v3 := keep_of hW main_cst main_v3 rfl (by decide) k_main_v3
  replace k_main_v31 := keep_of hW main_cst main_v31 rfl (by decide) k_main_v31
  clear hW
  clear W38
  -- main_v32
  refine after_cons_exists (fun W40 hW => ?_)
  have k_main_v32 : W40 (Proc.devRef .tc main_v32) = ReadP.val_main_v32 (F := F) :=
    wrote_of hW (by rw [unary_result, k_main_cst] <;> rfl)
  replace k_main_arg0 := keep_of hW main_v32 main_arg0 rfl (by decide) k_main_arg0
  replace k_main_arg7 := keep_of hW main_v32 main_arg7 rfl (by decide) k_main_arg7
  replace k_main_arg8 := keep_of hW main_v32 main_arg8 rfl (by decide) k_main_arg8
  replace k_main_arg9 := keep_of hW main_v32 main_arg9 rfl (by decide) k_main_arg9
  replace k_main_arg10 := keep_of hW main_v32 main_arg10 rfl (by decide) k_main_arg10
  replace k_main_arg11 := keep_of hW main_v32 main_arg11 rfl (by decide) k_main_arg11
  replace k_main_arg12 := keep_of hW main_v32 main_arg12 rfl (by decide) k_main_arg12
  replace k_main_v1 := keep_of hW main_v32 main_v1 rfl (by decide) k_main_v1
  replace k_main_v3 := keep_of hW main_v32 main_v3 rfl (by decide) k_main_v3
  replace k_main_v31 := keep_of hW main_v32 main_v31 rfl (by decide) k_main_v31
  clear hW k_main_cst
  clear W39
  -- main_v33
  refine after_cons_exists (fun W41 hW => ?_)
  have k_main_v33 : W41 (Proc.devRef .tc main_v33) = ReadP.val_main_v33 (F := F) x1 x2 x3 x4 x5 x6 :=
    wrote_of hW (by rw [binary_result, k_main_v31, k_main_v32] <;> rfl)
  replace k_main_arg0 := keep_of hW main_v33 main_arg0 rfl (by decide) k_main_arg0
  replace k_main_arg7 := keep_of hW main_v33 main_arg7 rfl (by decide) k_main_arg7
  replace k_main_arg8 := keep_of hW main_v33 main_arg8 rfl (by decide) k_main_arg8
  replace k_main_arg9 := keep_of hW main_v33 main_arg9 rfl (by decide) k_main_arg9
  replace k_main_arg10 := keep_of hW main_v33 main_arg10 rfl (by decide) k_main_arg10
  replace k_main_arg11 := keep_of hW main_v33 main_arg11 rfl (by decide) k_main_arg11
  replace k_main_arg12 := keep_of hW main_v33 main_arg12 rfl (by decide) k_main_arg12
  replace k_main_v1 := keep_of hW main_v33 main_v1 rfl (by decide) k_main_v1
  replace k_main_v3 := keep_of hW main_v33 main_v3 rfl (by decide) k_main_v3
  clear hW k_main_v31 k_main_v32
  clear W40
  -- main_v34
  refine after_cons_exists (fun W42 hW => ?_)
  have k_main_v34 : W42 (Proc.devRef .tc main_v34) = ReadP.val_main_v34 (F := F) x1 x2 x3 x4 x5 x6 :=
    wrote_of hW (by rw [unary_result, k_main_v33] <;> rfl)
  replace k_main_arg0 := keep_of hW main_v34 main_arg0 rfl (by decide) k_main_arg0
  replace k_main_arg7 := keep_of hW main_v34 main_arg7 rfl (by decide) k_main_arg7
  replace k_main_arg8 := keep_of hW main_v34 main_arg8 rfl (by decide) k_main_arg8
  replace k_main_arg9 := keep_of hW main_v34 main_arg9 rfl (by decide) k_main_arg9
  replace k_main_arg10 := keep_of hW main_v34 main_arg10 rfl (by decide) k_main_arg10
  replace k_main_arg11 := keep_of hW main_v34 main_arg11 rfl (by decide) k_main_arg11
  replace k_main_arg12 := keep_of hW main_v34 main_arg12 rfl (by decide) k_main_arg12
  replace k_main_v1 := keep_of hW main_v34 main_v1 rfl (by decide) k_main_v1
  replace k_main_v3 := keep_of hW main_v34 main_v3 rfl (by decide) k_main_v3
  clear hW k_main_v33
  clear W41
  -- main_v35
  refine after_cons_exists (fun W43 hW => ?_)
  have k_main_v35 : W43 (Proc.devRef .tc main_v35) = ReadP.val_main_v35 (F := F) x1 x2 x3 x4 x5 x6 :=
    wrote_of hW (by rw [unary_result, k_main_v34] <;> rfl)
  replace k_main_arg0 := keep_of hW main_v35 main_arg0 rfl (by decide) k_main_arg0
  replace k_main_arg7 := keep_of hW main_v35 main_arg7 rfl (by decide) k_main_arg7
  replace k_main_arg8 := keep_of hW main_v35 main_arg8 rfl (by decide) k_main_arg8
  replace k_main_arg9 := keep_of hW main_v35 main_arg9 rfl (by decide) k_main_arg9
  replace k_main_arg10 := keep_of hW main_v35 main_arg10 rfl (by decide) k_main_arg10
  replace k_main_arg11 := keep_of hW main_v35 main_arg11 rfl (by decide) k_main_arg11
  replace k_main_arg12 := keep_of hW main_v35 main_arg12 rfl (by decide) k_main_arg12
  replace k_main_v1 := keep_of hW main_v35 main_v1 rfl (by decide) k_main_v1
  replace k_main_v3 := keep_of hW main_v35 main_v3 rfl (by decide) k_main_v3
  clear hW k_main_v34
  clear W42
  -- main_cst_3
  refine after_cons_exists (fun W44 hW => ?_)
  have k_main_cst_3 : W44 (Proc.devRef .tc main_cst_3) = ReadP.val_main_cst_3 (F := F) :=
    wrote_of hW (by rw [nullary_result] <;> rfl)
  replace k_main_arg0 := keep_of hW main_cst_3 main_arg0 rfl (by decide) k_main_arg0
  replace k_main_arg7 := keep_of hW main_cst_3 main_arg7 rfl (by decide) k_main_arg7
  replace k_main_arg8 := keep_of hW main_cst_3 main_arg8 rfl (by decide) k_main_arg8
  replace k_main_arg9 := keep_of hW main_cst_3 main_arg9 rfl (by decide) k_main_arg9
  replace k_main_arg10 := keep_of hW main_cst_3 main_arg10 rfl (by decide) k_main_arg10
  replace k_main_arg11 := keep_of hW main_cst_3 main_arg11 rfl (by decide) k_main_arg11
  replace k_main_arg12 := keep_of hW main_cst_3 main_arg12 rfl (by decide) k_main_arg12
  replace k_main_v1 := keep_of hW main_cst_3 main_v1 rfl (by decide) k_main_v1
  replace k_main_v3 := keep_of hW main_cst_3 main_v3 rfl (by decide) k_main_v3
  replace k_main_v35 := keep_of hW main_cst_3 main_v35 rfl (by decide) k_main_v35
  clear hW
  clear W43
  -- main_v36
  refine after_cons_exists (fun W45 hW => ?_)
  have k_main_v36 : W45 (Proc.devRef .tc main_v36) = ReadP.val_main_v36 (F := F) :=
    wrote_of hW (by rw [unary_result, k_main_cst_3] <;> rfl)
  replace k_main_arg0 := keep_of hW main_v36 main_arg0 rfl (by decide) k_main_arg0
  replace k_main_arg7 := keep_of hW main_v36 main_arg7 rfl (by decide) k_main_arg7
  replace k_main_arg8 := keep_of hW main_v36 main_arg8 rfl (by decide) k_main_arg8
  replace k_main_arg9 := keep_of hW main_v36 main_arg9 rfl (by decide) k_main_arg9
  replace k_main_arg10 := keep_of hW main_v36 main_arg10 rfl (by decide) k_main_arg10
  replace k_main_arg11 := keep_of hW main_v36 main_arg11 rfl (by decide) k_main_arg11
  replace k_main_arg12 := keep_of hW main_v36 main_arg12 rfl (by decide) k_main_arg12
  replace k_main_v1 := keep_of hW main_v36 main_v1 rfl (by decide) k_main_v1
  replace k_main_v3 := keep_of hW main_v36 main_v3 rfl (by decide) k_main_v3
  replace k_main_v35 := keep_of hW main_v36 main_v35 rfl (by decide) k_main_v35
  clear hW k_main_cst_3
  clear W44
  -- main_v37
  refine after_cons_exists (fun W46 hW => ?_)
  have k_main_v37 : W46 (Proc.devRef .tc main_v37) = ReadP.val_main_v37 (F := F) x1 x2 x3 x4 x5 x6 :=
    wrote_of hW (by rw [binary_result, k_main_v36, k_main_v35] <;> rfl)
  replace k_main_arg0 := keep_of hW main_v37 main_arg0 rfl (by decide) k_main_arg0
  replace k_main_arg7 := keep_of hW main_v37 main_arg7 rfl (by decide) k_main_arg7
  replace k_main_arg8 := keep_of hW main_v37 main_arg8 rfl (by decide) k_main_arg8
  replace k_main_arg9 := keep_of hW main_v37 main_arg9 rfl (by decide) k_main_arg9
  replace k_main_arg10 := keep_of hW main_v37 main_arg10 rfl (by decide) k_main_arg10
  replace k_main_arg11 := keep_of hW main_v37 main_arg11 rfl (by decide) k_main_arg11
  replace k_main_arg12 := keep_of hW main_v37 main_arg12 rfl (by decide) k_main_arg12
  replace k_main_v1 := keep_of hW main_v37 main_v1 rfl (by decide) k_main_v1
  replace k_main_v3 := keep_of hW main_v37 main_v3 rfl (by decide) k_main_v3
  clear hW k_main_v35 k_main_v36
  clear W45
  -- main_cst_4
  refine after_cons_exists (fun W47 hW => ?_)
  have k_main_cst_4 : W47 (Proc.devRef .tc main_cst_4) = ReadP.val_main_cst_4 (F := F) :=
    wrote_of hW (by rw [nullary_result] <;> rfl)
  replace k_main_arg0 := keep_of hW main_cst_4 main_arg0 rfl (by decide) k_main_arg0
  replace k_main_arg7 := keep_of hW main_cst_4 main_arg7 rfl (by decide) k_main_arg7
  replace k_main_arg8 := keep_of hW main_cst_4 main_arg8 rfl (by decide) k_main_arg8
  replace k_main_arg9 := keep_of hW main_cst_4 main_arg9 rfl (by decide) k_main_arg9
  replace k_main_arg10 := keep_of hW main_cst_4 main_arg10 rfl (by decide) k_main_arg10
  replace k_main_arg11 := keep_of hW main_cst_4 main_arg11 rfl (by decide) k_main_arg11
  replace k_main_arg12 := keep_of hW main_cst_4 main_arg12 rfl (by decide) k_main_arg12
  replace k_main_v1 := keep_of hW main_cst_4 main_v1 rfl (by decide) k_main_v1
  replace k_main_v3 := keep_of hW main_cst_4 main_v3 rfl (by decide) k_main_v3
  replace k_main_v37 := keep_of hW main_cst_4 main_v37 rfl (by decide) k_main_v37
  clear hW
  clear W46
  -- main_v38
  refine after_cons_exists (fun W48 hW => ?_)
  have k_main_v38 : W48 (Proc.devRef .tc main_v38) = ReadP.val_main_v38 (F := F) :=
    wrote_of hW (by rw [unary_result, k_main_cst_4] <;> rfl)
  replace k_main_arg0 := keep_of hW main_v38 main_arg0 rfl (by decide) k_main_arg0
  replace k_main_arg7 := keep_of hW main_v38 main_arg7 rfl (by decide) k_main_arg7
  replace k_main_arg8 := keep_of hW main_v38 main_arg8 rfl (by decide) k_main_arg8
  replace k_main_arg9 := keep_of hW main_v38 main_arg9 rfl (by decide) k_main_arg9
  replace k_main_arg10 := keep_of hW main_v38 main_arg10 rfl (by decide) k_main_arg10
  replace k_main_arg11 := keep_of hW main_v38 main_arg11 rfl (by decide) k_main_arg11
  replace k_main_arg12 := keep_of hW main_v38 main_arg12 rfl (by decide) k_main_arg12
  replace k_main_v1 := keep_of hW main_v38 main_v1 rfl (by decide) k_main_v1
  replace k_main_v3 := keep_of hW main_v38 main_v3 rfl (by decide) k_main_v3
  replace k_main_v37 := keep_of hW main_v38 main_v37 rfl (by decide) k_main_v37
  clear hW k_main_cst_4
  clear W47
  -- main_v39
  refine after_cons_exists (fun W49 hW => ?_)
  have k_main_v39 : W49 (Proc.devRef .tc main_v39) = ReadP.val_main_v39 (F := F) x1 x2 x3 x4 x5 x6 :=
    wrote_of hW (by rw [binary_result, k_main_v38, k_main_v37] <;> rfl)
  replace k_main_arg0 := keep_of hW main_v39 main_arg0 rfl (by decide) k_main_arg0
  replace k_main_arg7 := keep_of hW main_v39 main_arg7 rfl (by decide) k_main_arg7
  replace k_main_arg8 := keep_of hW main_v39 main_arg8 rfl (by decide) k_main_arg8
  replace k_main_arg9 := keep_of hW main_v39 main_arg9 rfl (by decide) k_main_arg9
  replace k_main_arg10 := keep_of hW main_v39 main_arg10 rfl (by decide) k_main_arg10
  replace k_main_arg11 := keep_of hW main_v39 main_arg11 rfl (by decide) k_main_arg11
  replace k_main_arg12 := keep_of hW main_v39 main_arg12 rfl (by decide) k_main_arg12
  replace k_main_v1 := keep_of hW main_v39 main_v1 rfl (by decide) k_main_v1
  replace k_main_v3 := keep_of hW main_v39 main_v3 rfl (by decide) k_main_v3
  clear hW k_main_v37 k_main_v38
  clear W48
  -- main_cst_5
  refine after_cons_exists (fun W50 hW => ?_)
  have k_main_cst_5 : W50 (Proc.devRef .tc main_cst_5) = ReadP.val_main_cst_5 (F := F) :=
    wrote_of hW (by rw [nullary_result] <;> rfl)
  replace k_main_arg0 := keep_of hW main_cst_5 main_arg0 rfl (by decide) k_main_arg0
  replace k_main_arg7 := keep_of hW main_cst_5 main_arg7 rfl (by decide) k_main_arg7
  replace k_main_arg8 := keep_of hW main_cst_5 main_arg8 rfl (by decide) k_main_arg8
  replace k_main_arg9 := keep_of hW main_cst_5 main_arg9 rfl (by decide) k_main_arg9
  replace k_main_arg10 := keep_of hW main_cst_5 main_arg10 rfl (by decide) k_main_arg10
  replace k_main_arg11 := keep_of hW main_cst_5 main_arg11 rfl (by decide) k_main_arg11
  replace k_main_arg12 := keep_of hW main_cst_5 main_arg12 rfl (by decide) k_main_arg12
  replace k_main_v1 := keep_of hW main_cst_5 main_v1 rfl (by decide) k_main_v1
  replace k_main_v3 := keep_of hW main_cst_5 main_v3 rfl (by decide) k_main_v3
  replace k_main_v39 := keep_of hW main_cst_5 main_v39 rfl (by decide) k_main_v39
  clear hW
  clear W49
  -- main_cst_6
  refine after_cons_exists (fun W51 hW => ?_)
  have k_main_cst_6 : W51 (Proc.devRef .tc main_cst_6) = ReadP.val_main_cst_6 (F := F) :=
    wrote_of hW (by rw [nullary_result] <;> rfl)
  replace k_main_arg0 := keep_of hW main_cst_6 main_arg0 rfl (by decide) k_main_arg0
  replace k_main_arg7 := keep_of hW main_cst_6 main_arg7 rfl (by decide) k_main_arg7
  replace k_main_arg8 := keep_of hW main_cst_6 main_arg8 rfl (by decide) k_main_arg8
  replace k_main_arg9 := keep_of hW main_cst_6 main_arg9 rfl (by decide) k_main_arg9
  replace k_main_arg10 := keep_of hW main_cst_6 main_arg10 rfl (by decide) k_main_arg10
  replace k_main_arg11 := keep_of hW main_cst_6 main_arg11 rfl (by decide) k_main_arg11
  replace k_main_arg12 := keep_of hW main_cst_6 main_arg12 rfl (by decide) k_main_arg12
  replace k_main_v1 := keep_of hW main_cst_6 main_v1 rfl (by decide) k_main_v1
  replace k_main_v3 := keep_of hW main_cst_6 main_v3 rfl (by decide) k_main_v3
  replace k_main_v39 := keep_of hW main_cst_6 main_v39 rfl (by decide) k_main_v39
  replace k_main_cst_5 := keep_of hW main_cst_6 main_cst_5 rfl (by decide) k_main_cst_5
  clear hW
  clear W50
  -- main_call1_v0
  refine after_cons_exists (fun W52 hW => ?_)
  have k_main_call1_v0 : W52 (Proc.devRef .tc main_call1_v0) = ReadP.val_main_call1_v0 (F := F) :=
    wrote_of hW (by rw [unary_result, k_main_cst_5] <;> rfl)
  replace k_main_arg0 := keep_of hW main_call1_v0 main_arg0 rfl (by decide) k_main_arg0
  replace k_main_arg7 := keep_of hW main_call1_v0 main_arg7 rfl (by decide) k_main_arg7
  replace k_main_arg8 := keep_of hW main_call1_v0 main_arg8 rfl (by decide) k_main_arg8
  replace k_main_arg9 := keep_of hW main_call1_v0 main_arg9 rfl (by decide) k_main_arg9
  replace k_main_arg10 := keep_of hW main_call1_v0 main_arg10 rfl (by decide) k_main_arg10
  replace k_main_arg11 := keep_of hW main_call1_v0 main_arg11 rfl (by decide) k_main_arg11
  replace k_main_arg12 := keep_of hW main_call1_v0 main_arg12 rfl (by decide) k_main_arg12
  replace k_main_v1 := keep_of hW main_call1_v0 main_v1 rfl (by decide) k_main_v1
  replace k_main_v3 := keep_of hW main_call1_v0 main_v3 rfl (by decide) k_main_v3
  replace k_main_v39 := keep_of hW main_call1_v0 main_v39 rfl (by decide) k_main_v39
  replace k_main_cst_6 := keep_of hW main_call1_v0 main_cst_6 rfl (by decide) k_main_cst_6
  clear hW k_main_cst_5
  clear W51
  -- main_call1_v1
  refine after_cons_exists (fun W53 hW => ?_)
  have k_main_call1_v1 : W53 (Proc.devRef .tc main_call1_v1) = ReadP.val_main_call1_v1 (F := F) :=
    wrote_of hW (by rw [unary_result, k_main_call1_v0] <;> rfl)
  replace k_main_arg0 := keep_of hW main_call1_v1 main_arg0 rfl (by decide) k_main_arg0
  replace k_main_arg7 := keep_of hW main_call1_v1 main_arg7 rfl (by decide) k_main_arg7
  replace k_main_arg8 := keep_of hW main_call1_v1 main_arg8 rfl (by decide) k_main_arg8
  replace k_main_arg9 := keep_of hW main_call1_v1 main_arg9 rfl (by decide) k_main_arg9
  replace k_main_arg10 := keep_of hW main_call1_v1 main_arg10 rfl (by decide) k_main_arg10
  replace k_main_arg11 := keep_of hW main_call1_v1 main_arg11 rfl (by decide) k_main_arg11
  replace k_main_arg12 := keep_of hW main_call1_v1 main_arg12 rfl (by decide) k_main_arg12
  replace k_main_v1 := keep_of hW main_call1_v1 main_v1 rfl (by decide) k_main_v1
  replace k_main_v3 := keep_of hW main_call1_v1 main_v3 rfl (by decide) k_main_v3
  replace k_main_v39 := keep_of hW main_call1_v1 main_v39 rfl (by decide) k_main_v39
  replace k_main_cst_6 := keep_of hW main_call1_v1 main_cst_6 rfl (by decide) k_main_cst_6
  clear hW k_main_call1_v0
  clear W52
  -- main_call1_v2
  refine after_cons_exists (fun W54 hW => ?_)
  have k_main_call1_v2 : W54 (Proc.devRef .tc main_call1_v2) = ReadP.val_main_call1_v2 (F := F) x1 x2 x3 x4 x5 x6 :=
    wrote_of hW (by rw [binary_result, k_main_call1_v1, k_main_v39] <;> rfl)
  replace k_main_arg0 := keep_of hW main_call1_v2 main_arg0 rfl (by decide) k_main_arg0
  replace k_main_arg7 := keep_of hW main_call1_v2 main_arg7 rfl (by decide) k_main_arg7
  replace k_main_arg8 := keep_of hW main_call1_v2 main_arg8 rfl (by decide) k_main_arg8
  replace k_main_arg9 := keep_of hW main_call1_v2 main_arg9 rfl (by decide) k_main_arg9
  replace k_main_arg10 := keep_of hW main_call1_v2 main_arg10 rfl (by decide) k_main_arg10
  replace k_main_arg11 := keep_of hW main_call1_v2 main_arg11 rfl (by decide) k_main_arg11
  replace k_main_arg12 := keep_of hW main_call1_v2 main_arg12 rfl (by decide) k_main_arg12
  replace k_main_v1 := keep_of hW main_call1_v2 main_v1 rfl (by decide) k_main_v1
  replace k_main_v3 := keep_of hW main_call1_v2 main_v3 rfl (by decide) k_main_v3
  replace k_main_cst_6 := keep_of hW main_call1_v2 main_cst_6 rfl (by decide) k_main_cst_6
  clear hW k_main_v39 k_main_call1_v1
  clear W53
  -- main_call1_v3
  refine after_cons_exists (fun W55 hW => ?_)
  have k_main_call1_v3 : W55 (Proc.devRef .tc main_call1_v3) = ReadP.val_main_call1_v3 (F := F) :=
    wrote_of hW (by rw [unary_result, k_main_cst_6] <;> rfl)
  replace k_main_arg0 := keep_of hW main_call1_v3 main_arg0 rfl (by decide) k_main_arg0
  replace k_main_arg7 := keep_of hW main_call1_v3 main_arg7 rfl (by decide) k_main_arg7
  replace k_main_arg8 := keep_of hW main_call1_v3 main_arg8 rfl (by decide) k_main_arg8
  replace k_main_arg9 := keep_of hW main_call1_v3 main_arg9 rfl (by decide) k_main_arg9
  replace k_main_arg10 := keep_of hW main_call1_v3 main_arg10 rfl (by decide) k_main_arg10
  replace k_main_arg11 := keep_of hW main_call1_v3 main_arg11 rfl (by decide) k_main_arg11
  replace k_main_arg12 := keep_of hW main_call1_v3 main_arg12 rfl (by decide) k_main_arg12
  replace k_main_v1 := keep_of hW main_call1_v3 main_v1 rfl (by decide) k_main_v1
  replace k_main_v3 := keep_of hW main_call1_v3 main_v3 rfl (by decide) k_main_v3
  replace k_main_call1_v2 := keep_of hW main_call1_v3 main_call1_v2 rfl (by decide) k_main_call1_v2
  clear hW k_main_cst_6
  clear W54
  -- main_call1_v4
  refine after_cons_exists (fun W56 hW => ?_)
  have k_main_call1_v4 : W56 (Proc.devRef .tc main_call1_v4) = ReadP.val_main_call1_v4 (F := F) :=
    wrote_of hW (by rw [unary_result, k_main_call1_v3] <;> rfl)
  replace k_main_arg0 := keep_of hW main_call1_v4 main_arg0 rfl (by decide) k_main_arg0
  replace k_main_arg7 := keep_of hW main_call1_v4 main_arg7 rfl (by decide) k_main_arg7
  replace k_main_arg8 := keep_of hW main_call1_v4 main_arg8 rfl (by decide) k_main_arg8
  replace k_main_arg9 := keep_of hW main_call1_v4 main_arg9 rfl (by decide) k_main_arg9
  replace k_main_arg10 := keep_of hW main_call1_v4 main_arg10 rfl (by decide) k_main_arg10
  replace k_main_arg11 := keep_of hW main_call1_v4 main_arg11 rfl (by decide) k_main_arg11
  replace k_main_arg12 := keep_of hW main_call1_v4 main_arg12 rfl (by decide) k_main_arg12
  replace k_main_v1 := keep_of hW main_call1_v4 main_v1 rfl (by decide) k_main_v1
  replace k_main_v3 := keep_of hW main_call1_v4 main_v3 rfl (by decide) k_main_v3
  replace k_main_call1_v2 := keep_of hW main_call1_v4 main_call1_v2 rfl (by decide) k_main_call1_v2
  clear hW k_main_call1_v3
  clear W55
  -- main_v40
  refine after_cons_exists (fun W57 hW => ?_)
  have k_main_v40 : W57 (Proc.devRef .tc main_v40) = ReadP.val_main_v40 (F := F) x1 x2 x3 x4 x5 x6 :=
    wrote_of hW (by rw [binary_result, k_main_call1_v4, k_main_call1_v2] <;> rfl)
  replace k_main_arg0 := keep_of hW main_v40 main_arg0 rfl (by decide) k_main_arg0
  replace k_main_arg7 := keep_of hW main_v40 main_arg7 rfl (by decide) k_main_arg7
  replace k_main_arg8 := keep_of hW main_v40 main_arg8 rfl (by decide) k_main_arg8
  replace k_main_arg9 := keep_of hW main_v40 main_arg9 rfl (by decide) k_main_arg9
  replace k_main_arg10 := keep_of hW main_v40 main_arg10 rfl (by decide) k_main_arg10
  replace k_main_arg11 := keep_of hW main_v40 main_arg11 rfl (by decide) k_main_arg11
  replace k_main_arg12 := keep_of hW main_v40 main_arg12 rfl (by decide) k_main_arg12
  replace k_main_v1 := keep_of hW main_v40 main_v1 rfl (by decide) k_main_v1
  replace k_main_v3 := keep_of hW main_v40 main_v3 rfl (by decide) k_main_v3
  clear hW k_main_call1_v2 k_main_call1_v4
  clear W56
  exact after_nil_exists ⟨k_main_arg0, k_main_arg7, k_main_arg8, k_main_arg9, k_main_arg10, k_main_arg11, k_main_arg12, k_main_v1, k_main_v3, k_main_v40⟩

/-- Operations 57 to 107 of the program (its own text, in order). -/
abbrev win1 : List (HloOp τ sig (Elt F)) :=
  [
    nullary main_v41 (iotaInDim S100000 32 0),
    binary main_v1 main_v41 main_v42 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v41 main_v43 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_7 (constant S_ .f32 0x3F800000#32),
    unary main_cst_7 main_v44 (broadcastInDim S100000 ![] bcast_S_S100000 : (⟨S_, .f32⟩ : BufTy).Contents (Elt F) → (⟨S100000, .f32⟩ : BufTy).Contents (Elt F)),
    binary main_v40 main_v44 main_v45 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_8 (constant S_ .f32 0x00000000#32),
    unary main_cst_8 main_v46 (broadcastInDim S100000 ![] bcast_S_S100000 : (⟨S_, .f32⟩ : BufTy).Contents (Elt F) → (⟨S100000, .f32⟩ : BufTy).Contents (Elt F)),
    unary main_v43 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_9 (constant S_ .f32 0x00000000#32),
    unary main_cst_9 main_v49 (broadcastInDim S100000 ![] bcast_S_S100000 : (⟨S_, .f32⟩ : BufTy).Contents (Elt F) → (⟨S100000, .f32⟩ : BufTy).Contents (Elt F)),
    binary main_v48 main_v49 main_v50 (cmpf .ogt : (⟨S100000, .f32⟩ : BufTy).Contents (Elt F) → (⟨S100000, .f32⟩ : BufTy).Contents (Elt F) → (⟨S100000, .i1⟩ : BufTy).Contents (Elt F)),
    nullary main_cst_10 (constant S_ .f32 0x0DA24260#32),
    unary main_cst_10 main_v51 (broadcastInDim S100000 ![] bcast_S_S100000 : (⟨S_, .f32⟩ : BufTy).Contents (Elt F) → (⟨S100000, .f32⟩ : BufTy).Contents (Elt F)),
    binary main_v48 main_v51 main_v52 (maximumf : (⟨S100000, .f32⟩ : BufTy).Contents (Elt F) → (⟨S100000, .f32⟩ : BufTy).Contents (Elt F) → (⟨S100000, .f32⟩ : BufTy).Contents (Elt F)),
    unary main_v52 main_v53 (Host.rsqrt : (⟨S100000, .f32⟩ : BufTy).Contents (Elt F) → (⟨S100000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v50) (TRef.of (T := ⟨S100000, .f32⟩) main_v53) (TRef.of (T := ⟨S100000, .f32⟩) main_call2_v1) (TRef.of (T := ⟨S100000, .f32⟩) main_v54) select,
    nullary main_cst_12 (constant S_ .f32 0x00000000#32),
    unary main_cst_12 main_v55 (broadcastInDim S100000 ![] bcast_S_S100000 : (⟨S_, .f32⟩ : BufTy).Contents (Elt F) → (⟨S100000, .f32⟩ : BufTy).Contents (Elt F)),
    binary main_v48 main_v55 main_v56 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0xBF000000#32),
    unary main_cst_13 main_v57 (broadcastInDim S100000 ![] bcast_S_S100000 : (⟨S_, .f32⟩ : BufTy).Contents (Elt F) → (⟨S100000, .f32⟩ : BufTy).Contents (Elt F)),
    binary main_v48 main_v57 main_v58 (Host.powf : (⟨S100000, .f32⟩ : BufTy).Contents (Elt F) → (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v56) (TRef.of (T := ⟨S100000, .f32⟩) main_v58) (TRef.of (T := ⟨S100000, .f32⟩) main_call3_v1) (TRef.of (T := ⟨S100000, .f32⟩) main_v59) select,
    nullary main_c_15 (constantI S_ 32 0#32),
    unary main_c_15 main_v60 (broadcastInDim S1700000 ![] bcast_S_S1700000 : (⟨S_, .i32⟩ : BufTy).Contents (Elt F) → (⟨S1700000, .i32⟩ : BufTy).Contents (Elt F)),
    binary main_v42 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v62 (broadcastInDim S1700000 ![] bcast_S_S1700000 : (⟨S_, .i32⟩ : BufTy).Contents (Elt F) → (⟨S1700000, .i32⟩ : BufTy).Contents (Elt F)),
    binary main_v42 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v42 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v45 main_v67 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v68 (broadcastInDim S1700000 ![] bcast_S_S1700000 : (⟨S_, .i32⟩ : BufTy).Contents (Elt F) → (⟨S1700000, .i32⟩ : BufTy).Contents (Elt F)),
    binary main_v43 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v70 (broadcastInDim S1700000 ![] bcast_S_S1700000 : (⟨S_, .i32⟩ : BufTy).Contents (Elt F) → (⟨S1700000, .i32⟩ : BufTy).Contents (Elt F)),
    binary main_v43 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v43 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v59 main_v73 main_v74 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v67 main_v74 main_v75 (mulf : (⟨S1700000, .f32⟩ : BufTy).Contents (Elt F) → (⟨S1700000, .f32⟩ : BufTy).Contents (Elt F) → (⟨S1700000, .f32⟩ : BufTy).Contents (Elt F)) ]

set_option maxRecDepth 8192 in
set_option maxHeartbeats 8000000 in
/-- Window 1: from contents that hold, in each buffer still to be read, its stage of the arguments, the window ends at
    contents that do so again. -/
theorem win1_post (x0 : (⟨S100000x128, .f32⟩ : BufTy).Contents (Elt F)) (x1 : (⟨S100000x16, .f32⟩ : BufTy).Contents (Elt F)) (x2 : (⟨S2x1600000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S2x128x128, .f32⟩ : BufTy).Contents (Elt F)) (x8 : (⟨S2x128, .f32⟩ : BufTy).Contents (Elt F)) (x9 : (⟨S2x128, .f32⟩ : BufTy).Contents (Elt F)) (x10 : (⟨S2x128, .f32⟩ : BufTy).Contents (Elt F)) (x11 : (⟨S128x64, .f32⟩ : BufTy).Contents (Elt F)) (x12 : (⟨S64, .f32⟩ : BufTy).Contents (Elt F)) (W57 : Valuation τ sig (Elt F))
    (k_main_arg0 : W57 (Proc.devRef .tc main_arg0) = x0)
    (k_main_arg7 : W57 (Proc.devRef .tc main_arg7) = x7)
    (k_main_arg8 : W57 (Proc.devRef .tc main_arg8) = x8)
    (k_main_arg9 : W57 (Proc.devRef .tc main_arg9) = x9)
    (k_main_arg10 : W57 (Proc.devRef .tc main_arg10) = x10)
    (k_main_arg11 : W57 (Proc.devRef .tc main_arg11) = x11)
    (k_main_arg12 : W57 (Proc.devRef .tc main_arg12) = x12)
    (k_main_v1 : W57 (Proc.devRef .tc main_v1) = ReadP.val_main_v1 (F := F) x2)
    (k_main_v3 : W57 (Proc.devRef .tc main_v3) = ReadP.val_main_v3 (F := F) x2)
    (k_main_v40 : W57 (Proc.devRef .tc main_v40) = ReadP.val_main_v40 (F := F) x1 x2 x3 x4 x5 x6)
    : ∃ W' : Valuation τ sig (Elt F), after (win1 (F := F)) W57 = W'
      ∧ W' (Proc.devRef .tc main_arg0) = x0
      ∧ W' (Proc.devRef .tc main_arg7) = x7
      ∧ W' (Proc.devRef .tc main_arg8) = x8
      ∧ W' (Proc.devRef .tc main_arg9) = x9
      ∧ W' (Proc.devRef .tc main_arg10) = x10
      ∧ W' (Proc.devRef .tc main_arg11) = x11
      ∧ W' (Proc.devRef .tc main_arg12) = x12
      ∧ W' (Proc.devRef .tc main_v42) = ReadP.val_main_v42 (F := F) x2
      ∧ W' (Proc.devRef .tc main_v43) = ReadP.val_main_v43 (F := F) x2
      ∧ W' (Proc.devRef .tc main_v75) = ReadP.val_main_v75 (F := F) x1 x2 x3 x4 x5 x6 := by
  unfold win1
  -- main_v41
  refine after_cons_exists (fun W58 hW => ?_)
  have k_main_v41 : W58 (Proc.devRef .tc main_v41) = ReadP.val_main_v41 (F := F) :=
    wrote_of hW (by rw [nullary_result] <;> rfl)
  replace k_main_arg0 := keep_of hW main_v41 main_arg0 rfl (by decide) k_main_arg0
  replace k_main_arg7 := keep_of hW main_v41 main_arg7 rfl (by decide) k_main_arg7
  replace k_main_arg8 := keep_of hW main_v41 main_arg8 rfl (by decide) k_main_arg8
  replace k_main_arg9 := keep_of hW main_v41 main_arg9 rfl (by decide) k_main_arg9
  replace k_main_arg10 := keep_of hW main_v41 main_arg10 rfl (by decide) k_main_arg10
  replace k_main_arg11 := keep_of hW main_v41 main_arg11 rfl (by decide) k_main_arg11
  replace k_main_arg12 := keep_of hW main_v41 main_arg12 rfl (by decide) k_main_arg12
  replace k_main_v1 := keep_of hW main_v41 main_v1 rfl (by decide) k_main_v1
  replace k_main_v3 := keep_of hW main_v41 main_v3 rfl (by decide) k_main_v3
  replace k_main_v40 := keep_of hW main_v41 main_v40 rfl (by decide) k_main_v40
  clear hW
  clear W57
  -- main_v42
  refine after_cons_exists (fun W59 hW => ?_)
  have k_main_v42 : W59 (Proc.devRef .tc main_v42) = ReadP.val_main_v42 (F := F) x2 :=
    wrote_of hW (by rw [binary_result, k_main_v1, k_main_v41] <;> rfl)
  replace k_main_arg0 := keep_of hW main_v42 main_arg0 rfl (by decide) k_main_arg0
  replace k_main_arg7 := keep_of hW main_v42 main_arg7 rfl (by decide) k_main_arg7
  replace k_main_arg8 := keep_of hW main_v42 main_arg8 rfl (by decide) k_main_arg8
  replace k_main_arg9 := keep_of hW main_v42 main_arg9 rfl (by decide) k_main_arg9
  replace k_main_arg10 := keep_of hW main_v42 main_arg10 rfl (by decide) k_main_arg10
  replace k_main_arg11 := keep_of hW main_v42 main_arg11 rfl (by decide) k_main_arg11
  replace k_main_arg12 := keep_of hW main_v42 main_arg12 rfl (by decide) k_main_arg12
  replace k_main_v3 := keep_of hW main_v42 main_v3 rfl (by decide) k_main_v3
  replace k_main_v40 := keep_of hW main_v42 main_v40 rfl (by decide) k_main_v40
  replace k_main_v41 := keep_of hW main_v42 main_v41 rfl (by decide) k_main_v41
  clear hW k_main_v1
  clear W58
  -- main_v43
  refine after_cons_exists (fun W60 hW => ?_)
  have k_main_v43 : W60 (Proc.devRef .tc main_v43) = ReadP.val_main_v43 (F := F) x2 :=
    wrote_of hW (by rw [binary_result, k_main_v3, k_main_v41] <;> rfl)
  replace k_main_arg0 := keep_of hW main_v43 main_arg0 rfl (by decide) k_main_arg0
  replace k_main_arg7 := keep_of hW main_v43 main_arg7 rfl (by decide) k_main_arg7
  replace k_main_arg8 := keep_of hW main_v43 main_arg8 rfl (by decide) k_main_arg8
  replace k_main_arg9 := keep_of hW main_v43 main_arg9 rfl (by decide) k_main_arg9
  replace k_main_arg10 := keep_of hW main_v43 main_arg10 rfl (by decide) k_main_arg10
  replace k_main_arg11 := keep_of hW main_v43 main_arg11 rfl (by decide) k_main_arg11
  replace k_main_arg12 := keep_of hW main_v43 main_arg12 rfl (by decide) k_main_arg12
  replace k_main_v40 := keep_of hW main_v43 main_v40 rfl (by decide) k_main_v40
  replace k_main_v42 := keep_of hW main_v43 main_v42 rfl (by decide) k_main_v42
  clear hW k_main_v3 k_main_v41
  clear W59
  -- main_cst_7
  refine after_cons_exists (fun W61 hW => ?_)
  have k_main_cst_7 : W61 (Proc.devRef .tc main_cst_7) = ReadP.val_main_cst_7 (F := F) :=
    wrote_of hW (by rw [nullary_result] <;> rfl)
  replace k_main_arg0 := keep_of hW main_cst_7 main_arg0 rfl (by decide) k_main_arg0
  replace k_main_arg7 := keep_of hW main_cst_7 main_arg7 rfl (by decide) k_main_arg7
  replace k_main_arg8 := keep_of hW main_cst_7 main_arg8 rfl (by decide) k_main_arg8
  replace k_main_arg9 := keep_of hW main_cst_7 main_arg9 rfl (by decide) k_main_arg9
  replace k_main_arg10 := keep_of hW main_cst_7 main_arg10 rfl (by decide) k_main_arg10
  replace k_main_arg11 := keep_of hW main_cst_7 main_arg11 rfl (by decide) k_main_arg11
  replace k_main_arg12 := keep_of hW main_cst_7 main_arg12 rfl (by decide) k_main_arg12
  replace k_main_v40 := keep_of hW main_cst_7 main_v40 rfl (by decide) k_main_v40
  replace k_main_v42 := keep_of hW main_cst_7 main_v42 rfl (by decide) k_main_v42
  replace k_main_v43 := keep_of hW main_cst_7 main_v43 rfl (by decide) k_main_v43
  clear hW
  clear W60
  -- main_v44
  refine after_cons_exists (fun W62 hW => ?_)
  have k_main_v44 : W62 (Proc.devRef .tc main_v44) = ReadP.val_main_v44 (F := F) :=
    wrote_of hW (by rw [unary_result, k_main_cst_7] <;> rfl)
  replace k_main_arg0 := keep_of hW main_v44 main_arg0 rfl (by decide) k_main_arg0
  replace k_main_arg7 := keep_of hW main_v44 main_arg7 rfl (by decide) k_main_arg7
  replace k_main_arg8 := keep_of hW main_v44 main_arg8 rfl (by decide) k_main_arg8
  replace k_main_arg9 := keep_of hW main_v44 main_arg9 rfl (by decide) k_main_arg9
  replace k_main_arg10 := keep_of hW main_v44 main_arg10 rfl (by decide) k_main_arg10
  replace k_main_arg11 := keep_of hW main_v44 main_arg11 rfl (by decide) k_main_arg11
  replace k_main_arg12 := keep_of hW main_v44 main_arg12 rfl (by decide) k_main_arg12
  replace k_main_v40 := keep_of hW main_v44 main_v40 rfl (by decide) k_main_v40
  replace k_main_v42 := keep_of hW main_v44 main_v42 rfl (by decide) k_main_v42
  replace k_main_v43 := keep_of hW main_v44 main_v43 rfl (by decide) k_main_v43
  clear hW k_main_cst_7
  clear W61
  -- main_v45
  refine after_cons_exists (fun W63 hW => ?_)
  have k_main_v45 : W63 (Proc.devRef .tc main_v45) = ReadP.val_main_v45 (F := F) x1 x2 x3 x4 x5 x6 :=
    wrote_of hW (by rw [binary_result, k_main_v40, k_main_v44] <;> rfl)
  replace k_main_arg0 := keep_of hW main_v45 main_arg0 rfl (by decide) k_main_arg0
  replace k_main_arg7 := keep_of hW main_v45 main_arg7 rfl (by decide) k_main_arg7
  replace k_main_arg8 := keep_of hW main_v45 main_arg8 rfl (by decide) k_main_arg8
  replace k_main_arg9 := keep_of hW main_v45 main_arg9 rfl (by decide) k_main_arg9
  replace k_main_arg10 := keep_of hW main_v45 main_arg10 rfl (by decide) k_main_arg10
  replace k_main_arg11 := keep_of hW main_v45 main_arg11 rfl (by decide) k_main_arg11
  replace k_main_arg12 := keep_of hW main_v45 main_arg12 rfl (by decide) k_main_arg12
  replace k_main_v42 := keep_of hW main_v45 main_v42 rfl (by decide) k_main_v42
  replace k_main_v43 := keep_of hW main_v45 main_v43 rfl (by decide) k_main_v43
  clear hW k_main_v40 k_main_v44
  clear W62
  -- main_cst_8
  refine after_cons_exists (fun W64 hW => ?_)
  have k_main_cst_8 : W64 (Proc.devRef .tc main_cst_8) = ReadP.val_main_cst_8 (F := F) :=
    wrote_of hW (by rw [nullary_result] <;> rfl)
  replace k_main_arg0 := keep_of hW main_cst_8 main_arg0 rfl (by decide) k_main_arg0
  replace k_main_arg7 := keep_of hW main_cst_8 main_arg7 rfl (by decide) k_main_arg7
  replace k_main_arg8 := keep_of hW main_cst_8 main_arg8 rfl (by decide) k_main_arg8
  replace k_main_arg9 := keep_of hW main_cst_8 main_arg9 rfl (by decide) k_main_arg9
  replace k_main_arg10 := keep_of hW main_cst_8 main_arg10 rfl (by decide) k_main_arg10
  replace k_main_arg11 := keep_of hW main_cst_8 main_arg11 rfl (by decide) k_main_arg11
  replace k_main_arg12 := keep_of hW main_cst_8 main_arg12 rfl (by decide) k_main_arg12
  replace k_main_v42 := keep_of hW main_cst_8 main_v42 rfl (by decide) k_main_v42
  replace k_main_v43 := keep_of hW main_cst_8 main_v43 rfl (by decide) k_main_v43
  replace k_main_v45 := keep_of hW main_cst_8 main_v45 rfl (by decide) k_main_v45
  clear hW
  clear W63
  -- main_v46
  refine after_cons_exists (fun W65 hW => ?_)
  have k_main_v46 : W65 (Proc.devRef .tc main_v46) = ReadP.val_main_v46 (F := F) :=
    wrote_of hW (by rw [unary_result, k_main_cst_8] <;> rfl)
  replace k_main_arg0 := keep_of hW main_v46 main_arg0 rfl (by decide) k_main_arg0
  replace k_main_arg7 := keep_of hW main_v46 main_arg7 rfl (by decide) k_main_arg7
  replace k_main_arg8 := keep_of hW main_v46 main_arg8 rfl (by decide) k_main_arg8
  replace k_main_arg9 := keep_of hW main_v46 main_arg9 rfl (by decide) k_main_arg9
  replace k_main_arg10 := keep_of hW main_v46 main_arg10 rfl (by decide) k_main_arg10
  replace k_main_arg11 := keep_of hW main_v46 main_arg11 rfl (by decide) k_main_arg11
  replace k_main_arg12 := keep_of hW main_v46 main_arg12 rfl (by decide) k_main_arg12
  replace k_main_v42 := keep_of hW main_v46 main_v42 rfl (by decide) k_main_v42
  replace k_main_v43 := keep_of hW main_v46 main_v43 rfl (by decide) k_main_v43
  replace k_main_v45 := keep_of hW main_v46 main_v45 rfl (by decide) k_main_v45
  clear hW k_main_cst_8
  clear W64
  -- main_v47
  refine after_cons_exists (fun W66 hW => ?_)
  have k_main_v47 : W66 (Proc.devRef .tc main_v47) = ReadP.val_main_v47 (F := F) x2 :=
    wrote_of hW (by rw [unary_result, k_main_v43] <;> rfl)
  replace k_main_arg0 := keep_of hW main_v47 main_arg0 rfl (by decide) k_main_arg0
  replace k_main_arg7 := keep_of hW main_v47 main_arg7 rfl (by decide) k_main_arg7
  replace k_main_arg8 := keep_of hW main_v47 main_arg8 rfl (by decide) k_main_arg8
  replace k_main_arg9 := keep_of hW main_v47 main_arg9 rfl (by decide) k_main_arg9
  replace k_main_arg10 := keep_of hW main_v47 main_arg10 rfl (by decide) k_main_arg10
  replace k_main_arg11 := keep_of hW main_v47 main_arg11 rfl (by decide) k_main_arg11
  replace k_main_arg12 := keep_of hW main_v47 main_arg12 rfl (by decide) k_main_arg12
  replace k_main_v42 := keep_of hW main_v47 main_v42 rfl (by decide) k_main_v42
  replace k_main_v43 := keep_of hW main_v47 main_v43 rfl (by decide) k_main_v43
  replace k_main_v45 := keep_of hW main_v47 main_v45 rfl (by decide) k_main_v45
  replace k_main_v46 := keep_of hW main_v47 main_v46 rfl (by decide) k_main_v46
  clear hW
  clear W65
  -- main_v48
  refine after_cons_exists (fun W67 hW => ?_)
  have k_main_v48 : W67 (Proc.devRef .tc main_v48) = ReadP.val_main_v48 (F := F) x1 x2 x3 x4 x5 x6 :=
    wrote_of hW (by rw [ternary_result, k_main_v46, k_main_v47, k_main_v45] <;> rfl)
  replace k_main_arg0 := keep_of hW main_v48 main_arg0 rfl (by decide) k_main_arg0
  replace k_main_arg7 := keep_of hW main_v48 main_arg7 rfl (by decide) k_main_arg7
  replace k_main_arg8 := keep_of hW main_v48 main_arg8 rfl (by decide) k_main_arg8
  replace k_main_arg9 := keep_of hW main_v48 main_arg9 rfl (by decide) k_main_arg9
  replace k_main_arg10 := keep_of hW main_v48 main_arg10 rfl (by decide) k_main_arg10
  replace k_main_arg11 := keep_of hW main_v48 main_arg11 rfl (by decide) k_main_arg11
  replace k_main_arg12 := keep_of hW main_v48 main_arg12 rfl (by decide) k_main_arg12
  replace k_main_v42 := keep_of hW main_v48 main_v42 rfl (by decide) k_main_v42
  replace k_main_v43 := keep_of hW main_v48 main_v43 rfl (by decide) k_main_v43
  replace k_main_v45 := keep_of hW main_v48 main_v45 rfl (by decide) k_main_v45
  clear hW k_main_v46 k_main_v47
  clear W66
  -- main_cst_9
  refine after_cons_exists (fun W68 hW => ?_)
  have k_main_cst_9 : W68 (Proc.devRef .tc main_cst_9) = ReadP.val_main_cst_9 (F := F) :=
    wrote_of hW (by rw [nullary_result] <;> rfl)
  replace k_main_arg0 := keep_of hW main_cst_9 main_arg0 rfl (by decide) k_main_arg0
  replace k_main_arg7 := keep_of hW main_cst_9 main_arg7 rfl (by decide) k_main_arg7
  replace k_main_arg8 := keep_of hW main_cst_9 main_arg8 rfl (by decide) k_main_arg8
  replace k_main_arg9 := keep_of hW main_cst_9 main_arg9 rfl (by decide) k_main_arg9
  replace k_main_arg10 := keep_of hW main_cst_9 main_arg10 rfl (by decide) k_main_arg10
  replace k_main_arg11 := keep_of hW main_cst_9 main_arg11 rfl (by decide) k_main_arg11
  replace k_main_arg12 := keep_of hW main_cst_9 main_arg12 rfl (by decide) k_main_arg12
  replace k_main_v42 := keep_of hW main_cst_9 main_v42 rfl (by decide) k_main_v42
  replace k_main_v43 := keep_of hW main_cst_9 main_v43 rfl (by decide) k_main_v43
  replace k_main_v45 := keep_of hW main_cst_9 main_v45 rfl (by decide) k_main_v45
  replace k_main_v48 := keep_of hW main_cst_9 main_v48 rfl (by decide) k_main_v48
  clear hW
  clear W67
  -- main_v49
  refine after_cons_exists (fun W69 hW => ?_)
  have k_main_v49 : W69 (Proc.devRef .tc main_v49) = ReadP.val_main_v49 (F := F) :=
    wrote_of hW (by rw [unary_result, k_main_cst_9] <;> rfl)
  replace k_main_arg0 := keep_of hW main_v49 main_arg0 rfl (by decide) k_main_arg0
  replace k_main_arg7 := keep_of hW main_v49 main_arg7 rfl (by decide) k_main_arg7
  replace k_main_arg8 := keep_of hW main_v49 main_arg8 rfl (by decide) k_main_arg8
  replace k_main_arg9 := keep_of hW main_v49 main_arg9 rfl (by decide) k_main_arg9
  replace k_main_arg10 := keep_of hW main_v49 main_arg10 rfl (by decide) k_main_arg10
  replace k_main_arg11 := keep_of hW main_v49 main_arg11 rfl (by decide) k_main_arg11
  replace k_main_arg12 := keep_of hW main_v49 main_arg12 rfl (by decide) k_main_arg12
  replace k_main_v42 := keep_of hW main_v49 main_v42 rfl (by decide) k_main_v42
  replace k_main_v43 := keep_of hW main_v49 main_v43 rfl (by decide) k_main_v43
  replace k_main_v45 := keep_of hW main_v49 main_v45 rfl (by decide) k_main_v45
  replace k_main_v48 := keep_of hW main_v49 main_v48 rfl (by decide) k_main_v48
  clear hW k_main_cst_9
  clear W68
  -- main_v50
  refine after_cons_exists (fun W70 hW => ?_)
  have k_main_v50 : W70 (Proc.devRef .tc main_v50) = ReadP.val_main_v50 (F := F) x1 x2 x3 x4 x5 x6 :=
    wrote_of hW (by rw [binary_result, k_main_v48, k_main_v49] <;> rfl)
  replace k_main_arg0 := keep_of hW main_v50 main_arg0 rfl (by decide) k_main_arg0
  replace k_main_arg7 := keep_of hW main_v50 main_arg7 rfl (by decide) k_main_arg7
  replace k_main_arg8 := keep_of hW main_v50 main_arg8 rfl (by decide) k_main_arg8
  replace k_main_arg9 := keep_of hW main_v50 main_arg9 rfl (by decide) k_main_arg9
  replace k_main_arg10 := keep_of hW main_v50 main_arg10 rfl (by decide) k_main_arg10
  replace k_main_arg11 := keep_of hW main_v50 main_arg11 rfl (by decide) k_main_arg11
  replace k_main_arg12 := keep_of hW main_v50 main_arg12 rfl (by decide) k_main_arg12
  replace k_main_v42 := keep_of hW main_v50 main_v42 rfl (by decide) k_main_v42
  replace k_main_v43 := keep_of hW main_v50 main_v43 rfl (by decide) k_main_v43
  replace k_main_v45 := keep_of hW main_v50 main_v45 rfl (by decide) k_main_v45
  replace k_main_v48 := keep_of hW main_v50 main_v48 rfl (by decide) k_main_v48
  clear hW k_main_v49
  clear W69
  -- main_cst_10
  refine after_cons_exists (fun W71 hW => ?_)
  have k_main_cst_10 : W71 (Proc.devRef .tc main_cst_10) = ReadP.val_main_cst_10 (F := F) :=
    wrote_of hW (by rw [nullary_result] <;> rfl)
  replace k_main_arg0 := keep_of hW main_cst_10 main_arg0 rfl (by decide) k_main_arg0
  replace k_main_arg7 := keep_of hW main_cst_10 main_arg7 rfl (by decide) k_main_arg7
  replace k_main_arg8 := keep_of hW main_cst_10 main_arg8 rfl (by decide) k_main_arg8
  replace k_main_arg9 := keep_of hW main_cst_10 main_arg9 rfl (by decide) k_main_arg9
  replace k_main_arg10 := keep_of hW main_cst_10 main_arg10 rfl (by decide) k_main_arg10
  replace k_main_arg11 := keep_of hW main_cst_10 main_arg11 rfl (by decide) k_main_arg11
  replace k_main_arg12 := keep_of hW main_cst_10 main_arg12 rfl (by decide) k_main_arg12
  replace k_main_v42 := keep_of hW main_cst_10 main_v42 rfl (by decide) k_main_v42
  replace k_main_v43 := keep_of hW main_cst_10 main_v43 rfl (by decide) k_main_v43
  replace k_main_v45 := keep_of hW main_cst_10 main_v45 rfl (by decide) k_main_v45
  replace k_main_v48 := keep_of hW main_cst_10 main_v48 rfl (by decide) k_main_v48
  replace k_main_v50 := keep_of hW main_cst_10 main_v50 rfl (by decide) k_main_v50
  clear hW
  clear W70
  -- main_v51
  refine after_cons_exists (fun W72 hW => ?_)
  have k_main_v51 : W72 (Proc.devRef .tc main_v51) = ReadP.val_main_v51 (F := F) :=
    wrote_of hW (by rw [unary_result, k_main_cst_10] <;> rfl)
  replace k_main_arg0 := keep_of hW main_v51 main_arg0 rfl (by decide) k_main_arg0
  replace k_main_arg7 := keep_of hW main_v51 main_arg7 rfl (by decide) k_main_arg7
  replace k_main_arg8 := keep_of hW main_v51 main_arg8 rfl (by decide) k_main_arg8
  replace k_main_arg9 := keep_of hW main_v51 main_arg9 rfl (by decide) k_main_arg9
  replace k_main_arg10 := keep_of hW main_v51 main_arg10 rfl (by decide) k_main_arg10
  replace k_main_arg11 := keep_of hW main_v51 main_arg11 rfl (by decide) k_main_arg11
  replace k_main_arg12 := keep_of hW main_v51 main_arg12 rfl (by decide) k_main_arg12
  replace k_main_v42 := keep_of hW main_v51 main_v42 rfl (by decide) k_main_v42
  replace k_main_v43 := keep_of hW main_v51 main_v43 rfl (by decide) k_main_v43
  replace k_main_v45 := keep_of hW main_v51 main_v45 rfl (by decide) k_main_v45
  replace k_main_v48 := keep_of hW main_v51 main_v48 rfl (by decide) k_main_v48
  replace k_main_v50 := keep_of hW main_v51 main_v50 rfl (by decide) k_main_v50
  clear hW k_main_cst_10
  clear W71
  -- main_v52
  refine after_cons_exists (fun W73 hW => ?_)
  have k_main_v52 : W73 (Proc.devRef .tc main_v52) = ReadP.val_main_v52 (F := F) x1 x2 x3 x4 x5 x6 :=
    wrote_of hW (by rw [binary_result, k_main_v48, k_main_v51] <;> rfl)
  replace k_main_arg0 := keep_of hW main_v52 main_arg0 rfl (by decide) k_main_arg0
  replace k_main_arg7 := keep_of hW main_v52 main_arg7 rfl (by decide) k_main_arg7
  replace k_main_arg8 := keep_of hW main_v52 main_arg8 rfl (by decide) k_main_arg8
  replace k_main_arg9 := keep_of hW main_v52 main_arg9 rfl (by decide) k_main_arg9
  replace k_main_arg10 := keep_of hW main_v52 main_arg10 rfl (by decide) k_main_arg10
  replace k_main_arg11 := keep_of hW main_v52 main_arg11 rfl (by decide) k_main_arg11
  replace k_main_arg12 := keep_of hW main_v52 main_arg12 rfl (by decide) k_main_arg12
  replace k_main_v42 := keep_of hW main_v52 main_v42 rfl (by decide) k_main_v42
  replace k_main_v43 := keep_of hW main_v52 main_v43 rfl (by decide) k_main_v43
  replace k_main_v45 := keep_of hW main_v52 main_v45 rfl (by decide) k_main_v45
  replace k_main_v48 := keep_of hW main_v52 main_v48 rfl (by decide) k_main_v48
  replace k_main_v50 := keep_of hW main_v52 main_v50 rfl (by decide) k_main_v50
  clear hW k_main_v51
  clear W72
  -- main_v53
  refine after_cons_exists (fun W74 hW => ?_)
  have k_main_v53 : W74 (Proc.devRef .tc main_v53) = ReadP.val_main_v53 (F := F) x1 x2 x3 x4 x5 x6 :=
    wrote_of hW (by rw [unary_result, k_main_v52] <;> rfl)
  replace k_main_arg0 := keep_of hW main_v53 main_arg0 rfl (by decide) k_main_arg0
  replace k_main_arg7 := keep_of hW main_v53 main_arg7 rfl (by decide) k_main_arg7
  replace k_main_arg8 := keep_of hW main_v53 main_arg8 rfl (by decide) k_main_arg8
  replace k_main_arg9 := keep_of hW main_v53 main_arg9 rfl (by decide) k_main_arg9
  replace k_main_arg10 := keep_of hW main_v53 main_arg10 rfl (by decide) k_main_arg10
  replace k_main_arg11 := keep_of hW main_v53 main_arg11 rfl (by decide) k_main_arg11
  replace k_main_arg12 := keep_of hW main_v53 main_arg12 rfl (by decide) k_main_arg12
  replace k_main_v42 := keep_of hW main_v53 main_v42 rfl (by decide) k_main_v42
  replace k_main_v43 := keep_of hW main_v53 main_v43 rfl (by decide) k_main_v43
  replace k_main_v45 := keep_of hW main_v53 main_v45 rfl (by decide) k_main_v45
  replace k_main_v48 := keep_of hW main_v53 main_v48 rfl (by decide) k_main_v48
  replace k_main_v50 := keep_of hW main_v53 main_v50 rfl (by decide) k_main_v50
  clear hW k_main_v52
  clear W73
  -- main_cst_11
  refine after_cons_exists (fun W75 hW => ?_)
  have k_main_cst_11 : W75 (Proc.devRef .tc main_cst_11) = ReadP.val_main_cst_11 (F := F) :=
    wrote_of hW (by rw [nullary_result] <;> rfl)
  replace k_main_arg0 := keep_of hW main_cst_11 main_arg0 rfl (by decide) k_main_arg0
  replace k_main_arg7 := keep_of hW main_cst_11 main_arg7 rfl (by decide) k_main_arg7
  replace k_main_arg8 := keep_of hW main_cst_11 main_arg8 rfl (by decide) k_main_arg8
  replace k_main_arg9 := keep_of hW main_cst_11 main_arg9 rfl (by decide) k_main_arg9
  replace k_main_arg10 := keep_of hW main_cst_11 main_arg10 rfl (by decide) k_main_arg10
  replace k_main_arg11 := keep_of hW main_cst_11 main_arg11 rfl (by decide) k_main_arg11
  replace k_main_arg12 := keep_of hW main_cst_11 main_arg12 rfl (by decide) k_main_arg12
  replace k_main_v42 := keep_of hW main_cst_11 main_v42 rfl (by decide) k_main_v42
  replace k_main_v43 := keep_of hW main_cst_11 main_v43 rfl (by decide) k_main_v43
  replace k_main_v45 := keep_of hW main_cst_11 main_v45 rfl (by decide) k_main_v45
  replace k_main_v48 := keep_of hW main_cst_11 main_v48 rfl (by decide) k_main_v48
  replace k_main_v50 := keep_of hW main_cst_11 main_v50 rfl (by decide) k_main_v50
  replace k_main_v53 := keep_of hW main_cst_11 main_v53 rfl (by decide) k_main_v53
  clear hW
  clear W74
  -- main_call2_v0
  refine after_cons_exists (fun W76 hW => ?_)
  have k_main_call2_v0 : W76 (Proc.devRef .tc main_call2_v0) = ReadP.val_main_call2_v0 (F := F) :=
    wrote_of hW (by rw [unary_result, k_main_cst_11] <;> rfl)
  replace k_main_arg0 := keep_of hW main_call2_v0 main_arg0 rfl (by decide) k_main_arg0
  replace k_main_arg7 := keep_of hW main_call2_v0 main_arg7 rfl (by decide) k_main_arg7
  replace k_main_arg8 := keep_of hW main_call2_v0 main_arg8 rfl (by decide) k_main_arg8
  replace k_main_arg9 := keep_of hW main_call2_v0 main_arg9 rfl (by decide) k_main_arg9
  replace k_main_arg10 := keep_of hW main_call2_v0 main_arg10 rfl (by decide) k_main_arg10
  replace k_main_arg11 := keep_of hW main_call2_v0 main_arg11 rfl (by decide) k_main_arg11
  replace k_main_arg12 := keep_of hW main_call2_v0 main_arg12 rfl (by decide) k_main_arg12
  replace k_main_v42 := keep_of hW main_call2_v0 main_v42 rfl (by decide) k_main_v42
  replace k_main_v43 := keep_of hW main_call2_v0 main_v43 rfl (by decide) k_main_v43
  replace k_main_v45 := keep_of hW main_call2_v0 main_v45 rfl (by decide) k_main_v45
  replace k_main_v48 := keep_of hW main_call2_v0 main_v48 rfl (by decide) k_main_v48
  replace k_main_v50 := keep_of hW main_call2_v0 main_v50 rfl (by decide) k_main_v50
  replace k_main_v53 := keep_of hW main_call2_v0 main_v53 rfl (by decide) k_main_v53
  clear hW k_main_cst_11
  clear W75
  -- main_call2_v1
  refine after_cons_exists (fun W77 hW => ?_)
  have k_main_call2_v1 : W77 (Proc.devRef .tc main_call2_v1) = ReadP.val_main_call2_v1 (F := F) :=
    wrote_of hW (by rw [unary_result, k_main_call2_v0] <;> rfl)
  replace k_main_arg0 := keep_of hW main_call2_v1 main_arg0 rfl (by decide) k_main_arg0
  replace k_main_arg7 := keep_of hW main_call2_v1 main_arg7 rfl (by decide) k_main_arg7
  replace k_main_arg8 := keep_of hW main_call2_v1 main_arg8 rfl (by decide) k_main_arg8
  replace k_main_arg9 := keep_of hW main_call2_v1 main_arg9 rfl (by decide) k_main_arg9
  replace k_main_arg10 := keep_of hW main_call2_v1 main_arg10 rfl (by decide) k_main_arg10
  replace k_main_arg11 := keep_of hW main_call2_v1 main_arg11 rfl (by decide) k_main_arg11
  replace k_main_arg12 := keep_of hW main_call2_v1 main_arg12 rfl (by decide) k_main_arg12
  replace k_main_v42 := keep_of hW main_call2_v1 main_v42 rfl (by decide) k_main_v42
  replace k_main_v43 := keep_of hW main_call2_v1 main_v43 rfl (by decide) k_main_v43
  replace k_main_v45 := keep_of hW main_call2_v1 main_v45 rfl (by decide) k_main_v45
  replace k_main_v48 := keep_of hW main_call2_v1 main_v48 rfl (by decide) k_main_v48
  replace k_main_v50 := keep_of hW main_call2_v1 main_v50 rfl (by decide) k_main_v50
  replace k_main_v53 := keep_of hW main_call2_v1 main_v53 rfl (by decide) k_main_v53
  clear hW k_main_call2_v0
  clear W76
  -- main_v54
  refine after_cons_exists (fun W78 hW => ?_)
  replace k_main_arg0 := keep_of hW main_v54 main_arg0 rfl (by decide) k_main_arg0
  replace k_main_arg7 := keep_of hW main_v54 main_arg7 rfl (by decide) k_main_arg7
  replace k_main_arg8 := keep_of hW main_v54 main_arg8 rfl (by decide) k_main_arg8
  replace k_main_arg9 := keep_of hW main_v54 main_arg9 rfl (by decide) k_main_arg9
  replace k_main_arg10 := keep_of hW main_v54 main_arg10 rfl (by decide) k_main_arg10
  replace k_main_arg11 := keep_of hW main_v54 main_arg11 rfl (by decide) k_main_arg11
  replace k_main_arg12 := keep_of hW main_v54 main_arg12 rfl (by decide) k_main_arg12
  replace k_main_v42 := keep_of hW main_v54 main_v42 rfl (by decide) k_main_v42
  replace k_main_v43 := keep_of hW main_v54 main_v43 rfl (by decide) k_main_v43
  replace k_main_v45 := keep_of hW main_v54 main_v45 rfl (by decide) k_main_v45
  replace k_main_v48 := keep_of hW main_v54 main_v48 rfl (by decide) k_main_v48
  clear hW k_main_v50 k_main_v53 k_main_call2_v1
  clear W77
  -- main_cst_12
  refine after_cons_exists (fun W79 hW => ?_)
  have k_main_cst_12 : W79 (Proc.devRef .tc main_cst_12) = ReadP.val_main_cst_12 (F := F) :=
    wrote_of hW (by rw [nullary_result] <;> rfl)
  replace k_main_arg0 := keep_of hW main_cst_12 main_arg0 rfl (by decide) k_main_arg0
  replace k_main_arg7 := keep_of hW main_cst_12 main_arg7 rfl (by decide) k_main_arg7
  replace k_main_arg8 := keep_of hW main_cst_12 main_arg8 rfl (by decide) k_main_arg8
  replace k_main_arg9 := keep_of hW main_cst_12 main_arg9 rfl (by decide) k_main_arg9
  replace k_main_arg10 := keep_of hW main_cst_12 main_arg10 rfl (by decide) k_main_arg10
  replace k_main_arg11 := keep_of hW main_cst_12 main_arg11 rfl (by decide) k_main_arg11
  replace k_main_arg12 := keep_of hW main_cst_12 main_arg12 rfl (by decide) k_main_arg12
  replace k_main_v42 := keep_of hW main_cst_12 main_v42 rfl (by decide) k_main_v42
  replace k_main_v43 := keep_of hW main_cst_12 main_v43 rfl (by decide) k_main_v43
  replace k_main_v45 := keep_of hW main_cst_12 main_v45 rfl (by decide) k_main_v45
  replace k_main_v48 := keep_of hW main_cst_12 main_v48 rfl (by decide) k_main_v48
  clear hW
  clear W78
  -- main_v55
  refine after_cons_exists (fun W80 hW => ?_)
  have k_main_v55 : W80 (Proc.devRef .tc main_v55) = ReadP.val_main_v55 (F := F) :=
    wrote_of hW (by rw [unary_result, k_main_cst_12] <;> rfl)
  replace k_main_arg0 := keep_of hW main_v55 main_arg0 rfl (by decide) k_main_arg0
  replace k_main_arg7 := keep_of hW main_v55 main_arg7 rfl (by decide) k_main_arg7
  replace k_main_arg8 := keep_of hW main_v55 main_arg8 rfl (by decide) k_main_arg8
  replace k_main_arg9 := keep_of hW main_v55 main_arg9 rfl (by decide) k_main_arg9
  replace k_main_arg10 := keep_of hW main_v55 main_arg10 rfl (by decide) k_main_arg10
  replace k_main_arg11 := keep_of hW main_v55 main_arg11 rfl (by decide) k_main_arg11
  replace k_main_arg12 := keep_of hW main_v55 main_arg12 rfl (by decide) k_main_arg12
  replace k_main_v42 := keep_of hW main_v55 main_v42 rfl (by decide) k_main_v42
  replace k_main_v43 := keep_of hW main_v55 main_v43 rfl (by decide) k_main_v43
  replace k_main_v45 := keep_of hW main_v55 main_v45 rfl (by decide) k_main_v45
  replace k_main_v48 := keep_of hW main_v55 main_v48 rfl (by decide) k_main_v48
  clear hW k_main_cst_12
  clear W79
  -- main_v56
  refine after_cons_exists (fun W81 hW => ?_)
  have k_main_v56 : W81 (Proc.devRef .tc main_v56) = ReadP.val_main_v56 (F := F) x1 x2 x3 x4 x5 x6 :=
    wrote_of hW (by rw [binary_result, k_main_v48, k_main_v55] <;> rfl)
  replace k_main_arg0 := keep_of hW main_v56 main_arg0 rfl (by decide) k_main_arg0
  replace k_main_arg7 := keep_of hW main_v56 main_arg7 rfl (by decide) k_main_arg7
  replace k_main_arg8 := keep_of hW main_v56 main_arg8 rfl (by decide) k_main_arg8
  replace k_main_arg9 := keep_of hW main_v56 main_arg9 rfl (by decide) k_main_arg9
  replace k_main_arg10 := keep_of hW main_v56 main_arg10 rfl (by decide) k_main_arg10
  replace k_main_arg11 := keep_of hW main_v56 main_arg11 rfl (by decide) k_main_arg11
  replace k_main_arg12 := keep_of hW main_v56 main_arg12 rfl (by decide) k_main_arg12
  replace k_main_v42 := keep_of hW main_v56 main_v42 rfl (by decide) k_main_v42
  replace k_main_v43 := keep_of hW main_v56 main_v43 rfl (by decide) k_main_v43
  replace k_main_v45 := keep_of hW main_v56 main_v45 rfl (by decide) k_main_v45
  replace k_main_v48 := keep_of hW main_v56 main_v48 rfl (by decide) k_main_v48
  clear hW k_main_v55
  clear W80
  -- main_cst_13
  refine after_cons_exists (fun W82 hW => ?_)
  have k_main_cst_13 : W82 (Proc.devRef .tc main_cst_13) = ReadP.val_main_cst_13 (F := F) :=
    wrote_of hW (by rw [nullary_result] <;> rfl)
  replace k_main_arg0 := keep_of hW main_cst_13 main_arg0 rfl (by decide) k_main_arg0
  replace k_main_arg7 := keep_of hW main_cst_13 main_arg7 rfl (by decide) k_main_arg7
  replace k_main_arg8 := keep_of hW main_cst_13 main_arg8 rfl (by decide) k_main_arg8
  replace k_main_arg9 := keep_of hW main_cst_13 main_arg9 rfl (by decide) k_main_arg9
  replace k_main_arg10 := keep_of hW main_cst_13 main_arg10 rfl (by decide) k_main_arg10
  replace k_main_arg11 := keep_of hW main_cst_13 main_arg11 rfl (by decide) k_main_arg11
  replace k_main_arg12 := keep_of hW main_cst_13 main_arg12 rfl (by decide) k_main_arg12
  replace k_main_v42 := keep_of hW main_cst_13 main_v42 rfl (by decide) k_main_v42
  replace k_main_v43 := keep_of hW main_cst_13 main_v43 rfl (by decide) k_main_v43
  replace k_main_v45 := keep_of hW main_cst_13 main_v45 rfl (by decide) k_main_v45
  replace k_main_v48 := keep_of hW main_cst_13 main_v48 rfl (by decide) k_main_v48
  replace k_main_v56 := keep_of hW main_cst_13 main_v56 rfl (by decide) k_main_v56
  clear hW
  clear W81
  -- main_v57
  refine after_cons_exists (fun W83 hW => ?_)
  have k_main_v57 : W83 (Proc.devRef .tc main_v57) = ReadP.val_main_v57 (F := F) :=
    wrote_of hW (by rw [unary_result, k_main_cst_13] <;> rfl)
  replace k_main_arg0 := keep_of hW main_v57 main_arg0 rfl (by decide) k_main_arg0
  replace k_main_arg7 := keep_of hW main_v57 main_arg7 rfl (by decide) k_main_arg7
  replace k_main_arg8 := keep_of hW main_v57 main_arg8 rfl (by decide) k_main_arg8
  replace k_main_arg9 := keep_of hW main_v57 main_arg9 rfl (by decide) k_main_arg9
  replace k_main_arg10 := keep_of hW main_v57 main_arg10 rfl (by decide) k_main_arg10
  replace k_main_arg11 := keep_of hW main_v57 main_arg11 rfl (by decide) k_main_arg11
  replace k_main_arg12 := keep_of hW main_v57 main_arg12 rfl (by decide) k_main_arg12
  replace k_main_v42 := keep_of hW main_v57 main_v42 rfl (by decide) k_main_v42
  replace k_main_v43 := keep_of hW main_v57 main_v43 rfl (by decide) k_main_v43
  replace k_main_v45 := keep_of hW main_v57 main_v45 rfl (by decide) k_main_v45
  replace k_main_v48 := keep_of hW main_v57 main_v48 rfl (by decide) k_main_v48
  replace k_main_v56 := keep_of hW main_v57 main_v56 rfl (by decide) k_main_v56
  clear hW k_main_cst_13
  clear W82
  -- main_v58
  refine after_cons_exists (fun W84 hW => ?_)
  have k_main_v58 : W84 (Proc.devRef .tc main_v58) = ReadP.val_main_v58 (F := F) x1 x2 x3 x4 x5 x6 :=
    wrote_of hW (by rw [binary_result, k_main_v48, k_main_v57] <;> rfl)
  replace k_main_arg0 := keep_of hW main_v58 main_arg0 rfl (by decide) k_main_arg0
  replace k_main_arg7 := keep_of hW main_v58 main_arg7 rfl (by decide) k_main_arg7
  replace k_main_arg8 := keep_of hW main_v58 main_arg8 rfl (by decide) k_main_arg8
  replace k_main_arg9 := keep_of hW main_v58 main_arg9 rfl (by decide) k_main_arg9
  replace k_main_arg10 := keep_of hW main_v58 main_arg10 rfl (by decide) k_main_arg10
  replace k_main_arg11 := keep_of hW main_v58 main_arg11 rfl (by decide) k_main_arg11
  replace k_main_arg12 := keep_of hW main_v58 main_arg12 rfl (by decide) k_main_arg12
  replace k_main_v42 := keep_of hW main_v58 main_v42 rfl (by decide) k_main_v42
  replace k_main_v43 := keep_of hW main_v58 main_v43 rfl (by decide) k_main_v43
  replace k_main_v45 := keep_of hW main_v58 main_v45 rfl (by decide) k_main_v45
  replace k_main_v56 := keep_of hW main_v58 main_v56 rfl (by decide) k_main_v56
  clear hW k_main_v48 k_main_v57
  clear W83
  -- main_cst_14
  refine after_cons_exists (fun W85 hW => ?_)
  have k_main_cst_14 : W85 (Proc.devRef .tc main_cst_14) = ReadP.val_main_cst_14 (F := F) :=
    wrote_of hW (by rw [nullary_result] <;> rfl)
  replace k_main_arg0 := keep_of hW main_cst_14 main_arg0 rfl (by decide) k_main_arg0
  replace k_main_arg7 := keep_of hW main_cst_14 main_arg7 rfl (by decide) k_main_arg7
  replace k_main_arg8 := keep_of hW main_cst_14 main_arg8 rfl (by decide) k_main_arg8
  replace k_main_arg9 := keep_of hW main_cst_14 main_arg9 rfl (by decide) k_main_arg9
  replace k_main_arg10 := keep_of hW main_cst_14 main_arg10 rfl (by decide) k_main_arg10
  replace k_main_arg11 := keep_of hW main_cst_14 main_arg11 rfl (by decide) k_main_arg11
  replace k_main_arg12 := keep_of hW main_cst_14 main_arg12 rfl (by decide) k_main_arg12
  replace k_main_v42 := keep_of hW main_cst_14 main_v42 rfl (by decide) k_main_v42
  replace k_main_v43 := keep_of hW main_cst_14 main_v43 rfl (by decide) k_main_v43
  replace k_main_v45 := keep_of hW main_cst_14 main_v45 rfl (by decide) k_main_v45
  replace k_main_v56 := keep_of hW main_cst_14 main_v56 rfl (by decide) k_main_v56
  replace k_main_v58 := keep_of hW main_cst_14 main_v58 rfl (by decide) k_main_v58
  clear hW
  clear W84
  -- main_call3_v0
  refine after_cons_exists (fun W86 hW => ?_)
  have k_main_call3_v0 : W86 (Proc.devRef .tc main_call3_v0) = ReadP.val_main_call3_v0 (F := F) :=
    wrote_of hW (by rw [unary_result, k_main_cst_14] <;> rfl)
  replace k_main_arg0 := keep_of hW main_call3_v0 main_arg0 rfl (by decide) k_main_arg0
  replace k_main_arg7 := keep_of hW main_call3_v0 main_arg7 rfl (by decide) k_main_arg7
  replace k_main_arg8 := keep_of hW main_call3_v0 main_arg8 rfl (by decide) k_main_arg8
  replace k_main_arg9 := keep_of hW main_call3_v0 main_arg9 rfl (by decide) k_main_arg9
  replace k_main_arg10 := keep_of hW main_call3_v0 main_arg10 rfl (by decide) k_main_arg10
  replace k_main_arg11 := keep_of hW main_call3_v0 main_arg11 rfl (by decide) k_main_arg11
  replace k_main_arg12 := keep_of hW main_call3_v0 main_arg12 rfl (by decide) k_main_arg12
  replace k_main_v42 := keep_of hW main_call3_v0 main_v42 rfl (by decide) k_main_v42
  replace k_main_v43 := keep_of hW main_call3_v0 main_v43 rfl (by decide) k_main_v43
  replace k_main_v45 := keep_of hW main_call3_v0 main_v45 rfl (by decide) k_main_v45
  replace k_main_v56 := keep_of hW main_call3_v0 main_v56 rfl (by decide) k_main_v56
  replace k_main_v58 := keep_of hW main_call3_v0 main_v58 rfl (by decide) k_main_v58
  clear hW k_main_cst_14
  clear W85
  -- main_call3_v1
  refine after_cons_exists (fun W87 hW => ?_)
  have k_main_call3_v1 : W87 (Proc.devRef .tc main_call3_v1) = ReadP.val_main_call3_v1 (F := F) :=
    wrote_of hW (by rw [unary_result, k_main_call3_v0] <;> rfl)
  replace k_main_arg0 := keep_of hW main_call3_v1 main_arg0 rfl (by decide) k_main_arg0
  replace k_main_arg7 := keep_of hW main_call3_v1 main_arg7 rfl (by decide) k_main_arg7
  replace k_main_arg8 := keep_of hW main_call3_v1 main_arg8 rfl (by decide) k_main_arg8
  replace k_main_arg9 := keep_of hW main_call3_v1 main_arg9 rfl (by decide) k_main_arg9
  replace k_main_arg10 := keep_of hW main_call3_v1 main_arg10 rfl (by decide) k_main_arg10
  replace k_main_arg11 := keep_of hW main_call3_v1 main_arg11 rfl (by decide) k_main_arg11
  replace k_main_arg12 := keep_of hW main_call3_v1 main_arg12 rfl (by decide) k_main_arg12
  replace k_main_v42 := keep_of hW main_call3_v1 main_v42 rfl (by decide) k_main_v42
  replace k_main_v43 := keep_of hW main_call3_v1 main_v43 rfl (by decide) k_main_v43
  replace k_main_v45 := keep_of hW main_call3_v1 main_v45 rfl (by decide) k_main_v45
  replace k_main_v56 := keep_of hW main_call3_v1 main_v56 rfl (by decide) k_main_v56
  replace k_main_v58 := keep_of hW main_call3_v1 main_v58 rfl (by decide) k_main_v58
  clear hW k_main_call3_v0
  clear W86
  -- main_v59
  refine after_cons_exists (fun W88 hW => ?_)
  have k_main_v59 : W88 (Proc.devRef .tc main_v59) = ReadP.val_main_v59 (F := F) x1 x2 x3 x4 x5 x6 :=
    wrote_of hW (by rw [ternary_result, k_main_v56, k_main_v58, k_main_call3_v1] <;> rfl)
  replace k_main_arg0 := keep_of hW main_v59 main_arg0 rfl (by decide) k_main_arg0
  replace k_main_arg7 := keep_of hW main_v59 main_arg7 rfl (by decide) k_main_arg7
  replace k_main_arg8 := keep_of hW main_v59 main_arg8 rfl (by decide) k_main_arg8
  replace k_main_arg9 := keep_of hW main_v59 main_arg9 rfl (by decide) k_main_arg9
  replace k_main_arg10 := keep_of hW main_v59 main_arg10 rfl (by decide) k_main_arg10
  replace k_main_arg11 := keep_of hW main_v59 main_arg11 rfl (by decide) k_main_arg11
  replace k_main_arg12 := keep_of hW main_v59 main_arg12 rfl (by decide) k_main_arg12
  replace k_main_v42 := keep_of hW main_v59 main_v42 rfl (by decide) k_main_v42
  replace k_main_v43 := keep_of hW main_v59 main_v43 rfl (by decide) k_main_v43
  replace k_main_v45 := keep_of hW main_v59 main_v45 rfl (by decide) k_main_v45
  clear hW k_main_v56 k_main_v58 k_main_call3_v1
  clear W87
  -- main_c_15
  refine after_cons_exists (fun W89 hW => ?_)
  have k_main_c_15 : W89 (Proc.devRef .tc main_c_15) = ReadP.val_main_c_15 (F := F) :=
    wrote_of hW (by rw [nullary_result] <;> rfl)
  replace k_main_arg0 := keep_of hW main_c_15 main_arg0 rfl (by decide) k_main_arg0
  replace k_main_arg7 := keep_of hW main_c_15 main_arg7 rfl (by decide) k_main_arg7
  replace k_main_arg8 := keep_of hW main_c_15 main_arg8 rfl (by decide) k_main_arg8
  replace k_main_arg9 := keep_of hW main_c_15 main_arg9 rfl (by decide) k_main_arg9
  replace k_main_arg10 := keep_of hW main_c_15 main_arg10 rfl (by decide) k_main_arg10
  replace k_main_arg11 := keep_of hW main_c_15 main_arg11 rfl (by decide) k_main_arg11
  replace k_main_arg12 := keep_of hW main_c_15 main_arg12 rfl (by decide) k_main_arg12
  replace k_main_v42 := keep_of hW main_c_15 main_v42 rfl (by decide) k_main_v42
  replace k_main_v43 := keep_of hW main_c_15 main_v43 rfl (by decide) k_main_v43
  replace k_main_v45 := keep_of hW main_c_15 main_v45 rfl (by decide) k_main_v45
  replace k_main_v59 := keep_of hW main_c_15 main_v59 rfl (by decide) k_main_v59
  clear hW
  clear W88
  -- main_v60
  refine after_cons_exists (fun W90 hW => ?_)
  have k_main_v60 : W90 (Proc.devRef .tc main_v60) = ReadP.val_main_v60 (F := F) :=
    wrote_of hW (by rw [unary_result, k_main_c_15] <;> rfl)
  replace k_main_arg0 := keep_of hW main_v60 main_arg0 rfl (by decide) k_main_arg0
  replace k_main_arg7 := keep_of hW main_v60 main_arg7 rfl (by decide) k_main_arg7
  replace k_main_arg8 := keep_of hW main_v60 main_arg8 rfl (by decide) k_main_arg8
  replace k_main_arg9 := keep_of hW main_v60 main_arg9 rfl (by decide) k_main_arg9
  replace k_main_arg10 := keep_of hW main_v60 main_arg10 rfl (by decide) k_main_arg10
  replace k_main_arg11 := keep_of hW main_v60 main_arg11 rfl (by decide) k_main_arg11
  replace k_main_arg12 := keep_of hW main_v60 main_arg12 rfl (by decide) k_main_arg12
  replace k_main_v42 := keep_of hW main_v60 main_v42 rfl (by decide) k_main_v42
  replace k_main_v43 := keep_of hW main_v60 main_v43 rfl (by decide) k_main_v43
  replace k_main_v45 := keep_of hW main_v60 main_v45 rfl (by decide) k_main_v45
  replace k_main_v59 := keep_of hW main_v60 main_v59 rfl (by decide) k_main_v59
  clear hW k_main_c_15
  clear W89
  -- main_v61
  refine after_cons_exists (fun W91 hW => ?_)
  have k_main_v61 : W91 (Proc.devRef .tc main_v61) = ReadP.val_main_v61 (F := F) x2 :=
    wrote_of hW (by rw [binary_result, k_main_v42, k_main_v60] <;> rfl)
  replace k_main_arg0 := keep_of hW main_v61 main_arg0 rfl (by decide) k_main_arg0
  replace k_main_arg7 := keep_of hW main_v61 main_arg7 rfl (by decide) k_main_arg7
  replace k_main_arg8 := keep_of hW main_v61 main_arg8 rfl (by decide) k_main_arg8
  replace k_main_arg9 := keep_of hW main_v61 main_arg9 rfl (by decide) k_main_arg9
  replace k_main_arg10 := keep_of hW main_v61 main_arg10 rfl (by decide) k_main_arg10
  replace k_main_arg11 := keep_of hW main_v61 main_arg11 rfl (by decide) k_main_arg11
  replace k_main_arg12 := keep_of hW main_v61 main_arg12 rfl (by decide) k_main_arg12
  replace k_main_v42 := keep_of hW main_v61 main_v42 rfl (by decide) k_main_v42
  replace k_main_v43 := keep_of hW main_v61 main_v43 rfl (by decide) k_main_v43
  replace k_main_v45 := keep_of hW main_v61 main_v45 rfl (by decide) k_main_v45
  replace k_main_v59 := keep_of hW main_v61 main_v59 rfl (by decide) k_main_v59
  clear hW k_main_v60
  clear W90
  -- main_c_16
  refine after_cons_exists (fun W92 hW => ?_)
  have k_main_c_16 : W92 (Proc.devRef .tc main_c_16) = ReadP.val_main_c_16 (F := F) :=
    wrote_of hW (by rw [nullary_result] <;> rfl)
  replace k_main_arg0 := keep_of hW main_c_16 main_arg0 rfl (by decide) k_main_arg0
  replace k_main_arg7 := keep_of hW main_c_16 main_arg7 rfl (by decide) k_main_arg7
  replace k_main_arg8 := keep_of hW main_c_16 main_arg8 rfl (by decide) k_main_arg8
  replace k_main_arg9 := keep_of hW main_c_16 main_arg9 rfl (by decide) k_main_arg9
  replace k_main_arg10 := keep_of hW main_c_16 main_arg10 rfl (by decide) k_main_arg10
  replace k_main_arg11 := keep_of hW main_c_16 main_arg11 rfl (by decide) k_main_arg11
  replace k_main_arg12 := keep_of hW main_c_16 main_arg12 rfl (by decide) k_main_arg12
  replace k_main_v42 := keep_of hW main_c_16 main_v42 rfl (by decide) k_main_v42
  replace k_main_v43 := keep_of hW main_c_16 main_v43 rfl (by decide) k_main_v43
  replace k_main_v45 := keep_of hW main_c_16 main_v45 rfl (by decide) k_main_v45
  replace k_main_v59 := keep_of hW main_c_16 main_v59 rfl (by decide) k_main_v59
  replace k_main_v61 := keep_of hW main_c_16 main_v61 rfl (by decide) k_main_v61
  clear hW
  clear W91
  -- main_v62
  refine after_cons_exists (fun W93 hW => ?_)
  have k_main_v62 : W93 (Proc.devRef .tc main_v62) = ReadP.val_main_v62 (F := F) :=
    wrote_of hW (by rw [unary_result, k_main_c_16] <;> rfl)
  replace k_main_arg0 := keep_of hW main_v62 main_arg0 rfl (by decide) k_main_arg0
  replace k_main_arg7 := keep_of hW main_v62 main_arg7 rfl (by decide) k_main_arg7
  replace k_main_arg8 := keep_of hW main_v62 main_arg8 rfl (by decide) k_main_arg8
  replace k_main_arg9 := keep_of hW main_v62 main_arg9 rfl (by decide) k_main_arg9
  replace k_main_arg10 := keep_of hW main_v62 main_arg10 rfl (by decide) k_main_arg10
  replace k_main_arg11 := keep_of hW main_v62 main_arg11 rfl (by decide) k_main_arg11
  replace k_main_arg12 := keep_of hW main_v62 main_arg12 rfl (by decide) k_main_arg12
  replace k_main_v42 := keep_of hW main_v62 main_v42 rfl (by decide) k_main_v42
  replace k_main_v43 := keep_of hW main_v62 main_v43 rfl (by decide) k_main_v43
  replace k_main_v45 := keep_of hW main_v62 main_v45 rfl (by decide) k_main_v45
  replace k_main_v59 := keep_of hW main_v62 main_v59 rfl (by decide) k_main_v59
  replace k_main_v61 := keep_of hW main_v62 main_v61 rfl (by decide) k_main_v61
  clear hW k_main_c_16
  clear W92
  -- main_v63
  refine after_cons_exists (fun W94 hW => ?_)
  have k_main_v63 : W94 (Proc.devRef .tc main_v63) = ReadP.val_main_v63 (F := F) x2 :=
    wrote_of hW (by rw [binary_result, k_main_v42, k_main_v62] <;> rfl)
  replace k_main_arg0 := keep_of hW main_v63 main_arg0 rfl (by decide) k_main_arg0
  replace k_main_arg7 := keep_of hW main_v63 main_arg7 rfl (by decide) k_main_arg7
  replace k_main_arg8 := keep_of hW main_v63 main_arg8 rfl (by decide) k_main_arg8
  replace k_main_arg9 := keep_of hW main_v63 main_arg9 rfl (by decide) k_main_arg9
  replace k_main_arg10 := keep_of hW main_v63 main_arg10 rfl (by decide) k_main_arg10
  replace k_main_arg11 := keep_of hW main_v63 main_arg11 rfl (by decide) k_main_arg11
  replace k_main_arg12 := keep_of hW main_v63 main_arg12 rfl (by decide) k_main_arg12
  replace k_main_v42 := keep_of hW main_v63 main_v42 rfl (by decide) k_main_v42
  replace k_main_v43 := keep_of hW main_v63 main_v43 rfl (by decide) k_main_v43
  replace k_main_v45 := keep_of hW main_v63 main_v45 rfl (by decide) k_main_v45
  replace k_main_v59 := keep_of hW main_v63 main_v59 rfl (by decide) k_main_v59
  replace k_main_v61 := keep_of hW main_v63 main_v61 rfl (by decide) k_main_v61
  clear hW k_main_v62
  clear W93
  -- main_v64
  refine after_cons_exists (fun W95 hW => ?_)
  have k_main_v64 : W95 (Proc.devRef .tc main_v64) = ReadP.val_main_v64 (F := F) x2 :=
    wrote_of hW (by rw [ternary_result, k_main_v61, k_main_v63, k_main_v42] <;> rfl)
  replace k_main_arg0 := keep_of hW main_v64 main_arg0 rfl (by decide) k_main_arg0
  replace k_main_arg7 := keep_of hW main_v64 main_arg7 rfl (by decide) k_main_arg7
  replace k_main_arg8 := keep_of hW main_v64 main_arg8 rfl (by decide) k_main_arg8
  replace k_main_arg9 := keep_of hW main_v64 main_arg9 rfl (by decide) k_main_arg9
  replace k_main_arg10 := keep_of hW main_v64 main_arg10 rfl (by decide) k_main_arg10
  replace k_main_arg11 := keep_of hW main_v64 main_arg11 rfl (by decide) k_main_arg11
  replace k_main_arg12 := keep_of hW main_v64 main_arg12 rfl (by decide) k_main_arg12
  replace k_main_v42 := keep_of hW main_v64 main_v42 rfl (by decide) k_main_v42
  replace k_main_v43 := keep_of hW main_v64 main_v43 rfl (by decide) k_main_v43
  replace k_main_v45 := keep_of hW main_v64 main_v45 rfl (by decide) k_main_v45
  replace k_main_v59 := keep_of hW main_v64 main_v59 rfl (by decide) k_main_v59
  clear hW k_main_v61 k_main_v63
  clear W94
  -- main_v65
  refine after_cons_exists (fun W96 hW => ?_)
  have k_main_v65 : W96 (Proc.devRef .tc main_v65) = ReadP.val_main_v65 (F := F) x2 :=
    wrote_of hW (by rw [unary_result, k_main_v64] <;> rfl)
  replace k_main_arg0 := keep_of hW main_v65 main_arg0 rfl (by decide) k_main_arg0
  replace k_main_arg7 := keep_of hW main_v65 main_arg7 rfl (by decide) k_main_arg7
  replace k_main_arg8 := keep_of hW main_v65 main_arg8 rfl (by decide) k_main_arg8
  replace k_main_arg9 := keep_of hW main_v65 main_arg9 rfl (by decide) k_main_arg9
  replace k_main_arg10 := keep_of hW main_v65 main_arg10 rfl (by decide) k_main_arg10
  replace k_main_arg11 := keep_of hW main_v65 main_arg11 rfl (by decide) k_main_arg11
  replace k_main_arg12 := keep_of hW main_v65 main_arg12 rfl (by decide) k_main_arg12
  replace k_main_v42 := keep_of hW main_v65 main_v42 rfl (by decide) k_main_v42
  replace k_main_v43 := keep_of hW main_v65 main_v43 rfl (by decide) k_main_v43
  replace k_main_v45 := keep_of hW main_v65 main_v45 rfl (by decide) k_main_v45
  replace k_main_v59 := keep_of hW main_v65 main_v59 rfl (by decide) k_main_v59
  clear hW k_main_v64
  clear W95
  -- main_v66
  refine after_cons_exists (fun W97 hW => ?_)
  have k_main_v66 : W97 (Proc.devRef .tc main_v66) = ReadP.val_main_v66 (F := F) x1 x2 x3 x4 x5 x6 :=
    wrote_of hW (by rw [binary_result, k_main_v59, k_main_v65] <;> rfl)
  replace k_main_arg0 := keep_of hW main_v66 main_arg0 rfl (by decide) k_main_arg0
  replace k_main_arg7 := keep_of hW main_v66 main_arg7 rfl (by decide) k_main_arg7
  replace k_main_arg8 := keep_of hW main_v66 main_arg8 rfl (by decide) k_main_arg8
  replace k_main_arg9 := keep_of hW main_v66 main_arg9 rfl (by decide) k_main_arg9
  replace k_main_arg10 := keep_of hW main_v66 main_arg10 rfl (by decide) k_main_arg10
  replace k_main_arg11 := keep_of hW main_v66 main_arg11 rfl (by decide) k_main_arg11
  replace k_main_arg12 := keep_of hW main_v66 main_arg12 rfl (by decide) k_main_arg12
  replace k_main_v42 := keep_of hW main_v66 main_v42 rfl (by decide) k_main_v42
  replace k_main_v43 := keep_of hW main_v66 main_v43 rfl (by decide) k_main_v43
  replace k_main_v45 := keep_of hW main_v66 main_v45 rfl (by decide) k_main_v45
  replace k_main_v59 := keep_of hW main_v66 main_v59 rfl (by decide) k_main_v59
  clear hW k_main_v65
  clear W96
  -- main_v67
  refine after_cons_exists (fun W98 hW => ?_)
  have k_main_v67 : W98 (Proc.devRef .tc main_v67) = ReadP.val_main_v67 (F := F) x1 x2 x3 x4 x5 x6 :=
    wrote_of hW (by rw [binary_result, k_main_v66, k_main_v45] <;> rfl)
  replace k_main_arg0 := keep_of hW main_v67 main_arg0 rfl (by decide) k_main_arg0
  replace k_main_arg7 := keep_of hW main_v67 main_arg7 rfl (by decide) k_main_arg7
  replace k_main_arg8 := keep_of hW main_v67 main_arg8 rfl (by decide) k_main_arg8
  replace k_main_arg9 := keep_of hW main_v67 main_arg9 rfl (by decide) k_main_arg9
  replace k_main_arg10 := keep_of hW main_v67 main_arg10 rfl (by decide) k_main_arg10
  replace k_main_arg11 := keep_of hW main_v67 main_arg11 rfl (by decide) k_main_arg11
  replace k_main_arg12 := keep_of hW main_v67 main_arg12 rfl (by decide) k_main_arg12
  replace k_main_v42 := keep_of hW main_v67 main_v42 rfl (by decide) k_main_v42
  replace k_main_v43 := keep_of hW main_v67 main_v43 rfl (by decide) k_main_v43
  replace k_main_v59 := keep_of hW main_v67 main_v59 rfl (by decide) k_main_v59
  clear hW k_main_v45 k_main_v66
  clear W97
  -- main_c_17
  refine after_cons_exists (fun W99 hW => ?_)
  have k_main_c_17 : W99 (Proc.devRef .tc main_c_17) = ReadP.val_main_c_17 (F := F) :=
    wrote_of hW (by rw [nullary_result] <;> rfl)
  replace k_main_arg0 := keep_of hW main_c_17 main_arg0 rfl (by decide) k_main_arg0
  replace k_main_arg7 := keep_of hW main_c_17 main_arg7 rfl (by decide) k_main_arg7
  replace k_main_arg8 := keep_of hW main_c_17 main_arg8 rfl (by decide) k_main_arg8
  replace k_main_arg9 := keep_of hW main_c_17 main_arg9 rfl (by decide) k_main_arg9
  replace k_main_arg10 := keep_of hW main_c_17 main_arg10 rfl (by decide) k_main_arg10
  replace k_main_arg11 := keep_of hW main_c_17 main_arg11 rfl (by decide) k_main_arg11
  replace k_main_arg12 := keep_of hW main_c_17 main_arg12 rfl (by decide) k_main_arg12
  replace k_main_v42 := keep_of hW main_c_17 main_v42 rfl (by decide) k_main_v42
  replace k_main_v43 := keep_of hW main_c_17 main_v43 rfl (by decide) k_main_v43
  replace k_main_v59 := keep_of hW main_c_17 main_v59 rfl (by decide) k_main_v59
  replace k_main_v67 := keep_of hW main_c_17 main_v67 rfl (by decide) k_main_v67
  clear hW
  clear W98
  -- main_v68
  refine after_cons_exists (fun W100 hW => ?_)
  have k_main_v68 : W100 (Proc.devRef .tc main_v68) = ReadP.val_main_v68 (F := F) :=
    wrote_of hW (by rw [unary_result, k_main_c_17] <;> rfl)
  replace k_main_arg0 := keep_of hW main_v68 main_arg0 rfl (by decide) k_main_arg0
  replace k_main_arg7 := keep_of hW main_v68 main_arg7 rfl (by decide) k_main_arg7
  replace k_main_arg8 := keep_of hW main_v68 main_arg8 rfl (by decide) k_main_arg8
  replace k_main_arg9 := keep_of hW main_v68 main_arg9 rfl (by decide) k_main_arg9
  replace k_main_arg10 := keep_of hW main_v68 main_arg10 rfl (by decide) k_main_arg10
  replace k_main_arg11 := keep_of hW main_v68 main_arg11 rfl (by decide) k_main_arg11
  replace k_main_arg12 := keep_of hW main_v68 main_arg12 rfl (by decide) k_main_arg12
  replace k_main_v42 := keep_of hW main_v68 main_v42 rfl (by decide) k_main_v42
  replace k_main_v43 := keep_of hW main_v68 main_v43 rfl (by decide) k_main_v43
  replace k_main_v59 := keep_of hW main_v68 main_v59 rfl (by decide) k_main_v59
  replace k_main_v67 := keep_of hW main_v68 main_v67 rfl (by decide) k_main_v67
  clear hW k_main_c_17
  clear W99
  -- main_v69
  refine after_cons_exists (fun W101 hW => ?_)
  have k_main_v69 : W101 (Proc.devRef .tc main_v69) = ReadP.val_main_v69 (F := F) x2 :=
    wrote_of hW (by rw [binary_result, k_main_v43, k_main_v68] <;> rfl)
  replace k_main_arg0 := keep_of hW main_v69 main_arg0 rfl (by decide) k_main_arg0
  replace k_main_arg7 := keep_of hW main_v69 main_arg7 rfl (by decide) k_main_arg7
  replace k_main_arg8 := keep_of hW main_v69 main_arg8 rfl (by decide) k_main_arg8
  replace k_main_arg9 := keep_of hW main_v69 main_arg9 rfl (by decide) k_main_arg9
  replace k_main_arg10 := keep_of hW main_v69 main_arg10 rfl (by decide) k_main_arg10
  replace k_main_arg11 := keep_of hW main_v69 main_arg11 rfl (by decide) k_main_arg11
  replace k_main_arg12 := keep_of hW main_v69 main_arg12 rfl (by decide) k_main_arg12
  replace k_main_v42 := keep_of hW main_v69 main_v42 rfl (by decide) k_main_v42
  replace k_main_v43 := keep_of hW main_v69 main_v43 rfl (by decide) k_main_v43
  replace k_main_v59 := keep_of hW main_v69 main_v59 rfl (by decide) k_main_v59
  replace k_main_v67 := keep_of hW main_v69 main_v67 rfl (by decide) k_main_v67
  clear hW k_main_v68
  clear W100
  -- main_c_18
  refine after_cons_exists (fun W102 hW => ?_)
  have k_main_c_18 : W102 (Proc.devRef .tc main_c_18) = ReadP.val_main_c_18 (F := F) :=
    wrote_of hW (by rw [nullary_result] <;> rfl)
  replace k_main_arg0 := keep_of hW main_c_18 main_arg0 rfl (by decide) k_main_arg0
  replace k_main_arg7 := keep_of hW main_c_18 main_arg7 rfl (by decide) k_main_arg7
  replace k_main_arg8 := keep_of hW main_c_18 main_arg8 rfl (by decide) k_main_arg8
  replace k_main_arg9 := keep_of hW main_c_18 main_arg9 rfl (by decide) k_main_arg9
  replace k_main_arg10 := keep_of hW main_c_18 main_arg10 rfl (by decide) k_main_arg10
  replace k_main_arg11 := keep_of hW main_c_18 main_arg11 rfl (by decide) k_main_arg11
  replace k_main_arg12 := keep_of hW main_c_18 main_arg12 rfl (by decide) k_main_arg12
  replace k_main_v42 := keep_of hW main_c_18 main_v42 rfl (by decide) k_main_v42
  replace k_main_v43 := keep_of hW main_c_18 main_v43 rfl (by decide) k_main_v43
  replace k_main_v59 := keep_of hW main_c_18 main_v59 rfl (by decide) k_main_v59
  replace k_main_v67 := keep_of hW main_c_18 main_v67 rfl (by decide) k_main_v67
  replace k_main_v69 := keep_of hW main_c_18 main_v69 rfl (by decide) k_main_v69
  clear hW
  clear W101
  -- main_v70
  refine after_cons_exists (fun W103 hW => ?_)
  have k_main_v70 : W103 (Proc.devRef .tc main_v70) = ReadP.val_main_v70 (F := F) :=
    wrote_of hW (by rw [unary_result, k_main_c_18] <;> rfl)
  replace k_main_arg0 := keep_of hW main_v70 main_arg0 rfl (by decide) k_main_arg0
  replace k_main_arg7 := keep_of hW main_v70 main_arg7 rfl (by decide) k_main_arg7
  replace k_main_arg8 := keep_of hW main_v70 main_arg8 rfl (by decide) k_main_arg8
  replace k_main_arg9 := keep_of hW main_v70 main_arg9 rfl (by decide) k_main_arg9
  replace k_main_arg10 := keep_of hW main_v70 main_arg10 rfl (by decide) k_main_arg10
  replace k_main_arg11 := keep_of hW main_v70 main_arg11 rfl (by decide) k_main_arg11
  replace k_main_arg12 := keep_of hW main_v70 main_arg12 rfl (by decide) k_main_arg12
  replace k_main_v42 := keep_of hW main_v70 main_v42 rfl (by decide) k_main_v42
  replace k_main_v43 := keep_of hW main_v70 main_v43 rfl (by decide) k_main_v43
  replace k_main_v59 := keep_of hW main_v70 main_v59 rfl (by decide) k_main_v59
  replace k_main_v67 := keep_of hW main_v70 main_v67 rfl (by decide) k_main_v67
  replace k_main_v69 := keep_of hW main_v70 main_v69 rfl (by decide) k_main_v69
  clear hW k_main_c_18
  clear W102
  -- main_v71
  refine after_cons_exists (fun W104 hW => ?_)
  have k_main_v71 : W104 (Proc.devRef .tc main_v71) = ReadP.val_main_v71 (F := F) x2 :=
    wrote_of hW (by rw [binary_result, k_main_v43, k_main_v70] <;> rfl)
  replace k_main_arg0 := keep_of hW main_v71 main_arg0 rfl (by decide) k_main_arg0
  replace k_main_arg7 := keep_of hW main_v71 main_arg7 rfl (by decide) k_main_arg7
  replace k_main_arg8 := keep_of hW main_v71 main_arg8 rfl (by decide) k_main_arg8
  replace k_main_arg9 := keep_of hW main_v71 main_arg9 rfl (by decide) k_main_arg9
  replace k_main_arg10 := keep_of hW main_v71 main_arg10 rfl (by decide) k_main_arg10
  replace k_main_arg11 := keep_of hW main_v71 main_arg11 rfl (by decide) k_main_arg11
  replace k_main_arg12 := keep_of hW main_v71 main_arg12 rfl (by decide) k_main_arg12
  replace k_main_v42 := keep_of hW main_v71 main_v42 rfl (by decide) k_main_v42
  replace k_main_v43 := keep_of hW main_v71 main_v43 rfl (by decide) k_main_v43
  replace k_main_v59 := keep_of hW main_v71 main_v59 rfl (by decide) k_main_v59
  replace k_main_v67 := keep_of hW main_v71 main_v67 rfl (by decide) k_main_v67
  replace k_main_v69 := keep_of hW main_v71 main_v69 rfl (by decide) k_main_v69
  clear hW k_main_v70
  clear W103
  -- main_v72
  refine after_cons_exists (fun W105 hW => ?_)
  have k_main_v72 : W105 (Proc.devRef .tc main_v72) = ReadP.val_main_v72 (F := F) x2 :=
    wrote_of hW (by rw [ternary_result, k_main_v69, k_main_v71, k_main_v43] <;> rfl)
  replace k_main_arg0 := keep_of hW main_v72 main_arg0 rfl (by decide) k_main_arg0
  replace k_main_arg7 := keep_of hW main_v72 main_arg7 rfl (by decide) k_main_arg7
  replace k_main_arg8 := keep_of hW main_v72 main_arg8 rfl (by decide) k_main_arg8
  replace k_main_arg9 := keep_of hW main_v72 main_arg9 rfl (by decide) k_main_arg9
  replace k_main_arg10 := keep_of hW main_v72 main_arg10 rfl (by decide) k_main_arg10
  replace k_main_arg11 := keep_of hW main_v72 main_arg11 rfl (by decide) k_main_arg11
  replace k_main_arg12 := keep_of hW main_v72 main_arg12 rfl (by decide) k_main_arg12
  replace k_main_v42 := keep_of hW main_v72 main_v42 rfl (by decide) k_main_v42
  replace k_main_v43 := keep_of hW main_v72 main_v43 rfl (by decide) k_main_v43
  replace k_main_v59 := keep_of hW main_v72 main_v59 rfl (by decide) k_main_v59
  replace k_main_v67 := keep_of hW main_v72 main_v67 rfl (by decide) k_main_v67
  clear hW k_main_v69 k_main_v71
  clear W104
  -- main_v73
  refine after_cons_exists (fun W106 hW => ?_)
  have k_main_v73 : W106 (Proc.devRef .tc main_v73) = ReadP.val_main_v73 (F := F) x2 :=
    wrote_of hW (by rw [unary_result, k_main_v72] <;> rfl)
  replace k_main_arg0 := keep_of hW main_v73 main_arg0 rfl (by decide) k_main_arg0
  replace k_main_arg7 := keep_of hW main_v73 main_arg7 rfl (by decide) k_main_arg7
  replace k_main_arg8 := keep_of hW main_v73 main_arg8 rfl (by decide) k_main_arg8
  replace k_main_arg9 := keep_of hW main_v73 main_arg9 rfl (by decide) k_main_arg9
  replace k_main_arg10 := keep_of hW main_v73 main_arg10 rfl (by decide) k_main_arg10
  replace k_main_arg11 := keep_of hW main_v73 main_arg11 rfl (by decide) k_main_arg11
  replace k_main_arg12 := keep_of hW main_v73 main_arg12 rfl (by decide) k_main_arg12
  replace k_main_v42 := keep_of hW main_v73 main_v42 rfl (by decide) k_main_v42
  replace k_main_v43 := keep_of hW main_v73 main_v43 rfl (by decide) k_main_v43
  replace k_main_v59 := keep_of hW main_v73 main_v59 rfl (by decide) k_main_v59
  replace k_main_v67 := keep_of hW main_v73 main_v67 rfl (by decide) k_main_v67
  clear hW k_main_v72
  clear W105
  -- main_v74
  refine after_cons_exists (fun W107 hW => ?_)
  have k_main_v74 : W107 (Proc.devRef .tc main_v74) = ReadP.val_main_v74 (F := F) x1 x2 x3 x4 x5 x6 :=
    wrote_of hW (by rw [binary_result, k_main_v59, k_main_v73] <;> rfl)
  replace k_main_arg0 := keep_of hW main_v74 main_arg0 rfl (by decide) k_main_arg0
  replace k_main_arg7 := keep_of hW main_v74 main_arg7 rfl (by decide) k_main_arg7
  replace k_main_arg8 := keep_of hW main_v74 main_arg8 rfl (by decide) k_main_arg8
  replace k_main_arg9 := keep_of hW main_v74 main_arg9 rfl (by decide) k_main_arg9
  replace k_main_arg10 := keep_of hW main_v74 main_arg10 rfl (by decide) k_main_arg10
  replace k_main_arg11 := keep_of hW main_v74 main_arg11 rfl (by decide) k_main_arg11
  replace k_main_arg12 := keep_of hW main_v74 main_arg12 rfl (by decide) k_main_arg12
  replace k_main_v42 := keep_of hW main_v74 main_v42 rfl (by decide) k_main_v42
  replace k_main_v43 := keep_of hW main_v74 main_v43 rfl (by decide) k_main_v43
  replace k_main_v67 := keep_of hW main_v74 main_v67 rfl (by decide) k_main_v67
  clear hW k_main_v59 k_main_v73
  clear W106
  -- main_v75
  refine after_cons_exists (fun W108 hW => ?_)
  have k_main_v75 : W108 (Proc.devRef .tc main_v75) = ReadP.val_main_v75 (F := F) x1 x2 x3 x4 x5 x6 :=
    wrote_of hW (by rw [binary_result, k_main_v67, k_main_v74] <;> rfl)
  replace k_main_arg0 := keep_of hW main_v75 main_arg0 rfl (by decide) k_main_arg0
  replace k_main_arg7 := keep_of hW main_v75 main_arg7 rfl (by decide) k_main_arg7
  replace k_main_arg8 := keep_of hW main_v75 main_arg8 rfl (by decide) k_main_arg8
  replace k_main_arg9 := keep_of hW main_v75 main_arg9 rfl (by decide) k_main_arg9
  replace k_main_arg10 := keep_of hW main_v75 main_arg10 rfl (by decide) k_main_arg10
  replace k_main_arg11 := keep_of hW main_v75 main_arg11 rfl (by decide) k_main_arg11
  replace k_main_arg12 := keep_of hW main_v75 main_arg12 rfl (by decide) k_main_arg12
  replace k_main_v42 := keep_of hW main_v75 main_v42 rfl (by decide) k_main_v42
  replace k_main_v43 := keep_of hW main_v75 main_v43 rfl (by decide) k_main_v43
  clear hW k_main_v67 k_main_v74
  clear W107
  exact after_nil_exists ⟨k_main_arg0, k_main_arg7, k_main_arg8, k_main_arg9, k_main_arg10, k_main_arg11, k_main_arg12, k_main_v42, k_main_v43, k_main_v75⟩

/-- Operations 108 to 168 of the program (its own text, in order). -/
abbrev win2 : List (HloOp τ sig (Elt F)) :=
  [
    unary main_arg7 main_v76 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v76 main_v77 rfl shapeCasts_S1x128x128_S128x128,
    binary main_arg0 main_v77 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v75 main_v79 (broadcastInDim S1700000x1 ![0] bcast_S1700000_S1700000x1_0 : (⟨S1700000, .f32⟩ : BufTy).Contents (Elt F) → (⟨S1700000x1, .f32⟩ : BufTy).Contents (Elt F)),
    nullary main_c_19 (constantI S_ 32 0#32),
    unary main_c_19 main_v80 (broadcastInDim S1700000 ![] bcast_S_S1700000 : (⟨S_, .i32⟩ : BufTy).Contents (Elt F) → (⟨S1700000, .i32⟩ : BufTy).Contents (Elt F)),
    binary main_v42 main_v80 main_v81 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v82 (broadcastInDim S1700000 ![] bcast_S_S1700000 : (⟨S_, .i32⟩ : BufTy).Contents (Elt F) → (⟨S1700000, .i32⟩ : BufTy).Contents (Elt F)),
    binary main_v42 main_v82 main_v83 (addi : (⟨S1700000, .i32⟩ : BufTy).Contents (Elt F) → (⟨S1700000, .i32⟩ : BufTy).Contents (Elt F) → (⟨S1700000, .i32⟩ : BufTy).Contents (Elt F)),
    ternary main_v81 main_v83 main_v42 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v84 main_v85 (broadcastInDim S1700000x1 ![0] bcast_S1700000_S1700000x1_0 : (⟨S1700000, .i32⟩ : BufTy).Contents (Elt F) → (⟨S1700000x1, .i32⟩ : BufTy).Contents (Elt F)),
    binary main_v78 main_v85 main_v86 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v79 main_v87 (broadcastInDim S1700000x128 ![0, 1] bcast_S1700000x1_S1700000x128_0_1 : (⟨S1700000x1, .f32⟩ : BufTy).Contents (Elt F) → (⟨S1700000x128, .f32⟩ : BufTy).Contents (Elt F)),
    binary main_v87 main_v86 main_v88 (mulf : (⟨S1700000x128, .f32⟩ : BufTy).Contents (Elt F) → (⟨S1700000x128, .f32⟩ : BufTy).Contents (Elt F) → (⟨S1700000x128, .f32⟩ : BufTy).Contents (Elt F)),
    nullary main_cst_21 (constant S_ .f32 0x00000000#32),
    unary main_cst_21 main_v89 (broadcastInDim S100000x128 ![] bcast_S_S100000x128 : (⟨S_, .f32⟩ : BufTy).Contents (Elt F) → (⟨S100000x128, .f32⟩ : BufTy).Contents (Elt F)),
    unary main_v43 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v92 ((extractStridedSlice S1x128 ![0, 0] · slices_S2x128_S1x128_0_0) : (⟨S2x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v91 main_v95 main_v96 (addf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    binary main_v96 main_cst_22 main_v97 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v97 main_v98 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43000000#32),
    unary main_cst_23 main_v99 (broadcastInDim S100000x1 ![] bcast_S_S100000x1 : (⟨S_, .f32⟩ : BufTy).Contents (Elt F) → (⟨S100000x1, .f32⟩ : BufTy).Contents (Elt F)),
    binary main_v98 main_v99 main_v100 (Host.divf : (⟨S100000x1, .f32⟩ : BufTy).Contents (Elt F) → (⟨S100000x1, .f32⟩ : BufTy).Contents (Elt F) → (⟨S100000x1, .f32⟩ : BufTy).Contents (Elt F)),
    unary main_v100 main_v101 (broadcastInDim S100000x128 ![0, 1] bcast_S100000x1_S100000x128_0_1 : (⟨S100000x1, .f32⟩ : BufTy).Contents (Elt F) → (⟨S100000x128, .f32⟩ : BufTy).Contents (Elt F)),
    binary main_v96 main_v101 main_v102 (subf : (⟨S100000x128, .f32⟩ : BufTy).Contents (Elt F) → (⟨S100000x128, .f32⟩ : BufTy).Contents (Elt F) → (⟨S100000x128, .f32⟩ : BufTy).Contents (Elt F)),
    binary main_v102 main_v102 main_v103 (mulf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x00000000#32),
    binary main_v103 main_cst_24 main_v104 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v104 main_v105 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v106 (broadcastInDim S100000x1 ![] bcast_S_S100000x1 : (⟨S_, .f32⟩ : BufTy).Contents (Elt F) → (⟨S100000x1, .f32⟩ : BufTy).Contents (Elt F)),
    binary main_v105 main_v106 main_v107 (Host.divf : (⟨S100000x1, .f32⟩ : BufTy).Contents (Elt F) → (⟨S100000x1, .f32⟩ : BufTy).Contents (Elt F) → (⟨S100000x1, .f32⟩ : BufTy).Contents (Elt F)),
    unary main_v100 main_v108 (broadcastInDim S100000x128 ![0, 1] bcast_S100000x1_S100000x128_0_1 : (⟨S100000x1, .f32⟩ : BufTy).Contents (Elt F) → (⟨S100000x128, .f32⟩ : BufTy).Contents (Elt F)),
    binary main_v96 main_v108 main_v109 (subf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v110 (broadcastInDim S100000x1 ![] bcast_S_S100000x1 : (⟨S_, .f32⟩ : BufTy).Contents (Elt F) → (⟨S100000x1, .f32⟩ : BufTy).Contents (Elt F)),
    binary main_v107 main_v110 main_v111 (addf : (⟨S100000x1, .f32⟩ : BufTy).Contents (Elt F) → (⟨S100000x1, .f32⟩ : BufTy).Contents (Elt F) → (⟨S100000x1, .f32⟩ : BufTy).Contents (Elt F)),
    unary main_v111 main_v112 (Host.rsqrt : (⟨S100000x1, .f32⟩ : BufTy).Contents (Elt F) → (⟨S100000x1, .f32⟩ : BufTy).Contents (Elt F)),
    unary main_v112 main_v113 (broadcastInDim S100000x128 ![0, 1] bcast_S100000x1_S100000x128_0_1 : (⟨S100000x1, .f32⟩ : BufTy).Contents (Elt F) → (⟨S100000x128, .f32⟩ : BufTy).Contents (Elt F)),
    binary main_v109 main_v113 main_v114 (mulf : (⟨S100000x128, .f32⟩ : BufTy).Contents (Elt F) → (⟨S100000x128, .f32⟩ : BufTy).Contents (Elt F) → (⟨S100000x128, .f32⟩ : BufTy).Contents (Elt F)),
    unary main_arg9 main_v115 ((extractStridedSlice S1x128 ![0, 0] · slices_S2x128_S1x128_0_0) : (⟨S2x128, .f32⟩ : BufTy).Contents (Elt F) → (⟨S1x128, .f32⟩ : BufTy).Contents (Elt F)),
    reshape main_v115 main_v116 rfl shapeCasts_S1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v114 main_v118 main_v119 (mulf : (⟨S100000x128, .f32⟩ : BufTy).Contents (Elt F) → (⟨S100000x128, .f32⟩ : BufTy).Contents (Elt F) → (⟨S100000x128, .f32⟩ : BufTy).Contents (Elt F)),
    unary main_arg10 main_v120 ((extractStridedSlice S1x128 ![0, 0] · slices_S2x128_S1x128_0_0) : (⟨S2x128, .f32⟩ : BufTy).Contents (Elt F) → (⟨S1x128, .f32⟩ : BufTy).Contents (Elt F)),
    reshape main_v120 main_v121 rfl shapeCasts_S1x128_S128,
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v119 main_v123 main_v124 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v124) (TRef.of (T := ⟨S100000x128, .f32⟩) main_call4_v0) (TRef.of (T := ⟨S100000x128, .f32⟩) main_v125) maximumf,
    binary main_arg0 main_v125 main_v126 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 8000000 in
/-- Window 2: from contents that hold, in each buffer still to be read, its stage of the arguments, the window ends at
    contents that do so again. -/
theorem win2_post (x0 : (⟨S100000x128, .f32⟩ : BufTy).Contents (Elt F)) (x1 : (⟨S100000x16, .f32⟩ : BufTy).Contents (Elt F)) (x2 : (⟨S2x1600000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S2x128x128, .f32⟩ : BufTy).Contents (Elt F)) (x8 : (⟨S2x128, .f32⟩ : BufTy).Contents (Elt F)) (x9 : (⟨S2x128, .f32⟩ : BufTy).Contents (Elt F)) (x10 : (⟨S2x128, .f32⟩ : BufTy).Contents (Elt F)) (x11 : (⟨S128x64, .f32⟩ : BufTy).Contents (Elt F)) (x12 : (⟨S64, .f32⟩ : BufTy).Contents (Elt F)) (W108 : Valuation τ sig (Elt F))
    (k_main_arg0 : W108 (Proc.devRef .tc main_arg0) = x0)
    (k_main_arg7 : W108 (Proc.devRef .tc main_arg7) = x7)
    (k_main_arg8 : W108 (Proc.devRef .tc main_arg8) = x8)
    (k_main_arg9 : W108 (Proc.devRef .tc main_arg9) = x9)
    (k_main_arg10 : W108 (Proc.devRef .tc main_arg10) = x10)
    (k_main_arg11 : W108 (Proc.devRef .tc main_arg11) = x11)
    (k_main_arg12 : W108 (Proc.devRef .tc main_arg12) = x12)
    (k_main_v42 : W108 (Proc.devRef .tc main_v42) = ReadP.val_main_v42 (F := F) x2)
    (k_main_v43 : W108 (Proc.devRef .tc main_v43) = ReadP.val_main_v43 (F := F) x2)
    (k_main_v75 : W108 (Proc.devRef .tc main_v75) = ReadP.val_main_v75 (F := F) x1 x2 x3 x4 x5 x6)
    : ∃ W' : Valuation τ sig (Elt F), after (win2 (F := F)) W108 = W'
      ∧ W' (Proc.devRef .tc main_arg7) = x7
      ∧ W' (Proc.devRef .tc main_arg8) = x8
      ∧ W' (Proc.devRef .tc main_arg9) = x9
      ∧ W' (Proc.devRef .tc main_arg10) = x10
      ∧ W' (Proc.devRef .tc main_arg11) = x11
      ∧ W' (Proc.devRef .tc main_arg12) = x12
      ∧ W' (Proc.devRef .tc main_v42) = ReadP.val_main_v42 (F := F) x2
      ∧ W' (Proc.devRef .tc main_v43) = ReadP.val_main_v43 (F := F) x2
      ∧ W' (Proc.devRef .tc main_v75) = ReadP.val_main_v75 (F := F) x1 x2 x3 x4 x5 x6
      ∧ W' (Proc.devRef .tc main_v126) = ReadP.val_main_v126 (F := F) x0 x1 x2 x3 x4 x5 x6 x7 x8 x9 x10 := by
  unfold win2
  -- main_v76
  refine after_cons_exists (fun W109 hW => ?_)
  have k_main_v76 : W109 (Proc.devRef .tc main_v76) = ReadP.val_main_v76 (F := F) x7 :=
    wrote_of hW (by rw [unary_result, k_main_arg7] <;> rfl)
  replace k_main_arg0 := keep_of hW main_v76 main_arg0 rfl (by decide) k_main_arg0
  replace k_main_arg7 := keep_of hW main_v76 main_arg7 rfl (by decide) k_main_arg7
  replace k_main_arg8 := keep_of hW main_v76 main_arg8 rfl (by decide) k_main_arg8
  replace k_main_arg9 := keep_of hW main_v76 main_arg9 rfl (by decide) k_main_arg9
  replace k_main_arg10 := keep_of hW main_v76 main_arg10 rfl (by decide) k_main_arg10
  replace k_main_arg11 := keep_of hW main_v76 main_arg11 rfl (by decide) k_main_arg11
  replace k_main_arg12 := keep_of hW main_v76 main_arg12 rfl (by decide) k_main_arg12
  replace k_main_v42 := keep_of hW main_v76 main_v42 rfl (by decide) k_main_v42
  replace k_main_v43 := keep_of hW main_v76 main_v43 rfl (by decide) k_main_v43
  replace k_main_v75 := keep_of hW main_v76 main_v75 rfl (by decide) k_main_v75
  clear hW
  clear W108
  -- main_v77
  refine after_cons_exists (fun W110 hW => ?_)
  have k_main_v77 : W110 (Proc.devRef .tc main_v77) = ReadP.val_main_v77 (F := F) x7 :=
    wrote_of hW (by rw [reshape_result, k_main_v76] <;> rfl)
  replace k_main_arg0 := keep_of hW main_v77 main_arg0 rfl (by decide) k_main_arg0
  replace k_main_arg7 := keep_of hW main_v77 main_arg7 rfl (by decide) k_main_arg7
  replace k_main_arg8 := keep_of hW main_v77 main_arg8 rfl (by decide) k_main_arg8
  replace k_main_arg9 := keep_of hW main_v77 main_arg9 rfl (by decide) k_main_arg9
  replace k_main_arg10 := keep_of hW main_v77 main_arg10 rfl (by decide) k_main_arg10
  replace k_main_arg11 := keep_of hW main_v77 main_arg11 rfl (by decide) k_main_arg11
  replace k_main_arg12 := keep_of hW main_v77 main_arg12 rfl (by decide) k_main_arg12
  replace k_main_v42 := keep_of hW main_v77 main_v42 rfl (by decide) k_main_v42
  replace k_main_v43 := keep_of hW main_v77 main_v43 rfl (by decide) k_main_v43
  replace k_main_v75 := keep_of hW main_v77 main_v75 rfl (by decide) k_main_v75
  clear hW k_main_v76
  clear W109
  -- main_v78
  refine after_cons_exists (fun W111 hW => ?_)
  have k_main_v78 : W111 (Proc.devRef .tc main_v78) = ReadP.val_main_v78 (F := F) x0 x7 :=
    wrote_of hW (by rw [binary_result, k_main_arg0, k_main_v77] <;> rfl)
  replace k_main_arg0 := keep_of hW main_v78 main_arg0 rfl (by decide) k_main_arg0
  replace k_main_arg7 := keep_of hW main_v78 main_arg7 rfl (by decide) k_main_arg7
  replace k_main_arg8 := keep_of hW main_v78 main_arg8 rfl (by decide) k_main_arg8
  replace k_main_arg9 := keep_of hW main_v78 main_arg9 rfl (by decide) k_main_arg9
  replace k_main_arg10 := keep_of hW main_v78 main_arg10 rfl (by decide) k_main_arg10
  replace k_main_arg11 := keep_of hW main_v78 main_arg11 rfl (by decide) k_main_arg11
  replace k_main_arg12 := keep_of hW main_v78 main_arg12 rfl (by decide) k_main_arg12
  replace k_main_v42 := keep_of hW main_v78 main_v42 rfl (by decide) k_main_v42
  replace k_main_v43 := keep_of hW main_v78 main_v43 rfl (by decide) k_main_v43
  replace k_main_v75 := keep_of hW main_v78 main_v75 rfl (by decide) k_main_v75
  clear hW k_main_v77
  clear W110
  -- main_v79
  refine after_cons_exists (fun W112 hW => ?_)
  have k_main_v79 : W112 (Proc.devRef .tc main_v79) = ReadP.val_main_v79 (F := F) x1 x2 x3 x4 x5 x6 :=
    wrote_of hW (by rw [unary_result, k_main_v75] <;> rfl)
  replace k_main_arg0 := keep_of hW main_v79 main_arg0 rfl (by decide) k_main_arg0
  replace k_main_arg7 := keep_of hW main_v79 main_arg7 rfl (by decide) k_main_arg7
  replace k_main_arg8 := keep_of hW main_v79 main_arg8 rfl (by decide) k_main_arg8
  replace k_main_arg9 := keep_of hW main_v79 main_arg9 rfl (by decide) k_main_arg9
  replace k_main_arg10 := keep_of hW main_v79 main_arg10 rfl (by decide) k_main_arg10
  replace k_main_arg11 := keep_of hW main_v79 main_arg11 rfl (by decide) k_main_arg11
  replace k_main_arg12 := keep_of hW main_v79 main_arg12 rfl (by decide) k_main_arg12
  replace k_main_v42 := keep_of hW main_v79 main_v42 rfl (by decide) k_main_v42
  replace k_main_v43 := keep_of hW main_v79 main_v43 rfl (by decide) k_main_v43
  replace k_main_v75 := keep_of hW main_v79 main_v75 rfl (by decide) k_main_v75
  replace k_main_v78 := keep_of hW main_v79 main_v78 rfl (by decide) k_main_v78
  clear hW
  clear W111
  -- main_c_19
  refine after_cons_exists (fun W113 hW => ?_)
  have k_main_c_19 : W113 (Proc.devRef .tc main_c_19) = ReadP.val_main_c_19 (F := F) :=
    wrote_of hW (by rw [nullary_result] <;> rfl)
  replace k_main_arg0 := keep_of hW main_c_19 main_arg0 rfl (by decide) k_main_arg0
  replace k_main_arg7 := keep_of hW main_c_19 main_arg7 rfl (by decide) k_main_arg7
  replace k_main_arg8 := keep_of hW main_c_19 main_arg8 rfl (by decide) k_main_arg8
  replace k_main_arg9 := keep_of hW main_c_19 main_arg9 rfl (by decide) k_main_arg9
  replace k_main_arg10 := keep_of hW main_c_19 main_arg10 rfl (by decide) k_main_arg10
  replace k_main_arg11 := keep_of hW main_c_19 main_arg11 rfl (by decide) k_main_arg11
  replace k_main_arg12 := keep_of hW main_c_19 main_arg12 rfl (by decide) k_main_arg12
  replace k_main_v42 := keep_of hW main_c_19 main_v42 rfl (by decide) k_main_v42
  replace k_main_v43 := keep_of hW main_c_19 main_v43 rfl (by decide) k_main_v43
  replace k_main_v75 := keep_of hW main_c_19 main_v75 rfl (by decide) k_main_v75
  replace k_main_v78 := keep_of hW main_c_19 main_v78 rfl (by decide) k_main_v78
  replace k_main_v79 := keep_of hW main_c_19 main_v79 rfl (by decide) k_main_v79
  clear hW
  clear W112
  -- main_v80
  refine after_cons_exists (fun W114 hW => ?_)
  have k_main_v80 : W114 (Proc.devRef .tc main_v80) = ReadP.val_main_v80 (F := F) :=
    wrote_of hW (by rw [unary_result, k_main_c_19] <;> rfl)
  replace k_main_arg0 := keep_of hW main_v80 main_arg0 rfl (by decide) k_main_arg0
  replace k_main_arg7 := keep_of hW main_v80 main_arg7 rfl (by decide) k_main_arg7
  replace k_main_arg8 := keep_of hW main_v80 main_arg8 rfl (by decide) k_main_arg8
  replace k_main_arg9 := keep_of hW main_v80 main_arg9 rfl (by decide) k_main_arg9
  replace k_main_arg10 := keep_of hW main_v80 main_arg10 rfl (by decide) k_main_arg10
  replace k_main_arg11 := keep_of hW main_v80 main_arg11 rfl (by decide) k_main_arg11
  replace k_main_arg12 := keep_of hW main_v80 main_arg12 rfl (by decide) k_main_arg12
  replace k_main_v42 := keep_of hW main_v80 main_v42 rfl (by decide) k_main_v42
  replace k_main_v43 := keep_of hW main_v80 main_v43 rfl (by decide) k_main_v43
  replace k_main_v75 := keep_of hW main_v80 main_v75 rfl (by decide) k_main_v75
  replace k_main_v78 := keep_of hW main_v80 main_v78 rfl (by decide) k_main_v78
  replace k_main_v79 := keep_of hW main_v80 main_v79 rfl (by decide) k_main_v79
  clear hW k_main_c_19
  clear W113
  -- main_v81
  refine after_cons_exists (fun W115 hW => ?_)
  have k_main_v81 : W115 (Proc.devRef .tc main_v81) = ReadP.val_main_v81 (F := F) x2 :=
    wrote_of hW (by rw [binary_result, k_main_v42, k_main_v80] <;> rfl)
  replace k_main_arg0 := keep_of hW main_v81 main_arg0 rfl (by decide) k_main_arg0
  replace k_main_arg7 := keep_of hW main_v81 main_arg7 rfl (by decide) k_main_arg7
  replace k_main_arg8 := keep_of hW main_v81 main_arg8 rfl (by decide) k_main_arg8
  replace k_main_arg9 := keep_of hW main_v81 main_arg9 rfl (by decide) k_main_arg9
  replace k_main_arg10 := keep_of hW main_v81 main_arg10 rfl (by decide) k_main_arg10
  replace k_main_arg11 := keep_of hW main_v81 main_arg11 rfl (by decide) k_main_arg11
  replace k_main_arg12 := keep_of hW main_v81 main_arg12 rfl (by decide) k_main_arg12
  replace k_main_v42 := keep_of hW main_v81 main_v42 rfl (by decide) k_main_v42
  replace k_main_v43 := keep_of hW main_v81 main_v43 rfl (by decide) k_main_v43
  replace k_main_v75 := keep_of hW main_v81 main_v75 rfl (by decide) k_main_v75
  replace k_main_v78 := keep_of hW main_v81 main_v78 rfl (by decide) k_main_v78
  replace k_main_v79 := keep_of hW main_v81 main_v79 rfl (by decide) k_main_v79
  clear hW k_main_v80
  clear W114
  -- main_c_20
  refine after_cons_exists (fun W116 hW => ?_)
  have k_main_c_20 : W116 (Proc.devRef .tc main_c_20) = ReadP.val_main_c_20 (F := F) :=
    wrote_of hW (by rw [nullary_result] <;> rfl)
  replace k_main_arg0 := keep_of hW main_c_20 main_arg0 rfl (by decide) k_main_arg0
  replace k_main_arg7 := keep_of hW main_c_20 main_arg7 rfl (by decide) k_main_arg7
  replace k_main_arg8 := keep_of hW main_c_20 main_arg8 rfl (by decide) k_main_arg8
  replace k_main_arg9 := keep_of hW main_c_20 main_arg9 rfl (by decide) k_main_arg9
  replace k_main_arg10 := keep_of hW main_c_20 main_arg10 rfl (by decide) k_main_arg10
  replace k_main_arg11 := keep_of hW main_c_20 main_arg11 rfl (by decide) k_main_arg11
  replace k_main_arg12 := keep_of hW main_c_20 main_arg12 rfl (by decide) k_main_arg12
  replace k_main_v42 := keep_of hW main_c_20 main_v42 rfl (by decide) k_main_v42
  replace k_main_v43 := keep_of hW main_c_20 main_v43 rfl (by decide) k_main_v43
  replace k_main_v75 := keep_of hW main_c_20 main_v75 rfl (by decide) k_main_v75
  replace k_main_v78 := keep_of hW main_c_20 main_v78 rfl (by decide) k_main_v78
  replace k_main_v79 := keep_of hW main_c_20 main_v79 rfl (by decide) k_main_v79
  replace k_main_v81 := keep_of hW main_c_20 main_v81 rfl (by decide) k_main_v81
  clear hW
  clear W115
  -- main_v82
  refine after_cons_exists (fun W117 hW => ?_)
  have k_main_v82 : W117 (Proc.devRef .tc main_v82) = ReadP.val_main_v82 (F := F) :=
    wrote_of hW (by rw [unary_result, k_main_c_20] <;> rfl)
  replace k_main_arg0 := keep_of hW main_v82 main_arg0 rfl (by decide) k_main_arg0
  replace k_main_arg7 := keep_of hW main_v82 main_arg7 rfl (by decide) k_main_arg7
  replace k_main_arg8 := keep_of hW main_v82 main_arg8 rfl (by decide) k_main_arg8
  replace k_main_arg9 := keep_of hW main_v82 main_arg9 rfl (by decide) k_main_arg9
  replace k_main_arg10 := keep_of hW main_v82 main_arg10 rfl (by decide) k_main_arg10
  replace k_main_arg11 := keep_of hW main_v82 main_arg11 rfl (by decide) k_main_arg11
  replace k_main_arg12 := keep_of hW main_v82 main_arg12 rfl (by decide) k_main_arg12
  replace k_main_v42 := keep_of hW main_v82 main_v42 rfl (by decide) k_main_v42
  replace k_main_v43 := keep_of hW main_v82 main_v43 rfl (by decide) k_main_v43
  replace k_main_v75 := keep_of hW main_v82 main_v75 rfl (by decide) k_main_v75
  replace k_main_v78 := keep_of hW main_v82 main_v78 rfl (by decide) k_main_v78
  replace k_main_v79 := keep_of hW main_v82 main_v79 rfl (by decide) k_main_v79
  replace k_main_v81 := keep_of hW main_v82 main_v81 rfl (by decide) k_main_v81
  clear hW k_main_c_20
  clear W116
  -- main_v83
  refine after_cons_exists (fun W118 hW => ?_)
  have k_main_v83 : W118 (Proc.devRef .tc main_v83) = ReadP.val_main_v83 (F := F) x2 :=
    wrote_of hW (by rw [binary_result, k_main_v42, k_main_v82] <;> rfl)
  replace k_main_arg0 := keep_of hW main_v83 main_arg0 rfl (by decide) k_main_arg0
  replace k_main_arg7 := keep_of hW main_v83 main_arg7 rfl (by decide) k_main_arg7
  replace k_main_arg8 := keep_of hW main_v83 main_arg8 rfl (by decide) k_main_arg8
  replace k_main_arg9 := keep_of hW main_v83 main_arg9 rfl (by decide) k_main_arg9
  replace k_main_arg10 := keep_of hW main_v83 main_arg10 rfl (by decide) k_main_arg10
  replace k_main_arg11 := keep_of hW main_v83 main_arg11 rfl (by decide) k_main_arg11
  replace k_main_arg12 := keep_of hW main_v83 main_arg12 rfl (by decide) k_main_arg12
  replace k_main_v42 := keep_of hW main_v83 main_v42 rfl (by decide) k_main_v42
  replace k_main_v43 := keep_of hW main_v83 main_v43 rfl (by decide) k_main_v43
  replace k_main_v75 := keep_of hW main_v83 main_v75 rfl (by decide) k_main_v75
  replace k_main_v78 := keep_of hW main_v83 main_v78 rfl (by decide) k_main_v78
  replace k_main_v79 := keep_of hW main_v83 main_v79 rfl (by decide) k_main_v79
  replace k_main_v81 := keep_of hW main_v83 main_v81 rfl (by decide) k_main_v81
  clear hW k_main_v82
  clear W117
  -- main_v84
  refine after_cons_exists (fun W119 hW => ?_)
  have k_main_v84 : W119 (Proc.devRef .tc main_v84) = ReadP.val_main_v84 (F := F) x2 :=
    wrote_of hW (by rw [ternary_result, k_main_v81, k_main_v83, k_main_v42] <;> rfl)
  replace k_main_arg0 := keep_of hW main_v84 main_arg0 rfl (by decide) k_main_arg0
  replace k_main_arg7 := keep_of hW main_v84 main_arg7 rfl (by decide) k_main_arg7
  replace k_main_arg8 := keep_of hW main_v84 main_arg8 rfl (by decide) k_main_arg8
  replace k_main_arg9 := keep_of hW main_v84 main_arg9 rfl (by decide) k_main_arg9
  replace k_main_arg10 := keep_of hW main_v84 main_arg10 rfl (by decide) k_main_arg10
  replace k_main_arg11 := keep_of hW main_v84 main_arg11 rfl (by decide) k_main_arg11
  replace k_main_arg12 := keep_of hW main_v84 main_arg12 rfl (by decide) k_main_arg12
  replace k_main_v42 := keep_of hW main_v84 main_v42 rfl (by decide) k_main_v42
  replace k_main_v43 := keep_of hW main_v84 main_v43 rfl (by decide) k_main_v43
  replace k_main_v75 := keep_of hW main_v84 main_v75 rfl (by decide) k_main_v75
  replace k_main_v78 := keep_of hW main_v84 main_v78 rfl (by decide) k_main_v78
  replace k_main_v79 := keep_of hW main_v84 main_v79 rfl (by decide) k_main_v79
  clear hW k_main_v81 k_main_v83
  clear W118
  -- main_v85
  refine after_cons_exists (fun W120 hW => ?_)
  have k_main_v85 : W120 (Proc.devRef .tc main_v85) = ReadP.val_main_v85 (F := F) x2 :=
    wrote_of hW (by rw [unary_result, k_main_v84] <;> rfl)
  replace k_main_arg0 := keep_of hW main_v85 main_arg0 rfl (by decide) k_main_arg0
  replace k_main_arg7 := keep_of hW main_v85 main_arg7 rfl (by decide) k_main_arg7
  replace k_main_arg8 := keep_of hW main_v85 main_arg8 rfl (by decide) k_main_arg8
  replace k_main_arg9 := keep_of hW main_v85 main_arg9 rfl (by decide) k_main_arg9
  replace k_main_arg10 := keep_of hW main_v85 main_arg10 rfl (by decide) k_main_arg10
  replace k_main_arg11 := keep_of hW main_v85 main_arg11 rfl (by decide) k_main_arg11
  replace k_main_arg12 := keep_of hW main_v85 main_arg12 rfl (by decide) k_main_arg12
  replace k_main_v42 := keep_of hW main_v85 main_v42 rfl (by decide) k_main_v42
  replace k_main_v43 := keep_of hW main_v85 main_v43 rfl (by decide) k_main_v43
  replace k_main_v75 := keep_of hW main_v85 main_v75 rfl (by decide) k_main_v75
  replace k_main_v78 := keep_of hW main_v85 main_v78 rfl (by decide) k_main_v78
  replace k_main_v79 := keep_of hW main_v85 main_v79 rfl (by decide) k_main_v79
  clear hW k_main_v84
  clear W119
  -- main_v86
  refine after_cons_exists (fun W121 hW => ?_)
  have k_main_v86 : W121 (Proc.devRef .tc main_v86) = ReadP.val_main_v86 (F := F) x0 x2 x7 :=
    wrote_of hW (by rw [binary_result, k_main_v78, k_main_v85] <;> rfl)
  replace k_main_arg0 := keep_of hW main_v86 main_arg0 rfl (by decide) k_main_arg0
  replace k_main_arg7 := keep_of hW main_v86 main_arg7 rfl (by decide) k_main_arg7
  replace k_main_arg8 := keep_of hW main_v86 main_arg8 rfl (by decide) k_main_arg8
  replace k_main_arg9 := keep_of hW main_v86 main_arg9 rfl (by decide) k_main_arg9
  replace k_main_arg10 := keep_of hW main_v86 main_arg10 rfl (by decide) k_main_arg10
  replace k_main_arg11 := keep_of hW main_v86 main_arg11 rfl (by decide) k_main_arg11
  replace k_main_arg12 := keep_of hW main_v86 main_arg12 rfl (by decide) k_main_arg12
  replace k_main_v42 := keep_of hW main_v86 main_v42 rfl (by decide) k_main_v42
  replace k_main_v43 := keep_of hW main_v86 main_v43 rfl (by decide) k_main_v43
  replace k_main_v75 := keep_of hW main_v86 main_v75 rfl (by decide) k_main_v75
  replace k_main_v79 := keep_of hW main_v86 main_v79 rfl (by decide) k_main_v79
  clear hW k_main_v78 k_main_v85
  clear W120
  -- main_v87
  refine after_cons_exists (fun W122 hW => ?_)
  have k_main_v87 : W122 (Proc.devRef .tc main_v87) = ReadP.val_main_v87 (F := F) x1 x2 x3 x4 x5 x6 :=
    wrote_of hW (by rw [unary_result, k_main_v79] <;> rfl)
  replace k_main_arg0 := keep_of hW main_v87 main_arg0 rfl (by decide) k_main_arg0
  replace k_main_arg7 := keep_of hW main_v87 main_arg7 rfl (by decide) k_main_arg7
  replace k_main_arg8 := keep_of hW main_v87 main_arg8 rfl (by decide) k_main_arg8
  replace k_main_arg9 := keep_of hW main_v87 main_arg9 rfl (by decide) k_main_arg9
  replace k_main_arg10 := keep_of hW main_v87 main_arg10 rfl (by decide) k_main_arg10
  replace k_main_arg11 := keep_of hW main_v87 main_arg11 rfl (by decide) k_main_arg11
  replace k_main_arg12 := keep_of hW main_v87 main_arg12 rfl (by decide) k_main_arg12
  replace k_main_v42 := keep_of hW main_v87 main_v42 rfl (by decide) k_main_v42
  replace k_main_v43 := keep_of hW main_v87 main_v43 rfl (by decide) k_main_v43
  replace k_main_v75 := keep_of hW main_v87 main_v75 rfl (by decide) k_main_v75
  replace k_main_v86 := keep_of hW main_v87 main_v86 rfl (by decide) k_main_v86
  clear hW k_main_v79
  clear W121
  -- main_v88
  refine after_cons_exists (fun W123 hW => ?_)
  have k_main_v88 : W123 (Proc.devRef .tc main_v88) = ReadP.val_main_v88 (F := F) x0 x1 x2 x3 x4 x5 x6 x7 :=
    wrote_of hW (by rw [binary_result, k_main_v87, k_main_v86] <;> rfl)
  replace k_main_arg0 := keep_of hW main_v88 main_arg0 rfl (by decide) k_main_arg0
  replace k_main_arg7 := keep_of hW main_v88 main_arg7 rfl (by decide) k_main_arg7
  replace k_main_arg8 := keep_of hW main_v88 main_arg8 rfl (by decide) k_main_arg8
  replace k_main_arg9 := keep_of hW main_v88 main_arg9 rfl (by decide) k_main_arg9
  replace k_main_arg10 := keep_of hW main_v88 main_arg10 rfl (by decide) k_main_arg10
  replace k_main_arg11 := keep_of hW main_v88 main_arg11 rfl (by decide) k_main_arg11
  replace k_main_arg12 := keep_of hW main_v88 main_arg12 rfl (by decide) k_main_arg12
  replace k_main_v42 := keep_of hW main_v88 main_v42 rfl (by decide) k_main_v42
  replace k_main_v43 := keep_of hW main_v88 main_v43 rfl (by decide) k_main_v43
  replace k_main_v75 := keep_of hW main_v88 main_v75 rfl (by decide) k_main_v75
  clear hW k_main_v86 k_main_v87
  clear W122
  -- main_cst_21
  refine after_cons_exists (fun W124 hW => ?_)
  have k_main_cst_21 : W124 (Proc.devRef .tc main_cst_21) = ReadP.val_main_cst_21 (F := F) :=
    wrote_of hW (by rw [nullary_result] <;> rfl)
  replace k_main_arg0 := keep_of hW main_cst_21 main_arg0 rfl (by decide) k_main_arg0
  replace k_main_arg7 := keep_of hW main_cst_21 main_arg7 rfl (by decide) k_main_arg7
  replace k_main_arg8 := keep_of hW main_cst_21 main_arg8 rfl (by decide) k_main_arg8
  replace k_main_arg9 := keep_of hW main_cst_21 main_arg9 rfl (by decide) k_main_arg9
  replace k_main_arg10 := keep_of hW main_cst_21 main_arg10 rfl (by decide) k_main_arg10
  replace k_main_arg11 := keep_of hW main_cst_21 main_arg11 rfl (by decide) k_main_arg11
  replace k_main_arg12 := keep_of hW main_cst_21 main_arg12 rfl (by decide) k_main_arg12
  replace k_main_v42 := keep_of hW main_cst_21 main_v42 rfl (by decide) k_main_v42
  replace k_main_v43 := keep_of hW main_cst_21 main_v43 rfl (by decide) k_main_v43
  replace k_main_v75 := keep_of hW main_cst_21 main_v75 rfl (by decide) k_main_v75
  replace k_main_v88 := keep_of hW main_cst_21 main_v88 rfl (by decide) k_main_v88
  clear hW
  clear W123
  -- main_v89
  refine after_cons_exists (fun W125 hW => ?_)
  have k_main_v89 : W125 (Proc.devRef .tc main_v89) = ReadP.val_main_v89 (F := F) :=
    wrote_of hW (by rw [unary_result, k_main_cst_21] <;> rfl)
  replace k_main_arg0 := keep_of hW main_v89 main_arg0 rfl (by decide) k_main_arg0
  replace k_main_arg7 := keep_of hW main_v89 main_arg7 rfl (by decide) k_main_arg7
  replace k_main_arg8 := keep_of hW main_v89 main_arg8 rfl (by decide) k_main_arg8
  replace k_main_arg9 := keep_of hW main_v89 main_arg9 rfl (by decide) k_main_arg9
  replace k_main_arg10 := keep_of hW main_v89 main_arg10 rfl (by decide) k_main_arg10
  replace k_main_arg11 := keep_of hW main_v89 main_arg11 rfl (by decide) k_main_arg11
  replace k_main_arg12 := keep_of hW main_v89 main_arg12 rfl (by decide) k_main_arg12
  replace k_main_v42 := keep_of hW main_v89 main_v42 rfl (by decide) k_main_v42
  replace k_main_v43 := keep_of hW main_v89 main_v43 rfl (by decide) k_main_v43
  replace k_main_v75 := keep_of hW main_v89 main_v75 rfl (by decide) k_main_v75
  replace k_main_v88 := keep_of hW main_v89 main_v88 rfl (by decide) k_main_v88
  clear hW k_main_cst_21
  clear W124
  -- main_v90
  refine after_cons_exists (fun W126 hW => ?_)
  have k_main_v90 : W126 (Proc.devRef .tc main_v90) = ReadP.val_main_v90 (F := F) x2 :=
    wrote_of hW (by rw [unary_result, k_main_v43] <;> rfl)
  replace k_main_arg0 := keep_of hW main_v90 main_arg0 rfl (by decide) k_main_arg0
  replace k_main_arg7 := keep_of hW main_v90 main_arg7 rfl (by decide) k_main_arg7
  replace k_main_arg8 := keep_of hW main_v90 main_arg8 rfl (by decide) k_main_arg8
  replace k_main_arg9 := keep_of hW main_v90 main_arg9 rfl (by decide) k_main_arg9
  replace k_main_arg10 := keep_of hW main_v90 main_arg10 rfl (by decide) k_main_arg10
  replace k_main_arg11 := keep_of hW main_v90 main_arg11 rfl (by decide) k_main_arg11
  replace k_main_arg12 := keep_of hW main_v90 main_arg12 rfl (by decide) k_main_arg12
  replace k_main_v42 := keep_of hW main_v90 main_v42 rfl (by decide) k_main_v42
  replace k_main_v43 := keep_of hW main_v90 main_v43 rfl (by decide) k_main_v43
  replace k_main_v75 := keep_of hW main_v90 main_v75 rfl (by decide) k_main_v75
  replace k_main_v88 := keep_of hW main_v90 main_v88 rfl (by decide) k_main_v88
  replace k_main_v89 := keep_of hW main_v90 main_v89 rfl (by decide) k_main_v89
  clear hW
  clear W125
  -- main_v91
  refine after_cons_exists (fun W127 hW => ?_)
  have k_main_v91 : W127 (Proc.devRef .tc main_v91) = ReadP.val_main_v91 (F := F) x0 x1 x2 x3 x4 x5 x6 x7 :=
    wrote_of hW (by rw [ternary_result, k_main_v89, k_main_v90, k_main_v88] <;> rfl)
  replace k_main_arg0 := keep_of hW main_v91 main_arg0 rfl (by decide) k_main_arg0
  replace k_main_arg7 := keep_of hW main_v91 main_arg7 rfl (by decide) k_main_arg7
  replace k_main_arg8 := keep_of hW main_v91 main_arg8 rfl (by decide) k_main_arg8
  replace k_main_arg9 := keep_of hW main_v91 main_arg9 rfl (by decide) k_main_arg9
  replace k_main_arg10 := keep_of hW main_v91 main_arg10 rfl (by decide) k_main_arg10
  replace k_main_arg11 := keep_of hW main_v91 main_arg11 rfl (by decide) k_main_arg11
  replace k_main_arg12 := keep_of hW main_v91 main_arg12 rfl (by decide) k_main_arg12
  replace k_main_v42 := keep_of hW main_v91 main_v42 rfl (by decide) k_main_v42
  replace k_main_v43 := keep_of hW main_v91 main_v43 rfl (by decide) k_main_v43
  replace k_main_v75 := keep_of hW main_v91 main_v75 rfl (by decide) k_main_v75
  clear hW k_main_v88 k_main_v89 k_main_v90
  clear W126
  -- main_v92
  refine after_cons_exists (fun W128 hW => ?_)
  have k_main_v92 : W128 (Proc.devRef .tc main_v92) = ReadP.val_main_v92 (F := F) x8 :=
    wrote_of hW (by rw [unary_result, k_main_arg8] <;> rfl)
  replace k_main_arg0 := keep_of hW main_v92 main_arg0 rfl (by decide) k_main_arg0
  replace k_main_arg7 := keep_of hW main_v92 main_arg7 rfl (by decide) k_main_arg7
  replace k_main_arg8 := keep_of hW main_v92 main_arg8 rfl (by decide) k_main_arg8
  replace k_main_arg9 := keep_of hW main_v92 main_arg9 rfl (by decide) k_main_arg9
  replace k_main_arg10 := keep_of hW main_v92 main_arg10 rfl (by decide) k_main_arg10
  replace k_main_arg11 := keep_of hW main_v92 main_arg11 rfl (by decide) k_main_arg11
  replace k_main_arg12 := keep_of hW main_v92 main_arg12 rfl (by decide) k_main_arg12
  replace k_main_v42 := keep_of hW main_v92 main_v42 rfl (by decide) k_main_v42
  replace k_main_v43 := keep_of hW main_v92 main_v43 rfl (by decide) k_main_v43
  replace k_main_v75 := keep_of hW main_v92 main_v75 rfl (by decide) k_main_v75
  replace k_main_v91 := keep_of hW main_v92 main_v91 rfl (by decide) k_main_v91
  clear hW
  clear W127
  -- main_v93
  refine after_cons_exists (fun W129 hW => ?_)
  have k_main_v93 : W129 (Proc.devRef .tc main_v93) = ReadP.val_main_v93 (F := F) x8 :=
    wrote_of hW (by rw [reshape_result, k_main_v92] <;> rfl)
  replace k_main_arg0 := keep_of hW main_v93 main_arg0 rfl (by decide) k_main_arg0
  replace k_main_arg7 := keep_of hW main_v93 main_arg7 rfl (by decide) k_main_arg7
  replace k_main_arg8 := keep_of hW main_v93 main_arg8 rfl (by decide) k_main_arg8
  replace k_main_arg9 := keep_of hW main_v93 main_arg9 rfl (by decide) k_main_arg9
  replace k_main_arg10 := keep_of hW main_v93 main_arg10 rfl (by decide) k_main_arg10
  replace k_main_arg11 := keep_of hW main_v93 main_arg11 rfl (by decide) k_main_arg11
  replace k_main_arg12 := keep_of hW main_v93 main_arg12 rfl (by decide) k_main_arg12
  replace k_main_v42 := keep_of hW main_v93 main_v42 rfl (by decide) k_main_v42
  replace k_main_v43 := keep_of hW main_v93 main_v43 rfl (by decide) k_main_v43
  replace k_main_v75 := keep_of hW main_v93 main_v75 rfl (by decide) k_main_v75
  replace k_main_v91 := keep_of hW main_v93 main_v91 rfl (by decide) k_main_v91
  clear hW k_main_v92
  clear W128
  -- main_v94
  refine after_cons_exists (fun W130 hW => ?_)
  have k_main_v94 : W130 (Proc.devRef .tc main_v94) = ReadP.val_main_v94 (F := F) x8 :=
    wrote_of hW (by rw [unary_result, k_main_v93] <;> rfl)
  replace k_main_arg0 := keep_of hW main_v94 main_arg0 rfl (by decide) k_main_arg0
  replace k_main_arg7 := keep_of hW main_v94 main_arg7 rfl (by decide) k_main_arg7
  replace k_main_arg8 := keep_of hW main_v94 main_arg8 rfl (by decide) k_main_arg8
  replace k_main_arg9 := keep_of hW main_v94 main_arg9 rfl (by decide) k_main_arg9
  replace k_main_arg10 := keep_of hW main_v94 main_arg10 rfl (by decide) k_main_arg10
  replace k_main_arg11 := keep_of hW main_v94 main_arg11 rfl (by decide) k_main_arg11
  replace k_main_arg12 := keep_of hW main_v94 main_arg12 rfl (by decide) k_main_arg12
  replace k_main_v42 := keep_of hW main_v94 main_v42 rfl (by decide) k_main_v42
  replace k_main_v43 := keep_of hW main_v94 main_v43 rfl (by decide) k_main_v43
  replace k_main_v75 := keep_of hW main_v94 main_v75 rfl (by decide) k_main_v75
  replace k_main_v91 := keep_of hW main_v94 main_v91 rfl (by decide) k_main_v91
  clear hW k_main_v93
  clear W129
  -- main_v95
  refine after_cons_exists (fun W131 hW => ?_)
  have k_main_v95 : W131 (Proc.devRef .tc main_v95) = ReadP.val_main_v95 (F := F) x8 :=
    wrote_of hW (by rw [unary_result, k_main_v94] <;> rfl)
  replace k_main_arg0 := keep_of hW main_v95 main_arg0 rfl (by decide) k_main_arg0
  replace k_main_arg7 := keep_of hW main_v95 main_arg7 rfl (by decide) k_main_arg7
  replace k_main_arg8 := keep_of hW main_v95 main_arg8 rfl (by decide) k_main_arg8
  replace k_main_arg9 := keep_of hW main_v95 main_arg9 rfl (by decide) k_main_arg9
  replace k_main_arg10 := keep_of hW main_v95 main_arg10 rfl (by decide) k_main_arg10
  replace k_main_arg11 := keep_of hW main_v95 main_arg11 rfl (by decide) k_main_arg11
  replace k_main_arg12 := keep_of hW main_v95 main_arg12 rfl (by decide) k_main_arg12
  replace k_main_v42 := keep_of hW main_v95 main_v42 rfl (by decide) k_main_v42
  replace k_main_v43 := keep_of hW main_v95 main_v43 rfl (by decide) k_main_v43
  replace k_main_v75 := keep_of hW main_v95 main_v75 rfl (by decide) k_main_v75
  replace k_main_v91 := keep_of hW main_v95 main_v91 rfl (by decide) k_main_v91
  clear hW k_main_v94
  clear W130
  -- main_v96
  refine after_cons_exists (fun W132 hW => ?_)
  have k_main_v96 : W132 (Proc.devRef .tc main_v96) = ReadP.val_main_v96 (F := F) x0 x1 x2 x3 x4 x5 x6 x7 x8 :=
    wrote_of hW (by rw [binary_result, k_main_v91, k_main_v95] <;> rfl)
  replace k_main_arg0 := keep_of hW main_v96 main_arg0 rfl (by decide) k_main_arg0
  replace k_main_arg7 := keep_of hW main_v96 main_arg7 rfl (by decide) k_main_arg7
  replace k_main_arg8 := keep_of hW main_v96 main_arg8 rfl (by decide) k_main_arg8
  replace k_main_arg9 := keep_of hW main_v96 main_arg9 rfl (by decide) k_main_arg9
  replace k_main_arg10 := keep_of hW main_v96 main_arg10 rfl (by decide) k_main_arg10
  replace k_main_arg11 := keep_of hW main_v96 main_arg11 rfl (by decide) k_main_arg11
  replace k_main_arg12 := keep_of hW main_v96 main_arg12 rfl (by decide) k_main_arg12
  replace k_main_v42 := keep_of hW main_v96 main_v42 rfl (by decide) k_main_v42
  replace k_main_v43 := keep_of hW main_v96 main_v43 rfl (by decide) k_main_v43
  replace k_main_v75 := keep_of hW main_v96 main_v75 rfl (by decide) k_main_v75
  clear hW k_main_v91 k_main_v95
  clear W131
  -- main_cst_22
  refine after_cons_exists (fun W133 hW => ?_)
  have k_main_cst_22 : W133 (Proc.devRef .tc main_cst_22) = ReadP.val_main_cst_22 (F := F) :=
    wrote_of hW (by rw [nullary_result] <;> rfl)
  replace k_main_arg0 := keep_of hW main_cst_22 main_arg0 rfl (by decide) k_main_arg0
  replace k_main_arg7 := keep_of hW main_cst_22 main_arg7 rfl (by decide) k_main_arg7
  replace k_main_arg8 := keep_of hW main_cst_22 main_arg8 rfl (by decide) k_main_arg8
  replace k_main_arg9 := keep_of hW main_cst_22 main_arg9 rfl (by decide) k_main_arg9
  replace k_main_arg10 := keep_of hW main_cst_22 main_arg10 rfl (by decide) k_main_arg10
  replace k_main_arg11 := keep_of hW main_cst_22 main_arg11 rfl (by decide) k_main_arg11
  replace k_main_arg12 := keep_of hW main_cst_22 main_arg12 rfl (by decide) k_main_arg12
  replace k_main_v42 := keep_of hW main_cst_22 main_v42 rfl (by decide) k_main_v42
  replace k_main_v43 := keep_of hW main_cst_22 main_v43 rfl (by decide) k_main_v43
  replace k_main_v75 := keep_of hW main_cst_22 main_v75 rfl (by decide) k_main_v75
  replace k_main_v96 := keep_of hW main_cst_22 main_v96 rfl (by decide) k_main_v96
  clear hW
  clear W132
  -- main_v97
  refine after_cons_exists (fun W134 hW => ?_)
  have k_main_v97 : W134 (Proc.devRef .tc main_v97) = ReadP.val_main_v97 (F := F) x0 x1 x2 x3 x4 x5 x6 x7 x8 :=
    wrote_of hW (by rw [binary_result, k_main_v96, k_main_cst_22] <;> rfl)
  replace k_main_arg0 := keep_of hW main_v97 main_arg0 rfl (by decide) k_main_arg0
  replace k_main_arg7 := keep_of hW main_v97 main_arg7 rfl (by decide) k_main_arg7
  replace k_main_arg8 := keep_of hW main_v97 main_arg8 rfl (by decide) k_main_arg8
  replace k_main_arg9 := keep_of hW main_v97 main_arg9 rfl (by decide) k_main_arg9
  replace k_main_arg10 := keep_of hW main_v97 main_arg10 rfl (by decide) k_main_arg10
  replace k_main_arg11 := keep_of hW main_v97 main_arg11 rfl (by decide) k_main_arg11
  replace k_main_arg12 := keep_of hW main_v97 main_arg12 rfl (by decide) k_main_arg12
  replace k_main_v42 := keep_of hW main_v97 main_v42 rfl (by decide) k_main_v42
  replace k_main_v43 := keep_of hW main_v97 main_v43 rfl (by decide) k_main_v43
  replace k_main_v75 := keep_of hW main_v97 main_v75 rfl (by decide) k_main_v75
  replace k_main_v96 := keep_of hW main_v97 main_v96 rfl (by decide) k_main_v96
  clear hW k_main_cst_22
  clear W133
  -- main_v98
  refine after_cons_exists (fun W135 hW => ?_)
  have k_main_v98 : W135 (Proc.devRef .tc main_v98) = ReadP.val_main_v98 (F := F) x0 x1 x2 x3 x4 x5 x6 x7 x8 :=
    wrote_of hW (by rw [unary_result, k_main_v97] <;> rfl)
  replace k_main_arg0 := keep_of hW main_v98 main_arg0 rfl (by decide) k_main_arg0
  replace k_main_arg7 := keep_of hW main_v98 main_arg7 rfl (by decide) k_main_arg7
  replace k_main_arg8 := keep_of hW main_v98 main_arg8 rfl (by decide) k_main_arg8
  replace k_main_arg9 := keep_of hW main_v98 main_arg9 rfl (by decide) k_main_arg9
  replace k_main_arg10 := keep_of hW main_v98 main_arg10 rfl (by decide) k_main_arg10
  replace k_main_arg11 := keep_of hW main_v98 main_arg11 rfl (by decide) k_main_arg11
  replace k_main_arg12 := keep_of hW main_v98 main_arg12 rfl (by decide) k_main_arg12
  replace k_main_v42 := keep_of hW main_v98 main_v42 rfl (by decide) k_main_v42
  replace k_main_v43 := keep_of hW main_v98 main_v43 rfl (by decide) k_main_v43
  replace k_main_v75 := keep_of hW main_v98 main_v75 rfl (by decide) k_main_v75
  replace k_main_v96 := keep_of hW main_v98 main_v96 rfl (by decide) k_main_v96
  clear hW k_main_v97
  clear W134
  -- main_cst_23
  refine after_cons_exists (fun W136 hW => ?_)
  have k_main_cst_23 : W136 (Proc.devRef .tc main_cst_23) = ReadP.val_main_cst_23 (F := F) :=
    wrote_of hW (by rw [nullary_result] <;> rfl)
  replace k_main_arg0 := keep_of hW main_cst_23 main_arg0 rfl (by decide) k_main_arg0
  replace k_main_arg7 := keep_of hW main_cst_23 main_arg7 rfl (by decide) k_main_arg7
  replace k_main_arg8 := keep_of hW main_cst_23 main_arg8 rfl (by decide) k_main_arg8
  replace k_main_arg9 := keep_of hW main_cst_23 main_arg9 rfl (by decide) k_main_arg9
  replace k_main_arg10 := keep_of hW main_cst_23 main_arg10 rfl (by decide) k_main_arg10
  replace k_main_arg11 := keep_of hW main_cst_23 main_arg11 rfl (by decide) k_main_arg11
  replace k_main_arg12 := keep_of hW main_cst_23 main_arg12 rfl (by decide) k_main_arg12
  replace k_main_v42 := keep_of hW main_cst_23 main_v42 rfl (by decide) k_main_v42
  replace k_main_v43 := keep_of hW main_cst_23 main_v43 rfl (by decide) k_main_v43
  replace k_main_v75 := keep_of hW main_cst_23 main_v75 rfl (by decide) k_main_v75
  replace k_main_v96 := keep_of hW main_cst_23 main_v96 rfl (by decide) k_main_v96
  replace k_main_v98 := keep_of hW main_cst_23 main_v98 rfl (by decide) k_main_v98
  clear hW
  clear W135
  -- main_v99
  refine after_cons_exists (fun W137 hW => ?_)
  have k_main_v99 : W137 (Proc.devRef .tc main_v99) = ReadP.val_main_v99 (F := F) :=
    wrote_of hW (by rw [unary_result, k_main_cst_23] <;> rfl)
  replace k_main_arg0 := keep_of hW main_v99 main_arg0 rfl (by decide) k_main_arg0
  replace k_main_arg7 := keep_of hW main_v99 main_arg7 rfl (by decide) k_main_arg7
  replace k_main_arg8 := keep_of hW main_v99 main_arg8 rfl (by decide) k_main_arg8
  replace k_main_arg9 := keep_of hW main_v99 main_arg9 rfl (by decide) k_main_arg9
  replace k_main_arg10 := keep_of hW main_v99 main_arg10 rfl (by decide) k_main_arg10
  replace k_main_arg11 := keep_of hW main_v99 main_arg11 rfl (by decide) k_main_arg11
  replace k_main_arg12 := keep_of hW main_v99 main_arg12 rfl (by decide) k_main_arg12
  replace k_main_v42 := keep_of hW main_v99 main_v42 rfl (by decide) k_main_v42
  replace k_main_v43 := keep_of hW main_v99 main_v43 rfl (by decide) k_main_v43
  replace k_main_v75 := keep_of hW main_v99 main_v75 rfl (by decide) k_main_v75
  replace k_main_v96 := keep_of hW main_v99 main_v96 rfl (by decide) k_main_v96
  replace k_main_v98 := keep_of hW main_v99 main_v98 rfl (by decide) k_main_v98
  clear hW k_main_cst_23
  clear W136
  -- main_v100
  refine after_cons_exists (fun W138 hW => ?_)
  have k_main_v100 : W138 (Proc.devRef .tc main_v100) = ReadP.val_main_v100 (F := F) x0 x1 x2 x3 x4 x5 x6 x7 x8 :=
    wrote_of hW (by rw [binary_result, k_main_v98, k_main_v99] <;> rfl)
  replace k_main_arg0 := keep_of hW main_v100 main_arg0 rfl (by decide) k_main_arg0
  replace k_main_arg7 := keep_of hW main_v100 main_arg7 rfl (by decide) k_main_arg7
  replace k_main_arg8 := keep_of hW main_v100 main_arg8 rfl (by decide) k_main_arg8
  replace k_main_arg9 := keep_of hW main_v100 main_arg9 rfl (by decide) k_main_arg9
  replace k_main_arg10 := keep_of hW main_v100 main_arg10 rfl (by decide) k_main_arg10
  replace k_main_arg11 := keep_of hW main_v100 main_arg11 rfl (by decide) k_main_arg11
  replace k_main_arg12 := keep_of hW main_v100 main_arg12 rfl (by decide) k_main_arg12
  replace k_main_v42 := keep_of hW main_v100 main_v42 rfl (by decide) k_main_v42
  replace k_main_v43 := keep_of hW main_v100 main_v43 rfl (by decide) k_main_v43
  replace k_main_v75 := keep_of hW main_v100 main_v75 rfl (by decide) k_main_v75
  replace k_main_v96 := keep_of hW main_v100 main_v96 rfl (by decide) k_main_v96
  clear hW k_main_v98 k_main_v99
  clear W137
  -- main_v101
  refine after_cons_exists (fun W139 hW => ?_)
  have k_main_v101 : W139 (Proc.devRef .tc main_v101) = ReadP.val_main_v101 (F := F) x0 x1 x2 x3 x4 x5 x6 x7 x8 :=
    wrote_of hW (by rw [unary_result, k_main_v100] <;> rfl)
  replace k_main_arg0 := keep_of hW main_v101 main_arg0 rfl (by decide) k_main_arg0
  replace k_main_arg7 := keep_of hW main_v101 main_arg7 rfl (by decide) k_main_arg7
  replace k_main_arg8 := keep_of hW main_v101 main_arg8 rfl (by decide) k_main_arg8
  replace k_main_arg9 := keep_of hW main_v101 main_arg9 rfl (by decide) k_main_arg9
  replace k_main_arg10 := keep_of hW main_v101 main_arg10 rfl (by decide) k_main_arg10
  replace k_main_arg11 := keep_of hW main_v101 main_arg11 rfl (by decide) k_main_arg11
  replace k_main_arg12 := keep_of hW main_v101 main_arg12 rfl (by decide) k_main_arg12
  replace k_main_v42 := keep_of hW main_v101 main_v42 rfl (by decide) k_main_v42
  replace k_main_v43 := keep_of hW main_v101 main_v43 rfl (by decide) k_main_v43
  replace k_main_v75 := keep_of hW main_v101 main_v75 rfl (by decide) k_main_v75
  replace k_main_v96 := keep_of hW main_v101 main_v96 rfl (by decide) k_main_v96
  replace k_main_v100 := keep_of hW main_v101 main_v100 rfl (by decide) k_main_v100
  clear hW
  clear W138
  -- main_v102
  refine after_cons_exists (fun W140 hW => ?_)
  have k_main_v102 : W140 (Proc.devRef .tc main_v102) = ReadP.val_main_v102 (F := F) x0 x1 x2 x3 x4 x5 x6 x7 x8 :=
    wrote_of hW (by rw [binary_result, k_main_v96, k_main_v101] <;> rfl)
  replace k_main_arg0 := keep_of hW main_v102 main_arg0 rfl (by decide) k_main_arg0
  replace k_main_arg7 := keep_of hW main_v102 main_arg7 rfl (by decide) k_main_arg7
  replace k_main_arg8 := keep_of hW main_v102 main_arg8 rfl (by decide) k_main_arg8
  replace k_main_arg9 := keep_of hW main_v102 main_arg9 rfl (by decide) k_main_arg9
  replace k_main_arg10 := keep_of hW main_v102 main_arg10 rfl (by decide) k_main_arg10
  replace k_main_arg11 := keep_of hW main_v102 main_arg11 rfl (by decide) k_main_arg11
  replace k_main_arg12 := keep_of hW main_v102 main_arg12 rfl (by decide) k_main_arg12
  replace k_main_v42 := keep_of hW main_v102 main_v42 rfl (by decide) k_main_v42
  replace k_main_v43 := keep_of hW main_v102 main_v43 rfl (by decide) k_main_v43
  replace k_main_v75 := keep_of hW main_v102 main_v75 rfl (by decide) k_main_v75
  replace k_main_v96 := keep_of hW main_v102 main_v96 rfl (by decide) k_main_v96
  replace k_main_v100 := keep_of hW main_v102 main_v100 rfl (by decide) k_main_v100
  clear hW k_main_v101
  clear W139
  -- main_v103
  refine after_cons_exists (fun W141 hW => ?_)
  have k_main_v103 : W141 (Proc.devRef .tc main_v103) = ReadP.val_main_v103 (F := F) x0 x1 x2 x3 x4 x5 x6 x7 x8 :=
    wrote_of hW (by rw [binary_result, k_main_v102] <;> rfl)
  replace k_main_arg0 := keep_of hW main_v103 main_arg0 rfl (by decide) k_main_arg0
  replace k_main_arg7 := keep_of hW main_v103 main_arg7 rfl (by decide) k_main_arg7
  replace k_main_arg8 := keep_of hW main_v103 main_arg8 rfl (by decide) k_main_arg8
  replace k_main_arg9 := keep_of hW main_v103 main_arg9 rfl (by decide) k_main_arg9
  replace k_main_arg10 := keep_of hW main_v103 main_arg10 rfl (by decide) k_main_arg10
  replace k_main_arg11 := keep_of hW main_v103 main_arg11 rfl (by decide) k_main_arg11
  replace k_main_arg12 := keep_of hW main_v103 main_arg12 rfl (by decide) k_main_arg12
  replace k_main_v42 := keep_of hW main_v103 main_v42 rfl (by decide) k_main_v42
  replace k_main_v43 := keep_of hW main_v103 main_v43 rfl (by decide) k_main_v43
  replace k_main_v75 := keep_of hW main_v103 main_v75 rfl (by decide) k_main_v75
  replace k_main_v96 := keep_of hW main_v103 main_v96 rfl (by decide) k_main_v96
  replace k_main_v100 := keep_of hW main_v103 main_v100 rfl (by decide) k_main_v100
  clear hW k_main_v102
  clear W140
  -- main_cst_24
  refine after_cons_exists (fun W142 hW => ?_)
  have k_main_cst_24 : W142 (Proc.devRef .tc main_cst_24) = ReadP.val_main_cst_24 (F := F) :=
    wrote_of hW (by rw [nullary_result] <;> rfl)
  replace k_main_arg0 := keep_of hW main_cst_24 main_arg0 rfl (by decide) k_main_arg0
  replace k_main_arg7 := keep_of hW main_cst_24 main_arg7 rfl (by decide) k_main_arg7
  replace k_main_arg8 := keep_of hW main_cst_24 main_arg8 rfl (by decide) k_main_arg8
  replace k_main_arg9 := keep_of hW main_cst_24 main_arg9 rfl (by decide) k_main_arg9
  replace k_main_arg10 := keep_of hW main_cst_24 main_arg10 rfl (by decide) k_main_arg10
  replace k_main_arg11 := keep_of hW main_cst_24 main_arg11 rfl (by decide) k_main_arg11
  replace k_main_arg12 := keep_of hW main_cst_24 main_arg12 rfl (by decide) k_main_arg12
  replace k_main_v42 := keep_of hW main_cst_24 main_v42 rfl (by decide) k_main_v42
  replace k_main_v43 := keep_of hW main_cst_24 main_v43 rfl (by decide) k_main_v43
  replace k_main_v75 := keep_of hW main_cst_24 main_v75 rfl (by decide) k_main_v75
  replace k_main_v96 := keep_of hW main_cst_24 main_v96 rfl (by decide) k_main_v96
  replace k_main_v100 := keep_of hW main_cst_24 main_v100 rfl (by decide) k_main_v100
  replace k_main_v103 := keep_of hW main_cst_24 main_v103 rfl (by decide) k_main_v103
  clear hW
  clear W141
  -- main_v104
  refine after_cons_exists (fun W143 hW => ?_)
  have k_main_v104 : W143 (Proc.devRef .tc main_v104) = ReadP.val_main_v104 (F := F) x0 x1 x2 x3 x4 x5 x6 x7 x8 :=
    wrote_of hW (by rw [binary_result, k_main_v103, k_main_cst_24] <;> rfl)
  replace k_main_arg0 := keep_of hW main_v104 main_arg0 rfl (by decide) k_main_arg0
  replace k_main_arg7 := keep_of hW main_v104 main_arg7 rfl (by decide) k_main_arg7
  replace k_main_arg8 := keep_of hW main_v104 main_arg8 rfl (by decide) k_main_arg8
  replace k_main_arg9 := keep_of hW main_v104 main_arg9 rfl (by decide) k_main_arg9
  replace k_main_arg10 := keep_of hW main_v104 main_arg10 rfl (by decide) k_main_arg10
  replace k_main_arg11 := keep_of hW main_v104 main_arg11 rfl (by decide) k_main_arg11
  replace k_main_arg12 := keep_of hW main_v104 main_arg12 rfl (by decide) k_main_arg12
  replace k_main_v42 := keep_of hW main_v104 main_v42 rfl (by decide) k_main_v42
  replace k_main_v43 := keep_of hW main_v104 main_v43 rfl (by decide) k_main_v43
  replace k_main_v75 := keep_of hW main_v104 main_v75 rfl (by decide) k_main_v75
  replace k_main_v96 := keep_of hW main_v104 main_v96 rfl (by decide) k_main_v96
  replace k_main_v100 := keep_of hW main_v104 main_v100 rfl (by decide) k_main_v100
  clear hW k_main_v103 k_main_cst_24
  clear W142
  -- main_v105
  refine after_cons_exists (fun W144 hW => ?_)
  have k_main_v105 : W144 (Proc.devRef .tc main_v105) = ReadP.val_main_v105 (F := F) x0 x1 x2 x3 x4 x5 x6 x7 x8 :=
    wrote_of hW (by rw [unary_result, k_main_v104] <;> rfl)
  replace k_main_arg0 := keep_of hW main_v105 main_arg0 rfl (by decide) k_main_arg0
  replace k_main_arg7 := keep_of hW main_v105 main_arg7 rfl (by decide) k_main_arg7
  replace k_main_arg8 := keep_of hW main_v105 main_arg8 rfl (by decide) k_main_arg8
  replace k_main_arg9 := keep_of hW main_v105 main_arg9 rfl (by decide) k_main_arg9
  replace k_main_arg10 := keep_of hW main_v105 main_arg10 rfl (by decide) k_main_arg10
  replace k_main_arg11 := keep_of hW main_v105 main_arg11 rfl (by decide) k_main_arg11
  replace k_main_arg12 := keep_of hW main_v105 main_arg12 rfl (by decide) k_main_arg12
  replace k_main_v42 := keep_of hW main_v105 main_v42 rfl (by decide) k_main_v42
  replace k_main_v43 := keep_of hW main_v105 main_v43 rfl (by decide) k_main_v43
  replace k_main_v75 := keep_of hW main_v105 main_v75 rfl (by decide) k_main_v75
  replace k_main_v96 := keep_of hW main_v105 main_v96 rfl (by decide) k_main_v96
  replace k_main_v100 := keep_of hW main_v105 main_v100 rfl (by decide) k_main_v100
  clear hW k_main_v104
  clear W143
  -- main_cst_25
  refine after_cons_exists (fun W145 hW => ?_)
  have k_main_cst_25 : W145 (Proc.devRef .tc main_cst_25) = ReadP.val_main_cst_25 (F := F) :=
    wrote_of hW (by rw [nullary_result] <;> rfl)
  replace k_main_arg0 := keep_of hW main_cst_25 main_arg0 rfl (by decide) k_main_arg0
  replace k_main_arg7 := keep_of hW main_cst_25 main_arg7 rfl (by decide) k_main_arg7
  replace k_main_arg8 := keep_of hW main_cst_25 main_arg8 rfl (by decide) k_main_arg8
  replace k_main_arg9 := keep_of hW main_cst_25 main_arg9 rfl (by decide) k_main_arg9
  replace k_main_arg10 := keep_of hW main_cst_25 main_arg10 rfl (by decide) k_main_arg10
  replace k_main_arg11 := keep_of hW main_cst_25 main_arg11 rfl (by decide) k_main_arg11
  replace k_main_arg12 := keep_of hW main_cst_25 main_arg12 rfl (by decide) k_main_arg12
  replace k_main_v42 := keep_of hW main_cst_25 main_v42 rfl (by decide) k_main_v42
  replace k_main_v43 := keep_of hW main_cst_25 main_v43 rfl (by decide) k_main_v43
  replace k_main_v75 := keep_of hW main_cst_25 main_v75 rfl (by decide) k_main_v75
  replace k_main_v96 := keep_of hW main_cst_25 main_v96 rfl (by decide) k_main_v96
  replace k_main_v100 := keep_of hW main_cst_25 main_v100 rfl (by decide) k_main_v100
  replace k_main_v105 := keep_of hW main_cst_25 main_v105 rfl (by decide) k_main_v105
  clear hW
  clear W144
  -- main_v106
  refine after_cons_exists (fun W146 hW => ?_)
  have k_main_v106 : W146 (Proc.devRef .tc main_v106) = ReadP.val_main_v106 (F := F) :=
    wrote_of hW (by rw [unary_result, k_main_cst_25] <;> rfl)
  replace k_main_arg0 := keep_of hW main_v106 main_arg0 rfl (by decide) k_main_arg0
  replace k_main_arg7 := keep_of hW main_v106 main_arg7 rfl (by decide) k_main_arg7
  replace k_main_arg8 := keep_of hW main_v106 main_arg8 rfl (by decide) k_main_arg8
  replace k_main_arg9 := keep_of hW main_v106 main_arg9 rfl (by decide) k_main_arg9
  replace k_main_arg10 := keep_of hW main_v106 main_arg10 rfl (by decide) k_main_arg10
  replace k_main_arg11 := keep_of hW main_v106 main_arg11 rfl (by decide) k_main_arg11
  replace k_main_arg12 := keep_of hW main_v106 main_arg12 rfl (by decide) k_main_arg12
  replace k_main_v42 := keep_of hW main_v106 main_v42 rfl (by decide) k_main_v42
  replace k_main_v43 := keep_of hW main_v106 main_v43 rfl (by decide) k_main_v43
  replace k_main_v75 := keep_of hW main_v106 main_v75 rfl (by decide) k_main_v75
  replace k_main_v96 := keep_of hW main_v106 main_v96 rfl (by decide) k_main_v96
  replace k_main_v100 := keep_of hW main_v106 main_v100 rfl (by decide) k_main_v100
  replace k_main_v105 := keep_of hW main_v106 main_v105 rfl (by decide) k_main_v105
  clear hW k_main_cst_25
  clear W145
  -- main_v107
  refine after_cons_exists (fun W147 hW => ?_)
  have k_main_v107 : W147 (Proc.devRef .tc main_v107) = ReadP.val_main_v107 (F := F) x0 x1 x2 x3 x4 x5 x6 x7 x8 :=
    wrote_of hW (by rw [binary_result, k_main_v105, k_main_v106] <;> rfl)
  replace k_main_arg0 := keep_of hW main_v107 main_arg0 rfl (by decide) k_main_arg0
  replace k_main_arg7 := keep_of hW main_v107 main_arg7 rfl (by decide) k_main_arg7
  replace k_main_arg8 := keep_of hW main_v107 main_arg8 rfl (by decide) k_main_arg8
  replace k_main_arg9 := keep_of hW main_v107 main_arg9 rfl (by decide) k_main_arg9
  replace k_main_arg10 := keep_of hW main_v107 main_arg10 rfl (by decide) k_main_arg10
  replace k_main_arg11 := keep_of hW main_v107 main_arg11 rfl (by decide) k_main_arg11
  replace k_main_arg12 := keep_of hW main_v107 main_arg12 rfl (by decide) k_main_arg12
  replace k_main_v42 := keep_of hW main_v107 main_v42 rfl (by decide) k_main_v42
  replace k_main_v43 := keep_of hW main_v107 main_v43 rfl (by decide) k_main_v43
  replace k_main_v75 := keep_of hW main_v107 main_v75 rfl (by decide) k_main_v75
  replace k_main_v96 := keep_of hW main_v107 main_v96 rfl (by decide) k_main_v96
  replace k_main_v100 := keep_of hW main_v107 main_v100 rfl (by decide) k_main_v100
  clear hW k_main_v105 k_main_v106
  clear W146
  -- main_v108
  refine after_cons_exists (fun W148 hW => ?_)
  have k_main_v108 : W148 (Proc.devRef .tc main_v108) = ReadP.val_main_v108 (F := F) x0 x1 x2 x3 x4 x5 x6 x7 x8 :=
    wrote_of hW (by rw [unary_result, k_main_v100] <;> rfl)
  replace k_main_arg0 := keep_of hW main_v108 main_arg0 rfl (by decide) k_main_arg0
  replace k_main_arg7 := keep_of hW main_v108 main_arg7 rfl (by decide) k_main_arg7
  replace k_main_arg8 := keep_of hW main_v108 main_arg8 rfl (by decide) k_main_arg8
  replace k_main_arg9 := keep_of hW main_v108 main_arg9 rfl (by decide) k_main_arg9
  replace k_main_arg10 := keep_of hW main_v108 main_arg10 rfl (by decide) k_main_arg10
  replace k_main_arg11 := keep_of hW main_v108 main_arg11 rfl (by decide) k_main_arg11
  replace k_main_arg12 := keep_of hW main_v108 main_arg12 rfl (by decide) k_main_arg12
  replace k_main_v42 := keep_of hW main_v108 main_v42 rfl (by decide) k_main_v42
  replace k_main_v43 := keep_of hW main_v108 main_v43 rfl (by decide) k_main_v43
  replace k_main_v75 := keep_of hW main_v108 main_v75 rfl (by decide) k_main_v75
  replace k_main_v96 := keep_of hW main_v108 main_v96 rfl (by decide) k_main_v96
  replace k_main_v107 := keep_of hW main_v108 main_v107 rfl (by decide) k_main_v107
  clear hW k_main_v100
  clear W147
  -- main_v109
  refine after_cons_exists (fun W149 hW => ?_)
  have k_main_v109 : W149 (Proc.devRef .tc main_v109) = ReadP.val_main_v109 (F := F) x0 x1 x2 x3 x4 x5 x6 x7 x8 :=
    wrote_of hW (by rw [binary_result, k_main_v96, k_main_v108] <;> rfl)
  replace k_main_arg0 := keep_of hW main_v109 main_arg0 rfl (by decide) k_main_arg0
  replace k_main_arg7 := keep_of hW main_v109 main_arg7 rfl (by decide) k_main_arg7
  replace k_main_arg8 := keep_of hW main_v109 main_arg8 rfl (by decide) k_main_arg8
  replace k_main_arg9 := keep_of hW main_v109 main_arg9 rfl (by decide) k_main_arg9
  replace k_main_arg10 := keep_of hW main_v109 main_arg10 rfl (by decide) k_main_arg10
  replace k_main_arg11 := keep_of hW main_v109 main_arg11 rfl (by decide) k_main_arg11
  replace k_main_arg12 := keep_of hW main_v109 main_arg12 rfl (by decide) k_main_arg12
  replace k_main_v42 := keep_of hW main_v109 main_v42 rfl (by decide) k_main_v42
  replace k_main_v43 := keep_of hW main_v109 main_v43 rfl (by decide) k_main_v43
  replace k_main_v75 := keep_of hW main_v109 main_v75 rfl (by decide) k_main_v75
  replace k_main_v107 := keep_of hW main_v109 main_v107 rfl (by decide) k_main_v107
  clear hW k_main_v96 k_main_v108
  clear W148
  -- main_cst_26
  refine after_cons_exists (fun W150 hW => ?_)
  have k_main_cst_26 : W150 (Proc.devRef .tc main_cst_26) = ReadP.val_main_cst_26 (F := F) :=
    wrote_of hW (by rw [nullary_result] <;> rfl)
  replace k_main_arg0 := keep_of hW main_cst_26 main_arg0 rfl (by decide) k_main_arg0
  replace k_main_arg7 := keep_of hW main_cst_26 main_arg7 rfl (by decide) k_main_arg7
  replace k_main_arg8 := keep_of hW main_cst_26 main_arg8 rfl (by decide) k_main_arg8
  replace k_main_arg9 := keep_of hW main_cst_26 main_arg9 rfl (by decide) k_main_arg9
  replace k_main_arg10 := keep_of hW main_cst_26 main_arg10 rfl (by decide) k_main_arg10
  replace k_main_arg11 := keep_of hW main_cst_26 main_arg11 rfl (by decide) k_main_arg11
  replace k_main_arg12 := keep_of hW main_cst_26 main_arg12 rfl (by decide) k_main_arg12
  replace k_main_v42 := keep_of hW main_cst_26 main_v42 rfl (by decide) k_main_v42
  replace k_main_v43 := keep_of hW main_cst_26 main_v43 rfl (by decide) k_main_v43
  replace k_main_v75 := keep_of hW main_cst_26 main_v75 rfl (by decide) k_main_v75
  replace k_main_v107 := keep_of hW main_cst_26 main_v107 rfl (by decide) k_main_v107
  replace k_main_v109 := keep_of hW main_cst_26 main_v109 rfl (by decide) k_main_v109
  clear hW
  clear W149
  -- main_v110
  refine after_cons_exists (fun W151 hW => ?_)
  have k_main_v110 : W151 (Proc.devRef .tc main_v110) = ReadP.val_main_v110 (F := F) :=
    wrote_of hW (by rw [unary_result, k_main_cst_26] <;> rfl)
  replace k_main_arg0 := keep_of hW main_v110 main_arg0 rfl (by decide) k_main_arg0
  replace k_main_arg7 := keep_of hW main_v110 main_arg7 rfl (by decide) k_main_arg7
  replace k_main_arg8 := keep_of hW main_v110 main_arg8 rfl (by decide) k_main_arg8
  replace k_main_arg9 := keep_of hW main_v110 main_arg9 rfl (by decide) k_main_arg9
  replace k_main_arg10 := keep_of hW main_v110 main_arg10 rfl (by decide) k_main_arg10
  replace k_main_arg11 := keep_of hW main_v110 main_arg11 rfl (by decide) k_main_arg11
  replace k_main_arg12 := keep_of hW main_v110 main_arg12 rfl (by decide) k_main_arg12
  replace k_main_v42 := keep_of hW main_v110 main_v42 rfl (by decide) k_main_v42
  replace k_main_v43 := keep_of hW main_v110 main_v43 rfl (by decide) k_main_v43
  replace k_main_v75 := keep_of hW main_v110 main_v75 rfl (by decide) k_main_v75
  replace k_main_v107 := keep_of hW main_v110 main_v107 rfl (by decide) k_main_v107
  replace k_main_v109 := keep_of hW main_v110 main_v109 rfl (by decide) k_main_v109
  clear hW k_main_cst_26
  clear W150
  -- main_v111
  refine after_cons_exists (fun W152 hW => ?_)
  have k_main_v111 : W152 (Proc.devRef .tc main_v111) = ReadP.val_main_v111 (F := F) x0 x1 x2 x3 x4 x5 x6 x7 x8 :=
    wrote_of hW (by rw [binary_result, k_main_v107, k_main_v110] <;> rfl)
  replace k_main_arg0 := keep_of hW main_v111 main_arg0 rfl (by decide) k_main_arg0
  replace k_main_arg7 := keep_of hW main_v111 main_arg7 rfl (by decide) k_main_arg7
  replace k_main_arg8 := keep_of hW main_v111 main_arg8 rfl (by decide) k_main_arg8
  replace k_main_arg9 := keep_of hW main_v111 main_arg9 rfl (by decide) k_main_arg9
  replace k_main_arg10 := keep_of hW main_v111 main_arg10 rfl (by decide) k_main_arg10
  replace k_main_arg11 := keep_of hW main_v111 main_arg11 rfl (by decide) k_main_arg11
  replace k_main_arg12 := keep_of hW main_v111 main_arg12 rfl (by decide) k_main_arg12
  replace k_main_v42 := keep_of hW main_v111 main_v42 rfl (by decide) k_main_v42
  replace k_main_v43 := keep_of hW main_v111 main_v43 rfl (by decide) k_main_v43
  replace k_main_v75 := keep_of hW main_v111 main_v75 rfl (by decide) k_main_v75
  replace k_main_v109 := keep_of hW main_v111 main_v109 rfl (by decide) k_main_v109
  clear hW k_main_v107 k_main_v110
  clear W151
  -- main_v112
  refine after_cons_exists (fun W153 hW => ?_)
  have k_main_v112 : W153 (Proc.devRef .tc main_v112) = ReadP.val_main_v112 (F := F) x0 x1 x2 x3 x4 x5 x6 x7 x8 :=
    wrote_of hW (by rw [unary_result, k_main_v111] <;> rfl)
  replace k_main_arg0 := keep_of hW main_v112 main_arg0 rfl (by decide) k_main_arg0
  replace k_main_arg7 := keep_of hW main_v112 main_arg7 rfl (by decide) k_main_arg7
  replace k_main_arg8 := keep_of hW main_v112 main_arg8 rfl (by decide) k_main_arg8
  replace k_main_arg9 := keep_of hW main_v112 main_arg9 rfl (by decide) k_main_arg9
  replace k_main_arg10 := keep_of hW main_v112 main_arg10 rfl (by decide) k_main_arg10
  replace k_main_arg11 := keep_of hW main_v112 main_arg11 rfl (by decide) k_main_arg11
  replace k_main_arg12 := keep_of hW main_v112 main_arg12 rfl (by decide) k_main_arg12
  replace k_main_v42 := keep_of hW main_v112 main_v42 rfl (by decide) k_main_v42
  replace k_main_v43 := keep_of hW main_v112 main_v43 rfl (by decide) k_main_v43
  replace k_main_v75 := keep_of hW main_v112 main_v75 rfl (by decide) k_main_v75
  replace k_main_v109 := keep_of hW main_v112 main_v109 rfl (by decide) k_main_v109
  clear hW k_main_v111
  clear W152
  -- main_v113
  refine after_cons_exists (fun W154 hW => ?_)
  have k_main_v113 : W154 (Proc.devRef .tc main_v113) = ReadP.val_main_v113 (F := F) x0 x1 x2 x3 x4 x5 x6 x7 x8 :=
    wrote_of hW (by rw [unary_result, k_main_v112] <;> rfl)
  replace k_main_arg0 := keep_of hW main_v113 main_arg0 rfl (by decide) k_main_arg0
  replace k_main_arg7 := keep_of hW main_v113 main_arg7 rfl (by decide) k_main_arg7
  replace k_main_arg8 := keep_of hW main_v113 main_arg8 rfl (by decide) k_main_arg8
  replace k_main_arg9 := keep_of hW main_v113 main_arg9 rfl (by decide) k_main_arg9
  replace k_main_arg10 := keep_of hW main_v113 main_arg10 rfl (by decide) k_main_arg10
  replace k_main_arg11 := keep_of hW main_v113 main_arg11 rfl (by decide) k_main_arg11
  replace k_main_arg12 := keep_of hW main_v113 main_arg12 rfl (by decide) k_main_arg12
  replace k_main_v42 := keep_of hW main_v113 main_v42 rfl (by decide) k_main_v42
  replace k_main_v43 := keep_of hW main_v113 main_v43 rfl (by decide) k_main_v43
  replace k_main_v75 := keep_of hW main_v113 main_v75 rfl (by decide) k_main_v75
  replace k_main_v109 := keep_of hW main_v113 main_v109 rfl (by decide) k_main_v109
  clear hW k_main_v112
  clear W153
  -- main_v114
  refine after_cons_exists (fun W155 hW => ?_)
  have k_main_v114 : W155 (Proc.devRef .tc main_v114) = ReadP.val_main_v114 (F := F) x0 x1 x2 x3 x4 x5 x6 x7 x8 :=
    wrote_of hW (by rw [binary_result, k_main_v109, k_main_v113] <;> rfl)
  replace k_main_arg0 := keep_of hW main_v114 main_arg0 rfl (by decide) k_main_arg0
  replace k_main_arg7 := keep_of hW main_v114 main_arg7 rfl (by decide) k_main_arg7
  replace k_main_arg8 := keep_of hW main_v114 main_arg8 rfl (by decide) k_main_arg8
  replace k_main_arg9 := keep_of hW main_v114 main_arg9 rfl (by decide) k_main_arg9
  replace k_main_arg10 := keep_of hW main_v114 main_arg10 rfl (by decide) k_main_arg10
  replace k_main_arg11 := keep_of hW main_v114 main_arg11 rfl (by decide) k_main_arg11
  replace k_main_arg12 := keep_of hW main_v114 main_arg12 rfl (by decide) k_main_arg12
  replace k_main_v42 := keep_of hW main_v114 main_v42 rfl (by decide) k_main_v42
  replace k_main_v43 := keep_of hW main_v114 main_v43 rfl (by decide) k_main_v43
  replace k_main_v75 := keep_of hW main_v114 main_v75 rfl (by decide) k_main_v75
  clear hW k_main_v109 k_main_v113
  clear W154
  -- main_v115
  refine after_cons_exists (fun W156 hW => ?_)
  have k_main_v115 : W156 (Proc.devRef .tc main_v115) = ReadP.val_main_v115 (F := F) x9 :=
    wrote_of hW (by rw [unary_result, k_main_arg9] <;> rfl)
  replace k_main_arg0 := keep_of hW main_v115 main_arg0 rfl (by decide) k_main_arg0
  replace k_main_arg7 := keep_of hW main_v115 main_arg7 rfl (by decide) k_main_arg7
  replace k_main_arg8 := keep_of hW main_v115 main_arg8 rfl (by decide) k_main_arg8
  replace k_main_arg9 := keep_of hW main_v115 main_arg9 rfl (by decide) k_main_arg9
  replace k_main_arg10 := keep_of hW main_v115 main_arg10 rfl (by decide) k_main_arg10
  replace k_main_arg11 := keep_of hW main_v115 main_arg11 rfl (by decide) k_main_arg11
  replace k_main_arg12 := keep_of hW main_v115 main_arg12 rfl (by decide) k_main_arg12
  replace k_main_v42 := keep_of hW main_v115 main_v42 rfl (by decide) k_main_v42
  replace k_main_v43 := keep_of hW main_v115 main_v43 rfl (by decide) k_main_v43
  replace k_main_v75 := keep_of hW main_v115 main_v75 rfl (by decide) k_main_v75
  replace k_main_v114 := keep_of hW main_v115 main_v114 rfl (by decide) k_main_v114
  clear hW
  clear W155
  -- main_v116
  refine after_cons_exists (fun W157 hW => ?_)
  have k_main_v116 : W157 (Proc.devRef .tc main_v116) = ReadP.val_main_v116 (F := F) x9 :=
    wrote_of hW (by rw [reshape_result, k_main_v115] <;> rfl)
  replace k_main_arg0 := keep_of hW main_v116 main_arg0 rfl (by decide) k_main_arg0
  replace k_main_arg7 := keep_of hW main_v116 main_arg7 rfl (by decide) k_main_arg7
  replace k_main_arg8 := keep_of hW main_v116 main_arg8 rfl (by decide) k_main_arg8
  replace k_main_arg9 := keep_of hW main_v116 main_arg9 rfl (by decide) k_main_arg9
  replace k_main_arg10 := keep_of hW main_v116 main_arg10 rfl (by decide) k_main_arg10
  replace k_main_arg11 := keep_of hW main_v116 main_arg11 rfl (by decide) k_main_arg11
  replace k_main_arg12 := keep_of hW main_v116 main_arg12 rfl (by decide) k_main_arg12
  replace k_main_v42 := keep_of hW main_v116 main_v42 rfl (by decide) k_main_v42
  replace k_main_v43 := keep_of hW main_v116 main_v43 rfl (by decide) k_main_v43
  replace k_main_v75 := keep_of hW main_v116 main_v75 rfl (by decide) k_main_v75
  replace k_main_v114 := keep_of hW main_v116 main_v114 rfl (by decide) k_main_v114
  clear hW k_main_v115
  clear W156
  -- main_v117
  refine after_cons_exists (fun W158 hW => ?_)
  have k_main_v117 : W158 (Proc.devRef .tc main_v117) = ReadP.val_main_v117 (F := F) x9 :=
    wrote_of hW (by rw [unary_result, k_main_v116] <;> rfl)
  replace k_main_arg0 := keep_of hW main_v117 main_arg0 rfl (by decide) k_main_arg0
  replace k_main_arg7 := keep_of hW main_v117 main_arg7 rfl (by decide) k_main_arg7
  replace k_main_arg8 := keep_of hW main_v117 main_arg8 rfl (by decide) k_main_arg8
  replace k_main_arg9 := keep_of hW main_v117 main_arg9 rfl (by decide) k_main_arg9
  replace k_main_arg10 := keep_of hW main_v117 main_arg10 rfl (by decide) k_main_arg10
  replace k_main_arg11 := keep_of hW main_v117 main_arg11 rfl (by decide) k_main_arg11
  replace k_main_arg12 := keep_of hW main_v117 main_arg12 rfl (by decide) k_main_arg12
  replace k_main_v42 := keep_of hW main_v117 main_v42 rfl (by decide) k_main_v42
  replace k_main_v43 := keep_of hW main_v117 main_v43 rfl (by decide) k_main_v43
  replace k_main_v75 := keep_of hW main_v117 main_v75 rfl (by decide) k_main_v75
  replace k_main_v114 := keep_of hW main_v117 main_v114 rfl (by decide) k_main_v114
  clear hW k_main_v116
  clear W157
  -- main_v118
  refine after_cons_exists (fun W159 hW => ?_)
  have k_main_v118 : W159 (Proc.devRef .tc main_v118) = ReadP.val_main_v118 (F := F) x9 :=
    wrote_of hW (by rw [unary_result, k_main_v117] <;> rfl)
  replace k_main_arg0 := keep_of hW main_v118 main_arg0 rfl (by decide) k_main_arg0
  replace k_main_arg7 := keep_of hW main_v118 main_arg7 rfl (by decide) k_main_arg7
  replace k_main_arg8 := keep_of hW main_v118 main_arg8 rfl (by decide) k_main_arg8
  replace k_main_arg9 := keep_of hW main_v118 main_arg9 rfl (by decide) k_main_arg9
  replace k_main_arg10 := keep_of hW main_v118 main_arg10 rfl (by decide) k_main_arg10
  replace k_main_arg11 := keep_of hW main_v118 main_arg11 rfl (by decide) k_main_arg11
  replace k_main_arg12 := keep_of hW main_v118 main_arg12 rfl (by decide) k_main_arg12
  replace k_main_v42 := keep_of hW main_v118 main_v42 rfl (by decide) k_main_v42
  replace k_main_v43 := keep_of hW main_v118 main_v43 rfl (by decide) k_main_v43
  replace k_main_v75 := keep_of hW main_v118 main_v75 rfl (by decide) k_main_v75
  replace k_main_v114 := keep_of hW main_v118 main_v114 rfl (by decide) k_main_v114
  clear hW k_main_v117
  clear W158
  -- main_v119
  refine after_cons_exists (fun W160 hW => ?_)
  have k_main_v119 : W160 (Proc.devRef .tc main_v119) = ReadP.val_main_v119 (F := F) x0 x1 x2 x3 x4 x5 x6 x7 x8 x9 :=
    wrote_of hW (by rw [binary_result, k_main_v114, k_main_v118] <;> rfl)
  replace k_main_arg0 := keep_of hW main_v119 main_arg0 rfl (by decide) k_main_arg0
  replace k_main_arg7 := keep_of hW main_v119 main_arg7 rfl (by decide) k_main_arg7
  replace k_main_arg8 := keep_of hW main_v119 main_arg8 rfl (by decide) k_main_arg8
  replace k_main_arg9 := keep_of hW main_v119 main_arg9 rfl (by decide) k_main_arg9
  replace k_main_arg10 := keep_of hW main_v119 main_arg10 rfl (by decide) k_main_arg10
  replace k_main_arg11 := keep_of hW main_v119 main_arg11 rfl (by decide) k_main_arg11
  replace k_main_arg12 := keep_of hW main_v119 main_arg12 rfl (by decide) k_main_arg12
  replace k_main_v42 := keep_of hW main_v119 main_v42 rfl (by decide) k_main_v42
  replace k_main_v43 := keep_of hW main_v119 main_v43 rfl (by decide) k_main_v43
  replace k_main_v75 := keep_of hW main_v119 main_v75 rfl (by decide) k_main_v75
  clear hW k_main_v114 k_main_v118
  clear W159
  -- main_v120
  refine after_cons_exists (fun W161 hW => ?_)
  have k_main_v120 : W161 (Proc.devRef .tc main_v120) = ReadP.val_main_v120 (F := F) x10 :=
    wrote_of hW (by rw [unary_result, k_main_arg10] <;> rfl)
  replace k_main_arg0 := keep_of hW main_v120 main_arg0 rfl (by decide) k_main_arg0
  replace k_main_arg7 := keep_of hW main_v120 main_arg7 rfl (by decide) k_main_arg7
  replace k_main_arg8 := keep_of hW main_v120 main_arg8 rfl (by decide) k_main_arg8
  replace k_main_arg9 := keep_of hW main_v120 main_arg9 rfl (by decide) k_main_arg9
  replace k_main_arg10 := keep_of hW main_v120 main_arg10 rfl (by decide) k_main_arg10
  replace k_main_arg11 := keep_of hW main_v120 main_arg11 rfl (by decide) k_main_arg11
  replace k_main_arg12 := keep_of hW main_v120 main_arg12 rfl (by decide) k_main_arg12
  replace k_main_v42 := keep_of hW main_v120 main_v42 rfl (by decide) k_main_v42
  replace k_main_v43 := keep_of hW main_v120 main_v43 rfl (by decide) k_main_v43
  replace k_main_v75 := keep_of hW main_v120 main_v75 rfl (by decide) k_main_v75
  replace k_main_v119 := keep_of hW main_v120 main_v119 rfl (by decide) k_main_v119
  clear hW
  clear W160
  -- main_v121
  refine after_cons_exists (fun W162 hW => ?_)
  have k_main_v121 : W162 (Proc.devRef .tc main_v121) = ReadP.val_main_v121 (F := F) x10 :=
    wrote_of hW (by rw [reshape_result, k_main_v120] <;> rfl)
  replace k_main_arg0 := keep_of hW main_v121 main_arg0 rfl (by decide) k_main_arg0
  replace k_main_arg7 := keep_of hW main_v121 main_arg7 rfl (by decide) k_main_arg7
  replace k_main_arg8 := keep_of hW main_v121 main_arg8 rfl (by decide) k_main_arg8
  replace k_main_arg9 := keep_of hW main_v121 main_arg9 rfl (by decide) k_main_arg9
  replace k_main_arg10 := keep_of hW main_v121 main_arg10 rfl (by decide) k_main_arg10
  replace k_main_arg11 := keep_of hW main_v121 main_arg11 rfl (by decide) k_main_arg11
  replace k_main_arg12 := keep_of hW main_v121 main_arg12 rfl (by decide) k_main_arg12
  replace k_main_v42 := keep_of hW main_v121 main_v42 rfl (by decide) k_main_v42
  replace k_main_v43 := keep_of hW main_v121 main_v43 rfl (by decide) k_main_v43
  replace k_main_v75 := keep_of hW main_v121 main_v75 rfl (by decide) k_main_v75
  replace k_main_v119 := keep_of hW main_v121 main_v119 rfl (by decide) k_main_v119
  clear hW k_main_v120
  clear W161
  -- main_v122
  refine after_cons_exists (fun W163 hW => ?_)
  have k_main_v122 : W163 (Proc.devRef .tc main_v122) = ReadP.val_main_v122 (F := F) x10 :=
    wrote_of hW (by rw [unary_result, k_main_v121] <;> rfl)
  replace k_main_arg0 := keep_of hW main_v122 main_arg0 rfl (by decide) k_main_arg0
  replace k_main_arg7 := keep_of hW main_v122 main_arg7 rfl (by decide) k_main_arg7
  replace k_main_arg8 := keep_of hW main_v122 main_arg8 rfl (by decide) k_main_arg8
  replace k_main_arg9 := keep_of hW main_v122 main_arg9 rfl (by decide) k_main_arg9
  replace k_main_arg10 := keep_of hW main_v122 main_arg10 rfl (by decide) k_main_arg10
  replace k_main_arg11 := keep_of hW main_v122 main_arg11 rfl (by decide) k_main_arg11
  replace k_main_arg12 := keep_of hW main_v122 main_arg12 rfl (by decide) k_main_arg12
  replace k_main_v42 := keep_of hW main_v122 main_v42 rfl (by decide) k_main_v42
  replace k_main_v43 := keep_of hW main_v122 main_v43 rfl (by decide) k_main_v43
  replace k_main_v75 := keep_of hW main_v122 main_v75 rfl (by decide) k_main_v75
  replace k_main_v119 := keep_of hW main_v122 main_v119 rfl (by decide) k_main_v119
  clear hW k_main_v121
  clear W162
  -- main_v123
  refine after_cons_exists (fun W164 hW => ?_)
  have k_main_v123 : W164 (Proc.devRef .tc main_v123) = ReadP.val_main_v123 (F := F) x10 :=
    wrote_of hW (by rw [unary_result, k_main_v122] <;> rfl)
  replace k_main_arg0 := keep_of hW main_v123 main_arg0 rfl (by decide) k_main_arg0
  replace k_main_arg7 := keep_of hW main_v123 main_arg7 rfl (by decide) k_main_arg7
  replace k_main_arg8 := keep_of hW main_v123 main_arg8 rfl (by decide) k_main_arg8
  replace k_main_arg9 := keep_of hW main_v123 main_arg9 rfl (by decide) k_main_arg9
  replace k_main_arg10 := keep_of hW main_v123 main_arg10 rfl (by decide) k_main_arg10
  replace k_main_arg11 := keep_of hW main_v123 main_arg11 rfl (by decide) k_main_arg11
  replace k_main_arg12 := keep_of hW main_v123 main_arg12 rfl (by decide) k_main_arg12
  replace k_main_v42 := keep_of hW main_v123 main_v42 rfl (by decide) k_main_v42
  replace k_main_v43 := keep_of hW main_v123 main_v43 rfl (by decide) k_main_v43
  replace k_main_v75 := keep_of hW main_v123 main_v75 rfl (by decide) k_main_v75
  replace k_main_v119 := keep_of hW main_v123 main_v119 rfl (by decide) k_main_v119
  clear hW k_main_v122
  clear W163
  -- main_v124
  refine after_cons_exists (fun W165 hW => ?_)
  have k_main_v124 : W165 (Proc.devRef .tc main_v124) = ReadP.val_main_v124 (F := F) x0 x1 x2 x3 x4 x5 x6 x7 x8 x9 x10 :=
    wrote_of hW (by rw [binary_result, k_main_v119, k_main_v123] <;> rfl)
  replace k_main_arg0 := keep_of hW main_v124 main_arg0 rfl (by decide) k_main_arg0
  replace k_main_arg7 := keep_of hW main_v124 main_arg7 rfl (by decide) k_main_arg7
  replace k_main_arg8 := keep_of hW main_v124 main_arg8 rfl (by decide) k_main_arg8
  replace k_main_arg9 := keep_of hW main_v124 main_arg9 rfl (by decide) k_main_arg9
  replace k_main_arg10 := keep_of hW main_v124 main_arg10 rfl (by decide) k_main_arg10
  replace k_main_arg11 := keep_of hW main_v124 main_arg11 rfl (by decide) k_main_arg11
  replace k_main_arg12 := keep_of hW main_v124 main_arg12 rfl (by decide) k_main_arg12
  replace k_main_v42 := keep_of hW main_v124 main_v42 rfl (by decide) k_main_v42
  replace k_main_v43 := keep_of hW main_v124 main_v43 rfl (by decide) k_main_v43
  replace k_main_v75 := keep_of hW main_v124 main_v75 rfl (by decide) k_main_v75
  clear hW k_main_v119 k_main_v123
  clear W164
  -- main_call4_cst
  refine after_cons_exists (fun W166 hW => ?_)
  have k_main_call4_cst : W166 (Proc.devRef .tc main_call4_cst) = ReadP.val_main_call4_cst (F := F) :=
    wrote_of hW (by rw [nullary_result] <;> rfl)
  replace k_main_arg0 := keep_of hW main_call4_cst main_arg0 rfl (by decide) k_main_arg0
  replace k_main_arg7 := keep_of hW main_call4_cst main_arg7 rfl (by decide) k_main_arg7
  replace k_main_arg8 := keep_of hW main_call4_cst main_arg8 rfl (by decide) k_main_arg8
  replace k_main_arg9 := keep_of hW main_call4_cst main_arg9 rfl (by decide) k_main_arg9
  replace k_main_arg10 := keep_of hW main_call4_cst main_arg10 rfl (by decide) k_main_arg10
  replace k_main_arg11 := keep_of hW main_call4_cst main_arg11 rfl (by decide) k_main_arg11
  replace k_main_arg12 := keep_of hW main_call4_cst main_arg12 rfl (by decide) k_main_arg12
  replace k_main_v42 := keep_of hW main_call4_cst main_v42 rfl (by decide) k_main_v42
  replace k_main_v43 := keep_of hW main_call4_cst main_v43 rfl (by decide) k_main_v43
  replace k_main_v75 := keep_of hW main_call4_cst main_v75 rfl (by decide) k_main_v75
  replace k_main_v124 := keep_of hW main_call4_cst main_v124 rfl (by decide) k_main_v124
  clear hW
  clear W165
  -- main_call4_v0
  refine after_cons_exists (fun W167 hW => ?_)
  have k_main_call4_v0 : W167 (Proc.devRef .tc main_call4_v0) = ReadP.val_main_call4_v0 (F := F) :=
    wrote_of hW (by rw [unary_result, k_main_call4_cst] <;> rfl)
  replace k_main_arg0 := keep_of hW main_call4_v0 main_arg0 rfl (by decide) k_main_arg0
  replace k_main_arg7 := keep_of hW main_call4_v0 main_arg7 rfl (by decide) k_main_arg7
  replace k_main_arg8 := keep_of hW main_call4_v0 main_arg8 rfl (by decide) k_main_arg8
  replace k_main_arg9 := keep_of hW main_call4_v0 main_arg9 rfl (by decide) k_main_arg9
  replace k_main_arg10 := keep_of hW main_call4_v0 main_arg10 rfl (by decide) k_main_arg10
  replace k_main_arg11 := keep_of hW main_call4_v0 main_arg11 rfl (by decide) k_main_arg11
  replace k_main_arg12 := keep_of hW main_call4_v0 main_arg12 rfl (by decide) k_main_arg12
  replace k_main_v42 := keep_of hW main_call4_v0 main_v42 rfl (by decide) k_main_v42
  replace k_main_v43 := keep_of hW main_call4_v0 main_v43 rfl (by decide) k_main_v43
  replace k_main_v75 := keep_of hW main_call4_v0 main_v75 rfl (by decide) k_main_v75
  replace k_main_v124 := keep_of hW main_call4_v0 main_v124 rfl (by decide) k_main_v124
  clear hW k_main_call4_cst
  clear W166
  -- main_v125
  refine after_cons_exists (fun W168 hW => ?_)
  have k_main_v125 : W168 (Proc.devRef .tc main_v125) = ReadP.val_main_v125 (F := F) x0 x1 x2 x3 x4 x5 x6 x7 x8 x9 x10 :=
    wrote_of hW (by rw [binary_result, k_main_v124, k_main_call4_v0] <;> rfl)
  replace k_main_arg0 := keep_of hW main_v125 main_arg0 rfl (by decide) k_main_arg0
  replace k_main_arg7 := keep_of hW main_v125 main_arg7 rfl (by decide) k_main_arg7
  replace k_main_arg8 := keep_of hW main_v125 main_arg8 rfl (by decide) k_main_arg8
  replace k_main_arg9 := keep_of hW main_v125 main_arg9 rfl (by decide) k_main_arg9
  replace k_main_arg10 := keep_of hW main_v125 main_arg10 rfl (by decide) k_main_arg10
  replace k_main_arg11 := keep_of hW main_v125 main_arg11 rfl (by decide) k_main_arg11
  replace k_main_arg12 := keep_of hW main_v125 main_arg12 rfl (by decide) k_main_arg12
  replace k_main_v42 := keep_of hW main_v125 main_v42 rfl (by decide) k_main_v42
  replace k_main_v43 := keep_of hW main_v125 main_v43 rfl (by decide) k_main_v43
  replace k_main_v75 := keep_of hW main_v125 main_v75 rfl (by decide) k_main_v75
  clear hW k_main_v124 k_main_call4_v0
  clear W167
  -- main_v126
  refine after_cons_exists (fun W169 hW => ?_)
  have k_main_v126 : W169 (Proc.devRef .tc main_v126) = ReadP.val_main_v126 (F := F) x0 x1 x2 x3 x4 x5 x6 x7 x8 x9 x10 :=
    wrote_of hW (by rw [binary_result, k_main_arg0, k_main_v125] <;> rfl)
  replace k_main_arg7 := keep_of hW main_v126 main_arg7 rfl (by decide) k_main_arg7
  replace k_main_arg8 := keep_of hW main_v126 main_arg8 rfl (by decide) k_main_arg8
  replace k_main_arg9 := keep_of hW main_v126 main_arg9 rfl (by decide) k_main_arg9
  replace k_main_arg10 := keep_of hW main_v126 main_arg10 rfl (by decide) k_main_arg10
  replace k_main_arg11 := keep_of hW main_v126 main_arg11 rfl (by decide) k_main_arg11
  replace k_main_arg12 := keep_of hW main_v126 main_arg12 rfl (by decide) k_main_arg12
  replace k_main_v42 := keep_of hW main_v126 main_v42 rfl (by decide) k_main_v42
  replace k_main_v43 := keep_of hW main_v126 main_v43 rfl (by decide) k_main_v43
  replace k_main_v75 := keep_of hW main_v126 main_v75 rfl (by decide) k_main_v75
  clear hW k_main_arg0 k_main_v125
  clear W168
  exact after_nil_exists ⟨k_main_arg7, k_main_arg8, k_main_arg9, k_main_arg10, k_main_arg11, k_main_arg12, k_main_v42, k_main_v43, k_main_v75, k_main_v126⟩

/-- Operations 169 to 229 of the program (its own text, in order). -/
abbrev win3 : List (HloOp τ sig (Elt F)) :=
  [
    unary main_arg7 main_v127 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v127 main_v128 rfl shapeCasts_S1x128x128_S128x128,
    binary main_v126 main_v128 main_v129 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v75 main_v130 (broadcastInDim S1700000x1 ![0] bcast_S1700000_S1700000x1_0 : (⟨S1700000, .f32⟩ : BufTy).Contents (Elt F) → (⟨S1700000x1, .f32⟩ : BufTy).Contents (Elt F)),
    nullary main_c_27 (constantI S_ 32 0#32),
    unary main_c_27 main_v131 (broadcastInDim S1700000 ![] bcast_S_S1700000 : (⟨S_, .i32⟩ : BufTy).Contents (Elt F) → (⟨S1700000, .i32⟩ : BufTy).Contents (Elt F)),
    binary main_v42 main_v131 main_v132 (cmpi .slt : (⟨S1700000, .i32⟩ : BufTy).Contents (Elt F) → (⟨S1700000, .i32⟩ : BufTy).Contents (Elt F) → (⟨S1700000, .i1⟩ : BufTy).Contents (Elt F)),
    nullary main_c_28 (constantI S_ 32 100000#32),
    unary main_c_28 main_v133 (broadcastInDim S1700000 ![] bcast_S_S1700000 : (⟨S_, .i32⟩ : BufTy).Contents (Elt F) → (⟨S1700000, .i32⟩ : BufTy).Contents (Elt F)),
    binary main_v42 main_v133 main_v134 (addi : (⟨S1700000, .i32⟩ : BufTy).Contents (Elt F) → (⟨S1700000, .i32⟩ : BufTy).Contents (Elt F) → (⟨S1700000, .i32⟩ : BufTy).Contents (Elt F)),
    ternary main_v132 main_v134 main_v42 main_v135 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v135 main_v136 (broadcastInDim S1700000x1 ![0] bcast_S1700000_S1700000x1_0 : (⟨S1700000, .i32⟩ : BufTy).Contents (Elt F) → (⟨S1700000x1, .i32⟩ : BufTy).Contents (Elt F)),
    binary main_v129 main_v136 main_v137 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v130 main_v138 (broadcastInDim S1700000x128 ![0, 1] bcast_S1700000x1_S1700000x128_0_1 : (⟨S1700000x1, .f32⟩ : BufTy).Contents (Elt F) → (⟨S1700000x128, .f32⟩ : BufTy).Contents (Elt F)),
    binary main_v138 main_v137 main_v139 (mulf : (⟨S1700000x128, .f32⟩ : BufTy).Contents (Elt F) → (⟨S1700000x128, .f32⟩ : BufTy).Contents (Elt F) → (⟨S1700000x128, .f32⟩ : BufTy).Contents (Elt F)),
    nullary main_cst_29 (constant S_ .f32 0x00000000#32),
    unary main_cst_29 main_v140 (broadcastInDim S100000x128 ![] bcast_S_S100000x128 : (⟨S_, .f32⟩ : BufTy).Contents (Elt F) → (⟨S100000x128, .f32⟩ : BufTy).Contents (Elt F)),
    unary main_v43 main_v141 (broadcastInDim S1700000x1 ![0] bcast_S1700000_S1700000x1_0 : (⟨S1700000, .i32⟩ : BufTy).Contents (Elt F) → (⟨S1700000x1, .i32⟩ : BufTy).Contents (Elt F)),
    ternary main_v140 main_v141 main_v139 main_v142 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v143 ((extractStridedSlice S1x128 ![1, 0] · slices_S2x128_S1x128_1_0) : (⟨S2x128, .f32⟩ : BufTy).Contents (Elt F) → (⟨S1x128, .f32⟩ : BufTy).Contents (Elt F)),
    reshape main_v143 main_v144 rfl shapeCasts_S1x128_S128,
    unary main_v144 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v142 main_v146 main_v147 (addf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x00000000#32),
    binary main_v147 main_cst_30 main_v148 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v148 main_v149 (broadcastInDim S100000x1 ![0] bcast_S100000_S100000x1_0 : (⟨S100000, .f32⟩ : BufTy).Contents (Elt F) → (⟨S100000x1, .f32⟩ : BufTy).Contents (Elt F)),
    nullary main_cst_31 (constant S_ .f32 0x43000000#32),
    unary main_cst_31 main_v150 (broadcastInDim S100000x1 ![] bcast_S_S100000x1 : (⟨S_, .f32⟩ : BufTy).Contents (Elt F) → (⟨S100000x1, .f32⟩ : BufTy).Contents (Elt F)),
    binary main_v149 main_v150 main_v151 (Host.divf : (⟨S100000x1, .f32⟩ : BufTy).Contents (Elt F) → (⟨S100000x1, .f32⟩ : BufTy).Contents (Elt F) → (⟨S100000x1, .f32⟩ : BufTy).Contents (Elt F)),
    unary main_v151 main_v152 (broadcastInDim S100000x128 ![0, 1] bcast_S100000x1_S100000x128_0_1 : (⟨S100000x1, .f32⟩ : BufTy).Contents (Elt F) → (⟨S100000x128, .f32⟩ : BufTy).Contents (Elt F)),
    binary main_v147 main_v152 main_v153 (subf : (⟨S100000x128, .f32⟩ : BufTy).Contents (Elt F) → (⟨S100000x128, .f32⟩ : BufTy).Contents (Elt F) → (⟨S100000x128, .f32⟩ : BufTy).Contents (Elt F)),
    binary main_v153 main_v153 main_v154 (mulf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    binary main_v154 main_cst_32 main_v155 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v155 main_v156 (broadcastInDim S100000x1 ![0] bcast_S100000_S100000x1_0 : (⟨S100000, .f32⟩ : BufTy).Contents (Elt F) → (⟨S100000x1, .f32⟩ : BufTy).Contents (Elt F)),
    nullary main_cst_33 (constant S_ .f32 0x43000000#32),
    unary main_cst_33 main_v157 (broadcastInDim S100000x1 ![] bcast_S_S100000x1 : (⟨S_, .f32⟩ : BufTy).Contents (Elt F) → (⟨S100000x1, .f32⟩ : BufTy).Contents (Elt F)),
    binary main_v156 main_v157 main_v158 (Host.divf : (⟨S100000x1, .f32⟩ : BufTy).Contents (Elt F) → (⟨S100000x1, .f32⟩ : BufTy).Contents (Elt F) → (⟨S100000x1, .f32⟩ : BufTy).Contents (Elt F)),
    unary main_v151 main_v159 (broadcastInDim S100000x128 ![0, 1] bcast_S100000x1_S100000x128_0_1 : (⟨S100000x1, .f32⟩ : BufTy).Contents (Elt F) → (⟨S100000x128, .f32⟩ : BufTy).Contents (Elt F)),
    binary main_v147 main_v159 main_v160 (subf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x3727C5AC#32),
    unary main_cst_34 main_v161 (broadcastInDim S100000x1 ![] bcast_S_S100000x1 : (⟨S_, .f32⟩ : BufTy).Contents (Elt F) → (⟨S100000x1, .f32⟩ : BufTy).Contents (Elt F)),
    binary main_v158 main_v161 main_v162 (addf : (⟨S100000x1, .f32⟩ : BufTy).Contents (Elt F) → (⟨S100000x1, .f32⟩ : BufTy).Contents (Elt F) → (⟨S100000x1, .f32⟩ : BufTy).Contents (Elt F)),
    unary main_v162 main_v163 (Host.rsqrt : (⟨S100000x1, .f32⟩ : BufTy).Contents (Elt F) → (⟨S100000x1, .f32⟩ : BufTy).Contents (Elt F)),
    unary main_v163 main_v164 (broadcastInDim S100000x128 ![0, 1] bcast_S100000x1_S100000x128_0_1 : (⟨S100000x1, .f32⟩ : BufTy).Contents (Elt F) → (⟨S100000x128, .f32⟩ : BufTy).Contents (Elt F)),
    binary main_v160 main_v164 main_v165 (mulf : (⟨S100000x128, .f32⟩ : BufTy).Contents (Elt F) → (⟨S100000x128, .f32⟩ : BufTy).Contents (Elt F) → (⟨S100000x128, .f32⟩ : BufTy).Contents (Elt F)),
    unary main_arg9 main_v166 ((extractStridedSlice S1x128 ![1, 0] · slices_S2x128_S1x128_1_0) : (⟨S2x128, .f32⟩ : BufTy).Contents (Elt F) → (⟨S1x128, .f32⟩ : BufTy).Contents (Elt F)),
    reshape main_v166 main_v167 rfl shapeCasts_S1x128_S128,
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S100000x128 ![0, 1] bcast_S1x128_S100000x128_0_1 : (⟨S1x128, .f32⟩ : BufTy).Contents (Elt F) → (⟨S100000x128, .f32⟩ : BufTy).Contents (Elt F)),
    binary main_v165 main_v169 main_v170 (mulf : (⟨S100000x128, .f32⟩ : BufTy).Contents (Elt F) → (⟨S100000x128, .f32⟩ : BufTy).Contents (Elt F) → (⟨S100000x128, .f32⟩ : BufTy).Contents (Elt F)),
    unary main_arg10 main_v171 ((extractStridedSlice S1x128 ![1, 0] · slices_S2x128_S1x128_1_0) : (⟨S2x128, .f32⟩ : BufTy).Contents (Elt F) → (⟨S1x128, .f32⟩ : BufTy).Contents (Elt F)),
    reshape main_v171 main_v172 rfl shapeCasts_S1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S100000x128 ![0, 1] bcast_S1x128_S100000x128_0_1 : (⟨S1x128, .f32⟩ : BufTy).Contents (Elt F) → (⟨S100000x128, .f32⟩ : BufTy).Contents (Elt F)),
    binary main_v170 main_v174 main_v175 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v175) (TRef.of (T := ⟨S100000x128, .f32⟩) main_call5_v0) (TRef.of (T := ⟨S100000x128, .f32⟩) main_v176) maximumf,
    binary main_v126 main_v176 main_v177 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 8000000 in
/-- Window 3: from contents that hold, in each buffer still to be read, its stage of the arguments, the window ends at
    contents that do so again. -/
theorem win3_post (x0 : (⟨S100000x128, .f32⟩ : BufTy).Contents (Elt F)) (x1 : (⟨S100000x16, .f32⟩ : BufTy).Contents (Elt F)) (x2 : (⟨S2x1600000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S2x128x128, .f32⟩ : BufTy).Contents (Elt F)) (x8 : (⟨S2x128, .f32⟩ : BufTy).Contents (Elt F)) (x9 : (⟨S2x128, .f32⟩ : BufTy).Contents (Elt F)) (x10 : (⟨S2x128, .f32⟩ : BufTy).Contents (Elt F)) (x11 : (⟨S128x64, .f32⟩ : BufTy).Contents (Elt F)) (x12 : (⟨S64, .f32⟩ : BufTy).Contents (Elt F)) (W169 : Valuation τ sig (Elt F))
    (k_main_arg7 : W169 (Proc.devRef .tc main_arg7) = x7)
    (k_main_arg8 : W169 (Proc.devRef .tc main_arg8) = x8)
    (k_main_arg9 : W169 (Proc.devRef .tc main_arg9) = x9)
    (k_main_arg10 : W169 (Proc.devRef .tc main_arg10) = x10)
    (k_main_arg11 : W169 (Proc.devRef .tc main_arg11) = x11)
    (k_main_arg12 : W169 (Proc.devRef .tc main_arg12) = x12)
    (k_main_v42 : W169 (Proc.devRef .tc main_v42) = ReadP.val_main_v42 (F := F) x2)
    (k_main_v43 : W169 (Proc.devRef .tc main_v43) = ReadP.val_main_v43 (F := F) x2)
    (k_main_v75 : W169 (Proc.devRef .tc main_v75) = ReadP.val_main_v75 (F := F) x1 x2 x3 x4 x5 x6)
    (k_main_v126 : W169 (Proc.devRef .tc main_v126) = ReadP.val_main_v126 (F := F) x0 x1 x2 x3 x4 x5 x6 x7 x8 x9 x10)
    : ∃ W' : Valuation τ sig (Elt F), after (win3 (F := F)) W169 = W'
      ∧ W' (Proc.devRef .tc main_arg11) = x11
      ∧ W' (Proc.devRef .tc main_arg12) = x12
      ∧ W' (Proc.devRef .tc main_v177) = ReadP.val_main_v177 (F := F) x0 x1 x2 x3 x4 x5 x6 x7 x8 x9 x10 := by
  unfold win3
  -- main_v127
  refine after_cons_exists (fun W170 hW => ?_)
  have k_main_v127 : W170 (Proc.devRef .tc main_v127) = ReadP.val_main_v127 (F := F) x7 :=
    wrote_of hW (by rw [unary_result, k_main_arg7] <;> rfl)
  replace k_main_arg8 := keep_of hW main_v127 main_arg8 rfl (by decide) k_main_arg8
  replace k_main_arg9 := keep_of hW main_v127 main_arg9 rfl (by decide) k_main_arg9
  replace k_main_arg10 := keep_of hW main_v127 main_arg10 rfl (by decide) k_main_arg10
  replace k_main_arg11 := keep_of hW main_v127 main_arg11 rfl (by decide) k_main_arg11
  replace k_main_arg12 := keep_of hW main_v127 main_arg12 rfl (by decide) k_main_arg12
  replace k_main_v42 := keep_of hW main_v127 main_v42 rfl (by decide) k_main_v42
  replace k_main_v43 := keep_of hW main_v127 main_v43 rfl (by decide) k_main_v43
  replace k_main_v75 := keep_of hW main_v127 main_v75 rfl (by decide) k_main_v75
  replace k_main_v126 := keep_of hW main_v127 main_v126 rfl (by decide) k_main_v126
  clear hW k_main_arg7
  clear W169
  -- main_v128
  refine after_cons_exists (fun W171 hW => ?_)
  have k_main_v128 : W171 (Proc.devRef .tc main_v128) = ReadP.val_main_v128 (F := F) x7 :=
    wrote_of hW (by rw [reshape_result, k_main_v127] <;> rfl)
  replace k_main_arg8 := keep_of hW main_v128 main_arg8 rfl (by decide) k_main_arg8
  replace k_main_arg9 := keep_of hW main_v128 main_arg9 rfl (by decide) k_main_arg9
  replace k_main_arg10 := keep_of hW main_v128 main_arg10 rfl (by decide) k_main_arg10
  replace k_main_arg11 := keep_of hW main_v128 main_arg11 rfl (by decide) k_main_arg11
  replace k_main_arg12 := keep_of hW main_v128 main_arg12 rfl (by decide) k_main_arg12
  replace k_main_v42 := keep_of hW main_v128 main_v42 rfl (by decide) k_main_v42
  replace k_main_v43 := keep_of hW main_v128 main_v43 rfl (by decide) k_main_v43
  replace k_main_v75 := keep_of hW main_v128 main_v75 rfl (by decide) k_main_v75
  replace k_main_v126 := keep_of hW main_v128 main_v126 rfl (by decide) k_main_v126
  clear hW k_main_v127
  clear W170
  -- main_v129
  refine after_cons_exists (fun W172 hW => ?_)
  have k_main_v129 : W172 (Proc.devRef .tc main_v129) = ReadP.val_main_v129 (F := F) x0 x1 x2 x3 x4 x5 x6 x7 x8 x9 x10 :=
    wrote_of hW (by rw [binary_result, k_main_v126, k_main_v128] <;> rfl)
  replace k_main_arg8 := keep_of hW main_v129 main_arg8 rfl (by decide) k_main_arg8
  replace k_main_arg9 := keep_of hW main_v129 main_arg9 rfl (by decide) k_main_arg9
  replace k_main_arg10 := keep_of hW main_v129 main_arg10 rfl (by decide) k_main_arg10
  replace k_main_arg11 := keep_of hW main_v129 main_arg11 rfl (by decide) k_main_arg11
  replace k_main_arg12 := keep_of hW main_v129 main_arg12 rfl (by decide) k_main_arg12
  replace k_main_v42 := keep_of hW main_v129 main_v42 rfl (by decide) k_main_v42
  replace k_main_v43 := keep_of hW main_v129 main_v43 rfl (by decide) k_main_v43
  replace k_main_v75 := keep_of hW main_v129 main_v75 rfl (by decide) k_main_v75
  replace k_main_v126 := keep_of hW main_v129 main_v126 rfl (by decide) k_main_v126
  clear hW k_main_v128
  clear W171
  -- main_v130
  refine after_cons_exists (fun W173 hW => ?_)
  have k_main_v130 : W173 (Proc.devRef .tc main_v130) = ReadP.val_main_v130 (F := F) x1 x2 x3 x4 x5 x6 :=
    wrote_of hW (by rw [unary_result, k_main_v75] <;> rfl)
  replace k_main_arg8 := keep_of hW main_v130 main_arg8 rfl (by decide) k_main_arg8
  replace k_main_arg9 := keep_of hW main_v130 main_arg9 rfl (by decide) k_main_arg9
  replace k_main_arg10 := keep_of hW main_v130 main_arg10 rfl (by decide) k_main_arg10
  replace k_main_arg11 := keep_of hW main_v130 main_arg11 rfl (by decide) k_main_arg11
  replace k_main_arg12 := keep_of hW main_v130 main_arg12 rfl (by decide) k_main_arg12
  replace k_main_v42 := keep_of hW main_v130 main_v42 rfl (by decide) k_main_v42
  replace k_main_v43 := keep_of hW main_v130 main_v43 rfl (by decide) k_main_v43
  replace k_main_v126 := keep_of hW main_v130 main_v126 rfl (by decide) k_main_v126
  replace k_main_v129 := keep_of hW main_v130 main_v129 rfl (by decide) k_main_v129
  clear hW k_main_v75
  clear W172
  -- main_c_27
  refine after_cons_exists (fun W174 hW => ?_)
  have k_main_c_27 : W174 (Proc.devRef .tc main_c_27) = ReadP.val_main_c_27 (F := F) :=
    wrote_of hW (by rw [nullary_result] <;> rfl)
  replace k_main_arg8 := keep_of hW main_c_27 main_arg8 rfl (by decide) k_main_arg8
  replace k_main_arg9 := keep_of hW main_c_27 main_arg9 rfl (by decide) k_main_arg9
  replace k_main_arg10 := keep_of hW main_c_27 main_arg10 rfl (by decide) k_main_arg10
  replace k_main_arg11 := keep_of hW main_c_27 main_arg11 rfl (by decide) k_main_arg11
  replace k_main_arg12 := keep_of hW main_c_27 main_arg12 rfl (by decide) k_main_arg12
  replace k_main_v42 := keep_of hW main_c_27 main_v42 rfl (by decide) k_main_v42
  replace k_main_v43 := keep_of hW main_c_27 main_v43 rfl (by decide) k_main_v43
  replace k_main_v126 := keep_of hW main_c_27 main_v126 rfl (by decide) k_main_v126
  replace k_main_v129 := keep_of hW main_c_27 main_v129 rfl (by decide) k_main_v129
  replace k_main_v130 := keep_of hW main_c_27 main_v130 rfl (by decide) k_main_v130
  clear hW
  clear W173
  -- main_v131
  refine after_cons_exists (fun W175 hW => ?_)
  have k_main_v131 : W175 (Proc.devRef .tc main_v131) = ReadP.val_main_v131 (F := F) :=
    wrote_of hW (by rw [unary_result, k_main_c_27] <;> rfl)
  replace k_main_arg8 := keep_of hW main_v131 main_arg8 rfl (by decide) k_main_arg8
  replace k_main_arg9 := keep_of hW main_v131 main_arg9 rfl (by decide) k_main_arg9
  replace k_main_arg10 := keep_of hW main_v131 main_arg10 rfl (by decide) k_main_arg10
  replace k_main_arg11 := keep_of hW main_v131 main_arg11 rfl (by decide) k_main_arg11
  replace k_main_arg12 := keep_of hW main_v131 main_arg12 rfl (by decide) k_main_arg12
  replace k_main_v42 := keep_of hW main_v131 main_v42 rfl (by decide) k_main_v42
  replace k_main_v43 := keep_of hW main_v131 main_v43 rfl (by decide) k_main_v43
  replace k_main_v126 := keep_of hW main_v131 main_v126 rfl (by decide) k_main_v126
  replace k_main_v129 := keep_of hW main_v131 main_v129 rfl (by decide) k_main_v129
  replace k_main_v130 := keep_of hW main_v131 main_v130 rfl (by decide) k_main_v130
  clear hW k_main_c_27
  clear W174
  -- main_v132
  refine after_cons_exists (fun W176 hW => ?_)
  have k_main_v132 : W176 (Proc.devRef .tc main_v132) = ReadP.val_main_v132 (F := F) x2 :=
    wrote_of hW (by rw [binary_result, k_main_v42, k_main_v131] <;> rfl)
  replace k_main_arg8 := keep_of hW main_v132 main_arg8 rfl (by decide) k_main_arg8
  replace k_main_arg9 := keep_of hW main_v132 main_arg9 rfl (by decide) k_main_arg9
  replace k_main_arg10 := keep_of hW main_v132 main_arg10 rfl (by decide) k_main_arg10
  replace k_main_arg11 := keep_of hW main_v132 main_arg11 rfl (by decide) k_main_arg11
  replace k_main_arg12 := keep_of hW main_v132 main_arg12 rfl (by decide) k_main_arg12
  replace k_main_v42 := keep_of hW main_v132 main_v42 rfl (by decide) k_main_v42
  replace k_main_v43 := keep_of hW main_v132 main_v43 rfl (by decide) k_main_v43
  replace k_main_v126 := keep_of hW main_v132 main_v126 rfl (by decide) k_main_v126
  replace k_main_v129 := keep_of hW main_v132 main_v129 rfl (by decide) k_main_v129
  replace k_main_v130 := keep_of hW main_v132 main_v130 rfl (by decide) k_main_v130
  clear hW k_main_v131
  clear W175
  -- main_c_28
  refine after_cons_exists (fun W177 hW => ?_)
  have k_main_c_28 : W177 (Proc.devRef .tc main_c_28) = ReadP.val_main_c_28 (F := F) :=
    wrote_of hW (by rw [nullary_result] <;> rfl)
  replace k_main_arg8 := keep_of hW main_c_28 main_arg8 rfl (by decide) k_main_arg8
  replace k_main_arg9 := keep_of hW main_c_28 main_arg9 rfl (by decide) k_main_arg9
  replace k_main_arg10 := keep_of hW main_c_28 main_arg10 rfl (by decide) k_main_arg10
  replace k_main_arg11 := keep_of hW main_c_28 main_arg11 rfl (by decide) k_main_arg11
  replace k_main_arg12 := keep_of hW main_c_28 main_arg12 rfl (by decide) k_main_arg12
  replace k_main_v42 := keep_of hW main_c_28 main_v42 rfl (by decide) k_main_v42
  replace k_main_v43 := keep_of hW main_c_28 main_v43 rfl (by decide) k_main_v43
  replace k_main_v126 := keep_of hW main_c_28 main_v126 rfl (by decide) k_main_v126
  replace k_main_v129 := keep_of hW main_c_28 main_v129 rfl (by decide) k_main_v129
  replace k_main_v130 := keep_of hW main_c_28 main_v130 rfl (by decide) k_main_v130
  replace k_main_v132 := keep_of hW main_c_28 main_v132 rfl (by decide) k_main_v132
  clear hW
  clear W176
  -- main_v133
  refine after_cons_exists (fun W178 hW => ?_)
  have k_main_v133 : W178 (Proc.devRef .tc main_v133) = ReadP.val_main_v133 (F := F) :=
    wrote_of hW (by rw [unary_result, k_main_c_28] <;> rfl)
  replace k_main_arg8 := keep_of hW main_v133 main_arg8 rfl (by decide) k_main_arg8
  replace k_main_arg9 := keep_of hW main_v133 main_arg9 rfl (by decide) k_main_arg9
  replace k_main_arg10 := keep_of hW main_v133 main_arg10 rfl (by decide) k_main_arg10
  replace k_main_arg11 := keep_of hW main_v133 main_arg11 rfl (by decide) k_main_arg11
  replace k_main_arg12 := keep_of hW main_v133 main_arg12 rfl (by decide) k_main_arg12
  replace k_main_v42 := keep_of hW main_v133 main_v42 rfl (by decide) k_main_v42
  replace k_main_v43 := keep_of hW main_v133 main_v43 rfl (by decide) k_main_v43
  replace k_main_v126 := keep_of hW main_v133 main_v126 rfl (by decide) k_main_v126
  replace k_main_v129 := keep_of hW main_v133 main_v129 rfl (by decide) k_main_v129
  replace k_main_v130 := keep_of hW main_v133 main_v130 rfl (by decide) k_main_v130
  replace k_main_v132 := keep_of hW main_v133 main_v132 rfl (by decide) k_main_v132
  clear hW k_main_c_28
  clear W177
  -- main_v134
  refine after_cons_exists (fun W179 hW => ?_)
  have k_main_v134 : W179 (Proc.devRef .tc main_v134) = ReadP.val_main_v134 (F := F) x2 :=
    wrote_of hW (by rw [binary_result, k_main_v42, k_main_v133] <;> rfl)
  replace k_main_arg8 := keep_of hW main_v134 main_arg8 rfl (by decide) k_main_arg8
  replace k_main_arg9 := keep_of hW main_v134 main_arg9 rfl (by decide) k_main_arg9
  replace k_main_arg10 := keep_of hW main_v134 main_arg10 rfl (by decide) k_main_arg10
  replace k_main_arg11 := keep_of hW main_v134 main_arg11 rfl (by decide) k_main_arg11
  replace k_main_arg12 := keep_of hW main_v134 main_arg12 rfl (by decide) k_main_arg12
  replace k_main_v42 := keep_of hW main_v134 main_v42 rfl (by decide) k_main_v42
  replace k_main_v43 := keep_of hW main_v134 main_v43 rfl (by decide) k_main_v43
  replace k_main_v126 := keep_of hW main_v134 main_v126 rfl (by decide) k_main_v126
  replace k_main_v129 := keep_of hW main_v134 main_v129 rfl (by decide) k_main_v129
  replace k_main_v130 := keep_of hW main_v134 main_v130 rfl (by decide) k_main_v130
  replace k_main_v132 := keep_of hW main_v134 main_v132 rfl (by decide) k_main_v132
  clear hW k_main_v133
  clear W178
  -- main_v135
  refine after_cons_exists (fun W180 hW => ?_)
  have k_main_v135 : W180 (Proc.devRef .tc main_v135) = ReadP.val_main_v135 (F := F) x2 :=
    wrote_of hW (by rw [ternary_result, k_main_v132, k_main_v134, k_main_v42] <;> rfl)
  replace k_main_arg8 := keep_of hW main_v135 main_arg8 rfl (by decide) k_main_arg8
  replace k_main_arg9 := keep_of hW main_v135 main_arg9 rfl (by decide) k_main_arg9
  replace k_main_arg10 := keep_of hW main_v135 main_arg10 rfl (by decide) k_main_arg10
  replace k_main_arg11 := keep_of hW main_v135 main_arg11 rfl (by decide) k_main_arg11
  replace k_main_arg12 := keep_of hW main_v135 main_arg12 rfl (by decide) k_main_arg12
  replace k_main_v43 := keep_of hW main_v135 main_v43 rfl (by decide) k_main_v43
  replace k_main_v126 := keep_of hW main_v135 main_v126 rfl (by decide) k_main_v126
  replace k_main_v129 := keep_of hW main_v135 main_v129 rfl (by decide) k_main_v129
  replace k_main_v130 := keep_of hW main_v135 main_v130 rfl (by decide) k_main_v130
  clear hW k_main_v42 k_main_v132 k_main_v134
  clear W179
  -- main_v136
  refine after_cons_exists (fun W181 hW => ?_)
  have k_main_v136 : W181 (Proc.devRef .tc main_v136) = ReadP.val_main_v136 (F := F) x2 :=
    wrote_of hW (by rw [unary_result, k_main_v135] <;> rfl)
  replace k_main_arg8 := keep_of hW main_v136 main_arg8 rfl (by decide) k_main_arg8
  replace k_main_arg9 := keep_of hW main_v136 main_arg9 rfl (by decide) k_main_arg9
  replace k_main_arg10 := keep_of hW main_v136 main_arg10 rfl (by decide) k_main_arg10
  replace k_main_arg11 := keep_of hW main_v136 main_arg11 rfl (by decide) k_main_arg11
  replace k_main_arg12 := keep_of hW main_v136 main_arg12 rfl (by decide) k_main_arg12
  replace k_main_v43 := keep_of hW main_v136 main_v43 rfl (by decide) k_main_v43
  replace k_main_v126 := keep_of hW main_v136 main_v126 rfl (by decide) k_main_v126
  replace k_main_v129 := keep_of hW main_v136 main_v129 rfl (by decide) k_main_v129
  replace k_main_v130 := keep_of hW main_v136 main_v130 rfl (by decide) k_main_v130
  clear hW k_main_v135
  clear W180
  -- main_v137
  refine after_cons_exists (fun W182 hW => ?_)
  have k_main_v137 : W182 (Proc.devRef .tc main_v137) = ReadP.val_main_v137 (F := F) x0 x1 x2 x3 x4 x5 x6 x7 x8 x9 x10 :=
    wrote_of hW (by rw [binary_result, k_main_v129, k_main_v136] <;> rfl)
  replace k_main_arg8 := keep_of hW main_v137 main_arg8 rfl (by decide) k_main_arg8
  replace k_main_arg9 := keep_of hW main_v137 main_arg9 rfl (by decide) k_main_arg9
  replace k_main_arg10 := keep_of hW main_v137 main_arg10 rfl (by decide) k_main_arg10
  replace k_main_arg11 := keep_of hW main_v137 main_arg11 rfl (by decide) k_main_arg11
  replace k_main_arg12 := keep_of hW main_v137 main_arg12 rfl (by decide) k_main_arg12
  replace k_main_v43 := keep_of hW main_v137 main_v43 rfl (by decide) k_main_v43
  replace k_main_v126 := keep_of hW main_v137 main_v126 rfl (by decide) k_main_v126
  replace k_main_v130 := keep_of hW main_v137 main_v130 rfl (by decide) k_main_v130
  clear hW k_main_v129 k_main_v136
  clear W181
  -- main_v138
  refine after_cons_exists (fun W183 hW => ?_)
  have k_main_v138 : W183 (Proc.devRef .tc main_v138) = ReadP.val_main_v138 (F := F) x1 x2 x3 x4 x5 x6 :=
    wrote_of hW (by rw [unary_result, k_main_v130] <;> rfl)
  replace k_main_arg8 := keep_of hW main_v138 main_arg8 rfl (by decide) k_main_arg8
  replace k_main_arg9 := keep_of hW main_v138 main_arg9 rfl (by decide) k_main_arg9
  replace k_main_arg10 := keep_of hW main_v138 main_arg10 rfl (by decide) k_main_arg10
  replace k_main_arg11 := keep_of hW main_v138 main_arg11 rfl (by decide) k_main_arg11
  replace k_main_arg12 := keep_of hW main_v138 main_arg12 rfl (by decide) k_main_arg12
  replace k_main_v43 := keep_of hW main_v138 main_v43 rfl (by decide) k_main_v43
  replace k_main_v126 := keep_of hW main_v138 main_v126 rfl (by decide) k_main_v126
  replace k_main_v137 := keep_of hW main_v138 main_v137 rfl (by decide) k_main_v137
  clear hW k_main_v130
  clear W182
  -- main_v139
  refine after_cons_exists (fun W184 hW => ?_)
  have k_main_v139 : W184 (Proc.devRef .tc main_v139) = ReadP.val_main_v139 (F := F) x0 x1 x2 x3 x4 x5 x6 x7 x8 x9 x10 :=
    wrote_of hW (by rw [binary_result, k_main_v138, k_main_v137] <;> rfl)
  replace k_main_arg8 := keep_of hW main_v139 main_arg8 rfl (by decide) k_main_arg8
  replace k_main_arg9 := keep_of hW main_v139 main_arg9 rfl (by decide) k_main_arg9
  replace k_main_arg10 := keep_of hW main_v139 main_arg10 rfl (by decide) k_main_arg10
  replace k_main_arg11 := keep_of hW main_v139 main_arg11 rfl (by decide) k_main_arg11
  replace k_main_arg12 := keep_of hW main_v139 main_arg12 rfl (by decide) k_main_arg12
  replace k_main_v43 := keep_of hW main_v139 main_v43 rfl (by decide) k_main_v43
  replace k_main_v126 := keep_of hW main_v139 main_v126 rfl (by decide) k_main_v126
  clear hW k_main_v137 k_main_v138
  clear W183
  -- main_cst_29
  refine after_cons_exists (fun W185 hW => ?_)
  have k_main_cst_29 : W185 (Proc.devRef .tc main_cst_29) = ReadP.val_main_cst_29 (F := F) :=
    wrote_of hW (by rw [nullary_result] <;> rfl)
  replace k_main_arg8 := keep_of hW main_cst_29 main_arg8 rfl (by decide) k_main_arg8
  replace k_main_arg9 := keep_of hW main_cst_29 main_arg9 rfl (by decide) k_main_arg9
  replace k_main_arg10 := keep_of hW main_cst_29 main_arg10 rfl (by decide) k_main_arg10
  replace k_main_arg11 := keep_of hW main_cst_29 main_arg11 rfl (by decide) k_main_arg11
  replace k_main_arg12 := keep_of hW main_cst_29 main_arg12 rfl (by decide) k_main_arg12
  replace k_main_v43 := keep_of hW main_cst_29 main_v43 rfl (by decide) k_main_v43
  replace k_main_v126 := keep_of hW main_cst_29 main_v126 rfl (by decide) k_main_v126
  replace k_main_v139 := keep_of hW main_cst_29 main_v139 rfl (by decide) k_main_v139
  clear hW
  clear W184
  -- main_v140
  refine after_cons_exists (fun W186 hW => ?_)
  have k_main_v140 : W186 (Proc.devRef .tc main_v140) = ReadP.val_main_v140 (F := F) :=
    wrote_of hW (by rw [unary_result, k_main_cst_29] <;> rfl)
  replace k_main_arg8 := keep_of hW main_v140 main_arg8 rfl (by decide) k_main_arg8
  replace k_main_arg9 := keep_of hW main_v140 main_arg9 rfl (by decide) k_main_arg9
  replace k_main_arg10 := keep_of hW main_v140 main_arg10 rfl (by decide) k_main_arg10
  replace k_main_arg11 := keep_of hW main_v140 main_arg11 rfl (by decide) k_main_arg11
  replace k_main_arg12 := keep_of hW main_v140 main_arg12 rfl (by decide) k_main_arg12
  replace k_main_v43 := keep_of hW main_v140 main_v43 rfl (by decide) k_main_v43
  replace k_main_v126 := keep_of hW main_v140 main_v126 rfl (by decide) k_main_v126
  replace k_main_v139 := keep_of hW main_v140 main_v139 rfl (by decide) k_main_v139
  clear hW k_main_cst_29
  clear W185
  -- main_v141
  refine after_cons_exists (fun W187 hW => ?_)
  have k_main_v141 : W187 (Proc.devRef .tc main_v141) = ReadP.val_main_v141 (F := F) x2 :=
    wrote_of hW (by rw [unary_result, k_main_v43] <;> rfl)
  replace k_main_arg8 := keep_of hW main_v141 main_arg8 rfl (by decide) k_main_arg8
  replace k_main_arg9 := keep_of hW main_v141 main_arg9 rfl (by decide) k_main_arg9
  replace k_main_arg10 := keep_of hW main_v141 main_arg10 rfl (by decide) k_main_arg10
  replace k_main_arg11 := keep_of hW main_v141 main_arg11 rfl (by decide) k_main_arg11
  replace k_main_arg12 := keep_of hW main_v141 main_arg12 rfl (by decide) k_main_arg12
  replace k_main_v126 := keep_of hW main_v141 main_v126 rfl (by decide) k_main_v126
  replace k_main_v139 := keep_of hW main_v141 main_v139 rfl (by decide) k_main_v139
  replace k_main_v140 := keep_of hW main_v141 main_v140 rfl (by decide) k_main_v140
  clear hW k_main_v43
  clear W186
  -- main_v142
  refine after_cons_exists (fun W188 hW => ?_)
  have k_main_v142 : W188 (Proc.devRef .tc main_v142) = ReadP.val_main_v142 (F := F) x0 x1 x2 x3 x4 x5 x6 x7 x8 x9 x10 :=
    wrote_of hW (by rw [ternary_result, k_main_v140, k_main_v141, k_main_v139] <;> rfl)
  replace k_main_arg8 := keep_of hW main_v142 main_arg8 rfl (by decide) k_main_arg8
  replace k_main_arg9 := keep_of hW main_v142 main_arg9 rfl (by decide) k_main_arg9
  replace k_main_arg10 := keep_of hW main_v142 main_arg10 rfl (by decide) k_main_arg10
  replace k_main_arg11 := keep_of hW main_v142 main_arg11 rfl (by decide) k_main_arg11
  replace k_main_arg12 := keep_of hW main_v142 main_arg12 rfl (by decide) k_main_arg12
  replace k_main_v126 := keep_of hW main_v142 main_v126 rfl (by decide) k_main_v126
  clear hW k_main_v139 k_main_v140 k_main_v141
  clear W187
  -- main_v143
  refine after_cons_exists (fun W189 hW => ?_)
  have k_main_v143 : W189 (Proc.devRef .tc main_v143) = ReadP.val_main_v143 (F := F) x8 :=
    wrote_of hW (by rw [unary_result, k_main_arg8] <;> rfl)
  replace k_main_arg9 := keep_of hW main_v143 main_arg9 rfl (by decide) k_main_arg9
  replace k_main_arg10 := keep_of hW main_v143 main_arg10 rfl (by decide) k_main_arg10
  replace k_main_arg11 := keep_of hW main_v143 main_arg11 rfl (by decide) k_main_arg11
  replace k_main_arg12 := keep_of hW main_v143 main_arg12 rfl (by decide) k_main_arg12
  replace k_main_v126 := keep_of hW main_v143 main_v126 rfl (by decide) k_main_v126
  replace k_main_v142 := keep_of hW main_v143 main_v142 rfl (by decide) k_main_v142
  clear hW k_main_arg8
  clear W188
  -- main_v144
  refine after_cons_exists (fun W190 hW => ?_)
  have k_main_v144 : W190 (Proc.devRef .tc main_v144) = ReadP.val_main_v144 (F := F) x8 :=
    wrote_of hW (by rw [reshape_result, k_main_v143] <;> rfl)
  replace k_main_arg9 := keep_of hW main_v144 main_arg9 rfl (by decide) k_main_arg9
  replace k_main_arg10 := keep_of hW main_v144 main_arg10 rfl (by decide) k_main_arg10
  replace k_main_arg11 := keep_of hW main_v144 main_arg11 rfl (by decide) k_main_arg11
  replace k_main_arg12 := keep_of hW main_v144 main_arg12 rfl (by decide) k_main_arg12
  replace k_main_v126 := keep_of hW main_v144 main_v126 rfl (by decide) k_main_v126
  replace k_main_v142 := keep_of hW main_v144 main_v142 rfl (by decide) k_main_v142
  clear hW k_main_v143
  clear W189
  -- main_v145
  refine after_cons_exists (fun W191 hW => ?_)
  have k_main_v145 : W191 (Proc.devRef .tc main_v145) = ReadP.val_main_v145 (F := F) x8 :=
    wrote_of hW (by rw [unary_result, k_main_v144] <;> rfl)
  replace k_main_arg9 := keep_of hW main_v145 main_arg9 rfl (by decide) k_main_arg9
  replace k_main_arg10 := keep_of hW main_v145 main_arg10 rfl (by decide) k_main_arg10
  replace k_main_arg11 := keep_of hW main_v145 main_arg11 rfl (by decide) k_main_arg11
  replace k_main_arg12 := keep_of hW main_v145 main_arg12 rfl (by decide) k_main_arg12
  replace k_main_v126 := keep_of hW main_v145 main_v126 rfl (by decide) k_main_v126
  replace k_main_v142 := keep_of hW main_v145 main_v142 rfl (by decide) k_main_v142
  clear hW k_main_v144
  clear W190
  -- main_v146
  refine after_cons_exists (fun W192 hW => ?_)
  have k_main_v146 : W192 (Proc.devRef .tc main_v146) = ReadP.val_main_v146 (F := F) x8 :=
    wrote_of hW (by rw [unary_result, k_main_v145] <;> rfl)
  replace k_main_arg9 := keep_of hW main_v146 main_arg9 rfl (by decide) k_main_arg9
  replace k_main_arg10 := keep_of hW main_v146 main_arg10 rfl (by decide) k_main_arg10
  replace k_main_arg11 := keep_of hW main_v146 main_arg11 rfl (by decide) k_main_arg11
  replace k_main_arg12 := keep_of hW main_v146 main_arg12 rfl (by decide) k_main_arg12
  replace k_main_v126 := keep_of hW main_v146 main_v126 rfl (by decide) k_main_v126
  replace k_main_v142 := keep_of hW main_v146 main_v142 rfl (by decide) k_main_v142
  clear hW k_main_v145
  clear W191
  -- main_v147
  refine after_cons_exists (fun W193 hW => ?_)
  have k_main_v147 : W193 (Proc.devRef .tc main_v147) = ReadP.val_main_v147 (F := F) x0 x1 x2 x3 x4 x5 x6 x7 x8 x9 x10 :=
    wrote_of hW (by rw [binary_result, k_main_v142, k_main_v146] <;> rfl)
  replace k_main_arg9 := keep_of hW main_v147 main_arg9 rfl (by decide) k_main_arg9
  replace k_main_arg10 := keep_of hW main_v147 main_arg10 rfl (by decide) k_main_arg10
  replace k_main_arg11 := keep_of hW main_v147 main_arg11 rfl (by decide) k_main_arg11
  replace k_main_arg12 := keep_of hW main_v147 main_arg12 rfl (by decide) k_main_arg12
  replace k_main_v126 := keep_of hW main_v147 main_v126 rfl (by decide) k_main_v126
  clear hW k_main_v142 k_main_v146
  clear W192
  -- main_cst_30
  refine after_cons_exists (fun W194 hW => ?_)
  have k_main_cst_30 : W194 (Proc.devRef .tc main_cst_30) = ReadP.val_main_cst_30 (F := F) :=
    wrote_of hW (by rw [nullary_result] <;> rfl)
  replace k_main_arg9 := keep_of hW main_cst_30 main_arg9 rfl (by decide) k_main_arg9
  replace k_main_arg10 := keep_of hW main_cst_30 main_arg10 rfl (by decide) k_main_arg10
  replace k_main_arg11 := keep_of hW main_cst_30 main_arg11 rfl (by decide) k_main_arg11
  replace k_main_arg12 := keep_of hW main_cst_30 main_arg12 rfl (by decide) k_main_arg12
  replace k_main_v126 := keep_of hW main_cst_30 main_v126 rfl (by decide) k_main_v126
  replace k_main_v147 := keep_of hW main_cst_30 main_v147 rfl (by decide) k_main_v147
  clear hW
  clear W193
  -- main_v148
  refine after_cons_exists (fun W195 hW => ?_)
  have k_main_v148 : W195 (Proc.devRef .tc main_v148) = ReadP.val_main_v148 (F := F) x0 x1 x2 x3 x4 x5 x6 x7 x8 x9 x10 :=
    wrote_of hW (by rw [binary_result, k_main_v147, k_main_cst_30] <;> rfl)
  replace k_main_arg9 := keep_of hW main_v148 main_arg9 rfl (by decide) k_main_arg9
  replace k_main_arg10 := keep_of hW main_v148 main_arg10 rfl (by decide) k_main_arg10
  replace k_main_arg11 := keep_of hW main_v148 main_arg11 rfl (by decide) k_main_arg11
  replace k_main_arg12 := keep_of hW main_v148 main_arg12 rfl (by decide) k_main_arg12
  replace k_main_v126 := keep_of hW main_v148 main_v126 rfl (by decide) k_main_v126
  replace k_main_v147 := keep_of hW main_v148 main_v147 rfl (by decide) k_main_v147
  clear hW k_main_cst_30
  clear W194
  -- main_v149
  refine after_cons_exists (fun W196 hW => ?_)
  have k_main_v149 : W196 (Proc.devRef .tc main_v149) = ReadP.val_main_v149 (F := F) x0 x1 x2 x3 x4 x5 x6 x7 x8 x9 x10 :=
    wrote_of hW (by rw [unary_result, k_main_v148] <;> rfl)
  replace k_main_arg9 := keep_of hW main_v149 main_arg9 rfl (by decide) k_main_arg9
  replace k_main_arg10 := keep_of hW main_v149 main_arg10 rfl (by decide) k_main_arg10
  replace k_main_arg11 := keep_of hW main_v149 main_arg11 rfl (by decide) k_main_arg11
  replace k_main_arg12 := keep_of hW main_v149 main_arg12 rfl (by decide) k_main_arg12
  replace k_main_v126 := keep_of hW main_v149 main_v126 rfl (by decide) k_main_v126
  replace k_main_v147 := keep_of hW main_v149 main_v147 rfl (by decide) k_main_v147
  clear hW k_main_v148
  clear W195
  -- main_cst_31
  refine after_cons_exists (fun W197 hW => ?_)
  have k_main_cst_31 : W197 (Proc.devRef .tc main_cst_31) = ReadP.val_main_cst_31 (F := F) :=
    wrote_of hW (by rw [nullary_result] <;> rfl)
  replace k_main_arg9 := keep_of hW main_cst_31 main_arg9 rfl (by decide) k_main_arg9
  replace k_main_arg10 := keep_of hW main_cst_31 main_arg10 rfl (by decide) k_main_arg10
  replace k_main_arg11 := keep_of hW main_cst_31 main_arg11 rfl (by decide) k_main_arg11
  replace k_main_arg12 := keep_of hW main_cst_31 main_arg12 rfl (by decide) k_main_arg12
  replace k_main_v126 := keep_of hW main_cst_31 main_v126 rfl (by decide) k_main_v126
  replace k_main_v147 := keep_of hW main_cst_31 main_v147 rfl (by decide) k_main_v147
  replace k_main_v149 := keep_of hW main_cst_31 main_v149 rfl (by decide) k_main_v149
  clear hW
  clear W196
  -- main_v150
  refine after_cons_exists (fun W198 hW => ?_)
  have k_main_v150 : W198 (Proc.devRef .tc main_v150) = ReadP.val_main_v150 (F := F) :=
    wrote_of hW (by rw [unary_result, k_main_cst_31] <;> rfl)
  replace k_main_arg9 := keep_of hW main_v150 main_arg9 rfl (by decide) k_main_arg9
  replace k_main_arg10 := keep_of hW main_v150 main_arg10 rfl (by decide) k_main_arg10
  replace k_main_arg11 := keep_of hW main_v150 main_arg11 rfl (by decide) k_main_arg11
  replace k_main_arg12 := keep_of hW main_v150 main_arg12 rfl (by decide) k_main_arg12
  replace k_main_v126 := keep_of hW main_v150 main_v126 rfl (by decide) k_main_v126
  replace k_main_v147 := keep_of hW main_v150 main_v147 rfl (by decide) k_main_v147
  replace k_main_v149 := keep_of hW main_v150 main_v149 rfl (by decide) k_main_v149
  clear hW k_main_cst_31
  clear W197
  -- main_v151
  refine after_cons_exists (fun W199 hW => ?_)
  have k_main_v151 : W199 (Proc.devRef .tc main_v151) = ReadP.val_main_v151 (F := F) x0 x1 x2 x3 x4 x5 x6 x7 x8 x9 x10 :=
    wrote_of hW (by rw [binary_result, k_main_v149, k_main_v150] <;> rfl)
  replace k_main_arg9 := keep_of hW main_v151 main_arg9 rfl (by decide) k_main_arg9
  replace k_main_arg10 := keep_of hW main_v151 main_arg10 rfl (by decide) k_main_arg10
  replace k_main_arg11 := keep_of hW main_v151 main_arg11 rfl (by decide) k_main_arg11
  replace k_main_arg12 := keep_of hW main_v151 main_arg12 rfl (by decide) k_main_arg12
  replace k_main_v126 := keep_of hW main_v151 main_v126 rfl (by decide) k_main_v126
  replace k_main_v147 := keep_of hW main_v151 main_v147 rfl (by decide) k_main_v147
  clear hW k_main_v149 k_main_v150
  clear W198
  -- main_v152
  refine after_cons_exists (fun W200 hW => ?_)
  have k_main_v152 : W200 (Proc.devRef .tc main_v152) = ReadP.val_main_v152 (F := F) x0 x1 x2 x3 x4 x5 x6 x7 x8 x9 x10 :=
    wrote_of hW (by rw [unary_result, k_main_v151] <;> rfl)
  replace k_main_arg9 := keep_of hW main_v152 main_arg9 rfl (by decide) k_main_arg9
  replace k_main_arg10 := keep_of hW main_v152 main_arg10 rfl (by decide) k_main_arg10
  replace k_main_arg11 := keep_of hW main_v152 main_arg11 rfl (by decide) k_main_arg11
  replace k_main_arg12 := keep_of hW main_v152 main_arg12 rfl (by decide) k_main_arg12
  replace k_main_v126 := keep_of hW main_v152 main_v126 rfl (by decide) k_main_v126
  replace k_main_v147 := keep_of hW main_v152 main_v147 rfl (by decide) k_main_v147
  replace k_main_v151 := keep_of hW main_v152 main_v151 rfl (by decide) k_main_v151
  clear hW
  clear W199
  -- main_v153
  refine after_cons_exists (fun W201 hW => ?_)
  have k_main_v153 : W201 (Proc.devRef .tc main_v153) = ReadP.val_main_v153 (F := F) x0 x1 x2 x3 x4 x5 x6 x7 x8 x9 x10 :=
    wrote_of hW (by rw [binary_result, k_main_v147, k_main_v152] <;> rfl)
  replace k_main_arg9 := keep_of hW main_v153 main_arg9 rfl (by decide) k_main_arg9
  replace k_main_arg10 := keep_of hW main_v153 main_arg10 rfl (by decide) k_main_arg10
  replace k_main_arg11 := keep_of hW main_v153 main_arg11 rfl (by decide) k_main_arg11
  replace k_main_arg12 := keep_of hW main_v153 main_arg12 rfl (by decide) k_main_arg12
  replace k_main_v126 := keep_of hW main_v153 main_v126 rfl (by decide) k_main_v126
  replace k_main_v147 := keep_of hW main_v153 main_v147 rfl (by decide) k_main_v147
  replace k_main_v151 := keep_of hW main_v153 main_v151 rfl (by decide) k_main_v151
  clear hW k_main_v152
  clear W200
  -- main_v154
  refine after_cons_exists (fun W202 hW => ?_)
  have k_main_v154 : W202 (Proc.devRef .tc main_v154) = ReadP.val_main_v154 (F := F) x0 x1 x2 x3 x4 x5 x6 x7 x8 x9 x10 :=
    wrote_of hW (by rw [binary_result, k_main_v153] <;> rfl)
  replace k_main_arg9 := keep_of hW main_v154 main_arg9 rfl (by decide) k_main_arg9
  replace k_main_arg10 := keep_of hW main_v154 main_arg10 rfl (by decide) k_main_arg10
  replace k_main_arg11 := keep_of hW main_v154 main_arg11 rfl (by decide) k_main_arg11
  replace k_main_arg12 := keep_of hW main_v154 main_arg12 rfl (by decide) k_main_arg12
  replace k_main_v126 := keep_of hW main_v154 main_v126 rfl (by decide) k_main_v126
  replace k_main_v147 := keep_of hW main_v154 main_v147 rfl (by decide) k_main_v147
  replace k_main_v151 := keep_of hW main_v154 main_v151 rfl (by decide) k_main_v151
  clear hW k_main_v153
  clear W201
  -- main_cst_32
  refine after_cons_exists (fun W203 hW => ?_)
  have k_main_cst_32 : W203 (Proc.devRef .tc main_cst_32) = ReadP.val_main_cst_32 (F := F) :=
    wrote_of hW (by rw [nullary_result] <;> rfl)
  replace k_main_arg9 := keep_of hW main_cst_32 main_arg9 rfl (by decide) k_main_arg9
  replace k_main_arg10 := keep_of hW main_cst_32 main_arg10 rfl (by decide) k_main_arg10
  replace k_main_arg11 := keep_of hW main_cst_32 main_arg11 rfl (by decide) k_main_arg11
  replace k_main_arg12 := keep_of hW main_cst_32 main_arg12 rfl (by decide) k_main_arg12
  replace k_main_v126 := keep_of hW main_cst_32 main_v126 rfl (by decide) k_main_v126
  replace k_main_v147 := keep_of hW main_cst_32 main_v147 rfl (by decide) k_main_v147
  replace k_main_v151 := keep_of hW main_cst_32 main_v151 rfl (by decide) k_main_v151
  replace k_main_v154 := keep_of hW main_cst_32 main_v154 rfl (by decide) k_main_v154
  clear hW
  clear W202
  -- main_v155
  refine after_cons_exists (fun W204 hW => ?_)
  have k_main_v155 : W204 (Proc.devRef .tc main_v155) = ReadP.val_main_v155 (F := F) x0 x1 x2 x3 x4 x5 x6 x7 x8 x9 x10 :=
    wrote_of hW (by rw [binary_result, k_main_v154, k_main_cst_32] <;> rfl)
  replace k_main_arg9 := keep_of hW main_v155 main_arg9 rfl (by decide) k_main_arg9
  replace k_main_arg10 := keep_of hW main_v155 main_arg10 rfl (by decide) k_main_arg10
  replace k_main_arg11 := keep_of hW main_v155 main_arg11 rfl (by decide) k_main_arg11
  replace k_main_arg12 := keep_of hW main_v155 main_arg12 rfl (by decide) k_main_arg12
  replace k_main_v126 := keep_of hW main_v155 main_v126 rfl (by decide) k_main_v126
  replace k_main_v147 := keep_of hW main_v155 main_v147 rfl (by decide) k_main_v147
  replace k_main_v151 := keep_of hW main_v155 main_v151 rfl (by decide) k_main_v151
  clear hW k_main_v154 k_main_cst_32
  clear W203
  -- main_v156
  refine after_cons_exists (fun W205 hW => ?_)
  have k_main_v156 : W205 (Proc.devRef .tc main_v156) = ReadP.val_main_v156 (F := F) x0 x1 x2 x3 x4 x5 x6 x7 x8 x9 x10 :=
    wrote_of hW (by rw [unary_result, k_main_v155] <;> rfl)
  replace k_main_arg9 := keep_of hW main_v156 main_arg9 rfl (by decide) k_main_arg9
  replace k_main_arg10 := keep_of hW main_v156 main_arg10 rfl (by decide) k_main_arg10
  replace k_main_arg11 := keep_of hW main_v156 main_arg11 rfl (by decide) k_main_arg11
  replace k_main_arg12 := keep_of hW main_v156 main_arg12 rfl (by decide) k_main_arg12
  replace k_main_v126 := keep_of hW main_v156 main_v126 rfl (by decide) k_main_v126
  replace k_main_v147 := keep_of hW main_v156 main_v147 rfl (by decide) k_main_v147
  replace k_main_v151 := keep_of hW main_v156 main_v151 rfl (by decide) k_main_v151
  clear hW k_main_v155
  clear W204
  -- main_cst_33
  refine after_cons_exists (fun W206 hW => ?_)
  have k_main_cst_33 : W206 (Proc.devRef .tc main_cst_33) = ReadP.val_main_cst_33 (F := F) :=
    wrote_of hW (by rw [nullary_result] <;> rfl)
  replace k_main_arg9 := keep_of hW main_cst_33 main_arg9 rfl (by decide) k_main_arg9
  replace k_main_arg10 := keep_of hW main_cst_33 main_arg10 rfl (by decide) k_main_arg10
  replace k_main_arg11 := keep_of hW main_cst_33 main_arg11 rfl (by decide) k_main_arg11
  replace k_main_arg12 := keep_of hW main_cst_33 main_arg12 rfl (by decide) k_main_arg12
  replace k_main_v126 := keep_of hW main_cst_33 main_v126 rfl (by decide) k_main_v126
  replace k_main_v147 := keep_of hW main_cst_33 main_v147 rfl (by decide) k_main_v147
  replace k_main_v151 := keep_of hW main_cst_33 main_v151 rfl (by decide) k_main_v151
  replace k_main_v156 := keep_of hW main_cst_33 main_v156 rfl (by decide) k_main_v156
  clear hW
  clear W205
  -- main_v157
  refine after_cons_exists (fun W207 hW => ?_)
  have k_main_v157 : W207 (Proc.devRef .tc main_v157) = ReadP.val_main_v157 (F := F) :=
    wrote_of hW (by rw [unary_result, k_main_cst_33] <;> rfl)
  replace k_main_arg9 := keep_of hW main_v157 main_arg9 rfl (by decide) k_main_arg9
  replace k_main_arg10 := keep_of hW main_v157 main_arg10 rfl (by decide) k_main_arg10
  replace k_main_arg11 := keep_of hW main_v157 main_arg11 rfl (by decide) k_main_arg11
  replace k_main_arg12 := keep_of hW main_v157 main_arg12 rfl (by decide) k_main_arg12
  replace k_main_v126 := keep_of hW main_v157 main_v126 rfl (by decide) k_main_v126
  replace k_main_v147 := keep_of hW main_v157 main_v147 rfl (by decide) k_main_v147
  replace k_main_v151 := keep_of hW main_v157 main_v151 rfl (by decide) k_main_v151
  replace k_main_v156 := keep_of hW main_v157 main_v156 rfl (by decide) k_main_v156
  clear hW k_main_cst_33
  clear W206
  -- main_v158
  refine after_cons_exists (fun W208 hW => ?_)
  have k_main_v158 : W208 (Proc.devRef .tc main_v158) = ReadP.val_main_v158 (F := F) x0 x1 x2 x3 x4 x5 x6 x7 x8 x9 x10 :=
    wrote_of hW (by rw [binary_result, k_main_v156, k_main_v157] <;> rfl)
  replace k_main_arg9 := keep_of hW main_v158 main_arg9 rfl (by decide) k_main_arg9
  replace k_main_arg10 := keep_of hW main_v158 main_arg10 rfl (by decide) k_main_arg10
  replace k_main_arg11 := keep_of hW main_v158 main_arg11 rfl (by decide) k_main_arg11
  replace k_main_arg12 := keep_of hW main_v158 main_arg12 rfl (by decide) k_main_arg12
  replace k_main_v126 := keep_of hW main_v158 main_v126 rfl (by decide) k_main_v126
  replace k_main_v147 := keep_of hW main_v158 main_v147 rfl (by decide) k_main_v147
  replace k_main_v151 := keep_of hW main_v158 main_v151 rfl (by decide) k_main_v151
  clear hW k_main_v156 k_main_v157
  clear W207
  -- main_v159
  refine after_cons_exists (fun W209 hW => ?_)
  have k_main_v159 : W209 (Proc.devRef .tc main_v159) = ReadP.val_main_v159 (F := F) x0 x1 x2 x3 x4 x5 x6 x7 x8 x9 x10 :=
    wrote_of hW (by rw [unary_result, k_main_v151] <;> rfl)
  replace k_main_arg9 := keep_of hW main_v159 main_arg9 rfl (by decide) k_main_arg9
  replace k_main_arg10 := keep_of hW main_v159 main_arg10 rfl (by decide) k_main_arg10
  replace k_main_arg11 := keep_of hW main_v159 main_arg11 rfl (by decide) k_main_arg11
  replace k_main_arg12 := keep_of hW main_v159 main_arg12 rfl (by decide) k_main_arg12
  replace k_main_v126 := keep_of hW main_v159 main_v126 rfl (by decide) k_main_v126
  replace k_main_v147 := keep_of hW main_v159 main_v147 rfl (by decide) k_main_v147
  replace k_main_v158 := keep_of hW main_v159 main_v158 rfl (by decide) k_main_v158
  clear hW k_main_v151
  clear W208
  -- main_v160
  refine after_cons_exists (fun W210 hW => ?_)
  have k_main_v160 : W210 (Proc.devRef .tc main_v160) = ReadP.val_main_v160 (F := F) x0 x1 x2 x3 x4 x5 x6 x7 x8 x9 x10 :=
    wrote_of hW (by rw [binary_result, k_main_v147, k_main_v159] <;> rfl)
  replace k_main_arg9 := keep_of hW main_v160 main_arg9 rfl (by decide) k_main_arg9
  replace k_main_arg10 := keep_of hW main_v160 main_arg10 rfl (by decide) k_main_arg10
  replace k_main_arg11 := keep_of hW main_v160 main_arg11 rfl (by decide) k_main_arg11
  replace k_main_arg12 := keep_of hW main_v160 main_arg12 rfl (by decide) k_main_arg12
  replace k_main_v126 := keep_of hW main_v160 main_v126 rfl (by decide) k_main_v126
  replace k_main_v158 := keep_of hW main_v160 main_v158 rfl (by decide) k_main_v158
  clear hW k_main_v147 k_main_v159
  clear W209
  -- main_cst_34
  refine after_cons_exists (fun W211 hW => ?_)
  have k_main_cst_34 : W211 (Proc.devRef .tc main_cst_34) = ReadP.val_main_cst_34 (F := F) :=
    wrote_of hW (by rw [nullary_result] <;> rfl)
  replace k_main_arg9 := keep_of hW main_cst_34 main_arg9 rfl (by decide) k_main_arg9
  replace k_main_arg10 := keep_of hW main_cst_34 main_arg10 rfl (by decide) k_main_arg10
  replace k_main_arg11 := keep_of hW main_cst_34 main_arg11 rfl (by decide) k_main_arg11
  replace k_main_arg12 := keep_of hW main_cst_34 main_arg12 rfl (by decide) k_main_arg12
  replace k_main_v126 := keep_of hW main_cst_34 main_v126 rfl (by decide) k_main_v126
  replace k_main_v158 := keep_of hW main_cst_34 main_v158 rfl (by decide) k_main_v158
  replace k_main_v160 := keep_of hW main_cst_34 main_v160 rfl (by decide) k_main_v160
  clear hW
  clear W210
  -- main_v161
  refine after_cons_exists (fun W212 hW => ?_)
  have k_main_v161 : W212 (Proc.devRef .tc main_v161) = ReadP.val_main_v161 (F := F) :=
    wrote_of hW (by rw [unary_result, k_main_cst_34] <;> rfl)
  replace k_main_arg9 := keep_of hW main_v161 main_arg9 rfl (by decide) k_main_arg9
  replace k_main_arg10 := keep_of hW main_v161 main_arg10 rfl (by decide) k_main_arg10
  replace k_main_arg11 := keep_of hW main_v161 main_arg11 rfl (by decide) k_main_arg11
  replace k_main_arg12 := keep_of hW main_v161 main_arg12 rfl (by decide) k_main_arg12
  replace k_main_v126 := keep_of hW main_v161 main_v126 rfl (by decide) k_main_v126
  replace k_main_v158 := keep_of hW main_v161 main_v158 rfl (by decide) k_main_v158
  replace k_main_v160 := keep_of hW main_v161 main_v160 rfl (by decide) k_main_v160
  clear hW k_main_cst_34
  clear W211
  -- main_v162
  refine after_cons_exists (fun W213 hW => ?_)
  have k_main_v162 : W213 (Proc.devRef .tc main_v162) = ReadP.val_main_v162 (F := F) x0 x1 x2 x3 x4 x5 x6 x7 x8 x9 x10 :=
    wrote_of hW (by rw [binary_result, k_main_v158, k_main_v161] <;> rfl)
  replace k_main_arg9 := keep_of hW main_v162 main_arg9 rfl (by decide) k_main_arg9
  replace k_main_arg10 := keep_of hW main_v162 main_arg10 rfl (by decide) k_main_arg10
  replace k_main_arg11 := keep_of hW main_v162 main_arg11 rfl (by decide) k_main_arg11
  replace k_main_arg12 := keep_of hW main_v162 main_arg12 rfl (by decide) k_main_arg12
  replace k_main_v126 := keep_of hW main_v162 main_v126 rfl (by decide) k_main_v126
  replace k_main_v160 := keep_of hW main_v162 main_v160 rfl (by decide) k_main_v160
  clear hW k_main_v158 k_main_v161
  clear W212
  -- main_v163
  refine after_cons_exists (fun W214 hW => ?_)
  have k_main_v163 : W214 (Proc.devRef .tc main_v163) = ReadP.val_main_v163 (F := F) x0 x1 x2 x3 x4 x5 x6 x7 x8 x9 x10 :=
    wrote_of hW (by rw [unary_result, k_main_v162] <;> rfl)
  replace k_main_arg9 := keep_of hW main_v163 main_arg9 rfl (by decide) k_main_arg9
  replace k_main_arg10 := keep_of hW main_v163 main_arg10 rfl (by decide) k_main_arg10
  replace k_main_arg11 := keep_of hW main_v163 main_arg11 rfl (by decide) k_main_arg11
  replace k_main_arg12 := keep_of hW main_v163 main_arg12 rfl (by decide) k_main_arg12
  replace k_main_v126 := keep_of hW main_v163 main_v126 rfl (by decide) k_main_v126
  replace k_main_v160 := keep_of hW main_v163 main_v160 rfl (by decide) k_main_v160
  clear hW k_main_v162
  clear W213
  -- main_v164
  refine after_cons_exists (fun W215 hW => ?_)
  have k_main_v164 : W215 (Proc.devRef .tc main_v164) = ReadP.val_main_v164 (F := F) x0 x1 x2 x3 x4 x5 x6 x7 x8 x9 x10 :=
    wrote_of hW (by rw [unary_result, k_main_v163] <;> rfl)
  replace k_main_arg9 := keep_of hW main_v164 main_arg9 rfl (by decide) k_main_arg9
  replace k_main_arg10 := keep_of hW main_v164 main_arg10 rfl (by decide) k_main_arg10
  replace k_main_arg11 := keep_of hW main_v164 main_arg11 rfl (by decide) k_main_arg11
  replace k_main_arg12 := keep_of hW main_v164 main_arg12 rfl (by decide) k_main_arg12
  replace k_main_v126 := keep_of hW main_v164 main_v126 rfl (by decide) k_main_v126
  replace k_main_v160 := keep_of hW main_v164 main_v160 rfl (by decide) k_main_v160
  clear hW k_main_v163
  clear W214
  -- main_v165
  refine after_cons_exists (fun W216 hW => ?_)
  have k_main_v165 : W216 (Proc.devRef .tc main_v165) = ReadP.val_main_v165 (F := F) x0 x1 x2 x3 x4 x5 x6 x7 x8 x9 x10 :=
    wrote_of hW (by rw [binary_result, k_main_v160, k_main_v164] <;> rfl)
  replace k_main_arg9 := keep_of hW main_v165 main_arg9 rfl (by decide) k_main_arg9
  replace k_main_arg10 := keep_of hW main_v165 main_arg10 rfl (by decide) k_main_arg10
  replace k_main_arg11 := keep_of hW main_v165 main_arg11 rfl (by decide) k_main_arg11
  replace k_main_arg12 := keep_of hW main_v165 main_arg12 rfl (by decide) k_main_arg12
  replace k_main_v126 := keep_of hW main_v165 main_v126 rfl (by decide) k_main_v126
  clear hW k_main_v160 k_main_v164
  clear W215
  -- main_v166
  refine after_cons_exists (fun W217 hW => ?_)
  have k_main_v166 : W217 (Proc.devRef .tc main_v166) = ReadP.val_main_v166 (F := F) x9 :=
    wrote_of hW (by rw [unary_result, k_main_arg9] <;> rfl)
  replace k_main_arg10 := keep_of hW main_v166 main_arg10 rfl (by decide) k_main_arg10
  replace k_main_arg11 := keep_of hW main_v166 main_arg11 rfl (by decide) k_main_arg11
  replace k_main_arg12 := keep_of hW main_v166 main_arg12 rfl (by decide) k_main_arg12
  replace k_main_v126 := keep_of hW main_v166 main_v126 rfl (by decide) k_main_v126
  replace k_main_v165 := keep_of hW main_v166 main_v165 rfl (by decide) k_main_v165
  clear hW k_main_arg9
  clear W216
  -- main_v167
  refine after_cons_exists (fun W218 hW => ?_)
  have k_main_v167 : W218 (Proc.devRef .tc main_v167) = ReadP.val_main_v167 (F := F) x9 :=
    wrote_of hW (by rw [reshape_result, k_main_v166] <;> rfl)
  replace k_main_arg10 := keep_of hW main_v167 main_arg10 rfl (by decide) k_main_arg10
  replace k_main_arg11 := keep_of hW main_v167 main_arg11 rfl (by decide) k_main_arg11
  replace k_main_arg12 := keep_of hW main_v167 main_arg12 rfl (by decide) k_main_arg12
  replace k_main_v126 := keep_of hW main_v167 main_v126 rfl (by decide) k_main_v126
  replace k_main_v165 := keep_of hW main_v167 main_v165 rfl (by decide) k_main_v165
  clear hW k_main_v166
  clear W217
  -- main_v168
  refine after_cons_exists (fun W219 hW => ?_)
  have k_main_v168 : W219 (Proc.devRef .tc main_v168) = ReadP.val_main_v168 (F := F) x9 :=
    wrote_of hW (by rw [unary_result, k_main_v167] <;> rfl)
  replace k_main_arg10 := keep_of hW main_v168 main_arg10 rfl (by decide) k_main_arg10
  replace k_main_arg11 := keep_of hW main_v168 main_arg11 rfl (by decide) k_main_arg11
  replace k_main_arg12 := keep_of hW main_v168 main_arg12 rfl (by decide) k_main_arg12
  replace k_main_v126 := keep_of hW main_v168 main_v126 rfl (by decide) k_main_v126
  replace k_main_v165 := keep_of hW main_v168 main_v165 rfl (by decide) k_main_v165
  clear hW k_main_v167
  clear W218
  -- main_v169
  refine after_cons_exists (fun W220 hW => ?_)
  have k_main_v169 : W220 (Proc.devRef .tc main_v169) = ReadP.val_main_v169 (F := F) x9 :=
    wrote_of hW (by rw [unary_result, k_main_v168] <;> rfl)
  replace k_main_arg10 := keep_of hW main_v169 main_arg10 rfl (by decide) k_main_arg10
  replace k_main_arg11 := keep_of hW main_v169 main_arg11 rfl (by decide) k_main_arg11
  replace k_main_arg12 := keep_of hW main_v169 main_arg12 rfl (by decide) k_main_arg12
  replace k_main_v126 := keep_of hW main_v169 main_v126 rfl (by decide) k_main_v126
  replace k_main_v165 := keep_of hW main_v169 main_v165 rfl (by decide) k_main_v165
  clear hW k_main_v168
  clear W219
  -- main_v170
  refine after_cons_exists (fun W221 hW => ?_)
  have k_main_v170 : W221 (Proc.devRef .tc main_v170) = ReadP.val_main_v170 (F := F) x0 x1 x2 x3 x4 x5 x6 x7 x8 x9 x10 :=
    wrote_of hW (by rw [binary_result, k_main_v165, k_main_v169] <;> rfl)
  replace k_main_arg10 := keep_of hW main_v170 main_arg10 rfl (by decide) k_main_arg10
  replace k_main_arg11 := keep_of hW main_v170 main_arg11 rfl (by decide) k_main_arg11
  replace k_main_arg12 := keep_of hW main_v170 main_arg12 rfl (by decide) k_main_arg12
  replace k_main_v126 := keep_of hW main_v170 main_v126 rfl (by decide) k_main_v126
  clear hW k_main_v165 k_main_v169
  clear W220
  -- main_v171
  refine after_cons_exists (fun W222 hW => ?_)
  have k_main_v171 : W222 (Proc.devRef .tc main_v171) = ReadP.val_main_v171 (F := F) x10 :=
    wrote_of hW (by rw [unary_result, k_main_arg10] <;> rfl)
  replace k_main_arg11 := keep_of hW main_v171 main_arg11 rfl (by decide) k_main_arg11
  replace k_main_arg12 := keep_of hW main_v171 main_arg12 rfl (by decide) k_main_arg12
  replace k_main_v126 := keep_of hW main_v171 main_v126 rfl (by decide) k_main_v126
  replace k_main_v170 := keep_of hW main_v171 main_v170 rfl (by decide) k_main_v170
  clear hW k_main_arg10
  clear W221
  -- main_v172
  refine after_cons_exists (fun W223 hW => ?_)
  have k_main_v172 : W223 (Proc.devRef .tc main_v172) = ReadP.val_main_v172 (F := F) x10 :=
    wrote_of hW (by rw [reshape_result, k_main_v171] <;> rfl)
  replace k_main_arg11 := keep_of hW main_v172 main_arg11 rfl (by decide) k_main_arg11
  replace k_main_arg12 := keep_of hW main_v172 main_arg12 rfl (by decide) k_main_arg12
  replace k_main_v126 := keep_of hW main_v172 main_v126 rfl (by decide) k_main_v126
  replace k_main_v170 := keep_of hW main_v172 main_v170 rfl (by decide) k_main_v170
  clear hW k_main_v171
  clear W222
  -- main_v173
  refine after_cons_exists (fun W224 hW => ?_)
  have k_main_v173 : W224 (Proc.devRef .tc main_v173) = ReadP.val_main_v173 (F := F) x10 :=
    wrote_of hW (by rw [unary_result, k_main_v172] <;> rfl)
  replace k_main_arg11 := keep_of hW main_v173 main_arg11 rfl (by decide) k_main_arg11
  replace k_main_arg12 := keep_of hW main_v173 main_arg12 rfl (by decide) k_main_arg12
  replace k_main_v126 := keep_of hW main_v173 main_v126 rfl (by decide) k_main_v126
  replace k_main_v170 := keep_of hW main_v173 main_v170 rfl (by decide) k_main_v170
  clear hW k_main_v172
  clear W223
  -- main_v174
  refine after_cons_exists (fun W225 hW => ?_)
  have k_main_v174 : W225 (Proc.devRef .tc main_v174) = ReadP.val_main_v174 (F := F) x10 :=
    wrote_of hW (by rw [unary_result, k_main_v173] <;> rfl)
  replace k_main_arg11 := keep_of hW main_v174 main_arg11 rfl (by decide) k_main_arg11
  replace k_main_arg12 := keep_of hW main_v174 main_arg12 rfl (by decide) k_main_arg12
  replace k_main_v126 := keep_of hW main_v174 main_v126 rfl (by decide) k_main_v126
  replace k_main_v170 := keep_of hW main_v174 main_v170 rfl (by decide) k_main_v170
  clear hW k_main_v173
  clear W224
  -- main_v175
  refine after_cons_exists (fun W226 hW => ?_)
  have k_main_v175 : W226 (Proc.devRef .tc main_v175) = ReadP.val_main_v175 (F := F) x0 x1 x2 x3 x4 x5 x6 x7 x8 x9 x10 :=
    wrote_of hW (by rw [binary_result, k_main_v170, k_main_v174] <;> rfl)
  replace k_main_arg11 := keep_of hW main_v175 main_arg11 rfl (by decide) k_main_arg11
  replace k_main_arg12 := keep_of hW main_v175 main_arg12 rfl (by decide) k_main_arg12
  replace k_main_v126 := keep_of hW main_v175 main_v126 rfl (by decide) k_main_v126
  clear hW k_main_v170 k_main_v174
  clear W225
  -- main_call5_cst
  refine after_cons_exists (fun W227 hW => ?_)
  have k_main_call5_cst : W227 (Proc.devRef .tc main_call5_cst) = ReadP.val_main_call5_cst (F := F) :=
    wrote_of hW (by rw [nullary_result] <;> rfl)
  replace k_main_arg11 := keep_of hW main_call5_cst main_arg11 rfl (by decide) k_main_arg11
  replace k_main_arg12 := keep_of hW main_call5_cst main_arg12 rfl (by decide) k_main_arg12
  replace k_main_v126 := keep_of hW main_call5_cst main_v126 rfl (by decide) k_main_v126
  replace k_main_v175 := keep_of hW main_call5_cst main_v175 rfl (by decide) k_main_v175
  clear hW
  clear W226
  -- main_call5_v0
  refine after_cons_exists (fun W228 hW => ?_)
  have k_main_call5_v0 : W228 (Proc.devRef .tc main_call5_v0) = ReadP.val_main_call5_v0 (F := F) :=
    wrote_of hW (by rw [unary_result, k_main_call5_cst] <;> rfl)
  replace k_main_arg11 := keep_of hW main_call5_v0 main_arg11 rfl (by decide) k_main_arg11
  replace k_main_arg12 := keep_of hW main_call5_v0 main_arg12 rfl (by decide) k_main_arg12
  replace k_main_v126 := keep_of hW main_call5_v0 main_v126 rfl (by decide) k_main_v126
  replace k_main_v175 := keep_of hW main_call5_v0 main_v175 rfl (by decide) k_main_v175
  clear hW k_main_call5_cst
  clear W227
  -- main_v176
  refine after_cons_exists (fun W229 hW => ?_)
  have k_main_v176 : W229 (Proc.devRef .tc main_v176) = ReadP.val_main_v176 (F := F) x0 x1 x2 x3 x4 x5 x6 x7 x8 x9 x10 :=
    wrote_of hW (by rw [binary_result, k_main_v175, k_main_call5_v0] <;> rfl)
  replace k_main_arg11 := keep_of hW main_v176 main_arg11 rfl (by decide) k_main_arg11
  replace k_main_arg12 := keep_of hW main_v176 main_arg12 rfl (by decide) k_main_arg12
  replace k_main_v126 := keep_of hW main_v176 main_v126 rfl (by decide) k_main_v126
  clear hW k_main_v175 k_main_call5_v0
  clear W228
  -- main_v177
  refine after_cons_exists (fun W230 hW => ?_)
  have k_main_v177 : W230 (Proc.devRef .tc main_v177) = ReadP.val_main_v177 (F := F) x0 x1 x2 x3 x4 x5 x6 x7 x8 x9 x10 :=
    wrote_of hW (by rw [binary_result, k_main_v126, k_main_v176] <;> rfl)
  replace k_main_arg11 := keep_of hW main_v177 main_arg11 rfl (by decide) k_main_arg11
  replace k_main_arg12 := keep_of hW main_v177 main_arg12 rfl (by decide) k_main_arg12
  clear hW k_main_v126 k_main_v176
  clear W229
  exact after_nil_exists ⟨k_main_arg11, k_main_arg12, k_main_v177⟩

/-- Operations 230 to 233 of the program (its own text, in order). -/
abbrev win4 : List (HloOp τ sig (Elt F)) :=
  [
    binary main_v177 main_arg11 main_v178 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v179 (broadcastInDim S1x64 ![1] bcast_S64_S1x64_1 : (⟨S64, .f32⟩ : BufTy).Contents (Elt F) → (⟨S1x64, .f32⟩ : BufTy).Contents (Elt F)),
    unary main_v179 main_v180 (broadcastInDim S100000x64 ![0, 1] bcast_S1x64_S100000x64_0_1 : (⟨S1x64, .f32⟩ : BufTy).Contents (Elt F) → (⟨S100000x64, .f32⟩ : BufTy).Contents (Elt F)),
    binary main_v178 main_v180 main_v181 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 8000000 in
/-- Window 4: from contents that hold, in each buffer still to be read, its stage of the arguments, the window ends at
    contents that do so again. -/
theorem win4_post (x0 : (⟨S100000x128, .f32⟩ : BufTy).Contents (Elt F)) (x1 : (⟨S100000x16, .f32⟩ : BufTy).Contents (Elt F)) (x2 : (⟨S2x1600000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S2x128x128, .f32⟩ : BufTy).Contents (Elt F)) (x8 : (⟨S2x128, .f32⟩ : BufTy).Contents (Elt F)) (x9 : (⟨S2x128, .f32⟩ : BufTy).Contents (Elt F)) (x10 : (⟨S2x128, .f32⟩ : BufTy).Contents (Elt F)) (x11 : (⟨S128x64, .f32⟩ : BufTy).Contents (Elt F)) (x12 : (⟨S64, .f32⟩ : BufTy).Contents (Elt F)) (W230 : Valuation τ sig (Elt F))
    (k_main_arg11 : W230 (Proc.devRef .tc main_arg11) = x11)
    (k_main_arg12 : W230 (Proc.devRef .tc main_arg12) = x12)
    (k_main_v177 : W230 (Proc.devRef .tc main_v177) = ReadP.val_main_v177 (F := F) x0 x1 x2 x3 x4 x5 x6 x7 x8 x9 x10)
    : ∃ W' : Valuation τ sig (Elt F), after (win4 (F := F)) W230 = W'
      ∧ W' (Proc.devRef .tc main_v181) = ReadP.val_main_v181 (F := F) x0 x1 x2 x3 x4 x5 x6 x7 x8 x9 x10 x11 x12 := by
  unfold win4
  -- main_v178
  refine after_cons_exists (fun W231 hW => ?_)
  have k_main_v178 : W231 (Proc.devRef .tc main_v178) = ReadP.val_main_v178 (F := F) x0 x1 x2 x3 x4 x5 x6 x7 x8 x9 x10 x11 :=
    wrote_of hW (by rw [binary_result, k_main_v177, k_main_arg11] <;> rfl)
  replace k_main_arg12 := keep_of hW main_v178 main_arg12 rfl (by decide) k_main_arg12
  clear hW k_main_arg11 k_main_v177
  clear W230
  -- main_v179
  refine after_cons_exists (fun W232 hW => ?_)
  have k_main_v179 : W232 (Proc.devRef .tc main_v179) = ReadP.val_main_v179 (F := F) x12 :=
    wrote_of hW (by rw [unary_result, k_main_arg12] <;> rfl)
  replace k_main_v178 := keep_of hW main_v179 main_v178 rfl (by decide) k_main_v178
  clear hW k_main_arg12
  clear W231
  -- main_v180
  refine after_cons_exists (fun W233 hW => ?_)
  have k_main_v180 : W233 (Proc.devRef .tc main_v180) = ReadP.val_main_v180 (F := F) x12 :=
    wrote_of hW (by rw [unary_result, k_main_v179] <;> rfl)
  replace k_main_v178 := keep_of hW main_v180 main_v178 rfl (by decide) k_main_v178
  clear hW k_main_v179
  clear W232
  -- main_v181
  refine after_cons_exists (fun W234 hW => ?_)
  have k_main_v181 : W234 (Proc.devRef .tc main_v181) = ReadP.val_main_v181 (F := F) x0 x1 x2 x3 x4 x5 x6 x7 x8 x9 x10 x11 x12 :=
    wrote_of hW (by rw [binary_result, k_main_v178, k_main_v180] <;> rfl)
  clear hW k_main_v178 k_main_v180
  clear W233
  exact after_nil_exists k_main_v181

set_option maxRecDepth 8192 in
set_option maxHeartbeats 4000000 in
/-- The program's line is its windows, one after the other. -/
theorem ops_split : (ValueP.ops (F := F)) = win0 ++ (win1 ++ (win2 ++ (win3 ++ (win4)))) := rfl

set_option maxRecDepth 8192 in
set_option maxHeartbeats 4000000 in
/-- The result buffer after the whole line, from any contents `V`, holds the last stage of the argument buffers' contents
    in `V`: the windows chained, each starting where the one before ended. -/
theorem result_eq_stage (V : Valuation τ sig (Elt F)) :
    after (ValueP.ops (F := F)) V (Proc.devRef .tc main_v181)
      = ReadP.val_main_v181 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, LibAfterWindows.after_append, LibAfterWindows.after_append, LibAfterWindows.after_append, LibAfterWindows.after_append]
  obtain ⟨W1, e1, k_main_arg0, k_main_arg7, k_main_arg8, k_main_arg9, k_main_arg10, k_main_arg11, k_main_arg12, k_main_v1, k_main_v3, k_main_v40⟩ := win0_post (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) V rfl rfl rfl rfl rfl rfl rfl rfl rfl rfl rfl rfl rfl
  rw [e1]
  obtain ⟨W2, e2, k_main_arg0, k_main_arg7, k_main_arg8, k_main_arg9, k_main_arg10, k_main_arg11, k_main_arg12, k_main_v42, k_main_v43, k_main_v75⟩ := win1_post (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) W1 k_main_arg0 k_main_arg7 k_main_arg8 k_main_arg9 k_main_arg10 k_main_arg11 k_main_arg12 k_main_v1 k_main_v3 k_main_v40
  rw [e2]
  obtain ⟨W3, e3, k_main_arg7, k_main_arg8, k_main_arg9, k_main_arg10, k_main_arg11, k_main_arg12, k_main_v42, k_main_v43, k_main_v75, k_main_v126⟩ := win2_post (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) W2 k_main_arg0 k_main_arg7 k_main_arg8 k_main_arg9 k_main_arg10 k_main_arg11 k_main_arg12 k_main_v42 k_main_v43 k_main_v75
  rw [e3]
  obtain ⟨W4, e4, k_main_arg11, k_main_arg12, k_main_v177⟩ := win3_post (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) W3 k_main_arg7 k_main_arg8 k_main_arg9 k_main_arg10 k_main_arg11 k_main_arg12 k_main_v42 k_main_v43 k_main_v75 k_main_v126
  rw [e4]
  obtain ⟨W5, e5, k_main_v181⟩ := win4_post (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) W4 k_main_arg11 k_main_arg12 k_main_v177
  rw [e5]
  exact k_main_v181

end Cert.ReferenceIdeal.RefValue

end
-- ==== Proof.LibConcatRead.lean ====
/-
  A concatenation read at an index written by coordinates.

  Two vectors of lengths a and b laid end to end give a vector of length a + b: its entry k, for k below a, is the first
  vector's entry k, and its entry a + k is the second vector's entry k. Four [R, c] arrays laid side by side along the lane
  axis give an [R, 4 c] array whose element (e, c * p + k) is piece p's element (e, k). A sum over the 4 c lanes of such
  an array is therefore the sum of four sums over c lanes, one for each piece, taken in the pieces' order.
-/
import Idealize.ShloMosaic.Lib.ValueIdx
import Idealize.ShloMosaic.Lib.Pipeline.Value
import Mathlib.Algebra.BigOperators.Fin

open scoped BigOperators

namespace Cert.LibConcatRead

open Idealize.ShloMosaic Idealize.ShloMosaic.ValueIdx

variable {α : Type}

/-- Two vectors end to end, read below the first one's length: the first vector there. -/
theorem concat_vec_left {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin a) (hk : k.val < n) :
    concatenate ⟨1, ![n]⟩ 0 [⟨⟨1, ![a]⟩, x₁⟩, ⟨⟨1, ![b]⟩, x₂⟩] h (ix1 (⟨k.val, hk⟩ : Fin n)) = x₁ (ix1 k) :=
  concatenate_pair_apply_left (t := ⟨1, ![n]⟩) (s₁ := ⟨1, ![a]⟩) (s₂ := ⟨1, ![b]⟩) (0 : Fin 1) x₁ x₂ h _ rfl _
    (fun d => by match d with | ⟨0, _⟩ => rfl)

/-- Two vectors end to end, read at the first one's length plus k: the second vector at k. -/
theorem concat_vec_right {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin b) (hk : a + k.val < n) :
    concatenate ⟨1, ![n]⟩ 0 [⟨⟨1, ![a]⟩, x₁⟩, ⟨⟨1, ![b]⟩, x₂⟩] h (ix1 (⟨a + k.val, hk⟩ : Fin n)) = x₂ (ix1 k) :=
  concatenate_pair_apply_right (t := ⟨1, ![n]⟩) (s₁ := ⟨1, ![a]⟩) (s₂ := ⟨1, ![b]⟩) (0 : Fin 1) x₁ x₂ h _ rfl rfl _
    (fun d hd => by match d with | ⟨0, _⟩ => exact absurd rfl hd)
    (by show k.val + a = a + k.val; omega)

section Four

variable {R c m : ℕ} (x0 x1 x2 x3 : (⟨2, ![R, c]⟩ : Shape).Idx → α)
  (h : Shape.Concatenates (([⟨⟨2, ![R, c]⟩, x0⟩, ⟨⟨2, ![R, c]⟩, x1⟩, ⟨⟨2, ![R, c]⟩, x2⟩, ⟨⟨2, ![R, c]⟩, x3⟩] :
      List ((s : Shape) × (s.Idx → α))).map (·.1)) ⟨2, ![R, m]⟩ 1)

/-- Four arrays side by side, read in the first one's lanes. -/
theorem concat4_lanes_0 (e : Fin R) (k : Fin c) (hk : c * 0 + k.val < m) :
    concatenate ⟨2, ![R, m]⟩ 1 [⟨⟨2, ![R, c]⟩, x0⟩, ⟨⟨2, ![R, c]⟩, x1⟩, ⟨⟨2, ![R, c]⟩, x2⟩, ⟨⟨2, ![R, c]⟩, x3⟩] h
      (ix2 e (⟨c * 0 + k.val, hk⟩ : Fin m)) = x0 (ix2 e k) :=
  concatenate_apply_piece (t := ⟨2, ![R, m]⟩) (1 : Fin 2) _ h _ 0 (by simp) ⟨2, ![R, c]⟩ x0 rfl rfl 0 rfl (ix2 e k)
    (fun d hd => by match d with | ⟨0, _⟩ => rfl | ⟨1, _⟩ => exact absurd rfl hd)
    (by show 0 + k.val = c * 0 + k.val; omega)

/-- Four arrays side by side, read in the second one's lanes. -/
theorem concat4_lanes_1 (e : Fin R) (k : Fin c) (hk : c * 1 + k.val < m) :
    concatenate ⟨2, ![R, m]⟩ 1 [⟨⟨2, ![R, c]⟩, x0⟩, ⟨⟨2, ![R, c]⟩, x1⟩, ⟨⟨2, ![R, c]⟩, x2⟩, ⟨⟨2, ![R, c]⟩, x3⟩] h
      (ix2 e (⟨c * 1 + k.val, hk⟩ : Fin m)) = x1 (ix2 e k) :=
  concatenate_apply_piece (t := ⟨2, ![R, m]⟩) (1 : Fin 2) _ h _ 1 (by simp) ⟨2, ![R, c]⟩ x1 rfl rfl (c + 0) rfl (ix2 e k)
    (fun d hd => by match d with | ⟨0, _⟩ => rfl | ⟨1, _⟩ => exact absurd rfl hd)
    (by show c + 0 + k.val = c * 1 + k.val; omega)

/-- Four arrays side by side, read in the third one's lanes. -/
theorem concat4_lanes_2 (e : Fin R) (k : Fin c) (hk : c * 2 + k.val < m) :
    concatenate ⟨2, ![R, m]⟩ 1 [⟨⟨2, ![R, c]⟩, x0⟩, ⟨⟨2, ![R, c]⟩, x1⟩, ⟨⟨2, ![R, c]⟩, x2⟩, ⟨⟨2, ![R, c]⟩, x3⟩] h
      (ix2 e (⟨c * 2 + k.val, hk⟩ : Fin m)) = x2 (ix2 e k) :=
  concatenate_apply_piece (t := ⟨2, ![R, m]⟩) (1 : Fin 2) _ h _ 2 (by simp) ⟨2, ![R, c]⟩ x2 rfl rfl (c + (c + 0)) rfl (ix2 e k)
    (fun d hd => by match d with | ⟨0, _⟩ => rfl | ⟨1, _⟩ => exact absurd rfl hd)
    (by show c + (c + 0) + k.val = c * 2 + k.val; omega)

/-- Four arrays side by side, read in the fourth one's lanes. -/
theorem concat4_lanes_3 (e : Fin R) (k : Fin c) (hk : c * 3 + k.val < m) :
    concatenate ⟨2, ![R, m]⟩ 1 [⟨⟨2, ![R, c]⟩, x0⟩, ⟨⟨2, ![R, c]⟩, x1⟩, ⟨⟨2, ![R, c]⟩, x2⟩, ⟨⟨2, ![R, c]⟩, x3⟩] h
      (ix2 e (⟨c * 3 + k.val, hk⟩ : Fin m)) = x3 (ix2 e k) :=
  concatenate_apply_piece (t := ⟨2, ![R, m]⟩) (1 : Fin 2) _ h _ 3 (by simp) ⟨2, ![R, c]⟩ x3 rfl rfl (c + (c + (c + 0))) rfl (ix2 e k)
    (fun d hd => by match d with | ⟨0, _⟩ => rfl | ⟨1, _⟩ => exact absurd rfl hd)
    (by show c + (c + (c + 0)) + k.val = c * 3 + k.val; omega)

end Four

/-- A sum over 4 c indices is the sum of the four sums over the consecutive blocks of c indices, in order. -/
theorem sum_four_blocks {M : Type*} [AddCommMonoid M] {n : ℕ} (c : ℕ) (hn : n = 4 * c) (f : Fin n → M) :
    ∑ i, f i = (((∑ k : Fin c, f ⟨c * 0 + k.val, by omega⟩) + ∑ k : Fin c, f ⟨c * 1 + k.val, by omega⟩)
      + ∑ k : Fin c, f ⟨c * 2 + k.val, by omega⟩) + ∑ k : Fin c, f ⟨c * 3 + k.val, by omega⟩ := by
  have hn' : n = c + c + c + c := by omega
  subst hn'
  rw [Fin.sum_univ_add, Fin.sum_univ_add, Fin.sum_univ_add]
  refine congrArg₂ (· + ·) (congrArg₂ (· + ·) (congrArg₂ (· + ·) ?_ ?_) ?_) ?_
  all_goals
    refine Finset.sum_congr rfl fun k _ => congrArg f (Fin.ext ?_)
    simp only [Fin.coe_castAdd, Fin.coe_natAdd]
    omega

end Cert.LibConcatRead
-- ==== Proof.RGate.lean ====
/-
  The reference program's edge gate, read one edge at a time.

  The reference lays the E stored sources (and destinations) and the N node numbers 0, …, N − 1 end to end: entry e of the
  joined vector, for e below E, is the edge's stored number, and entry E + n is the number n of node n's own loop.

  The gate of edge e is computed from the motif rows of its two end nodes. Taking rows of the motif table at the wrapped
  stored numbers reads row "node v" of the table: the wrapped number read signed and clamped into the table. The four
  [E, 16] arrays mu, mv, |mu − mv|, mu·mv are laid side by side and multiplied with the 64-row first weight matrix as ONE
  sum over 64 lanes; that sum is the sum of the four sums over the 16 lanes of each piece against the matching 16-row band
  of the matrix. Adding the bias and taking the ramp gives the hidden units; their product with the second weight column
  plus its bias is the perceptron's output g. The reference then forms 1 / (1 + exp(−(g / 1))), which is the logistic
  function at g · 1 because the word 0x3F800000 is the number 1 and dividing by 1 is multiplying by 1; the clip to [0, 1]
  is the same minimum of a maximum on both sides.
-/
import proofs.«166963_j81509889343768_2_alg».proof.Proof.RefRead
import proofs.«166963_j81509889343768_2_alg».proof.Proof.Spec
import proofs.«166963_j81509889343768_2_alg».proof.Proof.LibConcatRead
import proofs.«166963_j81509889343768_2_alg».proof.Proof.LibGatherRows

noncomputable section

namespace Cert.ReferenceIdeal.RefValue

open Cert.ReferenceIdeal Cert.ReferenceIdeal.Gen Idealize.ShloMosaic Idealize.ShloMosaic.ValueIdx
open scoped BigOperators

/-! ## Words and the logistic expansion -/

/-- The word 0x3F800000 is the number one. -/
theorem o1_eq_one : (Ideal.ofBits .f32 0x3F800000#32 : EReal) = 1 := by
  simp [Ideal.ofBits, Ideal.ieee, -EReal.coe_mul]; norm_num

/-- Dividing by one is multiplying by one. -/
theorem div_one_eq (G : EReal) : Ideal.div G 1 = G * 1 := by
  have h := Ideal.div_coe (y := 1) one_ne_zero G
  simpa using h

/-- 1 / (1 + exp(−(g / 1))) is the logistic function at g · 1. -/
theorem logistic_expansion (G : EReal) :
    Ideal.div Cert.Spec.o1 (Cert.Spec.o1 + Ideal.exp (-(Ideal.div G Cert.Spec.o1))) = Ideal.logistic (G * Cert.Spec.o1) := by
  show Ideal.div (Ideal.ofBits .f32 0x3F800000#32) ((Ideal.ofBits .f32 0x3F800000#32)
    + Ideal.exp (-(Ideal.div G (Ideal.ofBits .f32 0x3F800000#32)))) = Ideal.logistic (G * (Ideal.ofBits .f32 0x3F800000#32))
  rw [o1_eq_one, div_one_eq]
  rfl

section

variable (x1 : (⟨S100000x16, .f32⟩ : BufTy).Contents (Elt Ideal)) (x2 : (⟨S2x1600000, .i32⟩ : BufTy).Contents (Elt Ideal))
  (x3 : (⟨S64x64, .f32⟩ : BufTy).Contents (Elt Ideal)) (x4 : (⟨S64, .f32⟩ : BufTy).Contents (Elt Ideal))
  (x5 : (⟨S64x1, .f32⟩ : BufTy).Contents (Elt Ideal)) (x6 : (⟨S1, .f32⟩ : BufTy).Contents (Elt Ideal))

/-! ## The stored numbers of an edge, and the joined vectors -/

/-- Row 0 of the edge array as a vector: entry e is the stored source of edge e. -/
theorem v1_read (e : Fin 1600000) : ReadP.val_main_v1 (F := Ideal) x2 (ix1 e) = x2 (ix2 (0 : Fin 2) e) := by
  rw [ReadP.val_main_v1_apply, ReadP.val_main_v0_apply]
  refine congrArg x2 (funext fun a => Fin.ext ?_)
  match a with
  | ⟨0, _⟩ => rfl
  | ⟨1, _⟩ => exact Nat.mod_eq_of_lt e.isLt

/-- Row 1 of the edge array as a vector: entry e is the stored destination of edge e. -/
theorem v3_read (e : Fin 1600000) : ReadP.val_main_v3 (F := Ideal) x2 (ix1 e) = x2 (ix2 (1 : Fin 2) e) := by
  rw [ReadP.val_main_v3_apply, ReadP.val_main_v2_apply]
  refine congrArg x2 (funext fun a => Fin.ext ?_)
  match a with
  | ⟨0, _⟩ => rfl
  | ⟨1, _⟩ => exact Nat.mod_eq_of_lt e.isLt

/-- The sources followed by the node numbers, read at an edge: the edge's stored source. -/
theorem srcF_edge (e : Fin 1600000) :
    ReadP.val_main_v42 (F := Ideal) x2 (ix1 (⟨e.val, by omega⟩ : Fin 1700000)) = x2 (ix2 (0 : Fin 2) e) := by
  unfold ReadP.val_main_v42
  exact (Cert.LibConcatRead.concat_vec_left (a := 1600000) (b := 100000) (n := 1700000) _ _ _ e _).trans (v1_read x2 e)

/-- The sources followed by the node numbers, read at node n's own loop: the number n. -/
theorem srcF_loop (n : Fin 100000) :
    ReadP.val_main_v42 (F := Ideal) x2 (ix1 (⟨1600000 + n.val, by omega⟩ : Fin 1700000)) = BitVec.ofNat 32 n.val := by
  unfold ReadP.val_main_v42
  exact (Cert.LibConcatRead.concat_vec_right (a := 1600000) (b := 100000) (n := 1700000) _ _ _ n _).trans rfl

/-- The destinations followed by the node numbers, read at an edge: the edge's stored destination. -/
theorem dstF_edge (e : Fin 1600000) :
    ReadP.val_main_v43 (F := Ideal) x2 (ix1 (⟨e.val, by omega⟩ : Fin 1700000)) = x2 (ix2 (1 : Fin 2) e) := by
  unfold ReadP.val_main_v43
  exact (Cert.LibConcatRead.concat_vec_left (a := 1600000) (b := 100000) (n := 1700000) _ _ _ e _).trans (v3_read x2 e)

/-- The destinations followed by the node numbers, read at node n's own loop: the number n. -/
theorem dstF_loop (n : Fin 100000) :
    ReadP.val_main_v43 (F := Ideal) x2 (ix1 (⟨1600000 + n.val, by omega⟩ : Fin 1700000)) = BitVec.ofNat 32 n.val := by
  unfold ReadP.val_main_v43
  exact (Cert.LibConcatRead.concat_vec_right (a := 1600000) (b := 100000) (n := 1700000) _ _ _ n _).trans rfl

/-! ## The motif rows of an edge's two ends -/

/-- The wrapped stored source of edge e. -/
theorem v8_read (e : Fin 1600000) :
    ReadP.val_main_v8 (F := Ideal) x2 (ix1 e) = Cert.Spec.wrapIdx (x2 (ix2 (0 : Fin 2) e)) := by
  rw [ReadP.val_main_v8_apply, ReadP.val_main_v5_apply, ReadP.val_main_v7_apply, ReadP.val_main_v4_apply, ReadP.val_main_v6_apply,
    ReadP.val_main_c_apply, ReadP.val_main_c_0_apply, v1_read]
  rfl

/-- The wrapped stored destination of edge e. -/
theorem v15_read (e : Fin 1600000) :
    ReadP.val_main_v15 (F := Ideal) x2 (ix1 e) = Cert.Spec.wrapIdx (x2 (ix2 (1 : Fin 2) e)) := by
  rw [ReadP.val_main_v15_apply, ReadP.val_main_v12_apply, ReadP.val_main_v14_apply, ReadP.val_main_v11_apply, ReadP.val_main_v13_apply,
    ReadP.val_main_c_1_apply, ReadP.val_main_c_2_apply, v3_read]
  rfl

/-- The motif row of an edge's source end: row "node (src e)" of the motif table. -/
theorem v10_read (e : Fin 1600000) (k : Fin 16) :
    ReadP.val_main_v10 (F := Ideal) x1 x2 (ix2 e k) = x1 (ix2 (Cert.Spec.node (x2 (ix2 (0 : Fin 2) e))) k) := by
  unfold ReadP.val_main_v10
  refine (Cert.LibGatherRows.gather_rows_apply (N := 100000) (R := 1600000) (C := 16) (by decide) _ x1
    (ReadP.val_main_v9 (F := Ideal) x2) e k).trans ?_
  refine congrArg x1 (congrArg (fun r => ix2 r k) (Fin.ext ?_))
  show min ((ReadP.val_main_v9 (F := Ideal) x2 (ix2 e (0 : Fin 1))).toInt.toNat) (100000 - 1)
    = min (Cert.Spec.wrapIdx (x2 (ix2 (0 : Fin 2) e))).toInt.toNat (100000 - 1)
  rw [ReadP.val_main_v9_apply,
    show ReadP.idx_main_v9 (ix2 e (0 : Fin 1)) = ix1 e from funext fun a => Fin.ext (by match a with | ⟨0, _⟩ => rfl),
    v8_read]

/-- The motif row of an edge's destination end: row "node (dst e)" of the motif table. -/
theorem v17_read (e : Fin 1600000) (k : Fin 16) :
    ReadP.val_main_v17 (F := Ideal) x1 x2 (ix2 e k) = x1 (ix2 (Cert.Spec.node (x2 (ix2 (1 : Fin 2) e))) k) := by
  unfold ReadP.val_main_v17
  refine (Cert.LibGatherRows.gather_rows_apply (N := 100000) (R := 1600000) (C := 16) (by decide) _ x1
    (ReadP.val_main_v16 (F := Ideal) x2) e k).trans ?_
  refine congrArg x1 (congrArg (fun r => ix2 r k) (Fin.ext ?_))
  show min ((ReadP.val_main_v16 (F := Ideal) x2 (ix2 e (0 : Fin 1))).toInt.toNat) (100000 - 1)
    = min (Cert.Spec.wrapIdx (x2 (ix2 (1 : Fin 2) e))).toInt.toNat (100000 - 1)
  rw [ReadP.val_main_v16_apply,
    show ReadP.idx_main_v16 (ix2 e (0 : Fin 1)) = ix1 e from funext fun a => Fin.ext (by match a with | ⟨0, _⟩ => rfl),
    v15_read]

/-! ## The four pieces side by side -/

theorem v21_read0 (e : Fin 1600000) (k : Fin 16) :
    ReadP.val_main_v21 (F := Ideal) x1 x2 (ix2 e (⟨16 * 0 + k.val, by omega⟩ : Fin 64))
      = ReadP.val_main_v10 (F := Ideal) x1 x2 (ix2 e k) := by
  unfold ReadP.val_main_v21
  exact Cert.LibConcatRead.concat4_lanes_0 (R := 1600000) (c := 16) (m := 64) _ _ _ _ _ e k _

theorem v21_read1 (e : Fin 1600000) (k : Fin 16) :
    ReadP.val_main_v21 (F := Ideal) x1 x2 (ix2 e (⟨16 * 1 + k.val, by omega⟩ : Fin 64))
      = ReadP.val_main_v17 (F := Ideal) x1 x2 (ix2 e k) := by
  unfold ReadP.val_main_v21
  exact Cert.LibConcatRead.concat4_lanes_1 (R := 1600000) (c := 16) (m := 64) _ _ _ _ _ e k _

theorem v21_read2 (e : Fin 1600000) (k : Fin 16) :
    ReadP.val_main_v21 (F := Ideal) x1 x2 (ix2 e (⟨16 * 2 + k.val, by omega⟩ : Fin 64))
      = ReadP.val_main_v19 (F := Ideal) x1 x2 (ix2 e k) := by
  unfold ReadP.val_main_v21
  exact Cert.LibConcatRead.concat4_lanes_2 (R := 1600000) (c := 16) (m := 64) _ _ _ _ _ e k _

theorem v21_read3 (e : Fin 1600000) (k : Fin 16) :
    ReadP.val_main_v21 (F := Ideal) x1 x2 (ix2 e (⟨16 * 3 + k.val, by omega⟩ : Fin 64))
      = ReadP.val_main_v20 (F := Ideal) x1 x2 (ix2 e k) := by
  unfold ReadP.val_main_v21
  exact Cert.LibConcatRead.concat4_lanes_3 (R := 1600000) (c := 16) (m := 64) _ _ _ _ _ e k _

/-! ## The perceptron -/

/-- The first layer's product at edge e, hidden unit j: four sums of length 16, one per band of the weight matrix. -/
theorem v22_read (e : Fin 1600000) (j : Fin 64) :
    ReadP.val_main_v22 (F := Ideal) x1 x2 x3 (ix2 e j)
      = (((∑ k : Fin 16, x1 (ix2 (Cert.Spec.node (x2 (ix2 (0 : Fin 2) e))) k) * x3 (ix2 (⟨16 * 0 + k.val, by omega⟩ : Fin 64) j))
        + ∑ k : Fin 16, x1 (ix2 (Cert.Spec.node (x2 (ix2 (1 : Fin 2) e))) k) * x3 (ix2 (⟨16 * 1 + k.val, by omega⟩ : Fin 64) j))
        + ∑ k : Fin 16, max (x1 (ix2 (Cert.Spec.node (x2 (ix2 (0 : Fin 2) e))) k) - x1 (ix2 (Cert.Spec.node (x2 (ix2 (1 : Fin 2) e))) k))
            (-(x1 (ix2 (Cert.Spec.node (x2 (ix2 (0 : Fin 2) e))) k) - x1 (ix2 (Cert.Spec.node (x2 (ix2 (1 : Fin 2) e))) k)))
            * x3 (ix2 (⟨16 * 2 + k.val, by omega⟩ : Fin 64) j))
        + ∑ k : Fin 16, (x1 (ix2 (Cert.Spec.node (x2 (ix2 (0 : Fin 2) e))) k) * x1 (ix2 (Cert.Spec.node (x2 (ix2 (1 : Fin 2) e))) k))
            * x3 (ix2 (⟨16 * 3 + k.val, by omega⟩ : Fin 64) j) := by
  rw [ReadP.val_main_v22_apply, Cert.LibConcatRead.sum_four_blocks 16 rfl]
  have hl : ∀ kk : Fin 64, ReadP.lidx_main_v22 (ix2 e j) kk = ix2 e kk := fun kk =>
    funext fun a => Fin.ext (by match a with | ⟨0, _⟩ => rfl | ⟨1, _⟩ => rfl)
  have hr : ∀ kk : Fin 64, ReadP.ridx_main_v22 (ix2 e j) kk = ix2 kk j := fun kk =>
    funext fun a => Fin.ext (by match a with | ⟨0, _⟩ => rfl | ⟨1, _⟩ => rfl)
  simp only [hl, hr, v21_read0, v21_read1, v21_read2, v21_read3, ReadP.val_main_v19_apply, ReadP.val_main_v18_apply,
    ReadP.val_main_v20_apply, v10_read, v17_read]
  rfl

/-- Hidden unit j of the perceptron at edge e. -/
theorem v26_read (e : Fin 1600000) (j : Fin 64) :
    ReadP.val_main_v26 (F := Ideal) x1 x2 x3 x4 (ix2 e j)
      = Cert.Spec.hidden (Cert.Spec.at2 (a := 100000) (b := 16) x1 (Cert.Spec.node (x2 (ix2 (0 : Fin 2) e))))
          (Cert.Spec.at2 (a := 100000) (b := 16) x1 (Cert.Spec.node (x2 (ix2 (1 : Fin 2) e))))
          (Cert.Spec.band (Cert.Spec.at2 (a := 64) (b := 64) x3) 0) (Cert.Spec.band (Cert.Spec.at2 (a := 64) (b := 64) x3) 1)
          (Cert.Spec.band (Cert.Spec.at2 (a := 64) (b := 64) x3) 2) (Cert.Spec.band (Cert.Spec.at2 (a := 64) (b := 64) x3) 3)
          (Cert.Spec.at1 (a := 64) x4) j := by
  rw [ReadP.val_main_v26_apply, ReadP.val_main_v25_apply, v22_read, ReadP.val_main_v24_apply, ReadP.val_main_v23_apply,
    ReadP.val_main_call0_v0_apply, ReadP.val_main_call0_cst_apply,
    show ReadP.idx_main_v23 (ReadP.idx_main_v24 (ix2 e j)) = ix1 j from
      funext fun a => Fin.ext (by match a with | ⟨0, _⟩ => rfl)]
  rfl

/-- The perceptron's output at edge e: the hidden units against the second weight column, plus its bias. -/
theorem v31_read (e : Fin 1600000) :
    ReadP.val_main_v31 (F := Ideal) x1 x2 x3 x4 x5 x6 (ix1 e)
      = (∑ j : Fin 64, Cert.Spec.hidden (Cert.Spec.at2 (a := 100000) (b := 16) x1 (Cert.Spec.node (x2 (ix2 (0 : Fin 2) e))))
          (Cert.Spec.at2 (a := 100000) (b := 16) x1 (Cert.Spec.node (x2 (ix2 (1 : Fin 2) e))))
          (Cert.Spec.band (Cert.Spec.at2 (a := 64) (b := 64) x3) 0) (Cert.Spec.band (Cert.Spec.at2 (a := 64) (b := 64) x3) 1)
          (Cert.Spec.band (Cert.Spec.at2 (a := 64) (b := 64) x3) 2) (Cert.Spec.band (Cert.Spec.at2 (a := 64) (b := 64) x3) 3)
          (Cert.Spec.at1 (a := 64) x4) j * x5 (ix2 j (0 : Fin 1))) + x6 (ix1 (0 : Fin 1)) := by
  have h31 : ReadP.idx_main_v31 (ix1 e) = ix2 e (0 : Fin 1) :=
    funext fun a => Fin.ext (by match a with | ⟨0, _⟩ => exact Nat.div_one e.val | ⟨1, _⟩ => rfl)
  have hl : ∀ kk : Fin 64, ReadP.lidx_main_v27 (ix2 e (0 : Fin 1)) kk = ix2 e kk := fun kk =>
    funext fun a => Fin.ext (by match a with | ⟨0, _⟩ => rfl | ⟨1, _⟩ => rfl)
  have hr : ∀ kk : Fin 64, ReadP.ridx_main_v27 (ix2 e (0 : Fin 1)) kk = ix2 kk (0 : Fin 1) := fun kk =>
    funext fun a => Fin.ext (by match a with | ⟨0, _⟩ => rfl | ⟨1, _⟩ => rfl)
  have h28 : ReadP.idx_main_v28 (ReadP.idx_main_v29 (ix2 e (0 : Fin 1))) = ix1 (0 : Fin 1) :=
    funext fun a => Fin.ext (by match a with | ⟨0, _⟩ => rfl)
  rw [ReadP.val_main_v31_apply, h31, ReadP.val_main_v30_apply, ReadP.val_main_v27_apply, ReadP.val_main_v29_apply,
    ReadP.val_main_v28_apply, h28]
  simp only [hl, hr, v26_read]
  rfl

/-- **The gate of edge e**, as the reference computes it, is the specification's. -/
theorem gate_read (e : Fin 1600000) :
    ReadP.val_main_v40 (F := Ideal) x1 x2 x3 x4 x5 x6 (ix1 e)
      = Cert.Spec.gateE (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) e := by
  rw [ReadP.val_main_v40_apply, ReadP.val_main_call1_v4_apply, ReadP.val_main_call1_v3_apply, ReadP.val_main_cst_6_apply,
    ReadP.val_main_call1_v2_apply, ReadP.val_main_call1_v1_apply, ReadP.val_main_call1_v0_apply, ReadP.val_main_cst_5_apply,
    ReadP.val_main_v39_apply, ReadP.val_main_v38_apply, ReadP.val_main_cst_4_apply, ReadP.val_main_v37_apply,
    ReadP.val_main_v36_apply, ReadP.val_main_cst_3_apply, ReadP.val_main_v35_apply, ReadP.val_main_v34_apply,
    ReadP.val_main_v33_apply, ReadP.val_main_v32_apply, ReadP.val_main_cst_apply, v31_read]
  show min Cert.Spec.o1 (max Cert.Spec.z0 (Ideal.div Cert.Spec.o1 (Cert.Spec.o1 + Ideal.exp (-(Ideal.div _ Cert.Spec.o1))))) = _
  rw [logistic_expansion]
  rfl

end

end Cert.ReferenceIdeal.RefValue

end
-- ==== Proof.LibLoopSplit.lean ====
/-
  A sum over E + N indices restricted by a predicate, taken in two stretches; and a restricted sum that one index carries.

  A graph convolution with self-loops adds, into a node, the messages of the E edges that land on it and the message of the
  node's own loop. Written as one scatter over E + N updates (the edges first, the loops after), the sum over the updates
  that land on a node splits into the sum over the landing edges plus the sum over the landing loops, and the second
  is a single term because loop k lands on node k alone. Addition of extended reals is commutative and associative, so
  no finiteness is asked.
-/
import Mathlib.Algebra.BigOperators.Fin
import Mathlib.Data.EReal.Basic

namespace Cert.LibLoopSplit

open scoped BigOperators

/-- A sum over the indices of `Fin (E + N)` satisfying `P` is the sum over the first `E` of them satisfying `P` plus the
    sum over the last `N` satisfying `P`. -/
theorem sum_filter_castAdd_natAdd {E N : ℕ} (P : Fin (E + N) → Prop) [DecidablePred P] (f : Fin (E + N) → EReal) :
    ∑ j ∈ Finset.univ.filter P, f j
      = (∑ e ∈ Finset.univ.filter (fun e : Fin E => P (Fin.castAdd N e)), f (Fin.castAdd N e))
        + ∑ n ∈ Finset.univ.filter (fun n : Fin N => P (Fin.natAdd E n)), f (Fin.natAdd E n) := by
  rw [Finset.sum_filter, Finset.sum_filter, Finset.sum_filter, Fin.sum_univ_add]

/-- A restricted sum whose predicate holds at exactly one index is the summand there. -/
theorem sum_filter_eq_single {N : ℕ} (p : Fin N) (P : Fin N → Prop) [DecidablePred P] (hP : ∀ n, P n ↔ n = p)
    (g : Fin N → EReal) : ∑ n ∈ Finset.univ.filter P, g n = g p := by
  have h : Finset.univ.filter P = {p} := by
    ext n
    simp only [Finset.mem_filter, Finset.mem_univ, true_and, Finset.mem_singleton]
    exact hP n
  rw [h, Finset.sum_singleton]

/-- The two together: when the last `N` indices satisfy `P` exactly at the one numbered `p`, the restricted sum is the
    restricted sum over the first `E` plus the summand at that one. -/
theorem sum_filter_edges_loop {E N : ℕ} (P : Fin (E + N) → Prop) [DecidablePred P] (f : Fin (E + N) → EReal) (p : Fin N)
    (hP : ∀ n : Fin N, P (Fin.natAdd E n) ↔ n = p) :
    ∑ j ∈ Finset.univ.filter P, f j
      = (∑ e ∈ Finset.univ.filter (fun e : Fin E => P (Fin.castAdd N e)), f (Fin.castAdd N e)) + f (Fin.natAdd E p) := by
  rw [sum_filter_castAdd_natAdd, sum_filter_eq_single p _ hP (fun n => f (Fin.natAdd E n))]

end Cert.LibLoopSplit
-- ==== Proof.RNorm.lean ====
/-
  The reference program's degrees, their inverse square roots and the edge weights, read one node or one edge at a time.

  The degree vector is one accumulating scatter, into zeros, of E + N numbers — the E gates followed by N ones — at the E
  stored destinations followed by the node numbers 0, …, N − 1. Entry n of the result is 0 plus the sum of the numbers that
  land on n. That sum splits into the gates of the edges landing on n plus the single one of node n's own loop: loop m
  carries the number m, which read signed is m itself (m is below 2³¹), so it lands on n exactly when m = n. Addition is
  associative, so 0 + (Σ + 1) = (0 + Σ) + 1, the specification's degree.

  dinv is the same select of the same comparison and power on both sides. The weight vector over the E + N entries is
  dinv(row read at the source number) · (gate or 1) · dinv(row read at the destination number); a vector read at a wrapped
  number reads entry "node v". At an edge this is the specification's weight; at node n's own loop both numbers are n,
  "node n" is n, and the middle factor is the word 0x3F800000, the number 1, so the weight is dinv n · dinv n.
-/
import proofs.«166963_j81509889343768_2_alg».proof.Proof.RGate
import proofs.«166963_j81509889343768_2_alg».proof.Proof.LibRowIndex
import proofs.«166963_j81509889343768_2_alg».proof.Proof.LibVecScatter
import proofs.«166963_j81509889343768_2_alg».proof.Proof.LibLoopSplit

noncomputable section

namespace Cert.ReferenceIdeal.RefValue

open Cert.ReferenceIdeal Cert.ReferenceIdeal.Gen Idealize.ShloMosaic Idealize.ShloMosaic.ValueIdx
open scoped BigOperators

/-! ## Node numbers as stored words -/

/-- The word of a node number n, read signed, is n. -/
theorem ofNat_toInt (n : Fin 100000) : (BitVec.ofNat 32 n.val).toInt = (n.val : ℤ) := by
  have := n.isLt
  rw [BitVec.toInt_eq_toNat_cond, BitVec.toNat_ofNat]
  have h : n.val % 2 ^ 32 = n.val := Nat.mod_eq_of_lt (by omega)
  rw [h, if_pos (by omega)]

/-- The node that the word of a node number n names, when a row is read, is n. -/
theorem node_ofNat (n : Fin 100000) : Cert.Spec.node (BitVec.ofNat 32 n.val) = n := by
  have hw : Cert.Spec.wrapIdx (BitVec.ofNat 32 n.val) = BitVec.ofNat 32 n.val :=
    Cert.LibRowIndex.wrap_of_nonneg _ _ (by rw [ofNat_toInt]; omega)
  refine Fin.ext ?_
  show min (Cert.Spec.wrapIdx (BitVec.ofNat 32 n.val)).toInt.toNat (100000 - 1) = n.val
  rw [hw, ofNat_toInt]
  have := n.isLt
  simp only [Int.toNat_natCast]
  omega

section

variable (x1 : (⟨S100000x16, .f32⟩ : BufTy).Contents (Elt Ideal)) (x2 : (⟨S2x1600000, .i32⟩ : BufTy).Contents (Elt Ideal))
  (x3 : (⟨S64x64, .f32⟩ : BufTy).Contents (Elt Ideal)) (x4 : (⟨S64, .f32⟩ : BufTy).Contents (Elt Ideal))
  (x5 : (⟨S64x1, .f32⟩ : BufTy).Contents (Elt Ideal)) (x6 : (⟨S1, .f32⟩ : BufTy).Contents (Elt Ideal))

/-! ## The joined vectors at the first E and the last N entries -/

theorem srcF_castAdd (e : Fin 1600000) :
    ReadP.val_main_v42 (F := Ideal) x2 (ix1 (Fin.castAdd 100000 e)) = x2 (ix2 (0 : Fin 2) e) := srcF_edge x2 e

theorem srcF_natAdd (n : Fin 100000) :
    ReadP.val_main_v42 (F := Ideal) x2 (ix1 (Fin.natAdd 1600000 n)) = BitVec.ofNat 32 n.val := srcF_loop x2 n

theorem dstF_castAdd (e : Fin 1600000) :
    ReadP.val_main_v43 (F := Ideal) x2 (ix1 (Fin.castAdd 100000 e)) = x2 (ix2 (1 : Fin 2) e) := dstF_edge x2 e

theorem dstF_natAdd (n : Fin 100000) :
    ReadP.val_main_v43 (F := Ideal) x2 (ix1 (Fin.natAdd 1600000 n)) = BitVec.ofNat 32 n.val := dstF_loop x2 n

/-- The gates followed by N ones, read at an edge: the edge's gate. -/
theorem updF_castAdd (e : Fin 1600000) :
    ReadP.val_main_v45 (F := Ideal) x1 x2 x3 x4 x5 x6 (ix1 (Fin.castAdd 100000 e))
      = ReadP.val_main_v40 (F := Ideal) x1 x2 x3 x4 x5 x6 (ix1 e) := by
  unfold ReadP.val_main_v45
  exact Cert.LibConcatRead.concat_vec_left (a := 1600000) (b := 100000) (n := 1700000) _ _ _ e _

/-- The gates followed by N ones, read at a node's own loop: one. -/
theorem updF_natAdd (n : Fin 100000) :
    ReadP.val_main_v45 (F := Ideal) x1 x2 x3 x4 x5 x6 (ix1 (Fin.natAdd 1600000 n)) = Cert.Spec.o1 := by
  unfold ReadP.val_main_v45
  refine (Cert.LibConcatRead.concat_vec_right (a := 1600000) (b := 100000) (n := 1700000) _ _ _ n _).trans ?_
  rw [ReadP.val_main_v44_apply, ReadP.val_main_cst_7_apply]
  rfl

/-- The destination numbers as a one-column array. -/
theorem v47_read (j : Fin 1700000) :
    ReadP.val_main_v47 (F := Ideal) x2 (ix2 j (0 : Fin 1)) = ReadP.val_main_v43 (F := Ideal) x2 (ix1 j) := by
  rw [ReadP.val_main_v47_apply]
  exact congrArg _ (funext fun a => Fin.ext (by match a with | ⟨0, _⟩ => rfl))

/-! ## The degree -/

/-- **The degree of node n**, as the reference computes it, is the specification's. -/
theorem deg_read (n : Fin 100000) :
    ReadP.val_main_v48 (F := Ideal) x1 x2 x3 x4 x5 x6 (ix1 n)
      = Cert.Spec.deg (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n := by
  unfold ReadP.val_main_v48
  refine (Cert.LibVecScatter.host_scatterAdd_vec_apply (N := 100000) (R := 1700000) _ (ReadP.val_main_v46 (F := Ideal))
    (ReadP.val_main_v47 (F := Ideal) x2) (ReadP.val_main_v45 (F := Ideal) x1 x2 x3 x4 x5 x6) n).trans ?_
  unfold Cert.LibRowAggLinear.landsOn
  have hP : ∀ m : Fin 100000,
      ((ReadP.val_main_v47 (F := Ideal) x2 (ix2 (Fin.natAdd 1600000 m) (0 : Fin 1))).toInt = (n.val : ℤ)) ↔ m = n := by
    intro m
    rw [v47_read, dstF_natAdd, ofNat_toInt]
    constructor
    · intro h; exact Fin.ext (by exact_mod_cast h)
    · rintro rfl; rfl
  rw [Cert.LibLoopSplit.sum_filter_edges_loop (E := 1600000) (N := 100000)
    (fun j => (ReadP.val_main_v47 (F := Ideal) x2 (ix2 j (0 : Fin 1))).toInt = (n.val : ℤ))
    (fun j => ReadP.val_main_v45 (F := Ideal) x1 x2 x3 x4 x5 x6 (ix1 j)) n hP]
  have hfilter : (Finset.univ.filter fun e : Fin 1600000 =>
      (ReadP.val_main_v47 (F := Ideal) x2 (ix2 (Fin.castAdd 100000 e) (0 : Fin 1))).toInt = (n.val : ℤ))
      = Cert.Spec.lands (Cert.Spec.at2 (a := 2) (b := 1600000) x2 1) n := by
    unfold Cert.Spec.lands
    refine Finset.filter_congr (fun e _ => ?_)
    rw [v47_read, dstF_castAdd]
  rw [hfilter, updF_natAdd, ReadP.val_main_v46_apply, ReadP.val_main_cst_8_apply, ← add_assoc]
  simp only [updF_castAdd, gate_read]
  rfl

/-! ## The inverse square root of the degree -/

/-- **dinv of node n**, as the reference computes it, is the specification's. -/
theorem dinv_read (n : Fin 100000) :
    ReadP.val_main_v59 (F := Ideal) x1 x2 x3 x4 x5 x6 (ix1 n)
      = Cert.Spec.dinv (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n := by
  rw [ReadP.val_main_v59_apply, ReadP.val_main_v56_apply, ReadP.val_main_v58_apply, ReadP.val_main_v55_apply,
    ReadP.val_main_cst_12_apply, ReadP.val_main_v57_apply, ReadP.val_main_cst_13_apply, ReadP.val_main_call3_v1_apply,
    ReadP.val_main_call3_v0_apply, ReadP.val_main_cst_14_apply, deg_read]
  rfl

/-! ## dinv read at the source and destination numbers of the E + N entries -/

/-- The wrapped source number of entry j, as a one-column array. -/
theorem v65_read (j : Fin 1700000) :
    ReadP.val_main_v65 (F := Ideal) x2 (ix2 j (0 : Fin 1)) = Cert.Spec.wrapIdx (ReadP.val_main_v42 (F := Ideal) x2 (ix1 j)) := by
  rw [ReadP.val_main_v65_apply,
    show ReadP.idx_main_v65 (ix2 j (0 : Fin 1)) = ix1 j from funext fun a => Fin.ext (by match a with | ⟨0, _⟩ => rfl),
    ReadP.val_main_v64_apply, ReadP.val_main_v61_apply, ReadP.val_main_v63_apply, ReadP.val_main_v60_apply,
    ReadP.val_main_v62_apply, ReadP.val_main_c_15_apply, ReadP.val_main_c_16_apply]
  rfl

/-- The wrapped destination number of entry j, as a one-column array. -/
theorem v73_read (j : Fin 1700000) :
    ReadP.val_main_v73 (F := Ideal) x2 (ix2 j (0 : Fin 1)) = Cert.Spec.wrapIdx (ReadP.val_main_v43 (F := Ideal) x2 (ix1 j)) := by
  rw [ReadP.val_main_v73_apply,
    show ReadP.idx_main_v73 (ix2 j (0 : Fin 1)) = ix1 j from funext fun a => Fin.ext (by match a with | ⟨0, _⟩ => rfl),
    ReadP.val_main_v72_apply, ReadP.val_main_v69_apply, ReadP.val_main_v71_apply, ReadP.val_main_v68_apply,
    ReadP.val_main_v70_apply, ReadP.val_main_c_17_apply, ReadP.val_main_c_18_apply]
  rfl

/-- dinv read at the source number of entry j: dinv of the node that number names. -/
theorem v66_read (j : Fin 1700000) :
    ReadP.val_main_v66 (F := Ideal) x1 x2 x3 x4 x5 x6 (ix1 j)
      = ReadP.val_main_v59 (F := Ideal) x1 x2 x3 x4 x5 x6 (ix1 (Cert.Spec.node (ReadP.val_main_v42 (F := Ideal) x2 (ix1 j)))) := by
  unfold ReadP.val_main_v66
  refine (Cert.LibRowIndex.gather_vec_apply (N := 100000) (R := 1700000) (by decide) _
    (ReadP.val_main_v59 (F := Ideal) x1 x2 x3 x4 x5 x6) (ReadP.val_main_v65 (F := Ideal) x2) j).trans ?_
  refine congrArg _ (congrArg (fun r : Fin 100000 => ix1 r) (Fin.ext ?_))
  show min ((ReadP.val_main_v65 (F := Ideal) x2 (ix2 j (0 : Fin 1))).toInt.toNat) (100000 - 1)
    = min (Cert.Spec.wrapIdx (ReadP.val_main_v42 (F := Ideal) x2 (ix1 j))).toInt.toNat (100000 - 1)
  rw [v65_read]

/-- dinv read at the destination number of entry j: dinv of the node that number names. -/
theorem v74_read (j : Fin 1700000) :
    ReadP.val_main_v74 (F := Ideal) x1 x2 x3 x4 x5 x6 (ix1 j)
      = ReadP.val_main_v59 (F := Ideal) x1 x2 x3 x4 x5 x6 (ix1 (Cert.Spec.node (ReadP.val_main_v43 (F := Ideal) x2 (ix1 j)))) := by
  unfold ReadP.val_main_v74
  refine (Cert.LibRowIndex.gather_vec_apply (N := 100000) (R := 1700000) (by decide) _
    (ReadP.val_main_v59 (F := Ideal) x1 x2 x3 x4 x5 x6) (ReadP.val_main_v73 (F := Ideal) x2) j).trans ?_
  refine congrArg _ (congrArg (fun r : Fin 100000 => ix1 r) (Fin.ext ?_))
  show min ((ReadP.val_main_v73 (F := Ideal) x2 (ix2 j (0 : Fin 1))).toInt.toNat) (100000 - 1)
    = min (Cert.Spec.wrapIdx (ReadP.val_main_v43 (F := Ideal) x2 (ix1 j))).toInt.toNat (100000 - 1)
  rw [v73_read]

/-! ## The weights -/

theorem weight_castAdd (e : Fin 1600000) :
    ReadP.val_main_v75 (F := Ideal) x1 x2 x3 x4 x5 x6 (ix1 (Fin.castAdd 100000 e))
      = Cert.Spec.weight (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) e := by
  rw [ReadP.val_main_v75_apply, ReadP.val_main_v67_apply, v66_read, v74_read, srcF_castAdd, dstF_castAdd, dinv_read, dinv_read,
    updF_castAdd, gate_read]
  rfl

theorem weight_natAdd (n : Fin 100000) :
    ReadP.val_main_v75 (F := Ideal) x1 x2 x3 x4 x5 x6 (ix1 (Fin.natAdd 1600000 n))
      = Cert.Spec.dinv (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n
        * Cert.Spec.dinv (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n := by
  rw [ReadP.val_main_v75_apply, ReadP.val_main_v67_apply, v66_read, v74_read, srcF_natAdd, dstF_natAdd, node_ofNat, dinv_read,
    updF_natAdd]
  show _ * Ideal.ofBits .f32 0x3F800000#32 * _ = _
  rw [o1_eq_one, mul_one]

/-- **The weight of edge e**, as the reference computes it, is the specification's. -/
theorem weight_edge (e : Fin 1600000) :
    ReadP.val_main_v75 (F := Ideal) x1 x2 x3 x4 x5 x6 (ix1 (⟨e.val, by omega⟩ : Fin 1700000))
      = Cert.Spec.weight (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) e := weight_castAdd x1 x2 x3 x4 x5 x6 e

/-- **The weight of node n's own loop**, as the reference computes it, is dinv n · dinv n. -/
theorem weight_loop (n : Fin 100000) :
    ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n
        * Cert.Spec.dinv (Cert.Spec.at2 (a := 100000) (b := 16) x1) (Cert.Spec.at2 (a := 2) (b := 1600000) x2 0)
          (Cert.Spec.at2 (a := 2) (b := 1600000) x2 1) (Cert.Spec.at2 (a := 64) (b := 64) x3) (Cert.Spec.at1 (a := 64) x4)
          (fun j => Cert.Spec.at2 (a := 64) (b := 1) x5 j 0) (Cert.Spec.at1 (a := 1) x6 0) n := weight_natAdd x1 x2 x3 x4 x5 x6 n

end

end Cert.ReferenceIdeal.RefValue

end
-- ==== Proof.LibLayerRead.lean ====
/-
  Rows of a table summed into rows along the edges of a graph that has one loop at every node.

  A graph layer with self-loops keeps E + N updates: the first E belong to the edges, the last N to the loops, loop m
  being the update numbered E + m. Update j is a row of an [N, C] table T — the row its stored source number names, read
  signed and clamped — scaled by a weight wt j, and it is added into the row its stored target number names, read signed.
  When the loop numbered m stores m both as its source and as its target, row p of the result is the starting row, plus
  the weighted source rows of the edges whose target is p, plus the weight of loop p times row p of T itself.
  Only commutativity and associativity of the sum are used, so nothing is asked to be finite.
-/
import Idealize.ShloMosaic.PureOps.Ideal
import Idealize.ShloMosaic.Lib.ValueIdx
import Idealize.ShloMosaic.Lib.Pipeline.Value
import proofs.«166963_j81509889343768_2_alg».proof.Proof.LibGatherRows
import proofs.«166963_j81509889343768_2_alg».proof.Proof.LibRowIndex
import proofs.«166963_j81509889343768_2_alg».proof.Proof.LibRowAggLinear
import proofs.«166963_j81509889343768_2_alg».proof.Proof.LibVecScatter
import proofs.«166963_j81509889343768_2_alg».proof.Proof.LibLoopSplit

namespace Cert.LibLayerRead

open Idealize.ShloMosaic Idealize.ShloMosaic.ValueIdx Cert.LibGatherRows Cert.LibRowIndex Cert.LibRowAggLinear
open scoped BigOperators

/-- A natural number below 2^31, stored as a 32-bit word and read signed, is itself. -/
theorem toInt_ofNat_of_lt (m : ℕ) (h : m < 2 ^ 31) : (BitVec.ofNat 32 m).toInt = (m : ℤ) := by
  have h1 : (BitVec.ofNat 32 m).toNat = m := by
    rw [BitVec.toNat_ofNat]
    exact Nat.mod_eq_of_lt (by omega)
  rw [BitVec.toInt_eq_toNat_of_lt (by rw [h1]; omega), h1]

/-- Two natural numbers below a common bound that agree as integers are the same index. -/
theorem fin_eq_iff_cast {N : ℕ} (m p : Fin N) : ((m.val : ℤ) = (p.val : ℤ)) ↔ m = p :=
  ⟨fun h => Fin.ext (by exact_mod_cast h), fun h => by rw [h]⟩

/-- Rows summed into rows along E edges and N loops. The updates are the rows of `T` taken at the stored numbers `idxG`,
    each scaled by its weight; they are summed into the table `z` at the stored numbers `idxS`; loop `m` (update `E + m`)
    stores `m` in both. Entry `(p, q)` of the result is `z (p, q)`, plus the weighted entries `(source of e, q)` over the
    edges `e` whose stored target is `p`, plus the weight of loop `p` times `T (p, q)`. -/
theorem agg_edges_loops {E N C : ℕ} {φ : FTy} (hN : 0 < N)
    (wfS : ScatterDims.WF ⟨2, ![N, C]⟩ ⟨2, ![E + N, 1]⟩ ⟨2, ![E + N, C]⟩ [1] [0] [0] 1)
    (wfG : GatherDims.WF ⟨2, ![N, C]⟩ ⟨2, ![E + N, 1]⟩ ⟨2, ![E + N, C]⟩ [1] [0] [] [0] [] 1 ![1, C])
    (z T : FVec Ideal ⟨2, ![N, C]⟩ φ) (idxS idxG : IVec ⟨2, ![E + N, 1]⟩ 32)
    (wt : (⟨1, ![E + N]⟩ : Shape).Idx → EReal) (upd : FVec Ideal ⟨2, ![E + N, C]⟩ φ)
    (hupd : ∀ (j : Fin (E + N)) (q : Fin C),
      upd (ix2 j q) = wt (ix1 j) * Host.gather (rowDims N (E + N) C wfG) T idxG (ix2 j q))
    (hSL : ∀ m : Fin N, (idxS (ix2 (Fin.natAdd E m) (0 : Fin 1))).toInt = (m.val : ℤ))
    (hGL : ∀ m : Fin N, (idxG (ix2 (Fin.natAdd E m) (0 : Fin 1))).toInt = (m.val : ℤ))
    (p : Fin N) (q : Fin C) :
    Host.scatterAdd (F := Ideal) (φ := φ) (rowScatterDims N (E + N) C wfS) z idxS upd (ix2 p q)
      = (z (ix2 p q)
          + ∑ e ∈ Finset.univ.filter (fun e : Fin E => (idxS (ix2 (Fin.castAdd N e) (0 : Fin 1))).toInt = (p.val : ℤ)),
              wt (ix1 (Fin.castAdd N e)) * T (ix2 (rowOf hN idxG (Fin.castAdd N e)) q))
        + wt (ix1 (Fin.natAdd E p)) * T (ix2 p q) := by
  rw [Cert.LibVecScatter.host_scatterAdd_rows_apply wfS z idxS upd p q]
  have hP : ∀ m : Fin N, (fun j : Fin (E + N) => (idxS (ix2 j (0 : Fin 1))).toInt = (p.val : ℤ)) (Fin.natAdd E m) ↔ m = p := by
    intro m
    show (idxS (ix2 (Fin.natAdd E m) (0 : Fin 1))).toInt = (p.val : ℤ) ↔ m = p
    rw [hSL m]
    exact fin_eq_iff_cast m p
  have hsplit := Cert.LibLoopSplit.sum_filter_edges_loop
    (fun j : Fin (E + N) => (idxS (ix2 j (0 : Fin 1))).toInt = (p.val : ℤ)) (fun j => upd (ix2 j q)) p hP
  have hland : landsOn idxS p
      = Finset.univ.filter (fun j : Fin (E + N) => (idxS (ix2 j (0 : Fin 1))).toInt = (p.val : ℤ)) := rfl
  rw [hland, hsplit, ← add_assoc]
  simp only [hupd, gather_rows_apply hN]
  rw [rowOf_of_toInt hN idxG (Fin.natAdd E p) p (hGL p)]

end Cert.LibLayerRead
-- ==== Proof.RLayer.lean ====
/-
  The reference program's two graph-convolution layers and its linear head, read index by index.

  Each layer multiplies the node features by the layer's weight matrix, takes the rows of the product at the (wrapped) stored
  source numbers of the 1600000 edges followed by the 100000 loops, scales row j by the weight of update j, and sums the
  scaled rows into a table of zeros at the stored target numbers. The loop of node m stores m as its source and as its
  target, so row n of the sum is the starting zero, plus the weighted source rows of the edges that land on n, plus the
  loop's weight times row n itself. Adding the bias row gives the row the layer normalises: its mean and its mean squared
  deviation are lane sums started from the zero word and divided by 128; the row minus its mean is scaled by the inverse
  square root of (deviation + ε), by the gain and shifted by the offset, ramped, and added to the layer's input. The head is
  one more matrix product plus a bias row. Every step is the specification's own arrangement, so only the associativity of
  the sum (starting zero + (edges + loop) = (starting zero + edges) + loop) is used.
-/
import proofs.«166963_j81509889343768_2_alg».proof.Proof.RefRead
import proofs.«166963_j81509889343768_2_alg».proof.Proof.Spec
import proofs.«166963_j81509889343768_2_alg».proof.Proof.LibLayerRead

noncomputable section

namespace Cert.ReferenceIdeal.RefValue

open Cert.ReferenceIdeal Cert.ReferenceIdeal.Gen Idealize.ShloMosaic Idealize.ShloMosaic.ValueIdx Idealize.ShloMosaic.StableHlo
open Cert.LibGatherRows Cert.LibRowIndex Cert.LibRowAggLinear
open scoped BigOperators

section Pre

variable (mx : Fin 100000 → Fin 16 → EReal) (src dst : Fin 1600000 → BitVec 32)
  (w1 : Fin 64 → Fin 64 → EReal) (b1 : Fin 64 → EReal) (w2 : Fin 64 → EReal) (b2 : EReal)
  (cw : Fin 2 → Fin 128 → Fin 128 → EReal) (cb : Fin 2 → Fin 128 → EReal)

/-- The row a layer normalises, read off the aggregation. The 1700000 updates are the rows of the product table `XW` taken
    at the wrapped stored sources, each scaled by its weight, and summed into a table of zeros at the stored targets; update
    `e < 1600000` is edge `e`, update `1600000 + m` is the loop of node `m` and stores `m` itself. Entry `(n, q)` of
    that sum plus the bias row is the specification's `pre`: the starting zero, the weighted rows of the edges landing on
    `n`, the loop's weight times row `n`, and the bias. -/
theorem pre_of_agg (l : Fin 2) (X : Fin 100000 → Fin 128 → EReal)
    (wfS : ScatterDims.WF ⟨2, ![100000, 128]⟩ ⟨2, ![1700000, 1]⟩ ⟨2, ![1700000, 128]⟩ [1] [0] [0] 1)
    (wfG : GatherDims.WF ⟨2, ![100000, 128]⟩ ⟨2, ![1700000, 1]⟩ ⟨2, ![1700000, 128]⟩ [1] [0] [] [0] [] 1 ![1, 128])
    (z XW bias : FVec Ideal ⟨2, ![100000, 128]⟩ .f32) (idxS idxG : IVec ⟨2, ![1700000, 1]⟩ 32)
    (wt : (⟨1, ![1700000]⟩ : Shape).Idx → EReal) (upd : FVec Ideal ⟨2, ![1700000, 128]⟩ .f32)
    (hz : ∀ i, z i = Cert.Spec.z0)
    (hXW : ∀ n q, XW (ix2 n q) = Cert.Spec.xw cw l X n q)
    (hb : ∀ (n : Fin 100000) (q : Fin 128), bias (ix2 n q) = cb l q)
    (hupd : ∀ (j : Fin 1700000) (q : Fin 128),
      upd (ix2 j q) = wt (ix1 j) * Host.gather (rowDims 100000 1700000 128 wfG) XW idxG (ix2 j q))
    (hSE : ∀ e : Fin 1600000, idxS (ix2 (⟨e.val, by omega⟩ : Fin 1700000) (0 : Fin 1)) = dst e)
    (hSL : ∀ m : Fin 100000, idxS (ix2 (⟨1600000 + m.val, by omega⟩ : Fin 1700000) (0 : Fin 1)) = BitVec.ofNat 32 m.val)
    (hGE : ∀ e : Fin 1600000, idxG (ix2 (⟨e.val, by omega⟩ : Fin 1700000) (0 : Fin 1)) = Cert.Spec.wrapIdx (src e))
    (hGL : ∀ m : Fin 100000, idxG (ix2 (⟨1600000 + m.val, by omega⟩ : Fin 1700000) (0 : Fin 1))
      = Cert.Spec.wrapIdx (BitVec.ofNat 32 m.val))
    (hwE : ∀ e : Fin 1600000, wt (ix1 (⟨e.val, by omega⟩ : Fin 1700000)) = Cert.Spec.weight mx src dst w1 b1 w2 b2 e)
    (hwL : ∀ m : Fin 100000, wt (ix1 (⟨1600000 + m.val, by omega⟩ : Fin 1700000))
      = Cert.Spec.dinv mx src dst w1 b1 w2 b2 m * Cert.Spec.dinv mx src dst w1 b1 w2 b2 m)
    (n : Fin 100000) (q : Fin 128) :
    Host.scatterAdd (F := Ideal) (φ := .f32) (rowScatterDims 100000 1700000 128 wfS) z idxS upd (ix2 n q) + bias (ix2 n q)
      = Cert.Spec.pre mx src dst w1 b1 w2 b2 cw cb l X n q := by
  have hN : 0 < 100000 := by decide
  have hlt : ∀ m : Fin 100000, m.val < 2 ^ 31 := fun m => by have := m.isLt; omega
  have hSE' : ∀ e : Fin 1600000, idxS (ix2 (Fin.castAdd 100000 e) (0 : Fin 1)) = dst e := fun e => hSE e
  have hGE' : ∀ e : Fin 1600000, idxG (ix2 (Fin.castAdd 100000 e) (0 : Fin 1)) = Cert.Spec.wrapIdx (src e) := fun e => hGE e
  have hwE' : ∀ e : Fin 1600000, wt (ix1 (Fin.castAdd 100000 e)) = Cert.Spec.weight mx src dst w1 b1 w2 b2 e := fun e => hwE e
  have hwL' : wt (ix1 (Fin.natAdd 1600000 n))
      = Cert.Spec.dinv mx src dst w1 b1 w2 b2 n * Cert.Spec.dinv mx src dst w1 b1 w2 b2 n := hwL n
  have hSL' : ∀ m : Fin 100000, (idxS (ix2 (Fin.natAdd 1600000 m) (0 : Fin 1))).toInt = (m.val : ℤ) := fun m => by
    rw [show idxS (ix2 (Fin.natAdd 1600000 m) (0 : Fin 1)) = BitVec.ofNat 32 m.val from hSL m]
    exact Cert.LibLayerRead.toInt_ofNat_of_lt m.val (hlt m)
  have hGL' : ∀ m : Fin 100000, (idxG (ix2 (Fin.natAdd 1600000 m) (0 : Fin 1))).toInt = (m.val : ℤ) := fun m => by
    rw [show idxG (ix2 (Fin.natAdd 1600000 m) (0 : Fin 1)) = Cert.Spec.wrapIdx (BitVec.ofNat 32 m.val) from hGL m]
    have h0 := Cert.LibLayerRead.toInt_ofNat_of_lt m.val (hlt m)
    unfold Cert.Spec.wrapIdx
    rw [wrap_of_nonneg _ _ (by rw [h0]; exact Int.natCast_nonneg _)]
    exact h0
  have hrow : ∀ e : Fin 1600000, rowOf hN idxG (Fin.castAdd 100000 e) = Cert.Spec.node (src e) := fun e => by
    refine Fin.ext ?_
    show min (idxG (ix2 (Fin.castAdd 100000 e) (0 : Fin 1))).toInt.toNat (100000 - 1) = _
    rw [hGE' e]
    rfl
  have h := Cert.LibLayerRead.agg_edges_loops (E := 1600000) (N := 100000) (C := 128) (φ := .f32) hN wfS wfG z XW idxS idxG
    wt upd hupd hSL' hGL' n q
  refine (congrArg (· + bias (ix2 n q)) h).trans ?_
  simp only [hSE', hwE', hrow, hXW, hz, hb]
  rw [hwL']
  rfl

end Pre

/-! ## The index arrays and the updates of the two aggregations -/

/-- Layer 0: the source numbers the rows are taken at are the stored ones wrapped (a negative number has 100000 added). -/
theorem wrap0_read (x2 : (⟨S2x1600000, .i32⟩ : BufTy).Contents (Elt Ideal)) (j : Fin 1700000) :
    ReadP.val_main_v85 (F := Ideal) x2 (ix2 j (0 : Fin 1)) = Cert.Spec.wrapIdx (ReadP.val_main_v42 (F := Ideal) x2 (ix1 j)) := by
  have ei : ReadP.idx_main_v85 (ix2 j (0 : Fin 1)) = ix1 j := funext fun a => Fin.ext (by match a with | ⟨0, _⟩ => rfl)
  rw [ReadP.val_main_v85_apply, ei, ReadP.val_main_v84_apply, ReadP.val_main_v81_apply, ReadP.val_main_v83_apply,
    ReadP.val_main_v80_apply, ReadP.val_main_v82_apply, ReadP.val_main_c_19_apply, ReadP.val_main_c_20_apply]
  rfl

/-- Layer 0: the target numbers the rows are summed at are the stored ones, unwrapped. -/
theorem tgt0_read (x2 : (⟨S2x1600000, .i32⟩ : BufTy).Contents (Elt Ideal)) (j : Fin 1700000) :
    ReadP.val_main_v90 (F := Ideal) x2 (ix2 j (0 : Fin 1)) = ReadP.val_main_v43 (F := Ideal) x2 (ix1 j) := by
  have ei : ReadP.idx_main_v90 (ix2 j (0 : Fin 1)) = ix1 j := funext fun a => Fin.ext (by match a with | ⟨0, _⟩ => rfl)
  rw [ReadP.val_main_v90_apply, ei]

/-- Layer 0: update j is the weight of j times the row of the product table taken at j's wrapped source. -/
theorem upd0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (j : Fin 1700000) (q : Fin 128) :
    ReadP.val_main_v88 (F := Ideal) x0 x1 x2 x3 x4 x5 x6 x7 (ix2 j q) = ReadP.val_main_v75 (F := Ideal) x1 x2 x3 x4 x5 x6 (ix1 j)
      * Host.gather (rowDims 100000 1700000 128 Cert.ReferenceIdeal.Facts₀.gather_S100000x128_S1700000x1_S1700000x128_1_0_n_n_0_1_1128_wf)
          (ReadP.val_main_v78 (F := Ideal) x0 x7) (ReadP.val_main_v85 (F := Ideal) x2) (ix2 j q) := by
  have ei : ReadP.idx_main_v79 (ReadP.idx_main_v87 (ix2 j q)) = ix1 j := funext fun a => Fin.ext (by match a with | ⟨0, _⟩ => rfl)
  rw [ReadP.val_main_v88_apply, ReadP.val_main_v87_apply, ReadP.val_main_v79_apply, ei]
  rfl

/-- Layer 0: a row of the bias, the gain or the offset, spread over the nodes: entry (n, q) is entry (0, q) of the array. -/
theorem bias0_read (x8 : (⟨S2x128, .f32⟩ : BufTy).Contents (Elt Ideal)) (n : Fin 100000) (q : Fin 128) : ReadP.val_main_v95 (F := Ideal) x8 (ix2 n q) = x8 (ix2 (0 : Fin 2) q) := by
  have ei : ReadP.idx_main_v92 (ReadP.idx_main_v93 (ReadP.idx_main_v94 (ReadP.idx_main_v95 (ix2 n q)))) = ix2 (0 : Fin 2) q :=
    funext fun a => Fin.ext (by
      match a with
      | ⟨0, _⟩ => rfl
      | ⟨1, _⟩ => exact Nat.mod_eq_of_lt q.isLt)
  rw [ReadP.val_main_v95_apply, ReadP.val_main_v94_apply, ReadP.val_main_v93_apply, ReadP.val_main_v92_apply, ei]

theorem gain0_read (x9 : (⟨S2x128, .f32⟩ : BufTy).Contents (Elt Ideal)) (n : Fin 100000) (q : Fin 128) : ReadP.val_main_v118 (F := Ideal) x9 (ix2 n q) = x9 (ix2 (0 : Fin 2) q) := by
  have ei : ReadP.idx_main_v115 (ReadP.idx_main_v116 (ReadP.idx_main_v117 (ReadP.idx_main_v118 (ix2 n q)))) = ix2 (0 : Fin 2) q :=
    funext fun a => Fin.ext (by
      match a with
      | ⟨0, _⟩ => rfl
      | ⟨1, _⟩ => exact Nat.mod_eq_of_lt q.isLt)
  rw [ReadP.val_main_v118_apply, ReadP.val_main_v117_apply, ReadP.val_main_v116_apply, ReadP.val_main_v115_apply, ei]

theorem shift0_read (x10 : (⟨S2x128, .f32⟩ : BufTy).Contents (Elt Ideal)) (n : Fin 100000) (q : Fin 128) : ReadP.val_main_v123 (F := Ideal) x10 (ix2 n q) = x10 (ix2 (0 : Fin 2) q) := by
  have ei : ReadP.idx_main_v120 (ReadP.idx_main_v121 (ReadP.idx_main_v122 (ReadP.idx_main_v123 (ix2 n q)))) = ix2 (0 : Fin 2) q :=
    funext fun a => Fin.ext (by
      match a with
      | ⟨0, _⟩ => rfl
      | ⟨1, _⟩ => exact Nat.mod_eq_of_lt q.isLt)
  rw [ReadP.val_main_v123_apply, ReadP.val_main_v122_apply, ReadP.val_main_v121_apply, ReadP.val_main_v120_apply, ei]

/-- Layer 0: the mean of a row `h` of the pre-normalisation table: the lane sum started from the zero word, over 128. -/
theorem mean0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (h : Fin 128 → EReal) (hh : ∀ k : Fin 128, ReadP.val_main_v96 (F := Ideal) x0 x1 x2 x3 x4 x5 x6 x7 x8 (ix2 n k) = h k) :
    ReadP.val_main_v100 (F := Ideal) x0 x1 x2 x3 x4 x5 x6 x7 x8 (ix2 n (0 : Fin 1)) = Ideal.div (Cert.Spec.z0 + ∑ k : Fin 128, h k) Cert.Spec.c128 := by
  have ei : ReadP.idx_main_v98 (ix2 n (0 : Fin 1)) = ix1 n := funext fun a => Fin.ext (by match a with | ⟨0, _⟩ => rfl)
  rw [ReadP.val_main_v100_apply, ReadP.val_main_v98_apply, ReadP.val_main_v99_apply, ReadP.val_main_cst_23_apply, ei,
    ReadP.val_main_v97_apply, ReadP.val_main_cst_22_apply]
  have es : ∑ k : Fin 128, (ReadP.val_main_v96 (F := Ideal) x0 x1 x2 x3 x4 x5 x6 x7 x8) (ReadP.idx_main_v97 (ix1 n) k) = ∑ k : Fin 128, h k :=
    Finset.sum_congr rfl fun k _ => by
      have e : ReadP.idx_main_v97 (ix1 n) k = ix2 n k := funext fun a => Fin.ext (by match a with | ⟨0, _⟩ => rfl | ⟨1, _⟩ => rfl)
      rw [e, hh k]
  rw [es]
  rfl

/-- Layer 0: the row minus its mean (the copy that is squared). -/
theorem cent0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (c : Fin 128) (h : Fin 128 → EReal) (hh : ∀ k : Fin 128, ReadP.val_main_v96 (F := Ideal) x0 x1 x2 x3 x4 x5 x6 x7 x8 (ix2 n k) = h k) :
    ReadP.val_main_v102 (F := Ideal) x0 x1 x2 x3 x4 x5 x6 x7 x8 (ix2 n c) = h c - Ideal.div (Cert.Spec.z0 + ∑ k : Fin 128, h k) Cert.Spec.c128 := by
  have ei : ReadP.idx_main_v101 (ix2 n c) = ix2 n (0 : Fin 1) := funext fun a => Fin.ext (by match a with | ⟨0, _⟩ => rfl | ⟨1, _⟩ => rfl)
  rw [ReadP.val_main_v102_apply, ReadP.val_main_v101_apply, ei, mean0_read x0 x1 x2 x3 x4 x5 x6 x7 x8 x9 x10 n h hh, hh c]
  rfl

/-- Layer 0: the row minus its mean (the copy that is scaled). -/
theorem centb0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (c : Fin 128) (h : Fin 128 → EReal) (hh : ∀ k : Fin 128, ReadP.val_main_v96 (F := Ideal) x0 x1 x2 x3 x4 x5 x6 x7 x8 (ix2 n k) = h k) :
    ReadP.val_main_v109 (F := Ideal) x0 x1 x2 x3 x4 x5 x6 x7 x8 (ix2 n c) = h c - Ideal.div (Cert.Spec.z0 + ∑ k : Fin 128, h k) Cert.Spec.c128 := by
  have ei : ReadP.idx_main_v108 (ix2 n c) = ix2 n (0 : Fin 1) := funext fun a => Fin.ext (by match a with | ⟨0, _⟩ => rfl | ⟨1, _⟩ => rfl)
  rw [ReadP.val_main_v109_apply, ReadP.val_main_v108_apply, ei, mean0_read x0 x1 x2 x3 x4 x5 x6 x7 x8 x9 x10 n h hh, hh c]
  rfl

/-- Layer 0: the mean squared deviation of the row: the lane sum of the squares started from the zero word, over 128. -/
theorem var0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (h : Fin 128 → EReal) (hh : ∀ k : Fin 128, ReadP.val_main_v96 (F := Ideal) x0 x1 x2 x3 x4 x5 x6 x7 x8 (ix2 n k) = h k) :
    ReadP.val_main_v107 (F := Ideal) x0 x1 x2 x3 x4 x5 x6 x7 x8 (ix2 n (0 : Fin 1))
      = Ideal.div (Cert.Spec.z0 + ∑ k : Fin 128, (h k - Ideal.div (Cert.Spec.z0 + ∑ k : Fin 128, h k) Cert.Spec.c128) * (h k - Ideal.div (Cert.Spec.z0 + ∑ k : Fin 128, h k) Cert.Spec.c128)) Cert.Spec.c128 := by
  have ei : ReadP.idx_main_v105 (ix2 n (0 : Fin 1)) = ix1 n := funext fun a => Fin.ext (by match a with | ⟨0, _⟩ => rfl)
  rw [ReadP.val_main_v107_apply, ReadP.val_main_v105_apply, ReadP.val_main_v106_apply, ReadP.val_main_cst_25_apply, ei,
    ReadP.val_main_v104_apply, ReadP.val_main_cst_24_apply]
  have es : ∑ k : Fin 128, (ReadP.val_main_v103 (F := Ideal) x0 x1 x2 x3 x4 x5 x6 x7 x8) (ReadP.idx_main_v104 (ix1 n) k)
      = ∑ k : Fin 128, (h k - Ideal.div (Cert.Spec.z0 + ∑ k : Fin 128, h k) Cert.Spec.c128) * (h k - Ideal.div (Cert.Spec.z0 + ∑ k : Fin 128, h k) Cert.Spec.c128) :=
    Finset.sum_congr rfl fun k _ => by
      have e : ReadP.idx_main_v104 (ix1 n) k = ix2 n k := funext fun a => Fin.ext (by match a with | ⟨0, _⟩ => rfl | ⟨1, _⟩ => rfl)
      rw [e, ReadP.val_main_v103_apply, cent0_read x0 x1 x2 x3 x4 x5 x6 x7 x8 x9 x10 n k h hh]
      rfl
  rw [es]
  rfl

/-- Layer 0: the layer norm, the gain, the offset and the ramp of a row `h` of the pre-normalisation table. -/
theorem ln0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (q : Fin 128) (h : Fin 128 → EReal) (hh : ∀ k : Fin 128, ReadP.val_main_v96 (F := Ideal) x0 x1 x2 x3 x4 x5 x6 x7 x8 (ix2 n k) = h k) :
    ReadP.val_main_v125 (F := Ideal) x0 x1 x2 x3 x4 x5 x6 x7 x8 x9 x10 (ix2 n q) = Cert.Spec.lnrelu h ((Cert.Spec.at2 (a := 2) (b := 128) x9) 0) ((Cert.Spec.at2 (a := 2) (b := 128) x10) 0) q := by
  have ei : ReadP.idx_main_v113 (ix2 n q) = ix2 n (0 : Fin 1) := funext fun a => Fin.ext (by match a with | ⟨0, _⟩ => rfl | ⟨1, _⟩ => rfl)
  rw [ReadP.val_main_v125_apply, ReadP.val_main_v124_apply, ReadP.val_main_v119_apply, ReadP.val_main_v114_apply,
    centb0_read x0 x1 x2 x3 x4 x5 x6 x7 x8 x9 x10 n q h hh, ReadP.val_main_v113_apply, ei, ReadP.val_main_v112_apply, ReadP.val_main_v111_apply,
    var0_read x0 x1 x2 x3 x4 x5 x6 x7 x8 x9 x10 n h hh, ReadP.val_main_v110_apply, ReadP.val_main_cst_26_apply, gain0_read, shift0_read,
    ReadP.val_main_call4_v0_apply, ReadP.val_main_call4_cst_apply]
  rfl

/-- Layer 0: the product of the layer's input with its weight matrix. -/
theorem xw0_read (x0 : (⟨S100000x128, .f32⟩ : BufTy).Contents (Elt Ideal)) (x7 : (⟨S2x128x128, .f32⟩ : BufTy).Contents (Elt Ideal)) (n : Fin 100000) (q : Fin 128) :
    ReadP.val_main_v78 (F := Ideal) x0 x7 (ix2 n q) = Cert.Spec.xw (Cert.Spec.at3 (a := 2) (b := 128) (c := 128) x7) 0 (Cert.Spec.at2 (a := 100000) (b := 128) x0) n q := by
  rw [ReadP.val_main_v78_apply]
  unfold Cert.Spec.xw
  refine Finset.sum_congr rfl fun k _ => ?_
  have el : ReadP.lidx_main_v78 (ix2 n q) k = ix2 n k := funext fun a => Fin.ext (by match a with | ⟨0, _⟩ => rfl | ⟨1, _⟩ => rfl)
  have er : ReadP.idx_main_v76 (ReadP.idx_main_v77 (ReadP.ridx_main_v78 (ix2 n q) k)) = ix3 (0 : Fin 2) k q :=
    funext fun a => Fin.ext (by
      have hk := k.isLt
      have hq := q.isLt
      match a with
      | ⟨0, _⟩ => rfl
      | ⟨1, _⟩ => show (k.val * 128 + q.val) / 128 % 128 = k.val; omega
      | ⟨2, _⟩ => show (k.val * 128 + q.val) % 128 = q.val; omega)
  rw [el, ReadP.val_main_v77_apply, ReadP.val_main_v76_apply, er]

/-- Layer 0: the row the layer normalises is the specification's. -/
theorem pre0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 128) :
    ReadP.val_main_v96 (F := Ideal) x0 x1 x2 x3 x4 x5 x6 x7 x8 (ix2 n q) = Cert.Spec.pre (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 0 (Cert.Spec.at2 (a := 100000) (b := 128) x0) n q := by
  rw [ReadP.val_main_v96_apply]
  unfold ReadP.val_main_v91
  exact pre_of_agg (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 0 (Cert.Spec.at2 (a := 100000) (b := 128) x0)
    Cert.ReferenceIdeal.Facts₀.scatter_S100000x128_S1700000x1_S1700000x128_1_0_0_1_wf
    Cert.ReferenceIdeal.Facts₀.gather_S100000x128_S1700000x1_S1700000x128_1_0_n_n_0_1_1128_wf
    (ReadP.val_main_v89 (F := Ideal)) (ReadP.val_main_v78 (F := Ideal) x0 x7) (ReadP.val_main_v95 (F := Ideal) x8) (ReadP.val_main_v90 (F := Ideal) x2) (ReadP.val_main_v85 (F := Ideal) x2)
    (ReadP.val_main_v75 (F := Ideal) x1 x2 x3 x4 x5 x6) (ReadP.val_main_v88 (F := Ideal) x0 x1 x2 x3 x4 x5 x6 x7)
    (fun i => by rw [ReadP.val_main_v89_apply, ReadP.val_main_cst_21_apply]; rfl)
    (fun n q => xw0_read x0 x7 n q)
    (fun n q => bias0_read x8 n q)
    (fun j q => upd0_read x0 x1 x2 x3 x4 x5 x6 x7 j q)
    (fun e => (tgt0_read x2 _).trans (hdstE e))
    (fun m => (tgt0_read x2 _).trans (hdstL m))
    (fun e => (wrap0_read x2 _).trans (congrArg Cert.Spec.wrapIdx (hsrcE e)))
    (fun m => (wrap0_read x2 _).trans (congrArg Cert.Spec.wrapIdx (hsrcL m)))
    hwE hwL n q

/-- Layer 0 of the reference program is the specification's layer 0. -/
theorem layer0_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 128) :
    ReadP.val_main_v126 (F := Ideal) x0 x1 x2 x3 x4 x5 x6 x7 x8 x9 x10 (ix2 n q) = Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0) n q := by
  rw [ReadP.val_main_v126_apply, ln0_read x0 x1 x2 x3 x4 x5 x6 x7 x8 x9 x10 n q (Cert.Spec.pre (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 0 (Cert.Spec.at2 (a := 100000) (b := 128) x0) n)
    (fun k => pre0_read x0 x1 x2 x3 x4 x5 x6 x7 x8 hsrcE hsrcL hdstE hdstL hwE hwL n k)]
  rfl

/-- Layer 1: the source numbers the rows are taken at are the stored ones wrapped (a negative number has 100000 added). -/
theorem wrap1_read (x2 : (⟨S2x1600000, .i32⟩ : BufTy).Contents (Elt Ideal)) (j : Fin 1700000) :
    ReadP.val_main_v136 (F := Ideal) x2 (ix2 j (0 : Fin 1)) = Cert.Spec.wrapIdx (ReadP.val_main_v42 (F := Ideal) x2 (ix1 j)) := by
  have ei : ReadP.idx_main_v136 (ix2 j (0 : Fin 1)) = ix1 j := funext fun a => Fin.ext (by match a with | ⟨0, _⟩ => rfl)
  rw [ReadP.val_main_v136_apply, ei, ReadP.val_main_v135_apply, ReadP.val_main_v132_apply, ReadP.val_main_v134_apply,
    ReadP.val_main_v131_apply, ReadP.val_main_v133_apply, ReadP.val_main_c_27_apply, ReadP.val_main_c_28_apply]
  rfl

/-- Layer 1: the target numbers the rows are summed at are the stored ones, unwrapped. -/
theorem tgt1_read (x2 : (⟨S2x1600000, .i32⟩ : BufTy).Contents (Elt Ideal)) (j : Fin 1700000) :
    ReadP.val_main_v141 (F := Ideal) x2 (ix2 j (0 : Fin 1)) = ReadP.val_main_v43 (F := Ideal) x2 (ix1 j) := by
  have ei : ReadP.idx_main_v141 (ix2 j (0 : Fin 1)) = ix1 j := funext fun a => Fin.ext (by match a with | ⟨0, _⟩ => rfl)
  rw [ReadP.val_main_v141_apply, ei]

/-- Layer 1: update j is the weight of j times the row of the product table taken at j's wrapped source. -/
theorem upd1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (j : Fin 1700000) (q : Fin 128) :
    ReadP.val_main_v139 (F := Ideal) x0 x1 x2 x3 x4 x5 x6 x7 x8 x9 x10 (ix2 j q) = ReadP.val_main_v75 (F := Ideal) x1 x2 x3 x4 x5 x6 (ix1 j)
      * Host.gather (rowDims 100000 1700000 128 Cert.ReferenceIdeal.Facts₀.gather_S100000x128_S1700000x1_S1700000x128_1_0_n_n_0_1_1128_wf)
          (ReadP.val_main_v129 (F := Ideal) x0 x1 x2 x3 x4 x5 x6 x7 x8 x9 x10) (ReadP.val_main_v136 (F := Ideal) x2) (ix2 j q) := by
  have ei : ReadP.idx_main_v130 (ReadP.idx_main_v138 (ix2 j q)) = ix1 j := funext fun a => Fin.ext (by match a with | ⟨0, _⟩ => rfl)
  rw [ReadP.val_main_v139_apply, ReadP.val_main_v138_apply, ReadP.val_main_v130_apply, ei]
  rfl

/-- Layer 1: a row of the bias, the gain or the offset, spread over the nodes: entry (n, q) is entry (1, q) of the array. -/
theorem bias1_read (x8 : (⟨S2x128, .f32⟩ : BufTy).Contents (Elt Ideal)) (n : Fin 100000) (q : Fin 128) : ReadP.val_main_v146 (F := Ideal) x8 (ix2 n q) = x8 (ix2 (1 : Fin 2) q) := by
  have ei : ReadP.idx_main_v143 (ReadP.idx_main_v144 (ReadP.idx_main_v145 (ReadP.idx_main_v146 (ix2 n q)))) = ix2 (1 : Fin 2) q :=
    funext fun a => Fin.ext (by
      match a with
      | ⟨0, _⟩ => rfl
      | ⟨1, _⟩ => exact Nat.mod_eq_of_lt q.isLt)
  rw [ReadP.val_main_v146_apply, ReadP.val_main_v145_apply, ReadP.val_main_v144_apply, ReadP.val_main_v143_apply, ei]

theorem gain1_read (x9 : (⟨S2x128, .f32⟩ : BufTy).Contents (Elt Ideal)) (n : Fin 100000) (q : Fin 128) : ReadP.val_main_v169 (F := Ideal) x9 (ix2 n q) = x9 (ix2 (1 : Fin 2) q) := by
  have ei : ReadP.idx_main_v166 (ReadP.idx_main_v167 (ReadP.idx_main_v168 (ReadP.idx_main_v169 (ix2 n q)))) = ix2 (1 : Fin 2) q :=
    funext fun a => Fin.ext (by
      match a with
      | ⟨0, _⟩ => rfl
      | ⟨1, _⟩ => exact Nat.mod_eq_of_lt q.isLt)
  rw [ReadP.val_main_v169_apply, ReadP.val_main_v168_apply, ReadP.val_main_v167_apply, ReadP.val_main_v166_apply, ei]

theorem shift1_read (x10 : (⟨S2x128, .f32⟩ : BufTy).Contents (Elt Ideal)) (n : Fin 100000) (q : Fin 128) : ReadP.val_main_v174 (F := Ideal) x10 (ix2 n q) = x10 (ix2 (1 : Fin 2) q) := by
  have ei : ReadP.idx_main_v171 (ReadP.idx_main_v172 (ReadP.idx_main_v173 (ReadP.idx_main_v174 (ix2 n q)))) = ix2 (1 : Fin 2) q :=
    funext fun a => Fin.ext (by
      match a with
      | ⟨0, _⟩ => rfl
      | ⟨1, _⟩ => exact Nat.mod_eq_of_lt q.isLt)
  rw [ReadP.val_main_v174_apply, ReadP.val_main_v173_apply, ReadP.val_main_v172_apply, ReadP.val_main_v171_apply, ei]

/-- Layer 1: the mean of a row `h` of the pre-normalisation table: the lane sum started from the zero word, over 128. -/
theorem mean1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (h : Fin 128 → EReal) (hh : ∀ k : Fin 128, ReadP.val_main_v147 (F := Ideal) x0 x1 x2 x3 x4 x5 x6 x7 x8 x9 x10 (ix2 n k) = h k) :
    ReadP.val_main_v151 (F := Ideal) x0 x1 x2 x3 x4 x5 x6 x7 x8 x9 x10 (ix2 n (0 : Fin 1)) = Ideal.div (Cert.Spec.z0 + ∑ k : Fin 128, h k) Cert.Spec.c128 := by
  have ei : ReadP.idx_main_v149 (ix2 n (0 : Fin 1)) = ix1 n := funext fun a => Fin.ext (by match a with | ⟨0, _⟩ => rfl)
  rw [ReadP.val_main_v151_apply, ReadP.val_main_v149_apply, ReadP.val_main_v150_apply, ReadP.val_main_cst_31_apply, ei,
    ReadP.val_main_v148_apply, ReadP.val_main_cst_30_apply]
  have es : ∑ k : Fin 128, (ReadP.val_main_v147 (F := Ideal) x0 x1 x2 x3 x4 x5 x6 x7 x8 x9 x10) (ReadP.idx_main_v148 (ix1 n) k) = ∑ k : Fin 128, h k :=
    Finset.sum_congr rfl fun k _ => by
      have e : ReadP.idx_main_v148 (ix1 n) k = ix2 n k := funext fun a => Fin.ext (by match a with | ⟨0, _⟩ => rfl | ⟨1, _⟩ => rfl)
      rw [e, hh k]
  rw [es]
  rfl

/-- Layer 1: the row minus its mean (the copy that is squared). -/
theorem cent1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (c : Fin 128) (h : Fin 128 → EReal) (hh : ∀ k : Fin 128, ReadP.val_main_v147 (F := Ideal) x0 x1 x2 x3 x4 x5 x6 x7 x8 x9 x10 (ix2 n k) = h k) :
    ReadP.val_main_v153 (F := Ideal) x0 x1 x2 x3 x4 x5 x6 x7 x8 x9 x10 (ix2 n c) = h c - Ideal.div (Cert.Spec.z0 + ∑ k : Fin 128, h k) Cert.Spec.c128 := by
  have ei : ReadP.idx_main_v152 (ix2 n c) = ix2 n (0 : Fin 1) := funext fun a => Fin.ext (by match a with | ⟨0, _⟩ => rfl | ⟨1, _⟩ => rfl)
  rw [ReadP.val_main_v153_apply, ReadP.val_main_v152_apply, ei, mean1_read x0 x1 x2 x3 x4 x5 x6 x7 x8 x9 x10 n h hh, hh c]
  rfl

/-- Layer 1: the row minus its mean (the copy that is scaled). -/
theorem centb1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (c : Fin 128) (h : Fin 128 → EReal) (hh : ∀ k : Fin 128, ReadP.val_main_v147 (F := Ideal) x0 x1 x2 x3 x4 x5 x6 x7 x8 x9 x10 (ix2 n k) = h k) :
    ReadP.val_main_v160 (F := Ideal) x0 x1 x2 x3 x4 x5 x6 x7 x8 x9 x10 (ix2 n c) = h c - Ideal.div (Cert.Spec.z0 + ∑ k : Fin 128, h k) Cert.Spec.c128 := by
  have ei : ReadP.idx_main_v159 (ix2 n c) = ix2 n (0 : Fin 1) := funext fun a => Fin.ext (by match a with | ⟨0, _⟩ => rfl | ⟨1, _⟩ => rfl)
  rw [ReadP.val_main_v160_apply, ReadP.val_main_v159_apply, ei, mean1_read x0 x1 x2 x3 x4 x5 x6 x7 x8 x9 x10 n h hh, hh c]
  rfl

/-- Layer 1: the mean squared deviation of the row: the lane sum of the squares started from the zero word, over 128. -/
theorem var1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (h : Fin 128 → EReal) (hh : ∀ k : Fin 128, ReadP.val_main_v147 (F := Ideal) x0 x1 x2 x3 x4 x5 x6 x7 x8 x9 x10 (ix2 n k) = h k) :
    ReadP.val_main_v158 (F := Ideal) x0 x1 x2 x3 x4 x5 x6 x7 x8 x9 x10 (ix2 n (0 : Fin 1))
      = Ideal.div (Cert.Spec.z0 + ∑ k : Fin 128, (h k - Ideal.div (Cert.Spec.z0 + ∑ k : Fin 128, h k) Cert.Spec.c128) * (h k - Ideal.div (Cert.Spec.z0 + ∑ k : Fin 128, h k) Cert.Spec.c128)) Cert.Spec.c128 := by
  have ei : ReadP.idx_main_v156 (ix2 n (0 : Fin 1)) = ix1 n := funext fun a => Fin.ext (by match a with | ⟨0, _⟩ => rfl)
  rw [ReadP.val_main_v158_apply, ReadP.val_main_v156_apply, ReadP.val_main_v157_apply, ReadP.val_main_cst_33_apply, ei,
    ReadP.val_main_v155_apply, ReadP.val_main_cst_32_apply]
  have es : ∑ k : Fin 128, (ReadP.val_main_v154 (F := Ideal) x0 x1 x2 x3 x4 x5 x6 x7 x8 x9 x10) (ReadP.idx_main_v155 (ix1 n) k)
      = ∑ k : Fin 128, (h k - Ideal.div (Cert.Spec.z0 + ∑ k : Fin 128, h k) Cert.Spec.c128) * (h k - Ideal.div (Cert.Spec.z0 + ∑ k : Fin 128, h k) Cert.Spec.c128) :=
    Finset.sum_congr rfl fun k _ => by
      have e : ReadP.idx_main_v155 (ix1 n) k = ix2 n k := funext fun a => Fin.ext (by match a with | ⟨0, _⟩ => rfl | ⟨1, _⟩ => rfl)
      rw [e, ReadP.val_main_v154_apply, cent1_read x0 x1 x2 x3 x4 x5 x6 x7 x8 x9 x10 n k h hh]
      rfl
  rw [es]
  rfl

/-- Layer 1: the layer norm, the gain, the offset and the ramp of a row `h` of the pre-normalisation table. -/
theorem ln1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (n : Fin 100000) (q : Fin 128) (h : Fin 128 → EReal) (hh : ∀ k : Fin 128, ReadP.val_main_v147 (F := Ideal) x0 x1 x2 x3 x4 x5 x6 x7 x8 x9 x10 (ix2 n k) = h k) :
    ReadP.val_main_v176 (F := Ideal) x0 x1 x2 x3 x4 x5 x6 x7 x8 x9 x10 (ix2 n q) = Cert.Spec.lnrelu h ((Cert.Spec.at2 (a := 2) (b := 128) x9) 1) ((Cert.Spec.at2 (a := 2) (b := 128) x10) 1) q := by
  have ei : ReadP.idx_main_v164 (ix2 n q) = ix2 n (0 : Fin 1) := funext fun a => Fin.ext (by match a with | ⟨0, _⟩ => rfl | ⟨1, _⟩ => rfl)
  rw [ReadP.val_main_v176_apply, ReadP.val_main_v175_apply, ReadP.val_main_v170_apply, ReadP.val_main_v165_apply,
    centb1_read x0 x1 x2 x3 x4 x5 x6 x7 x8 x9 x10 n q h hh, ReadP.val_main_v164_apply, ei, ReadP.val_main_v163_apply, ReadP.val_main_v162_apply,
    var1_read x0 x1 x2 x3 x4 x5 x6 x7 x8 x9 x10 n h hh, ReadP.val_main_v161_apply, ReadP.val_main_cst_34_apply, gain1_read, shift1_read,
    ReadP.val_main_call5_v0_apply, ReadP.val_main_call5_cst_apply]
  rfl

/-- Layer 1: the product of the layer's input with its weight matrix. -/
theorem xw1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 128) :
    ReadP.val_main_v129 (F := Ideal) x0 x1 x2 x3 x4 x5 x6 x7 x8 x9 x10 (ix2 n q) = Cert.Spec.xw (Cert.Spec.at3 (a := 2) (b := 128) (c := 128) x7) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0)) n q := by
  rw [ReadP.val_main_v129_apply]
  unfold Cert.Spec.xw
  refine Finset.sum_congr rfl fun k _ => ?_
  have el : ReadP.lidx_main_v129 (ix2 n q) k = ix2 n k := funext fun a => Fin.ext (by match a with | ⟨0, _⟩ => rfl | ⟨1, _⟩ => rfl)
  have er : ReadP.idx_main_v127 (ReadP.idx_main_v128 (ReadP.ridx_main_v129 (ix2 n q) k)) = ix3 (1 : Fin 2) k q :=
    funext fun a => Fin.ext (by
      have hk := k.isLt
      have hq := q.isLt
      match a with
      | ⟨0, _⟩ => rfl
      | ⟨1, _⟩ => show (k.val * 128 + q.val) / 128 % 128 = k.val; omega
      | ⟨2, _⟩ => show (k.val * 128 + q.val) % 128 = q.val; omega)
  rw [el, ReadP.val_main_v128_apply, ReadP.val_main_v127_apply, er, layer0_read x0 x1 x2 x3 x4 x5 x6 x7 x8 x9 x10 hsrcE hsrcL hdstE hdstL hwE hwL n k]

/-- Layer 1: the row the layer normalises is the specification's. -/
theorem pre1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 128) :
    ReadP.val_main_v147 (F := Ideal) x0 x1 x2 x3 x4 x5 x6 x7 x8 x9 x10 (ix2 n q) = Cert.Spec.pre (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0)) n q := by
  rw [ReadP.val_main_v147_apply]
  unfold ReadP.val_main_v142
  exact pre_of_agg (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0))
    Cert.ReferenceIdeal.Facts₀.scatter_S100000x128_S1700000x1_S1700000x128_1_0_0_1_wf
    Cert.ReferenceIdeal.Facts₀.gather_S100000x128_S1700000x1_S1700000x128_1_0_n_n_0_1_1128_wf
    (ReadP.val_main_v140 (F := Ideal)) (ReadP.val_main_v129 (F := Ideal) x0 x1 x2 x3 x4 x5 x6 x7 x8 x9 x10) (ReadP.val_main_v146 (F := Ideal) x8) (ReadP.val_main_v141 (F := Ideal) x2) (ReadP.val_main_v136 (F := Ideal) x2)
    (ReadP.val_main_v75 (F := Ideal) x1 x2 x3 x4 x5 x6) (ReadP.val_main_v139 (F := Ideal) x0 x1 x2 x3 x4 x5 x6 x7 x8 x9 x10)
    (fun i => by rw [ReadP.val_main_v140_apply, ReadP.val_main_cst_29_apply]; rfl)
    (fun n q => xw1_read x0 x1 x2 x3 x4 x5 x6 x7 x8 x9 x10 hsrcE hsrcL hdstE hdstL hwE hwL n q)
    (fun n q => bias1_read x8 n q)
    (fun j q => upd1_read x0 x1 x2 x3 x4 x5 x6 x7 x8 x9 x10 j q)
    (fun e => (tgt1_read x2 _).trans (hdstE e))
    (fun m => (tgt1_read x2 _).trans (hdstL m))
    (fun e => (wrap1_read x2 _).trans (congrArg Cert.Spec.wrapIdx (hsrcE e)))
    (fun m => (wrap1_read x2 _).trans (congrArg Cert.Spec.wrapIdx (hsrcL m)))
    hwE hwL n q

/-- Layer 1 of the reference program is the specification's layer 1. -/
theorem layer1_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 128) :
    ReadP.val_main_v177 (F := Ideal) x0 x1 x2 x3 x4 x5 x6 x7 x8 x9 x10 (ix2 n q) = Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0)) n q := by
  rw [ReadP.val_main_v177_apply, ln1_read x0 x1 x2 x3 x4 x5 x6 x7 x8 x9 x10 n q (Cert.Spec.pre (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0)) n)
    (fun k => pre1_read x0 x1 x2 x3 x4 x5 x6 x7 x8 x9 x10 hsrcE hsrcL hdstE hdstL hwE hwL n k), layer0_read x0 x1 x2 x3 x4 x5 x6 x7 x8 x9 x10 hsrcE hsrcL hdstE hdstL hwE hwL n q]
  rfl

/-! ## The head -/

/-- The reference program's result is the specification's: two layers, then the linear head. -/
theorem out_read (x0 : (⟨S100000x128, .f32⟩ : BufTy).Contents (Elt Ideal)) (x1 : (⟨S100000x16, .f32⟩ : BufTy).Contents (Elt Ideal)) (x2 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x128x128, .f32⟩ : BufTy).Contents (Elt Ideal)) (x8 : (⟨S2x128, .f32⟩ : BufTy).Contents (Elt Ideal)) (x9 : (⟨S2x128, .f32⟩ : BufTy).Contents (Elt Ideal)) (x10 : (⟨S2x128, .f32⟩ : BufTy).Contents (Elt Ideal)) (x11 : (⟨S128x64, .f32⟩ : BufTy).Contents (Elt Ideal)) (x12 : (⟨S64, .f32⟩ : BufTy).Contents (Elt Ideal))
    (hsrcE : ∀ e : Fin 1600000, ReadP.val_main_v42 (F := Ideal) x2 (ix1 (⟨e.val, by omega⟩ : Fin 1700000)) = x2 (ix2 (0 : Fin 2) e))
    (hsrcL : ∀ n : Fin 100000, ReadP.val_main_v42 (F := Ideal) x2 (ix1 (⟨1600000 + n.val, by omega⟩ : Fin 1700000)) = BitVec.ofNat 32 n.val)
    (hdstE : ∀ e : Fin 1600000, ReadP.val_main_v43 (F := Ideal) x2 (ix1 (⟨e.val, by omega⟩ : Fin 1700000)) = x2 (ix2 (1 : Fin 2) e))
    (hdstL : ∀ n : Fin 100000, ReadP.val_main_v43 (F := Ideal) x2 (ix1 (⟨1600000 + n.val, by omega⟩ : Fin 1700000)) = BitVec.ofNat 32 n.val)
    (hwE : ∀ e : Fin 1600000, ReadP.val_main_v75 (F := Ideal) x1 x2 x3 x4 x5 x6 (ix1 (⟨e.val, by omega⟩ : Fin 1700000)) = Cert.Spec.weight (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) e)
    (hwL : ∀ n : Fin 100000, ReadP.val_main_v75 (F := Ideal) x1 x2 x3 x4 x5 x6 (ix1 (⟨1600000 + n.val, by omega⟩ : Fin 1700000))
      = Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n * Cert.Spec.dinv (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) n) (n : Fin 100000) (q : Fin 64) :
    ReadP.val_main_v181 (F := Ideal) x0 x1 x2 x3 x4 x5 x6 x7 x8 x9 x10 x11 x12 (ix2 n q) = Cert.Spec.out (Cert.Spec.at2 (a := 100000) (b := 128) x0) (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) (Cert.Spec.at2 (a := 128) (b := 64) x11) (Cert.Spec.at1 (a := 64) x12) n q := by
  have el : ∀ k : Fin 128, ReadP.lidx_main_v178 (ix2 n q) k = ix2 n k := fun k => funext fun a => Fin.ext (by match a with | ⟨0, _⟩ => rfl | ⟨1, _⟩ => rfl)
  have er : ∀ k : Fin 128, ReadP.ridx_main_v178 (ix2 n q) k = ix2 k q := fun k => funext fun a => Fin.ext (by match a with | ⟨0, _⟩ => rfl | ⟨1, _⟩ => rfl)
  have eb : ReadP.idx_main_v179 (ReadP.idx_main_v180 (ix2 n q)) = ix1 q := funext fun a => Fin.ext (by match a with | ⟨0, _⟩ => rfl)
  rw [ReadP.val_main_v181_apply, ReadP.val_main_v178_apply, ReadP.val_main_v180_apply, ReadP.val_main_v179_apply, eb]
  have es : ∑ k : Fin 128, (ReadP.val_main_v177 (F := Ideal) x0 x1 x2 x3 x4 x5 x6 x7 x8 x9 x10) (ReadP.lidx_main_v178 (ix2 n q) k) * x11 (ReadP.ridx_main_v178 (ix2 n q) k)
      = ∑ c : Fin 128, Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 1 (Cert.Spec.layer (Cert.Spec.at2 (a := 100000) (b := 16) x1) (Cert.Spec.at2 (a := 2) (b := 1600000) x2 0) (Cert.Spec.at2 (a := 2) (b := 1600000) x2 1) (Cert.Spec.at2 (a := 64) (b := 64) x3) (Cert.Spec.at1 (a := 64) x4) (fun j => Cert.Spec.at2 (a := 64) (b := 1) x5 j 0) (Cert.Spec.at1 (a := 1) x6 0) (Cert.Spec.at3 (a := 2) (b := 128) (c := 128) x7) (Cert.Spec.at2 (a := 2) (b := 128) x8) (Cert.Spec.at2 (a := 2) (b := 128) x9) (Cert.Spec.at2 (a := 2) (b := 128) x10) 0 (Cert.Spec.at2 (a := 100000) (b := 128) x0)) n c * Cert.Spec.at2 (a := 128) (b := 64) x11 c q :=
    Finset.sum_congr rfl fun k _ => by
      rw [el k, er k, layer1_read x0 x1 x2 x3 x4 x5 x6 x7 x8 x9 x10 hsrcE hsrcL hdstE hdstL hwE hwL n k]
  rw [es]
  rfl

end Cert.ReferenceIdeal.RefValue

end
-- ==== Proof.Bridge.lean ====
/-
  The two idealized programs end with the same result array.

  The reference's result buffer ends at the last stage of its host operations applied to the argument arrays, and that stage,
  read at (n, q), is the spec's `out` of the arguments read by coordinates: its gates, degrees and edge weights are the spec's,
  its scatter over the edges followed by the nodes' own loops is the spec's sum over the landing edges plus the loop term, and
  its layers and head are the spec's. The kernel program's result array is the same `out` of its arguments. The arguments
  agree, so the results agree index by index.
-/
import proofs.«166963_j81509889343768_2_alg».proof.Defs
import proofs.«166963_j81509889343768_2_alg».proof.Proof.KRun
import proofs.«166963_j81509889343768_2_alg».proof.Proof.KFinal
import proofs.«166963_j81509889343768_2_alg».proof.Proof.RefRun
import proofs.«166963_j81509889343768_2_alg».proof.Proof.RefRead
import proofs.«166963_j81509889343768_2_alg».proof.Proof.RefLink
import proofs.«166963_j81509889343768_2_alg».proof.Proof.RGate
import proofs.«166963_j81509889343768_2_alg».proof.Proof.RNorm
import proofs.«166963_j81509889343768_2_alg».proof.Proof.RLayer

set_option maxRecDepth 16384

noncomputable section

namespace Cert.Proof.Bridge

open Idealize.ShloMosaic Idealize.ShloMosaic.TcCoe Idealize.SL.Sem Idealize.ShloMosaic.ValueIdx

/-- The reference's result buffer after its run, read at (n, q): the spec's `out` of its argument arrays. -/
theorem ref_value (m' : (ℓ : Loc Cert.ReferenceIdeal.nD Cert.ReferenceIdeal.τ Cert.ReferenceIdeal.sig) → Buf (Elt Ideal) ℓ)
    (c : Dev Cert.ReferenceIdeal.nD) (n : Fin 100000) (q : Fin 64) :
    Cert.Spec.at2 (α := EReal) (a := 100000) (b := 64) (Cert.ReferenceIdeal.ValueP.res_main_v181 (F := Ideal) m' c) n q
      = Cert.Spec.out (Cert.Spec.at2 (α := EReal) (a := 100000) (b := 128) (m' ((c.tc : Thread Cert.ReferenceIdeal.nD Cert.ReferenceIdeal.τ).loc Cert.ReferenceIdeal.main_arg0)))
          (Cert.Spec.at2 (α := EReal) (a := 100000) (b := 16) (m' ((c.tc : Thread Cert.ReferenceIdeal.nD Cert.ReferenceIdeal.τ).loc Cert.ReferenceIdeal.main_arg1)))
          (Cert.Spec.at2 (α := BitVec 32) (a := 2) (b := 1600000) (m' ((c.tc : Thread Cert.ReferenceIdeal.nD Cert.ReferenceIdeal.τ).loc Cert.ReferenceIdeal.main_arg2)) (0 : Fin 2))
          (Cert.Spec.at2 (α := BitVec 32) (a := 2) (b := 1600000) (m' ((c.tc : Thread Cert.ReferenceIdeal.nD Cert.ReferenceIdeal.τ).loc Cert.ReferenceIdeal.main_arg2)) (1 : Fin 2))
          (Cert.Spec.at2 (α := EReal) (a := 64) (b := 64) (m' ((c.tc : Thread Cert.ReferenceIdeal.nD Cert.ReferenceIdeal.τ).loc Cert.ReferenceIdeal.main_arg3)))
          (Cert.Spec.at1 (α := EReal) (a := 64) (m' ((c.tc : Thread Cert.ReferenceIdeal.nD Cert.ReferenceIdeal.τ).loc Cert.ReferenceIdeal.main_arg4)))
          (fun j => Cert.Spec.at2 (α := EReal) (a := 64) (b := 1) (m' ((c.tc : Thread Cert.ReferenceIdeal.nD Cert.ReferenceIdeal.τ).loc Cert.ReferenceIdeal.main_arg5)) j (0 : Fin 1))
          (Cert.Spec.at1 (α := EReal) (a := 1) (m' ((c.tc : Thread Cert.ReferenceIdeal.nD Cert.ReferenceIdeal.τ).loc Cert.ReferenceIdeal.main_arg6)) (0 : Fin 1))
          (Cert.Spec.at3 (α := EReal) (a := 2) (b := 128) (c := 128) (m' ((c.tc : Thread Cert.ReferenceIdeal.nD Cert.ReferenceIdeal.τ).loc Cert.ReferenceIdeal.main_arg7)))
          (Cert.Spec.at2 (α := EReal) (a := 2) (b := 128) (m' ((c.tc : Thread Cert.ReferenceIdeal.nD Cert.ReferenceIdeal.τ).loc Cert.ReferenceIdeal.main_arg8)))
          (Cert.Spec.at2 (α := EReal) (a := 2) (b := 128) (m' ((c.tc : Thread Cert.ReferenceIdeal.nD Cert.ReferenceIdeal.τ).loc Cert.ReferenceIdeal.main_arg9)))
          (Cert.Spec.at2 (α := EReal) (a := 2) (b := 128) (m' ((c.tc : Thread Cert.ReferenceIdeal.nD Cert.ReferenceIdeal.τ).loc Cert.ReferenceIdeal.main_arg10)))
          (Cert.Spec.at2 (α := EReal) (a := 128) (b := 64) (m' ((c.tc : Thread Cert.ReferenceIdeal.nD Cert.ReferenceIdeal.τ).loc Cert.ReferenceIdeal.main_arg11)))
          (Cert.Spec.at1 (α := EReal) (a := 64) (m' ((c.tc : Thread Cert.ReferenceIdeal.nD Cert.ReferenceIdeal.τ).loc Cert.ReferenceIdeal.main_arg12))) n q := by
  unfold Cert.ReferenceIdeal.ValueP.res_main_v181
  rw [Cert.ReferenceIdeal.RefValue.result_eq_stage]
  exact Cert.ReferenceIdeal.RefValue.out_read _ _ _ _ _ _ _ _ _ _ _ _ _
    (Cert.ReferenceIdeal.RefValue.srcF_edge _) (Cert.ReferenceIdeal.RefValue.srcF_loop _)
    (Cert.ReferenceIdeal.RefValue.dstF_edge _) (Cert.ReferenceIdeal.RefValue.dstF_loop _)
    (Cert.ReferenceIdeal.RefValue.weight_edge _ _ _ _ _ _) (Cert.ReferenceIdeal.RefValue.weight_loop _ _ _ _ _ _) n q

/-- At the ideal values the kernel program and the reference, run from memories that agree on the arguments, both
    terminate, with equal result arrays and unchanged arguments. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.Gen.W12 m ρ c (Proc.devRef .tc Cert.KernelIdeal.main_v107),
    Cert.KernelIdeal.Gen.run_result (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  funext i
  obtain ⟨n, q, rfl⟩ : ∃ (n : Fin 100000) (q : Fin 64), i = ix2 n q := ⟨i 0, i 1, eq_ix2 i⟩
  refine (ref_value m' c n q).trans ?_
  obtain ⟨h0, h1, h2, h3, h4, h5, h6, h7, h8, h9, h10, h11, h12⟩ := hagree c
  rw [h0, h1, h2, h3, h4, h5, h6, h7, h8, h9, h10, h11, h12]
  exact (Cert.KernelIdeal.Chain.kernel_value m ρ c n q).symm

end Cert.Proof.Bridge

end
-- ==== Proof.lean ====
/-
  The certificate: the word-level kernel program and both idealized programs run to the end without a fault and leave their
  argument arrays unchanged; the idealization rewrote no operation; and at the ideal values the kernel program — a gated
  graph convolution whose five kernel regions compute the edge gates, two node-feature products and two
  normalise-and-add layers (the second with the linear head), with the gathers, the degree and the scatter-adds on the
  host between them — ends with the same result array as the reference, which does all of it on the host and scatters the
  nodes' own loops together with the edges. Both are one function of the arguments (Proof/Spec.lean): sums regrouped, the
  loop term taken out of the scatter, and factors of one dropped.
-/
import proofs.«166963_j81509889343768_2_alg».proof.Defs
import proofs.«166963_j81509889343768_2_alg».proof.Proof.Gen.Kernel
import proofs.«166963_j81509889343768_2_alg».proof.Proof.Gen.Kernel.Frame
import proofs.«166963_j81509889343768_2_alg».proof.Proof.Gen.KernelIdeal
import proofs.«166963_j81509889343768_2_alg».proof.Proof.Gen.KernelIdeal.Frame
import proofs.«166963_j81509889343768_2_alg».proof.Proof.Gen.ReferenceIdeal
import proofs.«166963_j81509889343768_2_alg».proof.Proof.Gen.Pre_finite_inputs
import proofs.«166963_j81509889343768_2_alg».proof.Proof.RefRun
import proofs.«166963_j81509889343768_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.ValueP.run (F := Ideal) m ρ),
    trivial,
    Cert.Proof.Bridge.algebraic⟩

end Cert.Proof

end
